-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x64 : Shape := ⟨2, ![16384, 64]⟩
abbrev S16384 : Shape := ⟨1, ![16384]⟩
abbrev S100000x64 : Shape := ⟨2, ![100000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x64 .f32) (main_arg1 : IVec S16384 32) (main_arg2 : FVec F S100000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 99999#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x64 : Shape := ⟨2, ![16384, 64]⟩
abbrev S16384 : Shape := ⟨1, ![16384]⟩
abbrev S100000x64 : Shape := ⟨2, ![100000, 64]⟩
abbrev S64x16384 : Shape := ⟨2, ![64, 16384]⟩
abbrev S64x100000 : Shape := ⟨2, ![64, 100000]⟩
abbrev S32x16 : Shape := ⟨2, ![32, 16]⟩
abbrev S100000 : Shape := ⟨1, ![100000]⟩
abbrev S4096 : Shape := ⟨1, ![4096]⟩
abbrev S16 : Shape := ⟨1, ![16]⟩
abbrev S_ : Shape := ⟨0, ![]⟩
abbrev S1x100000 : Shape := ⟨2, ![1, 100000]⟩
abbrev S1x4096 : Shape := ⟨2, ![1, 4096]⟩
abbrev S1x16 : Shape := ⟨2, ![1, 16]⟩

abbrev nBuf : Table → Nat
  | .hbm => 8
  | .local .scVector .vmem => 5
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S64x16384, .f32⟩
  | .hbm, ⟨4, _⟩ => ⟨S64x100000, .f32⟩
  | .hbm, ⟨5, _⟩ => ⟨S32x16, .f32⟩
  | .hbm, ⟨6, _⟩ => ⟨S_, .f32⟩
  | .hbm, ⟨7, _⟩ => ⟨S_, .f32⟩
  | .local .scVector .vmem, ⟨0, _⟩ => ⟨S100000, .f32⟩
  | .local .scVector .vmem, ⟨1, _⟩ => ⟨S16384, .i32⟩
  | .local .scVector .vmem, ⟨2, _⟩ => ⟨S4096, .f32⟩
  | .local .scVector .vmem, ⟨3, _⟩ => ⟨S4096, .f32⟩
  | .local .scVector .vmem, ⟨4, _⟩ => ⟨S16, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  ![v2.toNat, 0]
def k0_off2 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v8 : BitVec 32 := Scalar.muli v1 c2_i32_2
  let v9 : BitVec 32 := Scalar.addi v8 c0_i32_3
  let c0_i32_4 : BitVec 32 := 0#32
  ![v9.toNat, 0]
def k0_off3 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v8 : BitVec 32 := Scalar.muli v1 c2_i32_2
  let v9 : BitVec 32 := Scalar.addi v8 c0_i32_3
  let c4096_i32 : BitVec 32 := 4096#32
  ![v9.toNat, 4096]
@[reducible] def k0_t1_loop : Scf.Loop 32 :=
  let c0_i32_11 : BitVec 32 := 0#32
  let c32_i32 : BitVec 32 := 32#32
  let v26 : BitVec 32 := Scalar.addi c0_i32_11 c32_i32
  let c1_i32 : BitVec 32 := 1#32
  ⟨c0_i32_11, v26, c1_i32⟩
def k0_off4 (k0_t1 : Fin k0_t1_loop.trips) : Fin 1 → Nat :=
  let c0_i32_76 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c0_i32_76 v114
  let v116 : Index := Scalar.indexCast v115
  ![v116.toNat]

def k0_chk1 (v117 : IVec S16 32) : Prop :=
  (∀ a x, ((![v117] : Fin 1 → IVec S16 32) a x).toNat < S100000.size a)
instance k0_chk1.dec : ∀ (v117 : IVec S16 32), Decidable (k0_chk1 v117) := fun v117 => decidable_of_iff' _ (Iff.of_eq (k0_chk1.eq_1 v117))
theorem k0_idx1_inb : ∀ (v117 : IVec S16 32) (k0_hw1 : k0_chk1 v117), ∀ a x, ((![v117] : Fin 1 → IVec S16 32) a x).toNat < S100000.size a := fun v117 k0_hw1 => k0_hw1
def k0_off5 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off6 (k0_t1 : Fin k0_t1_loop.trips) : Fin 1 → Nat :=
  let c0_i32_77 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c0_i32_77 v124
  let v126 : Index := Scalar.indexCast v125
  ![v126.toNat]

def k0_chk2 (v127 : IVec S16 32) : Prop :=
  (∀ a x, ((![v127] : Fin 1 → IVec S16 32) a x).toNat < S100000.size a)
instance k0_chk2.dec : ∀ (v127 : IVec S16 32), Decidable (k0_chk2 v127) := fun v127 => decidable_of_iff' _ (Iff.of_eq (k0_chk2.eq_1 v127))
theorem k0_idx2_inb : ∀ (v127 : IVec S16 32) (k0_hw2 : k0_chk2 v127), ∀ a x, ((![v127] : Fin 1 → IVec S16 32) a x).toNat < S100000.size a := fun v127 k0_hw2 => k0_hw2
def k0_off7 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off8 (k0_t1 : Fin k0_t1_loop.trips) : Fin 1 → Nat :=
  let c0_i32_79 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c0_i32_79 v134
  let v136 : Index := Scalar.indexCast v135
  ![v136.toNat]

def k0_chk3 (v137 : IVec S16 32) : Prop :=
  (∀ a x, ((![v137] : Fin 1 → IVec S16 32) a x).toNat < S100000.size a)
instance k0_chk3.dec : ∀ (v137 : IVec S16 32), Decidable (k0_chk3 v137) := fun v137 => decidable_of_iff' _ (Iff.of_eq (k0_chk3.eq_1 v137))
theorem k0_idx3_inb : ∀ (v137 : IVec S16 32) (k0_hw3 : k0_chk3 v137), ∀ a x, ((![v137] : Fin 1 → IVec S16 32) a x).toNat < S100000.size a := fun v137 k0_hw3 => k0_hw3
def k0_off9 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off10 (k0_t1 : Fin k0_t1_loop.trips) : Fin 1 → Nat :=
  let c0_i32_80 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c0_i32_80 v144
  let v146 : Index := Scalar.indexCast v145
  ![v146.toNat]

def k0_chk4 (v147 : IVec S16 32) : Prop :=
  (∀ a x, ((![v147] : Fin 1 → IVec S16 32) a x).toNat < S100000.size a)
instance k0_chk4.dec : ∀ (v147 : IVec S16 32), Decidable (k0_chk4 v147) := fun v147 => decidable_of_iff' _ (Iff.of_eq (k0_chk4.eq_1 v147))
theorem k0_idx4_inb : ∀ (v147 : IVec S16 32) (k0_hw4 : k0_chk4 v147), ∀ a x, ((![v147] : Fin 1 → IVec S16 32) a x).toNat < S100000.size a := fun v147 k0_hw4 => k0_hw4
def k0_off11 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off12 (k0_t1 : Fin k0_t1_loop.trips) : Fin 1 → Nat :=
  let c0_i32_81 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c0_i32_81 v154
  let v156 : Index := Scalar.indexCast v155
  ![v156.toNat]

def k0_chk5 (v157 : IVec S16 32) : Prop :=
  (∀ a x, ((![v157] : Fin 1 → IVec S16 32) a x).toNat < S100000.size a)
instance k0_chk5.dec : ∀ (v157 : IVec S16 32), Decidable (k0_chk5 v157) := fun v157 => decidable_of_iff' _ (Iff.of_eq (k0_chk5.eq_1 v157))
theorem k0_idx5_inb : ∀ (v157 : IVec S16 32) (k0_hw5 : k0_chk5 v157), ∀ a x, ((![v157] : Fin 1 → IVec S16 32) a x).toNat < S100000.size a := fun v157 k0_hw5 => k0_hw5
def k0_off13 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off14 (k0_t1 : Fin k0_t1_loop.trips) : Fin 1 → Nat :=
  let c0_i32_82 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c0_i32_82 v164
  let v166 : Index := Scalar.indexCast v165
  ![v166.toNat]

def k0_chk6 (v167 : IVec S16 32) : Prop :=
  (∀ a x, ((![v167] : Fin 1 → IVec S16 32) a x).toNat < S100000.size a)
instance k0_chk6.dec : ∀ (v167 : IVec S16 32), Decidable (k0_chk6 v167) := fun v167 => decidable_of_iff' _ (Iff.of_eq (k0_chk6.eq_1 v167))
theorem k0_idx6_inb : ∀ (v167 : IVec S16 32) (k0_hw6 : k0_chk6 v167), ∀ a x, ((![v167] : Fin 1 → IVec S16 32) a x).toNat < S100000.size a := fun v167 k0_hw6 => k0_hw6
def k0_off15 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off16 (k0_t1 : Fin k0_t1_loop.trips) : Fin 1 → Nat :=
  let c0_i32_83 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c0_i32_83 v174
  let v176 : Index := Scalar.indexCast v175
  ![v176.toNat]

def k0_chk7 (v177 : IVec S16 32) : Prop :=
  (∀ a x, ((![v177] : Fin 1 → IVec S16 32) a x).toNat < S100000.size a)
instance k0_chk7.dec : ∀ (v177 : IVec S16 32), Decidable (k0_chk7 v177) := fun v177 => decidable_of_iff' _ (Iff.of_eq (k0_chk7.eq_1 v177))
theorem k0_idx7_inb : ∀ (v177 : IVec S16 32) (k0_hw7 : k0_chk7 v177), ∀ a x, ((![v177] : Fin 1 → IVec S16 32) a x).toNat < S100000.size a := fun v177 k0_hw7 => k0_hw7
def k0_off17 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off18 (k0_t1 : Fin k0_t1_loop.trips) : Fin 1 → Nat :=
  let c0_i32_84 : BitVec 32 := 0#32
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c0_i32_84 v184
  let v186 : Index := Scalar.indexCast v185
  ![v186.toNat]

def k0_chk8 (v187 : IVec S16 32) : Prop :=
  (∀ a x, ((![v187] : Fin 1 → IVec S16 32) a x).toNat < S100000.size a)
instance k0_chk8.dec : ∀ (v187 : IVec S16 32), Decidable (k0_chk8 v187) := fun v187 => decidable_of_iff' _ (Iff.of_eq (k0_chk8.eq_1 v187))
theorem k0_idx8_inb : ∀ (v187 : IVec S16 32) (k0_hw8 : k0_chk8 v187), ∀ a x, ((![v187] : Fin 1 → IVec S16 32) a x).toNat < S100000.size a := fun v187 k0_hw8 => k0_hw8
def k0_off19 (k0_t1 : Fin k0_t1_loop.trips) : Fin 1 → Nat :=
  let c0_i32_11 : BitVec 32 := 0#32
  let c1_i32 : BitVec 32 := 1#32
  let arg14 : BitVec 32 := Scf.iv c0_i32_11 c1_i32 k0_t1
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
def k0_off20 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v8 : BitVec 32 := Scalar.muli v1 c2_i32_2
  let v9 : BitVec 32 := Scalar.addi v8 c0_i32_3
  let c8192_i32 : BitVec 32 := 8192#32
  ![v9.toNat, 8192]
@[reducible] def k0_t2_loop : Scf.Loop 32 :=
  let c0_i32_16 : BitVec 32 := 0#32
  let c32_i32_17 : BitVec 32 := 32#32
  let v36 : BitVec 32 := Scalar.addi c0_i32_16 c32_i32_17
  let c1_i32_18 : BitVec 32 := 1#32
  ⟨c0_i32_16, v36, c1_i32_18⟩
def k0_off21 (k0_t2 : Fin k0_t2_loop.trips) : Fin 1 → Nat :=
  let c4096_i32_76 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c4096_i32_76 v114
  let v116 : Index := Scalar.indexCast v115
  ![v116.toNat]

def k0_chk9 (v117 : IVec S16 32) : Prop :=
  (∀ a x, ((![v117] : Fin 1 → IVec S16 32) a x).toNat < S100000.size a)
instance k0_chk9.dec : ∀ (v117 : IVec S16 32), Decidable (k0_chk9 v117) := fun v117 => decidable_of_iff' _ (Iff.of_eq (k0_chk9.eq_1 v117))
theorem k0_idx9_inb : ∀ (v117 : IVec S16 32) (k0_hw9 : k0_chk9 v117), ∀ a x, ((![v117] : Fin 1 → IVec S16 32) a x).toNat < S100000.size a := fun v117 k0_hw9 => k0_hw9
def k0_off22 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off23 (k0_t2 : Fin k0_t2_loop.trips) : Fin 1 → Nat :=
  let c4096_i32_77 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c4096_i32_77 v124
  let v126 : Index := Scalar.indexCast v125
  ![v126.toNat]

def k0_chk10 (v127 : IVec S16 32) : Prop :=
  (∀ a x, ((![v127] : Fin 1 → IVec S16 32) a x).toNat < S100000.size a)
instance k0_chk10.dec : ∀ (v127 : IVec S16 32), Decidable (k0_chk10 v127) := fun v127 => decidable_of_iff' _ (Iff.of_eq (k0_chk10.eq_1 v127))
theorem k0_idx10_inb : ∀ (v127 : IVec S16 32) (k0_hw10 : k0_chk10 v127), ∀ a x, ((![v127] : Fin 1 → IVec S16 32) a x).toNat < S100000.size a := fun v127 k0_hw10 => k0_hw10
def k0_off24 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off25 (k0_t2 : Fin k0_t2_loop.trips) : Fin 1 → Nat :=
  let c4096_i32_79 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c4096_i32_79 v134
  let v136 : Index := Scalar.indexCast v135
  ![v136.toNat]

def k0_chk11 (v137 : IVec S16 32) : Prop :=
  (∀ a x, ((![v137] : Fin 1 → IVec S16 32) a x).toNat < S100000.size a)
instance k0_chk11.dec : ∀ (v137 : IVec S16 32), Decidable (k0_chk11 v137) := fun v137 => decidable_of_iff' _ (Iff.of_eq (k0_chk11.eq_1 v137))
theorem k0_idx11_inb : ∀ (v137 : IVec S16 32) (k0_hw11 : k0_chk11 v137), ∀ a x, ((![v137] : Fin 1 → IVec S16 32) a x).toNat < S100000.size a := fun v137 k0_hw11 => k0_hw11
def k0_off26 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off27 (k0_t2 : Fin k0_t2_loop.trips) : Fin 1 → Nat :=
  let c4096_i32_80 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c4096_i32_80 v144
  let v146 : Index := Scalar.indexCast v145
  ![v146.toNat]

def k0_chk12 (v147 : IVec S16 32) : Prop :=
  (∀ a x, ((![v147] : Fin 1 → IVec S16 32) a x).toNat < S100000.size a)
instance k0_chk12.dec : ∀ (v147 : IVec S16 32), Decidable (k0_chk12 v147) := fun v147 => decidable_of_iff' _ (Iff.of_eq (k0_chk12.eq_1 v147))
theorem k0_idx12_inb : ∀ (v147 : IVec S16 32) (k0_hw12 : k0_chk12 v147), ∀ a x, ((![v147] : Fin 1 → IVec S16 32) a x).toNat < S100000.size a := fun v147 k0_hw12 => k0_hw12
def k0_off28 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off29 (k0_t2 : Fin k0_t2_loop.trips) : Fin 1 → Nat :=
  let c4096_i32_81 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c4096_i32_81 v154
  let v156 : Index := Scalar.indexCast v155
  ![v156.toNat]

def k0_chk13 (v157 : IVec S16 32) : Prop :=
  (∀ a x, ((![v157] : Fin 1 → IVec S16 32) a x).toNat < S100000.size a)
instance k0_chk13.dec : ∀ (v157 : IVec S16 32), Decidable (k0_chk13 v157) := fun v157 => decidable_of_iff' _ (Iff.of_eq (k0_chk13.eq_1 v157))
theorem k0_idx13_inb : ∀ (v157 : IVec S16 32) (k0_hw13 : k0_chk13 v157), ∀ a x, ((![v157] : Fin 1 → IVec S16 32) a x).toNat < S100000.size a := fun v157 k0_hw13 => k0_hw13
def k0_off30 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off31 (k0_t2 : Fin k0_t2_loop.trips) : Fin 1 → Nat :=
  let c4096_i32_82 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c4096_i32_82 v164
  let v166 : Index := Scalar.indexCast v165
  ![v166.toNat]

def k0_chk14 (v167 : IVec S16 32) : Prop :=
  (∀ a x, ((![v167] : Fin 1 → IVec S16 32) a x).toNat < S100000.size a)
instance k0_chk14.dec : ∀ (v167 : IVec S16 32), Decidable (k0_chk14 v167) := fun v167 => decidable_of_iff' _ (Iff.of_eq (k0_chk14.eq_1 v167))
theorem k0_idx14_inb : ∀ (v167 : IVec S16 32) (k0_hw14 : k0_chk14 v167), ∀ a x, ((![v167] : Fin 1 → IVec S16 32) a x).toNat < S100000.size a := fun v167 k0_hw14 => k0_hw14
def k0_off32 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off33 (k0_t2 : Fin k0_t2_loop.trips) : Fin 1 → Nat :=
  let c4096_i32_83 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c4096_i32_83 v174
  let v176 : Index := Scalar.indexCast v175
  ![v176.toNat]

def k0_chk15 (v177 : IVec S16 32) : Prop :=
  (∀ a x, ((![v177] : Fin 1 → IVec S16 32) a x).toNat < S100000.size a)
instance k0_chk15.dec : ∀ (v177 : IVec S16 32), Decidable (k0_chk15 v177) := fun v177 => decidable_of_iff' _ (Iff.of_eq (k0_chk15.eq_1 v177))
theorem k0_idx15_inb : ∀ (v177 : IVec S16 32) (k0_hw15 : k0_chk15 v177), ∀ a x, ((![v177] : Fin 1 → IVec S16 32) a x).toNat < S100000.size a := fun v177 k0_hw15 => k0_hw15
def k0_off34 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off35 (k0_t2 : Fin k0_t2_loop.trips) : Fin 1 → Nat :=
  let c4096_i32_84 : BitVec 32 := 4096#32
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c4096_i32_84 v184
  let v186 : Index := Scalar.indexCast v185
  ![v186.toNat]

def k0_chk16 (v187 : IVec S16 32) : Prop :=
  (∀ a x, ((![v187] : Fin 1 → IVec S16 32) a x).toNat < S100000.size a)
instance k0_chk16.dec : ∀ (v187 : IVec S16 32), Decidable (k0_chk16 v187) := fun v187 => decidable_of_iff' _ (Iff.of_eq (k0_chk16.eq_1 v187))
theorem k0_idx16_inb : ∀ (v187 : IVec S16 32) (k0_hw16 : k0_chk16 v187), ∀ a x, ((![v187] : Fin 1 → IVec S16 32) a x).toNat < S100000.size a := fun v187 k0_hw16 => k0_hw16
def k0_off36 (k0_t2 : Fin k0_t2_loop.trips) : Fin 1 → Nat :=
  let c0_i32_16 : BitVec 32 := 0#32
  let c1_i32_18 : BitVec 32 := 1#32
  let arg14 : BitVec 32 := Scf.iv c0_i32_16 c1_i32_18 k0_t2
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
def k0_off37 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v8 : BitVec 32 := Scalar.muli v1 c2_i32_2
  let v9 : BitVec 32 := Scalar.addi v8 c0_i32_3
  let c12288_i32 : BitVec 32 := 12288#32
  ![v9.toNat, 12288]
@[reducible] def k0_t3_loop : Scf.Loop 32 :=
  let c0_i32_23 : BitVec 32 := 0#32
  let c32_i32_24 : BitVec 32 := 32#32
  let v46 : BitVec 32 := Scalar.addi c0_i32_23 c32_i32_24
  let c1_i32_25 : BitVec 32 := 1#32
  ⟨c0_i32_23, v46, c1_i32_25⟩
def k0_off38 (k0_t3 : Fin k0_t3_loop.trips) : Fin 1 → Nat :=
  let c8192_i32_76 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c8192_i32_76 v114
  let v116 : Index := Scalar.indexCast v115
  ![v116.toNat]

def k0_chk17 (v117 : IVec S16 32) : Prop :=
  (∀ a x, ((![v117] : Fin 1 → IVec S16 32) a x).toNat < S100000.size a)
instance k0_chk17.dec : ∀ (v117 : IVec S16 32), Decidable (k0_chk17 v117) := fun v117 => decidable_of_iff' _ (Iff.of_eq (k0_chk17.eq_1 v117))
theorem k0_idx17_inb : ∀ (v117 : IVec S16 32) (k0_hw17 : k0_chk17 v117), ∀ a x, ((![v117] : Fin 1 → IVec S16 32) a x).toNat < S100000.size a := fun v117 k0_hw17 => k0_hw17
def k0_off39 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off40 (k0_t3 : Fin k0_t3_loop.trips) : Fin 1 → Nat :=
  let c8192_i32_77 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c8192_i32_77 v124
  let v126 : Index := Scalar.indexCast v125
  ![v126.toNat]

def k0_chk18 (v127 : IVec S16 32) : Prop :=
  (∀ a x, ((![v127] : Fin 1 → IVec S16 32) a x).toNat < S100000.size a)
instance k0_chk18.dec : ∀ (v127 : IVec S16 32), Decidable (k0_chk18 v127) := fun v127 => decidable_of_iff' _ (Iff.of_eq (k0_chk18.eq_1 v127))
theorem k0_idx18_inb : ∀ (v127 : IVec S16 32) (k0_hw18 : k0_chk18 v127), ∀ a x, ((![v127] : Fin 1 → IVec S16 32) a x).toNat < S100000.size a := fun v127 k0_hw18 => k0_hw18
def k0_off41 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off42 (k0_t3 : Fin k0_t3_loop.trips) : Fin 1 → Nat :=
  let c8192_i32_79 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c8192_i32_79 v134
  let v136 : Index := Scalar.indexCast v135
  ![v136.toNat]

def k0_chk19 (v137 : IVec S16 32) : Prop :=
  (∀ a x, ((![v137] : Fin 1 → IVec S16 32) a x).toNat < S100000.size a)
instance k0_chk19.dec : ∀ (v137 : IVec S16 32), Decidable (k0_chk19 v137) := fun v137 => decidable_of_iff' _ (Iff.of_eq (k0_chk19.eq_1 v137))
theorem k0_idx19_inb : ∀ (v137 : IVec S16 32) (k0_hw19 : k0_chk19 v137), ∀ a x, ((![v137] : Fin 1 → IVec S16 32) a x).toNat < S100000.size a := fun v137 k0_hw19 => k0_hw19
def k0_off43 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off44 (k0_t3 : Fin k0_t3_loop.trips) : Fin 1 → Nat :=
  let c8192_i32_80 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c8192_i32_80 v144
  let v146 : Index := Scalar.indexCast v145
  ![v146.toNat]

def k0_chk20 (v147 : IVec S16 32) : Prop :=
  (∀ a x, ((![v147] : Fin 1 → IVec S16 32) a x).toNat < S100000.size a)
instance k0_chk20.dec : ∀ (v147 : IVec S16 32), Decidable (k0_chk20 v147) := fun v147 => decidable_of_iff' _ (Iff.of_eq (k0_chk20.eq_1 v147))
theorem k0_idx20_inb : ∀ (v147 : IVec S16 32) (k0_hw20 : k0_chk20 v147), ∀ a x, ((![v147] : Fin 1 → IVec S16 32) a x).toNat < S100000.size a := fun v147 k0_hw20 => k0_hw20
def k0_off45 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off46 (k0_t3 : Fin k0_t3_loop.trips) : Fin 1 → Nat :=
  let c8192_i32_81 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c8192_i32_81 v154
  let v156 : Index := Scalar.indexCast v155
  ![v156.toNat]

def k0_chk21 (v157 : IVec S16 32) : Prop :=
  (∀ a x, ((![v157] : Fin 1 → IVec S16 32) a x).toNat < S100000.size a)
instance k0_chk21.dec : ∀ (v157 : IVec S16 32), Decidable (k0_chk21 v157) := fun v157 => decidable_of_iff' _ (Iff.of_eq (k0_chk21.eq_1 v157))
theorem k0_idx21_inb : ∀ (v157 : IVec S16 32) (k0_hw21 : k0_chk21 v157), ∀ a x, ((![v157] : Fin 1 → IVec S16 32) a x).toNat < S100000.size a := fun v157 k0_hw21 => k0_hw21
def k0_off47 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off48 (k0_t3 : Fin k0_t3_loop.trips) : Fin 1 → Nat :=
  let c8192_i32_82 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c8192_i32_82 v164
  let v166 : Index := Scalar.indexCast v165
  ![v166.toNat]

def k0_chk22 (v167 : IVec S16 32) : Prop :=
  (∀ a x, ((![v167] : Fin 1 → IVec S16 32) a x).toNat < S100000.size a)
instance k0_chk22.dec : ∀ (v167 : IVec S16 32), Decidable (k0_chk22 v167) := fun v167 => decidable_of_iff' _ (Iff.of_eq (k0_chk22.eq_1 v167))
theorem k0_idx22_inb : ∀ (v167 : IVec S16 32) (k0_hw22 : k0_chk22 v167), ∀ a x, ((![v167] : Fin 1 → IVec S16 32) a x).toNat < S100000.size a := fun v167 k0_hw22 => k0_hw22
def k0_off49 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off50 (k0_t3 : Fin k0_t3_loop.trips) : Fin 1 → Nat :=
  let c8192_i32_83 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c8192_i32_83 v174
  let v176 : Index := Scalar.indexCast v175
  ![v176.toNat]

def k0_chk23 (v177 : IVec S16 32) : Prop :=
  (∀ a x, ((![v177] : Fin 1 → IVec S16 32) a x).toNat < S100000.size a)
instance k0_chk23.dec : ∀ (v177 : IVec S16 32), Decidable (k0_chk23 v177) := fun v177 => decidable_of_iff' _ (Iff.of_eq (k0_chk23.eq_1 v177))
theorem k0_idx23_inb : ∀ (v177 : IVec S16 32) (k0_hw23 : k0_chk23 v177), ∀ a x, ((![v177] : Fin 1 → IVec S16 32) a x).toNat < S100000.size a := fun v177 k0_hw23 => k0_hw23
def k0_off51 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off52 (k0_t3 : Fin k0_t3_loop.trips) : Fin 1 → Nat :=
  let c8192_i32_84 : BitVec 32 := 8192#32
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c8192_i32_84 v184
  let v186 : Index := Scalar.indexCast v185
  ![v186.toNat]

def k0_chk24 (v187 : IVec S16 32) : Prop :=
  (∀ a x, ((![v187] : Fin 1 → IVec S16 32) a x).toNat < S100000.size a)
instance k0_chk24.dec : ∀ (v187 : IVec S16 32), Decidable (k0_chk24 v187) := fun v187 => decidable_of_iff' _ (Iff.of_eq (k0_chk24.eq_1 v187))
theorem k0_idx24_inb : ∀ (v187 : IVec S16 32) (k0_hw24 : k0_chk24 v187), ∀ a x, ((![v187] : Fin 1 → IVec S16 32) a x).toNat < S100000.size a := fun v187 k0_hw24 => k0_hw24
def k0_off53 (k0_t3 : Fin k0_t3_loop.trips) : Fin 1 → Nat :=
  let c0_i32_23 : BitVec 32 := 0#32
  let c1_i32_25 : BitVec 32 := 1#32
  let arg14 : BitVec 32 := Scf.iv c0_i32_23 c1_i32_25 k0_t3
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
@[reducible] def k0_t4_loop : Scf.Loop 32 :=
  let c0_i32_29 : BitVec 32 := 0#32
  let c32_i32_30 : BitVec 32 := 32#32
  let v52 : BitVec 32 := Scalar.addi c0_i32_29 c32_i32_30
  let c1_i32_31 : BitVec 32 := 1#32
  ⟨c0_i32_29, v52, c1_i32_31⟩
def k0_off54 (k0_t4 : Fin k0_t4_loop.trips) : Fin 1 → Nat :=
  let c12288_i32_76 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c12288_i32_76 v114
  let v116 : Index := Scalar.indexCast v115
  ![v116.toNat]

def k0_chk25 (v117 : IVec S16 32) : Prop :=
  (∀ a x, ((![v117] : Fin 1 → IVec S16 32) a x).toNat < S100000.size a)
instance k0_chk25.dec : ∀ (v117 : IVec S16 32), Decidable (k0_chk25 v117) := fun v117 => decidable_of_iff' _ (Iff.of_eq (k0_chk25.eq_1 v117))
theorem k0_idx25_inb : ∀ (v117 : IVec S16 32) (k0_hw25 : k0_chk25 v117), ∀ a x, ((![v117] : Fin 1 → IVec S16 32) a x).toNat < S100000.size a := fun v117 k0_hw25 => k0_hw25
def k0_off55 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off56 (k0_t4 : Fin k0_t4_loop.trips) : Fin 1 → Nat :=
  let c12288_i32_77 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c12288_i32_77 v124
  let v126 : Index := Scalar.indexCast v125
  ![v126.toNat]

def k0_chk26 (v127 : IVec S16 32) : Prop :=
  (∀ a x, ((![v127] : Fin 1 → IVec S16 32) a x).toNat < S100000.size a)
instance k0_chk26.dec : ∀ (v127 : IVec S16 32), Decidable (k0_chk26 v127) := fun v127 => decidable_of_iff' _ (Iff.of_eq (k0_chk26.eq_1 v127))
theorem k0_idx26_inb : ∀ (v127 : IVec S16 32) (k0_hw26 : k0_chk26 v127), ∀ a x, ((![v127] : Fin 1 → IVec S16 32) a x).toNat < S100000.size a := fun v127 k0_hw26 => k0_hw26
def k0_off57 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off58 (k0_t4 : Fin k0_t4_loop.trips) : Fin 1 → Nat :=
  let c12288_i32_79 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c12288_i32_79 v134
  let v136 : Index := Scalar.indexCast v135
  ![v136.toNat]

def k0_chk27 (v137 : IVec S16 32) : Prop :=
  (∀ a x, ((![v137] : Fin 1 → IVec S16 32) a x).toNat < S100000.size a)
instance k0_chk27.dec : ∀ (v137 : IVec S16 32), Decidable (k0_chk27 v137) := fun v137 => decidable_of_iff' _ (Iff.of_eq (k0_chk27.eq_1 v137))
theorem k0_idx27_inb : ∀ (v137 : IVec S16 32) (k0_hw27 : k0_chk27 v137), ∀ a x, ((![v137] : Fin 1 → IVec S16 32) a x).toNat < S100000.size a := fun v137 k0_hw27 => k0_hw27
def k0_off59 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off60 (k0_t4 : Fin k0_t4_loop.trips) : Fin 1 → Nat :=
  let c12288_i32_80 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c12288_i32_80 v144
  let v146 : Index := Scalar.indexCast v145
  ![v146.toNat]

def k0_chk28 (v147 : IVec S16 32) : Prop :=
  (∀ a x, ((![v147] : Fin 1 → IVec S16 32) a x).toNat < S100000.size a)
instance k0_chk28.dec : ∀ (v147 : IVec S16 32), Decidable (k0_chk28 v147) := fun v147 => decidable_of_iff' _ (Iff.of_eq (k0_chk28.eq_1 v147))
theorem k0_idx28_inb : ∀ (v147 : IVec S16 32) (k0_hw28 : k0_chk28 v147), ∀ a x, ((![v147] : Fin 1 → IVec S16 32) a x).toNat < S100000.size a := fun v147 k0_hw28 => k0_hw28
def k0_off61 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off62 (k0_t4 : Fin k0_t4_loop.trips) : Fin 1 → Nat :=
  let c12288_i32_81 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c12288_i32_81 v154
  let v156 : Index := Scalar.indexCast v155
  ![v156.toNat]

def k0_chk29 (v157 : IVec S16 32) : Prop :=
  (∀ a x, ((![v157] : Fin 1 → IVec S16 32) a x).toNat < S100000.size a)
instance k0_chk29.dec : ∀ (v157 : IVec S16 32), Decidable (k0_chk29 v157) := fun v157 => decidable_of_iff' _ (Iff.of_eq (k0_chk29.eq_1 v157))
theorem k0_idx29_inb : ∀ (v157 : IVec S16 32) (k0_hw29 : k0_chk29 v157), ∀ a x, ((![v157] : Fin 1 → IVec S16 32) a x).toNat < S100000.size a := fun v157 k0_hw29 => k0_hw29
def k0_off63 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off64 (k0_t4 : Fin k0_t4_loop.trips) : Fin 1 → Nat :=
  let c12288_i32_82 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c12288_i32_82 v164
  let v166 : Index := Scalar.indexCast v165
  ![v166.toNat]

def k0_chk30 (v167 : IVec S16 32) : Prop :=
  (∀ a x, ((![v167] : Fin 1 → IVec S16 32) a x).toNat < S100000.size a)
instance k0_chk30.dec : ∀ (v167 : IVec S16 32), Decidable (k0_chk30 v167) := fun v167 => decidable_of_iff' _ (Iff.of_eq (k0_chk30.eq_1 v167))
theorem k0_idx30_inb : ∀ (v167 : IVec S16 32) (k0_hw30 : k0_chk30 v167), ∀ a x, ((![v167] : Fin 1 → IVec S16 32) a x).toNat < S100000.size a := fun v167 k0_hw30 => k0_hw30
def k0_off65 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off66 (k0_t4 : Fin k0_t4_loop.trips) : Fin 1 → Nat :=
  let c12288_i32_83 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c12288_i32_83 v174
  let v176 : Index := Scalar.indexCast v175
  ![v176.toNat]

def k0_chk31 (v177 : IVec S16 32) : Prop :=
  (∀ a x, ((![v177] : Fin 1 → IVec S16 32) a x).toNat < S100000.size a)
instance k0_chk31.dec : ∀ (v177 : IVec S16 32), Decidable (k0_chk31 v177) := fun v177 => decidable_of_iff' _ (Iff.of_eq (k0_chk31.eq_1 v177))
theorem k0_idx31_inb : ∀ (v177 : IVec S16 32) (k0_hw31 : k0_chk31 v177), ∀ a x, ((![v177] : Fin 1 → IVec S16 32) a x).toNat < S100000.size a := fun v177 k0_hw31 => k0_hw31
def k0_off67 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off68 (k0_t4 : Fin k0_t4_loop.trips) : Fin 1 → Nat :=
  let c12288_i32_84 : BitVec 32 := 12288#32
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c12288_i32_84 v184
  let v186 : Index := Scalar.indexCast v185
  ![v186.toNat]

def k0_chk32 (v187 : IVec S16 32) : Prop :=
  (∀ a x, ((![v187] : Fin 1 → IVec S16 32) a x).toNat < S100000.size a)
instance k0_chk32.dec : ∀ (v187 : IVec S16 32), Decidable (k0_chk32 v187) := fun v187 => decidable_of_iff' _ (Iff.of_eq (k0_chk32.eq_1 v187))
theorem k0_idx32_inb : ∀ (v187 : IVec S16 32) (k0_hw32 : k0_chk32 v187), ∀ a x, ((![v187] : Fin 1 → IVec S16 32) a x).toNat < S100000.size a := fun v187 k0_hw32 => k0_hw32
def k0_off69 (k0_t4 : Fin k0_t4_loop.trips) : Fin 1 → Nat :=
  let c0_i32_29 : BitVec 32 := 0#32
  let c1_i32_31 : BitVec 32 := 1#32
  let arg14 : BitVec 32 := Scf.iv c0_i32_29 c1_i32_31 k0_t4
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
def k0_off70 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_33 : BitVec 32 := 2#32
  let v54 : BitVec 32 := Scalar.muli v1 c2_i32_33
  let c0_i32_34 : BitVec 32 := 0#32
  let v55 : BitVec 32 := Scalar.addi v54 c0_i32_34
  let c1_i32_35 : BitVec 32 := 1#32
  let v56 : BitVec 32 := Scalar.addi v55 c1_i32_35
  let c0_i32_36 : BitVec 32 := 0#32
  ![v56.toNat, 0]
@[reducible] def k0_t5_loop : Scf.Loop 32 :=
  let c0_i32_48 : BitVec 32 := 0#32
  let c32_i32_49 : BitVec 32 := 32#32
  let v79 : BitVec 32 := Scalar.addi c0_i32_48 c32_i32_49
  let c1_i32_50 : BitVec 32 := 1#32
  ⟨c0_i32_48, v79, c1_i32_50⟩
def k0_off71 (k0_t5 : Fin k0_t5_loop.trips) : Fin 1 → Nat :=
  let c0_i32_76 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c0_i32_76 v114
  let v116 : Index := Scalar.indexCast v115
  ![v116.toNat]

def k0_chk33 (v117 : IVec S16 32) : Prop :=
  (∀ a x, ((![v117] : Fin 1 → IVec S16 32) a x).toNat < S100000.size a)
instance k0_chk33.dec : ∀ (v117 : IVec S16 32), Decidable (k0_chk33 v117) := fun v117 => decidable_of_iff' _ (Iff.of_eq (k0_chk33.eq_1 v117))
theorem k0_idx33_inb : ∀ (v117 : IVec S16 32) (k0_hw33 : k0_chk33 v117), ∀ a x, ((![v117] : Fin 1 → IVec S16 32) a x).toNat < S100000.size a := fun v117 k0_hw33 => k0_hw33
def k0_off72 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off73 (k0_t5 : Fin k0_t5_loop.trips) : Fin 1 → Nat :=
  let c0_i32_77 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c0_i32_77 v124
  let v126 : Index := Scalar.indexCast v125
  ![v126.toNat]

def k0_chk34 (v127 : IVec S16 32) : Prop :=
  (∀ a x, ((![v127] : Fin 1 → IVec S16 32) a x).toNat < S100000.size a)
instance k0_chk34.dec : ∀ (v127 : IVec S16 32), Decidable (k0_chk34 v127) := fun v127 => decidable_of_iff' _ (Iff.of_eq (k0_chk34.eq_1 v127))
theorem k0_idx34_inb : ∀ (v127 : IVec S16 32) (k0_hw34 : k0_chk34 v127), ∀ a x, ((![v127] : Fin 1 → IVec S16 32) a x).toNat < S100000.size a := fun v127 k0_hw34 => k0_hw34
def k0_off74 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off75 (k0_t5 : Fin k0_t5_loop.trips) : Fin 1 → Nat :=
  let c0_i32_79 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c0_i32_79 v134
  let v136 : Index := Scalar.indexCast v135
  ![v136.toNat]

def k0_chk35 (v137 : IVec S16 32) : Prop :=
  (∀ a x, ((![v137] : Fin 1 → IVec S16 32) a x).toNat < S100000.size a)
instance k0_chk35.dec : ∀ (v137 : IVec S16 32), Decidable (k0_chk35 v137) := fun v137 => decidable_of_iff' _ (Iff.of_eq (k0_chk35.eq_1 v137))
theorem k0_idx35_inb : ∀ (v137 : IVec S16 32) (k0_hw35 : k0_chk35 v137), ∀ a x, ((![v137] : Fin 1 → IVec S16 32) a x).toNat < S100000.size a := fun v137 k0_hw35 => k0_hw35
def k0_off76 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off77 (k0_t5 : Fin k0_t5_loop.trips) : Fin 1 → Nat :=
  let c0_i32_80 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c0_i32_80 v144
  let v146 : Index := Scalar.indexCast v145
  ![v146.toNat]

def k0_chk36 (v147 : IVec S16 32) : Prop :=
  (∀ a x, ((![v147] : Fin 1 → IVec S16 32) a x).toNat < S100000.size a)
instance k0_chk36.dec : ∀ (v147 : IVec S16 32), Decidable (k0_chk36 v147) := fun v147 => decidable_of_iff' _ (Iff.of_eq (k0_chk36.eq_1 v147))
theorem k0_idx36_inb : ∀ (v147 : IVec S16 32) (k0_hw36 : k0_chk36 v147), ∀ a x, ((![v147] : Fin 1 → IVec S16 32) a x).toNat < S100000.size a := fun v147 k0_hw36 => k0_hw36
def k0_off78 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off79 (k0_t5 : Fin k0_t5_loop.trips) : Fin 1 → Nat :=
  let c0_i32_81 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c0_i32_81 v154
  let v156 : Index := Scalar.indexCast v155
  ![v156.toNat]

def k0_chk37 (v157 : IVec S16 32) : Prop :=
  (∀ a x, ((![v157] : Fin 1 → IVec S16 32) a x).toNat < S100000.size a)
instance k0_chk37.dec : ∀ (v157 : IVec S16 32), Decidable (k0_chk37 v157) := fun v157 => decidable_of_iff' _ (Iff.of_eq (k0_chk37.eq_1 v157))
theorem k0_idx37_inb : ∀ (v157 : IVec S16 32) (k0_hw37 : k0_chk37 v157), ∀ a x, ((![v157] : Fin 1 → IVec S16 32) a x).toNat < S100000.size a := fun v157 k0_hw37 => k0_hw37
def k0_off80 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off81 (k0_t5 : Fin k0_t5_loop.trips) : Fin 1 → Nat :=
  let c0_i32_82 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c0_i32_82 v164
  let v166 : Index := Scalar.indexCast v165
  ![v166.toNat]

def k0_chk38 (v167 : IVec S16 32) : Prop :=
  (∀ a x, ((![v167] : Fin 1 → IVec S16 32) a x).toNat < S100000.size a)
instance k0_chk38.dec : ∀ (v167 : IVec S16 32), Decidable (k0_chk38 v167) := fun v167 => decidable_of_iff' _ (Iff.of_eq (k0_chk38.eq_1 v167))
theorem k0_idx38_inb : ∀ (v167 : IVec S16 32) (k0_hw38 : k0_chk38 v167), ∀ a x, ((![v167] : Fin 1 → IVec S16 32) a x).toNat < S100000.size a := fun v167 k0_hw38 => k0_hw38
def k0_off82 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off83 (k0_t5 : Fin k0_t5_loop.trips) : Fin 1 → Nat :=
  let c0_i32_83 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c0_i32_83 v174
  let v176 : Index := Scalar.indexCast v175
  ![v176.toNat]

def k0_chk39 (v177 : IVec S16 32) : Prop :=
  (∀ a x, ((![v177] : Fin 1 → IVec S16 32) a x).toNat < S100000.size a)
instance k0_chk39.dec : ∀ (v177 : IVec S16 32), Decidable (k0_chk39 v177) := fun v177 => decidable_of_iff' _ (Iff.of_eq (k0_chk39.eq_1 v177))
theorem k0_idx39_inb : ∀ (v177 : IVec S16 32) (k0_hw39 : k0_chk39 v177), ∀ a x, ((![v177] : Fin 1 → IVec S16 32) a x).toNat < S100000.size a := fun v177 k0_hw39 => k0_hw39
def k0_off84 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off85 (k0_t5 : Fin k0_t5_loop.trips) : Fin 1 → Nat :=
  let c0_i32_84 : BitVec 32 := 0#32
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c0_i32_84 v184
  let v186 : Index := Scalar.indexCast v185
  ![v186.toNat]

def k0_chk40 (v187 : IVec S16 32) : Prop :=
  (∀ a x, ((![v187] : Fin 1 → IVec S16 32) a x).toNat < S100000.size a)
instance k0_chk40.dec : ∀ (v187 : IVec S16 32), Decidable (k0_chk40 v187) := fun v187 => decidable_of_iff' _ (Iff.of_eq (k0_chk40.eq_1 v187))
theorem k0_idx40_inb : ∀ (v187 : IVec S16 32) (k0_hw40 : k0_chk40 v187), ∀ a x, ((![v187] : Fin 1 → IVec S16 32) a x).toNat < S100000.size a := fun v187 k0_hw40 => k0_hw40
def k0_off86 (k0_t5 : Fin k0_t5_loop.trips) : Fin 1 → Nat :=
  let c0_i32_48 : BitVec 32 := 0#32
  let c1_i32_50 : BitVec 32 := 1#32
  let arg14 : BitVec 32 := Scf.iv c0_i32_48 c1_i32_50 k0_t5
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
@[reducible] def k0_t6_loop : Scf.Loop 32 :=
  let c0_i32_56 : BitVec 32 := 0#32
  let c32_i32_57 : BitVec 32 := 32#32
  let v89 : BitVec 32 := Scalar.addi c0_i32_56 c32_i32_57
  let c1_i32_58 : BitVec 32 := 1#32
  ⟨c0_i32_56, v89, c1_i32_58⟩
def k0_off87 (k0_t6 : Fin k0_t6_loop.trips) : Fin 1 → Nat :=
  let c4096_i32_76 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c4096_i32_76 v114
  let v116 : Index := Scalar.indexCast v115
  ![v116.toNat]

def k0_chk41 (v117 : IVec S16 32) : Prop :=
  (∀ a x, ((![v117] : Fin 1 → IVec S16 32) a x).toNat < S100000.size a)
instance k0_chk41.dec : ∀ (v117 : IVec S16 32), Decidable (k0_chk41 v117) := fun v117 => decidable_of_iff' _ (Iff.of_eq (k0_chk41.eq_1 v117))
theorem k0_idx41_inb : ∀ (v117 : IVec S16 32) (k0_hw41 : k0_chk41 v117), ∀ a x, ((![v117] : Fin 1 → IVec S16 32) a x).toNat < S100000.size a := fun v117 k0_hw41 => k0_hw41
def k0_off88 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off89 (k0_t6 : Fin k0_t6_loop.trips) : Fin 1 → Nat :=
  let c4096_i32_77 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c4096_i32_77 v124
  let v126 : Index := Scalar.indexCast v125
  ![v126.toNat]

def k0_chk42 (v127 : IVec S16 32) : Prop :=
  (∀ a x, ((![v127] : Fin 1 → IVec S16 32) a x).toNat < S100000.size a)
instance k0_chk42.dec : ∀ (v127 : IVec S16 32), Decidable (k0_chk42 v127) := fun v127 => decidable_of_iff' _ (Iff.of_eq (k0_chk42.eq_1 v127))
theorem k0_idx42_inb : ∀ (v127 : IVec S16 32) (k0_hw42 : k0_chk42 v127), ∀ a x, ((![v127] : Fin 1 → IVec S16 32) a x).toNat < S100000.size a := fun v127 k0_hw42 => k0_hw42
def k0_off90 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off91 (k0_t6 : Fin k0_t6_loop.trips) : Fin 1 → Nat :=
  let c4096_i32_79 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c4096_i32_79 v134
  let v136 : Index := Scalar.indexCast v135
  ![v136.toNat]

def k0_chk43 (v137 : IVec S16 32) : Prop :=
  (∀ a x, ((![v137] : Fin 1 → IVec S16 32) a x).toNat < S100000.size a)
instance k0_chk43.dec : ∀ (v137 : IVec S16 32), Decidable (k0_chk43 v137) := fun v137 => decidable_of_iff' _ (Iff.of_eq (k0_chk43.eq_1 v137))
theorem k0_idx43_inb : ∀ (v137 : IVec S16 32) (k0_hw43 : k0_chk43 v137), ∀ a x, ((![v137] : Fin 1 → IVec S16 32) a x).toNat < S100000.size a := fun v137 k0_hw43 => k0_hw43
def k0_off92 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off93 (k0_t6 : Fin k0_t6_loop.trips) : Fin 1 → Nat :=
  let c4096_i32_80 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c4096_i32_80 v144
  let v146 : Index := Scalar.indexCast v145
  ![v146.toNat]

def k0_chk44 (v147 : IVec S16 32) : Prop :=
  (∀ a x, ((![v147] : Fin 1 → IVec S16 32) a x).toNat < S100000.size a)
instance k0_chk44.dec : ∀ (v147 : IVec S16 32), Decidable (k0_chk44 v147) := fun v147 => decidable_of_iff' _ (Iff.of_eq (k0_chk44.eq_1 v147))
theorem k0_idx44_inb : ∀ (v147 : IVec S16 32) (k0_hw44 : k0_chk44 v147), ∀ a x, ((![v147] : Fin 1 → IVec S16 32) a x).toNat < S100000.size a := fun v147 k0_hw44 => k0_hw44
def k0_off94 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off95 (k0_t6 : Fin k0_t6_loop.trips) : Fin 1 → Nat :=
  let c4096_i32_81 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c4096_i32_81 v154
  let v156 : Index := Scalar.indexCast v155
  ![v156.toNat]

def k0_chk45 (v157 : IVec S16 32) : Prop :=
  (∀ a x, ((![v157] : Fin 1 → IVec S16 32) a x).toNat < S100000.size a)
instance k0_chk45.dec : ∀ (v157 : IVec S16 32), Decidable (k0_chk45 v157) := fun v157 => decidable_of_iff' _ (Iff.of_eq (k0_chk45.eq_1 v157))
theorem k0_idx45_inb : ∀ (v157 : IVec S16 32) (k0_hw45 : k0_chk45 v157), ∀ a x, ((![v157] : Fin 1 → IVec S16 32) a x).toNat < S100000.size a := fun v157 k0_hw45 => k0_hw45
def k0_off96 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off97 (k0_t6 : Fin k0_t6_loop.trips) : Fin 1 → Nat :=
  let c4096_i32_82 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c4096_i32_82 v164
  let v166 : Index := Scalar.indexCast v165
  ![v166.toNat]

def k0_chk46 (v167 : IVec S16 32) : Prop :=
  (∀ a x, ((![v167] : Fin 1 → IVec S16 32) a x).toNat < S100000.size a)
instance k0_chk46.dec : ∀ (v167 : IVec S16 32), Decidable (k0_chk46 v167) := fun v167 => decidable_of_iff' _ (Iff.of_eq (k0_chk46.eq_1 v167))
theorem k0_idx46_inb : ∀ (v167 : IVec S16 32) (k0_hw46 : k0_chk46 v167), ∀ a x, ((![v167] : Fin 1 → IVec S16 32) a x).toNat < S100000.size a := fun v167 k0_hw46 => k0_hw46
def k0_off98 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off99 (k0_t6 : Fin k0_t6_loop.trips) : Fin 1 → Nat :=
  let c4096_i32_83 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c4096_i32_83 v174
  let v176 : Index := Scalar.indexCast v175
  ![v176.toNat]

def k0_chk47 (v177 : IVec S16 32) : Prop :=
  (∀ a x, ((![v177] : Fin 1 → IVec S16 32) a x).toNat < S100000.size a)
instance k0_chk47.dec : ∀ (v177 : IVec S16 32), Decidable (k0_chk47 v177) := fun v177 => decidable_of_iff' _ (Iff.of_eq (k0_chk47.eq_1 v177))
theorem k0_idx47_inb : ∀ (v177 : IVec S16 32) (k0_hw47 : k0_chk47 v177), ∀ a x, ((![v177] : Fin 1 → IVec S16 32) a x).toNat < S100000.size a := fun v177 k0_hw47 => k0_hw47
def k0_off100 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off101 (k0_t6 : Fin k0_t6_loop.trips) : Fin 1 → Nat :=
  let c4096_i32_84 : BitVec 32 := 4096#32
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c4096_i32_84 v184
  let v186 : Index := Scalar.indexCast v185
  ![v186.toNat]

def k0_chk48 (v187 : IVec S16 32) : Prop :=
  (∀ a x, ((![v187] : Fin 1 → IVec S16 32) a x).toNat < S100000.size a)
instance k0_chk48.dec : ∀ (v187 : IVec S16 32), Decidable (k0_chk48 v187) := fun v187 => decidable_of_iff' _ (Iff.of_eq (k0_chk48.eq_1 v187))
theorem k0_idx48_inb : ∀ (v187 : IVec S16 32) (k0_hw48 : k0_chk48 v187), ∀ a x, ((![v187] : Fin 1 → IVec S16 32) a x).toNat < S100000.size a := fun v187 k0_hw48 => k0_hw48
def k0_off102 (k0_t6 : Fin k0_t6_loop.trips) : Fin 1 → Nat :=
  let c0_i32_56 : BitVec 32 := 0#32
  let c1_i32_58 : BitVec 32 := 1#32
  let arg14 : BitVec 32 := Scf.iv c0_i32_56 c1_i32_58 k0_t6
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
@[reducible] def k0_t7_loop : Scf.Loop 32 :=
  let c0_i32_64 : BitVec 32 := 0#32
  let c32_i32_65 : BitVec 32 := 32#32
  let v99 : BitVec 32 := Scalar.addi c0_i32_64 c32_i32_65
  let c1_i32_66 : BitVec 32 := 1#32
  ⟨c0_i32_64, v99, c1_i32_66⟩
def k0_off103 (k0_t7 : Fin k0_t7_loop.trips) : Fin 1 → Nat :=
  let c8192_i32_76 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c8192_i32_76 v114
  let v116 : Index := Scalar.indexCast v115
  ![v116.toNat]

def k0_chk49 (v117 : IVec S16 32) : Prop :=
  (∀ a x, ((![v117] : Fin 1 → IVec S16 32) a x).toNat < S100000.size a)
instance k0_chk49.dec : ∀ (v117 : IVec S16 32), Decidable (k0_chk49 v117) := fun v117 => decidable_of_iff' _ (Iff.of_eq (k0_chk49.eq_1 v117))
theorem k0_idx49_inb : ∀ (v117 : IVec S16 32) (k0_hw49 : k0_chk49 v117), ∀ a x, ((![v117] : Fin 1 → IVec S16 32) a x).toNat < S100000.size a := fun v117 k0_hw49 => k0_hw49
def k0_off104 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off105 (k0_t7 : Fin k0_t7_loop.trips) : Fin 1 → Nat :=
  let c8192_i32_77 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c8192_i32_77 v124
  let v126 : Index := Scalar.indexCast v125
  ![v126.toNat]

def k0_chk50 (v127 : IVec S16 32) : Prop :=
  (∀ a x, ((![v127] : Fin 1 → IVec S16 32) a x).toNat < S100000.size a)
instance k0_chk50.dec : ∀ (v127 : IVec S16 32), Decidable (k0_chk50 v127) := fun v127 => decidable_of_iff' _ (Iff.of_eq (k0_chk50.eq_1 v127))
theorem k0_idx50_inb : ∀ (v127 : IVec S16 32) (k0_hw50 : k0_chk50 v127), ∀ a x, ((![v127] : Fin 1 → IVec S16 32) a x).toNat < S100000.size a := fun v127 k0_hw50 => k0_hw50
def k0_off106 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off107 (k0_t7 : Fin k0_t7_loop.trips) : Fin 1 → Nat :=
  let c8192_i32_79 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c8192_i32_79 v134
  let v136 : Index := Scalar.indexCast v135
  ![v136.toNat]

def k0_chk51 (v137 : IVec S16 32) : Prop :=
  (∀ a x, ((![v137] : Fin 1 → IVec S16 32) a x).toNat < S100000.size a)
instance k0_chk51.dec : ∀ (v137 : IVec S16 32), Decidable (k0_chk51 v137) := fun v137 => decidable_of_iff' _ (Iff.of_eq (k0_chk51.eq_1 v137))
theorem k0_idx51_inb : ∀ (v137 : IVec S16 32) (k0_hw51 : k0_chk51 v137), ∀ a x, ((![v137] : Fin 1 → IVec S16 32) a x).toNat < S100000.size a := fun v137 k0_hw51 => k0_hw51
def k0_off108 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off109 (k0_t7 : Fin k0_t7_loop.trips) : Fin 1 → Nat :=
  let c8192_i32_80 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c8192_i32_80 v144
  let v146 : Index := Scalar.indexCast v145
  ![v146.toNat]

def k0_chk52 (v147 : IVec S16 32) : Prop :=
  (∀ a x, ((![v147] : Fin 1 → IVec S16 32) a x).toNat < S100000.size a)
instance k0_chk52.dec : ∀ (v147 : IVec S16 32), Decidable (k0_chk52 v147) := fun v147 => decidable_of_iff' _ (Iff.of_eq (k0_chk52.eq_1 v147))
theorem k0_idx52_inb : ∀ (v147 : IVec S16 32) (k0_hw52 : k0_chk52 v147), ∀ a x, ((![v147] : Fin 1 → IVec S16 32) a x).toNat < S100000.size a := fun v147 k0_hw52 => k0_hw52
def k0_off110 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off111 (k0_t7 : Fin k0_t7_loop.trips) : Fin 1 → Nat :=
  let c8192_i32_81 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c8192_i32_81 v154
  let v156 : Index := Scalar.indexCast v155
  ![v156.toNat]

def k0_chk53 (v157 : IVec S16 32) : Prop :=
  (∀ a x, ((![v157] : Fin 1 → IVec S16 32) a x).toNat < S100000.size a)
instance k0_chk53.dec : ∀ (v157 : IVec S16 32), Decidable (k0_chk53 v157) := fun v157 => decidable_of_iff' _ (Iff.of_eq (k0_chk53.eq_1 v157))
theorem k0_idx53_inb : ∀ (v157 : IVec S16 32) (k0_hw53 : k0_chk53 v157), ∀ a x, ((![v157] : Fin 1 → IVec S16 32) a x).toNat < S100000.size a := fun v157 k0_hw53 => k0_hw53
def k0_off112 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off113 (k0_t7 : Fin k0_t7_loop.trips) : Fin 1 → Nat :=
  let c8192_i32_82 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c8192_i32_82 v164
  let v166 : Index := Scalar.indexCast v165
  ![v166.toNat]

def k0_chk54 (v167 : IVec S16 32) : Prop :=
  (∀ a x, ((![v167] : Fin 1 → IVec S16 32) a x).toNat < S100000.size a)
instance k0_chk54.dec : ∀ (v167 : IVec S16 32), Decidable (k0_chk54 v167) := fun v167 => decidable_of_iff' _ (Iff.of_eq (k0_chk54.eq_1 v167))
theorem k0_idx54_inb : ∀ (v167 : IVec S16 32) (k0_hw54 : k0_chk54 v167), ∀ a x, ((![v167] : Fin 1 → IVec S16 32) a x).toNat < S100000.size a := fun v167 k0_hw54 => k0_hw54
def k0_off114 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off115 (k0_t7 : Fin k0_t7_loop.trips) : Fin 1 → Nat :=
  let c8192_i32_83 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c8192_i32_83 v174
  let v176 : Index := Scalar.indexCast v175
  ![v176.toNat]

def k0_chk55 (v177 : IVec S16 32) : Prop :=
  (∀ a x, ((![v177] : Fin 1 → IVec S16 32) a x).toNat < S100000.size a)
instance k0_chk55.dec : ∀ (v177 : IVec S16 32), Decidable (k0_chk55 v177) := fun v177 => decidable_of_iff' _ (Iff.of_eq (k0_chk55.eq_1 v177))
theorem k0_idx55_inb : ∀ (v177 : IVec S16 32) (k0_hw55 : k0_chk55 v177), ∀ a x, ((![v177] : Fin 1 → IVec S16 32) a x).toNat < S100000.size a := fun v177 k0_hw55 => k0_hw55
def k0_off116 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off117 (k0_t7 : Fin k0_t7_loop.trips) : Fin 1 → Nat :=
  let c8192_i32_84 : BitVec 32 := 8192#32
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c8192_i32_84 v184
  let v186 : Index := Scalar.indexCast v185
  ![v186.toNat]

def k0_chk56 (v187 : IVec S16 32) : Prop :=
  (∀ a x, ((![v187] : Fin 1 → IVec S16 32) a x).toNat < S100000.size a)
instance k0_chk56.dec : ∀ (v187 : IVec S16 32), Decidable (k0_chk56 v187) := fun v187 => decidable_of_iff' _ (Iff.of_eq (k0_chk56.eq_1 v187))
theorem k0_idx56_inb : ∀ (v187 : IVec S16 32) (k0_hw56 : k0_chk56 v187), ∀ a x, ((![v187] : Fin 1 → IVec S16 32) a x).toNat < S100000.size a := fun v187 k0_hw56 => k0_hw56
def k0_off118 (k0_t7 : Fin k0_t7_loop.trips) : Fin 1 → Nat :=
  let c0_i32_64 : BitVec 32 := 0#32
  let c1_i32_66 : BitVec 32 := 1#32
  let arg14 : BitVec 32 := Scf.iv c0_i32_64 c1_i32_66 k0_t7
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
@[reducible] def k0_t8_loop : Scf.Loop 32 :=
  let c0_i32_70 : BitVec 32 := 0#32
  let c32_i32_71 : BitVec 32 := 32#32
  let v105 : BitVec 32 := Scalar.addi c0_i32_70 c32_i32_71
  let c1_i32_72 : BitVec 32 := 1#32
  ⟨c0_i32_70, v105, c1_i32_72⟩
def k0_off119 (k0_t8 : Fin k0_t8_loop.trips) : Fin 1 → Nat :=
  let c12288_i32_76 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c0_i32_75 : BitVec 32 := 0#32
  let v114 : BitVec 32 := Scalar.addi v113 c0_i32_75
  let v115 : BitVec 32 := Scalar.addi c12288_i32_76 v114
  let v116 : Index := Scalar.indexCast v115
  ![v116.toNat]

def k0_chk57 (v117 : IVec S16 32) : Prop :=
  (∀ a x, ((![v117] : Fin 1 → IVec S16 32) a x).toNat < S100000.size a)
instance k0_chk57.dec : ∀ (v117 : IVec S16 32), Decidable (k0_chk57 v117) := fun v117 => decidable_of_iff' _ (Iff.of_eq (k0_chk57.eq_1 v117))
theorem k0_idx57_inb : ∀ (v117 : IVec S16 32) (k0_hw57 : k0_chk57 v117), ∀ a x, ((![v117] : Fin 1 → IVec S16 32) a x).toNat < S100000.size a := fun v117 k0_hw57 => k0_hw57
def k0_off120 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c0_i32_75 : BitVec 32 := 0#32
  let v114 : BitVec 32 := Scalar.addi v113 c0_i32_75
  let v119 : Index := Scalar.indexCast v114
  ![v119.toNat]
def k0_off121 (k0_t8 : Fin k0_t8_loop.trips) : Fin 1 → Nat :=
  let c12288_i32_77 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c16_i32 : BitVec 32 := 16#32
  let v124 : BitVec 32 := Scalar.addi v113 c16_i32
  let v125 : BitVec 32 := Scalar.addi c12288_i32_77 v124
  let v126 : Index := Scalar.indexCast v125
  ![v126.toNat]

def k0_chk58 (v127 : IVec S16 32) : Prop :=
  (∀ a x, ((![v127] : Fin 1 → IVec S16 32) a x).toNat < S100000.size a)
instance k0_chk58.dec : ∀ (v127 : IVec S16 32), Decidable (k0_chk58 v127) := fun v127 => decidable_of_iff' _ (Iff.of_eq (k0_chk58.eq_1 v127))
theorem k0_idx58_inb : ∀ (v127 : IVec S16 32) (k0_hw58 : k0_chk58 v127), ∀ a x, ((![v127] : Fin 1 → IVec S16 32) a x).toNat < S100000.size a := fun v127 k0_hw58 => k0_hw58
def k0_off122 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c16_i32 : BitVec 32 := 16#32
  let v124 : BitVec 32 := Scalar.addi v113 c16_i32
  let v129 : Index := Scalar.indexCast v124
  ![v129.toNat]
def k0_off123 (k0_t8 : Fin k0_t8_loop.trips) : Fin 1 → Nat :=
  let c12288_i32_79 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c32_i32_78 : BitVec 32 := 32#32
  let v134 : BitVec 32 := Scalar.addi v113 c32_i32_78
  let v135 : BitVec 32 := Scalar.addi c12288_i32_79 v134
  let v136 : Index := Scalar.indexCast v135
  ![v136.toNat]

def k0_chk59 (v137 : IVec S16 32) : Prop :=
  (∀ a x, ((![v137] : Fin 1 → IVec S16 32) a x).toNat < S100000.size a)
instance k0_chk59.dec : ∀ (v137 : IVec S16 32), Decidable (k0_chk59 v137) := fun v137 => decidable_of_iff' _ (Iff.of_eq (k0_chk59.eq_1 v137))
theorem k0_idx59_inb : ∀ (v137 : IVec S16 32) (k0_hw59 : k0_chk59 v137), ∀ a x, ((![v137] : Fin 1 → IVec S16 32) a x).toNat < S100000.size a := fun v137 k0_hw59 => k0_hw59
def k0_off124 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c32_i32_78 : BitVec 32 := 32#32
  let v134 : BitVec 32 := Scalar.addi v113 c32_i32_78
  let v139 : Index := Scalar.indexCast v134
  ![v139.toNat]
def k0_off125 (k0_t8 : Fin k0_t8_loop.trips) : Fin 1 → Nat :=
  let c12288_i32_80 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c48_i32 : BitVec 32 := 48#32
  let v144 : BitVec 32 := Scalar.addi v113 c48_i32
  let v145 : BitVec 32 := Scalar.addi c12288_i32_80 v144
  let v146 : Index := Scalar.indexCast v145
  ![v146.toNat]

def k0_chk60 (v147 : IVec S16 32) : Prop :=
  (∀ a x, ((![v147] : Fin 1 → IVec S16 32) a x).toNat < S100000.size a)
instance k0_chk60.dec : ∀ (v147 : IVec S16 32), Decidable (k0_chk60 v147) := fun v147 => decidable_of_iff' _ (Iff.of_eq (k0_chk60.eq_1 v147))
theorem k0_idx60_inb : ∀ (v147 : IVec S16 32) (k0_hw60 : k0_chk60 v147), ∀ a x, ((![v147] : Fin 1 → IVec S16 32) a x).toNat < S100000.size a := fun v147 k0_hw60 => k0_hw60
def k0_off126 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c48_i32 : BitVec 32 := 48#32
  let v144 : BitVec 32 := Scalar.addi v113 c48_i32
  let v149 : Index := Scalar.indexCast v144
  ![v149.toNat]
def k0_off127 (k0_t8 : Fin k0_t8_loop.trips) : Fin 1 → Nat :=
  let c12288_i32_81 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c64_i32 : BitVec 32 := 64#32
  let v154 : BitVec 32 := Scalar.addi v113 c64_i32
  let v155 : BitVec 32 := Scalar.addi c12288_i32_81 v154
  let v156 : Index := Scalar.indexCast v155
  ![v156.toNat]

def k0_chk61 (v157 : IVec S16 32) : Prop :=
  (∀ a x, ((![v157] : Fin 1 → IVec S16 32) a x).toNat < S100000.size a)
instance k0_chk61.dec : ∀ (v157 : IVec S16 32), Decidable (k0_chk61 v157) := fun v157 => decidable_of_iff' _ (Iff.of_eq (k0_chk61.eq_1 v157))
theorem k0_idx61_inb : ∀ (v157 : IVec S16 32) (k0_hw61 : k0_chk61 v157), ∀ a x, ((![v157] : Fin 1 → IVec S16 32) a x).toNat < S100000.size a := fun v157 k0_hw61 => k0_hw61
def k0_off128 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c64_i32 : BitVec 32 := 64#32
  let v154 : BitVec 32 := Scalar.addi v113 c64_i32
  let v159 : Index := Scalar.indexCast v154
  ![v159.toNat]
def k0_off129 (k0_t8 : Fin k0_t8_loop.trips) : Fin 1 → Nat :=
  let c12288_i32_82 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c80_i32 : BitVec 32 := 80#32
  let v164 : BitVec 32 := Scalar.addi v113 c80_i32
  let v165 : BitVec 32 := Scalar.addi c12288_i32_82 v164
  let v166 : Index := Scalar.indexCast v165
  ![v166.toNat]

def k0_chk62 (v167 : IVec S16 32) : Prop :=
  (∀ a x, ((![v167] : Fin 1 → IVec S16 32) a x).toNat < S100000.size a)
instance k0_chk62.dec : ∀ (v167 : IVec S16 32), Decidable (k0_chk62 v167) := fun v167 => decidable_of_iff' _ (Iff.of_eq (k0_chk62.eq_1 v167))
theorem k0_idx62_inb : ∀ (v167 : IVec S16 32) (k0_hw62 : k0_chk62 v167), ∀ a x, ((![v167] : Fin 1 → IVec S16 32) a x).toNat < S100000.size a := fun v167 k0_hw62 => k0_hw62
def k0_off130 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c80_i32 : BitVec 32 := 80#32
  let v164 : BitVec 32 := Scalar.addi v113 c80_i32
  let v169 : Index := Scalar.indexCast v164
  ![v169.toNat]
def k0_off131 (k0_t8 : Fin k0_t8_loop.trips) : Fin 1 → Nat :=
  let c12288_i32_83 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c96_i32 : BitVec 32 := 96#32
  let v174 : BitVec 32 := Scalar.addi v113 c96_i32
  let v175 : BitVec 32 := Scalar.addi c12288_i32_83 v174
  let v176 : Index := Scalar.indexCast v175
  ![v176.toNat]

def k0_chk63 (v177 : IVec S16 32) : Prop :=
  (∀ a x, ((![v177] : Fin 1 → IVec S16 32) a x).toNat < S100000.size a)
instance k0_chk63.dec : ∀ (v177 : IVec S16 32), Decidable (k0_chk63 v177) := fun v177 => decidable_of_iff' _ (Iff.of_eq (k0_chk63.eq_1 v177))
theorem k0_idx63_inb : ∀ (v177 : IVec S16 32) (k0_hw63 : k0_chk63 v177), ∀ a x, ((![v177] : Fin 1 → IVec S16 32) a x).toNat < S100000.size a := fun v177 k0_hw63 => k0_hw63
def k0_off132 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c96_i32 : BitVec 32 := 96#32
  let v174 : BitVec 32 := Scalar.addi v113 c96_i32
  let v179 : Index := Scalar.indexCast v174
  ![v179.toNat]
def k0_off133 (k0_t8 : Fin k0_t8_loop.trips) : Fin 1 → Nat :=
  let c12288_i32_84 : BitVec 32 := 12288#32
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c112_i32 : BitVec 32 := 112#32
  let v184 : BitVec 32 := Scalar.addi v113 c112_i32
  let v185 : BitVec 32 := Scalar.addi c12288_i32_84 v184
  let v186 : Index := Scalar.indexCast v185
  ![v186.toNat]

def k0_chk64 (v187 : IVec S16 32) : Prop :=
  (∀ a x, ((![v187] : Fin 1 → IVec S16 32) a x).toNat < S100000.size a)
instance k0_chk64.dec : ∀ (v187 : IVec S16 32), Decidable (k0_chk64 v187) := fun v187 => decidable_of_iff' _ (Iff.of_eq (k0_chk64.eq_1 v187))
theorem k0_idx64_inb : ∀ (v187 : IVec S16 32) (k0_hw64 : k0_chk64 v187), ∀ a x, ((![v187] : Fin 1 → IVec S16 32) a x).toNat < S100000.size a := fun v187 k0_hw64 => k0_hw64
def k0_off134 (k0_t8 : Fin k0_t8_loop.trips) : Fin 1 → Nat :=
  let c0_i32_70 : BitVec 32 := 0#32
  let c1_i32_72 : BitVec 32 := 1#32
  let arg14 : BitVec 32 := Scf.iv c0_i32_70 c1_i32_72 k0_t8
  let c128_i32 : BitVec 32 := 128#32
  let v113 : BitVec 32 := Scalar.muli arg14 c128_i32
  let c112_i32 : BitVec 32 := 112#32
  let v184 : BitVec 32 := Scalar.addi v113 c112_i32
  let v189 : Index := Scalar.indexCast v184
  ![v189.toNat]
def k0_off135 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_75_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x64_S64x16384_1_0 : S16384x64.Transposes [1, 0] S64x16384
  transposes_S100000x64_S64x100000_1_0 : S100000x64.Transposes [1, 0] S64x100000
  squeezes_S1x100000_S100000 : S1x100000.Squeezes S100000
  squeezes_S1x4096_S4096 : S1x4096.Squeezes S4096
  h_S16 : 0 < S16.numel
  h_S100000 : 0 < S100000.numel
  inb_S16_S16_0 : ∀ a, (![0] : Fin 1 → Nat) a + S16.size a ≤ S16.size a
  squeezes_S1x16_S16 : S1x16.Squeezes S16
  reducesTo_S32x16_S_d0_1 : S32x16.ReducesTo [0, 1] S_
  h_S_ : 0 < S_.numel
  hcc0_scratch5 : 0 + S_.numel ≤ 5
  hcc0_scratch6 : 1 + S_.numel ≤ 5
  hcc0_scratch7 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x100000.size a ≤ S64x100000.size a
  k0_off2_inb : ∀ i : grid0.Coords, ∀ (r : Fin 2), ∀ a, (k0_off2 i (BitVec.ofNat 32 r.val)) a + S1x4096.size a ≤ S64x16384.size a
  k0_off3_inb : ∀ i : grid0.Coords, ∀ (r : Fin 2), ∀ a, (k0_off3 i (BitVec.ofNat 32 r.val)) a + S1x4096.size a ≤ S64x16384.size a
  k0_t1_ok : k0_t1_loop.OK
  k0_off4_inb : ∀ k0_t1 : Fin k0_t1_loop.trips, ∀ a, (k0_off4 k0_t1) a + S16.size a ≤ S16384.size a
  k0_off5_inb : ∀ k0_t1 : Fin k0_t1_loop.trips, ∀ a, (k0_off5 k0_t1) a + S16.size a ≤ S4096.size a
  k0_off6_inb : ∀ k0_t1 : Fin k0_t1_loop.trips, ∀ a, (k0_off6 k0_t1) a + S16.size a ≤ S16384.size a
  k0_off7_inb : ∀ k0_t1 : Fin k0_t1_loop.trips, ∀ a, (k0_off7 k0_t1) a + S16.size a ≤ S4096.size a
  k0_off8_inb : ∀ k0_t1 : Fin k0_t1_loop.trips, ∀ a, (k0_off8 k0_t1) a + S16.size a ≤ S16384.size a
  k0_off9_inb : ∀ k0_t1 : Fin k0_t1_loop.trips, ∀ a, (k0_off9 k0_t1) a + S16.size a ≤ S4096.size a
  k0_off10_inb : ∀ k0_t1 : Fin k0_t1_loop.trips, ∀ a, (k0_off10 k0_t1) a + S16.size a ≤ S16384.size a
  k0_off11_inb : ∀ k0_t1 : Fin k0_t1_loop.trips, ∀ a, (k0_off11 k0_t1) a + S16.size a ≤ S4096.size a
  k0_off12_inb : ∀ k0_t1 : Fin k0_t1_loop.trips, ∀ a, (k0_off12 k0_t1) a + S16.size a ≤ S16384.size a
  k0_off13_inb : ∀ k0_t1 : Fin k0_t1_loop.trips, ∀ a, (k0_off13 k0_t1) a + S16.size a ≤ S4096.size a
  k0_off14_inb : ∀ k0_t1 : Fin k0_t1_loop.trips, ∀ a, (k0_off14 k0_t1) a + S16.size a ≤ S16384.size a
  k0_off15_inb : ∀ k0_t1 : Fin k0_t1_loop.trips, ∀ a, (k0_off15 k0_t1) a + S16.size a ≤ S4096.size a
  k0_off16_inb : ∀ k0_t1 : Fin k0_t1_loop.trips, ∀ a, (k0_off16 k0_t1) a + S16.size a ≤ S16384.size a
  k0_off17_inb : ∀ k0_t1 : Fin k0_t1_loop.trips, ∀ a, (k0_off17 k0_t1) a + S16.size a ≤ S4096.size a
  k0_off18_inb : ∀ k0_t1 : Fin k0_t1_loop.trips, ∀ a, (k0_off18 k0_t1) a + S16.size a ≤ S16384.size a
  k0_off19_inb : ∀ k0_t1 : Fin k0_t1_loop.trips, ∀ a, (k0_off19 k0_t1) a + S16.size a ≤ S4096.size a
  k0_off20_inb : ∀ i : grid0.Coords, ∀ (r : Fin 2), ∀ a, (k0_off20 i (BitVec.ofNat 32 r.val)) a + S1x4096.size a ≤ S64x16384.size a
  k0_t2_ok : k0_t2_loop.OK
  k0_off21_inb : ∀ k0_t2 : Fin k0_t2_loop.trips, ∀ a, (k0_off21 k0_t2) a + S16.size a ≤ S16384.size a
  k0_off22_inb : ∀ k0_t2 : Fin k0_t2_loop.trips, ∀ a, (k0_off22 k0_t2) a + S16.size a ≤ S4096.size a
  k0_off23_inb : ∀ k0_t2 : Fin k0_t2_loop.trips, ∀ a, (k0_off23 k0_t2) a + S16.size a ≤ S16384.size a
  k0_off24_inb : ∀ k0_t2 : Fin k0_t2_loop.trips, ∀ a, (k0_off24 k0_t2) a + S16.size a ≤ S4096.size a
  k0_off25_inb : ∀ k0_t2 : Fin k0_t2_loop.trips, ∀ a, (k0_off25 k0_t2) a + S16.size a ≤ S16384.size a
  k0_off26_inb : ∀ k0_t2 : Fin k0_t2_loop.trips, ∀ a, (k0_off26 k0_t2) a + S16.size a ≤ S4096.size a
  k0_off27_inb : ∀ k0_t2 : Fin k0_t2_loop.trips, ∀ a, (k0_off27 k0_t2) a + S16.size a ≤ S16384.size a
  k0_off28_inb : ∀ k0_t2 : Fin k0_t2_loop.trips, ∀ a, (k0_off28 k0_t2) a + S16.size a ≤ S4096.size a
  k0_off29_inb : ∀ k0_t2 : Fin k0_t2_loop.trips, ∀ a, (k0_off29 k0_t2) a + S16.size a ≤ S16384.size a
  k0_off30_inb : ∀ k0_t2 : Fin k0_t2_loop.trips, ∀ a, (k0_off30 k0_t2) a + S16.size a ≤ S4096.size a
  k0_off31_inb : ∀ k0_t2 : Fin k0_t2_loop.trips, ∀ a, (k0_off31 k0_t2) a + S16.size a ≤ S16384.size a
  k0_off32_inb : ∀ k0_t2 : Fin k0_t2_loop.trips, ∀ a, (k0_off32 k0_t2) a + S16.size a ≤ S4096.size a
  k0_off33_inb : ∀ k0_t2 : Fin k0_t2_loop.trips, ∀ a, (k0_off33 k0_t2) a + S16.size a ≤ S16384.size a
  k0_off34_inb : ∀ k0_t2 : Fin k0_t2_loop.trips, ∀ a, (k0_off34 k0_t2) a + S16.size a ≤ S4096.size a
  k0_off35_inb : ∀ k0_t2 : Fin k0_t2_loop.trips, ∀ a, (k0_off35 k0_t2) a + S16.size a ≤ S16384.size a
  k0_off36_inb : ∀ k0_t2 : Fin k0_t2_loop.trips, ∀ a, (k0_off36 k0_t2) a + S16.size a ≤ S4096.size a
  k0_off37_inb : ∀ i : grid0.Coords, ∀ (r : Fin 2), ∀ a, (k0_off37 i (BitVec.ofNat 32 r.val)) a + S1x4096.size a ≤ S64x16384.size a
  k0_t3_ok : k0_t3_loop.OK
  k0_off38_inb : ∀ k0_t3 : Fin k0_t3_loop.trips, ∀ a, (k0_off38 k0_t3) a + S16.size a ≤ S16384.size a
  k0_off39_inb : ∀ k0_t3 : Fin k0_t3_loop.trips, ∀ a, (k0_off39 k0_t3) a + S16.size a ≤ S4096.size a
  k0_off40_inb : ∀ k0_t3 : Fin k0_t3_loop.trips, ∀ a, (k0_off40 k0_t3) a + S16.size a ≤ S16384.size a
  k0_off41_inb : ∀ k0_t3 : Fin k0_t3_loop.trips, ∀ a, (k0_off41 k0_t3) a + S16.size a ≤ S4096.size a
  k0_off42_inb : ∀ k0_t3 : Fin k0_t3_loop.trips, ∀ a, (k0_off42 k0_t3) a + S16.size a ≤ S16384.size a
  k0_off43_inb : ∀ k0_t3 : Fin k0_t3_loop.trips, ∀ a, (k0_off43 k0_t3) a + S16.size a ≤ S4096.size a
  k0_off44_inb : ∀ k0_t3 : Fin k0_t3_loop.trips, ∀ a, (k0_off44 k0_t3) a + S16.size a ≤ S16384.size a
  k0_off45_inb : ∀ k0_t3 : Fin k0_t3_loop.trips, ∀ a, (k0_off45 k0_t3) a + S16.size a ≤ S4096.size a
  k0_off46_inb : ∀ k0_t3 : Fin k0_t3_loop.trips, ∀ a, (k0_off46 k0_t3) a + S16.size a ≤ S16384.size a
  k0_off47_inb : ∀ k0_t3 : Fin k0_t3_loop.trips, ∀ a, (k0_off47 k0_t3) a + S16.size a ≤ S4096.size a
  k0_off48_inb : ∀ k0_t3 : Fin k0_t3_loop.trips, ∀ a, (k0_off48 k0_t3) a + S16.size a ≤ S16384.size a
  k0_off49_inb : ∀ k0_t3 : Fin k0_t3_loop.trips, ∀ a, (k0_off49 k0_t3) a + S16.size a ≤ S4096.size a
  k0_off50_inb : ∀ k0_t3 : Fin k0_t3_loop.trips, ∀ a, (k0_off50 k0_t3) a + S16.size a ≤ S16384.size a
  k0_off51_inb : ∀ k0_t3 : Fin k0_t3_loop.trips, ∀ a, (k0_off51 k0_t3) a + S16.size a ≤ S4096.size a
  k0_off52_inb : ∀ k0_t3 : Fin k0_t3_loop.trips, ∀ a, (k0_off52 k0_t3) a + S16.size a ≤ S16384.size a
  k0_off53_inb : ∀ k0_t3 : Fin k0_t3_loop.trips, ∀ a, (k0_off53 k0_t3) a + S16.size a ≤ S4096.size a
  k0_t4_ok : k0_t4_loop.OK
  k0_off54_inb : ∀ k0_t4 : Fin k0_t4_loop.trips, ∀ a, (k0_off54 k0_t4) a + S16.size a ≤ S16384.size a
  k0_off55_inb : ∀ k0_t4 : Fin k0_t4_loop.trips, ∀ a, (k0_off55 k0_t4) a + S16.size a ≤ S4096.size a
  k0_off56_inb : ∀ k0_t4 : Fin k0_t4_loop.trips, ∀ a, (k0_off56 k0_t4) a + S16.size a ≤ S16384.size a
  k0_off57_inb : ∀ k0_t4 : Fin k0_t4_loop.trips, ∀ a, (k0_off57 k0_t4) a + S16.size a ≤ S4096.size a
  k0_off58_inb : ∀ k0_t4 : Fin k0_t4_loop.trips, ∀ a, (k0_off58 k0_t4) a + S16.size a ≤ S16384.size a
  k0_off59_inb : ∀ k0_t4 : Fin k0_t4_loop.trips, ∀ a, (k0_off59 k0_t4) a + S16.size a ≤ S4096.size a
  k0_off60_inb : ∀ k0_t4 : Fin k0_t4_loop.trips, ∀ a, (k0_off60 k0_t4) a + S16.size a ≤ S16384.size a
  k0_off61_inb : ∀ k0_t4 : Fin k0_t4_loop.trips, ∀ a, (k0_off61 k0_t4) a + S16.size a ≤ S4096.size a
  k0_off62_inb : ∀ k0_t4 : Fin k0_t4_loop.trips, ∀ a, (k0_off62 k0_t4) a + S16.size a ≤ S16384.size a
  k0_off63_inb : ∀ k0_t4 : Fin k0_t4_loop.trips, ∀ a, (k0_off63 k0_t4) a + S16.size a ≤ S4096.size a
  k0_off64_inb : ∀ k0_t4 : Fin k0_t4_loop.trips, ∀ a, (k0_off64 k0_t4) a + S16.size a ≤ S16384.size a
  k0_off65_inb : ∀ k0_t4 : Fin k0_t4_loop.trips, ∀ a, (k0_off65 k0_t4) a + S16.size a ≤ S4096.size a
  k0_off66_inb : ∀ k0_t4 : Fin k0_t4_loop.trips, ∀ a, (k0_off66 k0_t4) a + S16.size a ≤ S16384.size a
  k0_off67_inb : ∀ k0_t4 : Fin k0_t4_loop.trips, ∀ a, (k0_off67 k0_t4) a + S16.size a ≤ S4096.size a
  k0_off68_inb : ∀ k0_t4 : Fin k0_t4_loop.trips, ∀ a, (k0_off68 k0_t4) a + S16.size a ≤ S16384.size a
  k0_off69_inb : ∀ k0_t4 : Fin k0_t4_loop.trips, ∀ a, (k0_off69 k0_t4) a + S16.size a ≤ S4096.size a
  k0_off70_inb : ∀ i : grid0.Coords, ∀ a, (k0_off70 i) a + S1x100000.size a ≤ S64x100000.size a
  k0_t5_ok : k0_t5_loop.OK
  k0_off71_inb : ∀ k0_t5 : Fin k0_t5_loop.trips, ∀ a, (k0_off71 k0_t5) a + S16.size a ≤ S16384.size a
  k0_off72_inb : ∀ k0_t5 : Fin k0_t5_loop.trips, ∀ a, (k0_off72 k0_t5) a + S16.size a ≤ S4096.size a
  k0_off73_inb : ∀ k0_t5 : Fin k0_t5_loop.trips, ∀ a, (k0_off73 k0_t5) a + S16.size a ≤ S16384.size a
  k0_off74_inb : ∀ k0_t5 : Fin k0_t5_loop.trips, ∀ a, (k0_off74 k0_t5) a + S16.size a ≤ S4096.size a
  k0_off75_inb : ∀ k0_t5 : Fin k0_t5_loop.trips, ∀ a, (k0_off75 k0_t5) a + S16.size a ≤ S16384.size a
  k0_off76_inb : ∀ k0_t5 : Fin k0_t5_loop.trips, ∀ a, (k0_off76 k0_t5) a + S16.size a ≤ S4096.size a
  k0_off77_inb : ∀ k0_t5 : Fin k0_t5_loop.trips, ∀ a, (k0_off77 k0_t5) a + S16.size a ≤ S16384.size a
  k0_off78_inb : ∀ k0_t5 : Fin k0_t5_loop.trips, ∀ a, (k0_off78 k0_t5) a + S16.size a ≤ S4096.size a
  k0_off79_inb : ∀ k0_t5 : Fin k0_t5_loop.trips, ∀ a, (k0_off79 k0_t5) a + S16.size a ≤ S16384.size a
  k0_off80_inb : ∀ k0_t5 : Fin k0_t5_loop.trips, ∀ a, (k0_off80 k0_t5) a + S16.size a ≤ S4096.size a
  k0_off81_inb : ∀ k0_t5 : Fin k0_t5_loop.trips, ∀ a, (k0_off81 k0_t5) a + S16.size a ≤ S16384.size a
  k0_off82_inb : ∀ k0_t5 : Fin k0_t5_loop.trips, ∀ a, (k0_off82 k0_t5) a + S16.size a ≤ S4096.size a
  k0_off83_inb : ∀ k0_t5 : Fin k0_t5_loop.trips, ∀ a, (k0_off83 k0_t5) a + S16.size a ≤ S16384.size a
  k0_off84_inb : ∀ k0_t5 : Fin k0_t5_loop.trips, ∀ a, (k0_off84 k0_t5) a + S16.size a ≤ S4096.size a
  k0_off85_inb : ∀ k0_t5 : Fin k0_t5_loop.trips, ∀ a, (k0_off85 k0_t5) a + S16.size a ≤ S16384.size a
  k0_off86_inb : ∀ k0_t5 : Fin k0_t5_loop.trips, ∀ a, (k0_off86 k0_t5) a + S16.size a ≤ S4096.size a
  k0_t6_ok : k0_t6_loop.OK
  k0_off87_inb : ∀ k0_t6 : Fin k0_t6_loop.trips, ∀ a, (k0_off87 k0_t6) a + S16.size a ≤ S16384.size a
  k0_off88_inb : ∀ k0_t6 : Fin k0_t6_loop.trips, ∀ a, (k0_off88 k0_t6) a + S16.size a ≤ S4096.size a
  k0_off89_inb : ∀ k0_t6 : Fin k0_t6_loop.trips, ∀ a, (k0_off89 k0_t6) a + S16.size a ≤ S16384.size a
  k0_off90_inb : ∀ k0_t6 : Fin k0_t6_loop.trips, ∀ a, (k0_off90 k0_t6) a + S16.size a ≤ S4096.size a
  k0_off91_inb : ∀ k0_t6 : Fin k0_t6_loop.trips, ∀ a, (k0_off91 k0_t6) a + S16.size a ≤ S16384.size a
  k0_off92_inb : ∀ k0_t6 : Fin k0_t6_loop.trips, ∀ a, (k0_off92 k0_t6) a + S16.size a ≤ S4096.size a
  k0_off93_inb : ∀ k0_t6 : Fin k0_t6_loop.trips, ∀ a, (k0_off93 k0_t6) a + S16.size a ≤ S16384.size a
  k0_off94_inb : ∀ k0_t6 : Fin k0_t6_loop.trips, ∀ a, (k0_off94 k0_t6) a + S16.size a ≤ S4096.size a
  k0_off95_inb : ∀ k0_t6 : Fin k0_t6_loop.trips, ∀ a, (k0_off95 k0_t6) a + S16.size a ≤ S16384.size a
  k0_off96_inb : ∀ k0_t6 : Fin k0_t6_loop.trips, ∀ a, (k0_off96 k0_t6) a + S16.size a ≤ S4096.size a
  k0_off97_inb : ∀ k0_t6 : Fin k0_t6_loop.trips, ∀ a, (k0_off97 k0_t6) a + S16.size a ≤ S16384.size a
  k0_off98_inb : ∀ k0_t6 : Fin k0_t6_loop.trips, ∀ a, (k0_off98 k0_t6) a + S16.size a ≤ S4096.size a
  k0_off99_inb : ∀ k0_t6 : Fin k0_t6_loop.trips, ∀ a, (k0_off99 k0_t6) a + S16.size a ≤ S16384.size a
  k0_off100_inb : ∀ k0_t6 : Fin k0_t6_loop.trips, ∀ a, (k0_off100 k0_t6) a + S16.size a ≤ S4096.size a
  k0_off101_inb : ∀ k0_t6 : Fin k0_t6_loop.trips, ∀ a, (k0_off101 k0_t6) a + S16.size a ≤ S16384.size a
  k0_off102_inb : ∀ k0_t6 : Fin k0_t6_loop.trips, ∀ a, (k0_off102 k0_t6) a + S16.size a ≤ S4096.size a
  k0_t7_ok : k0_t7_loop.OK
  k0_off103_inb : ∀ k0_t7 : Fin k0_t7_loop.trips, ∀ a, (k0_off103 k0_t7) a + S16.size a ≤ S16384.size a
  k0_off104_inb : ∀ k0_t7 : Fin k0_t7_loop.trips, ∀ a, (k0_off104 k0_t7) a + S16.size a ≤ S4096.size a
  k0_off105_inb : ∀ k0_t7 : Fin k0_t7_loop.trips, ∀ a, (k0_off105 k0_t7) a + S16.size a ≤ S16384.size a
  k0_off106_inb : ∀ k0_t7 : Fin k0_t7_loop.trips, ∀ a, (k0_off106 k0_t7) a + S16.size a ≤ S4096.size a
  k0_off107_inb : ∀ k0_t7 : Fin k0_t7_loop.trips, ∀ a, (k0_off107 k0_t7) a + S16.size a ≤ S16384.size a
  k0_off108_inb : ∀ k0_t7 : Fin k0_t7_loop.trips, ∀ a, (k0_off108 k0_t7) a + S16.size a ≤ S4096.size a
  k0_off109_inb : ∀ k0_t7 : Fin k0_t7_loop.trips, ∀ a, (k0_off109 k0_t7) a + S16.size a ≤ S16384.size a
  k0_off110_inb : ∀ k0_t7 : Fin k0_t7_loop.trips, ∀ a, (k0_off110 k0_t7) a + S16.size a ≤ S4096.size a
  k0_off111_inb : ∀ k0_t7 : Fin k0_t7_loop.trips, ∀ a, (k0_off111 k0_t7) a + S16.size a ≤ S16384.size a
  k0_off112_inb : ∀ k0_t7 : Fin k0_t7_loop.trips, ∀ a, (k0_off112 k0_t7) a + S16.size a ≤ S4096.size a
  k0_off113_inb : ∀ k0_t7 : Fin k0_t7_loop.trips, ∀ a, (k0_off113 k0_t7) a + S16.size a ≤ S16384.size a
  k0_off114_inb : ∀ k0_t7 : Fin k0_t7_loop.trips, ∀ a, (k0_off114 k0_t7) a + S16.size a ≤ S4096.size a
  k0_off115_inb : ∀ k0_t7 : Fin k0_t7_loop.trips, ∀ a, (k0_off115 k0_t7) a + S16.size a ≤ S16384.size a
  k0_off116_inb : ∀ k0_t7 : Fin k0_t7_loop.trips, ∀ a, (k0_off116 k0_t7) a + S16.size a ≤ S4096.size a
  k0_off117_inb : ∀ k0_t7 : Fin k0_t7_loop.trips, ∀ a, (k0_off117 k0_t7) a + S16.size a ≤ S16384.size a
  k0_off118_inb : ∀ k0_t7 : Fin k0_t7_loop.trips, ∀ a, (k0_off118 k0_t7) a + S16.size a ≤ S4096.size a
  k0_t8_ok : k0_t8_loop.OK
  k0_off119_inb : ∀ k0_t8 : Fin k0_t8_loop.trips, ∀ a, (k0_off119 k0_t8) a + S16.size a ≤ S16384.size a
  k0_off120_inb : ∀ k0_t8 : Fin k0_t8_loop.trips, ∀ a, (k0_off120 k0_t8) a + S16.size a ≤ S4096.size a
  k0_off121_inb : ∀ k0_t8 : Fin k0_t8_loop.trips, ∀ a, (k0_off121 k0_t8) a + S16.size a ≤ S16384.size a
  k0_off122_inb : ∀ k0_t8 : Fin k0_t8_loop.trips, ∀ a, (k0_off122 k0_t8) a + S16.size a ≤ S4096.size a
  k0_off123_inb : ∀ k0_t8 : Fin k0_t8_loop.trips, ∀ a, (k0_off123 k0_t8) a + S16.size a ≤ S16384.size a
  k0_off124_inb : ∀ k0_t8 : Fin k0_t8_loop.trips, ∀ a, (k0_off124 k0_t8) a + S16.size a ≤ S4096.size a
  k0_off125_inb : ∀ k0_t8 : Fin k0_t8_loop.trips, ∀ a, (k0_off125 k0_t8) a + S16.size a ≤ S16384.size a
  k0_off126_inb : ∀ k0_t8 : Fin k0_t8_loop.trips, ∀ a, (k0_off126 k0_t8) a + S16.size a ≤ S4096.size a
  k0_off127_inb : ∀ k0_t8 : Fin k0_t8_loop.trips, ∀ a, (k0_off127 k0_t8) a + S16.size a ≤ S16384.size a
  k0_off128_inb : ∀ k0_t8 : Fin k0_t8_loop.trips, ∀ a, (k0_off128 k0_t8) a + S16.size a ≤ S4096.size a
  k0_off129_inb : ∀ k0_t8 : Fin k0_t8_loop.trips, ∀ a, (k0_off129 k0_t8) a + S16.size a ≤ S16384.size a
  k0_off130_inb : ∀ k0_t8 : Fin k0_t8_loop.trips, ∀ a, (k0_off130 k0_t8) a + S16.size a ≤ S4096.size a
  k0_off131_inb : ∀ k0_t8 : Fin k0_t8_loop.trips, ∀ a, (k0_off131 k0_t8) a + S16.size a ≤ S16384.size a
  k0_off132_inb : ∀ k0_t8 : Fin k0_t8_loop.trips, ∀ a, (k0_off132 k0_t8) a + S16.size a ≤ S4096.size a
  k0_off133_inb : ∀ k0_t8 : Fin k0_t8_loop.trips, ∀ a, (k0_off133 k0_t8) a + S16.size a ≤ S16384.size a
  k0_off134_inb : ∀ k0_t8 : Fin k0_t8_loop.trips, ∀ a, (k0_off134 k0_t8) a + S16.size a ≤ S4096.size a
  k0_off135_inb : ∀ i : grid0.Coords, ∀ a, (k0_off135 i) a + S1x16.size a ≤ S32x16.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S16384x64 : Shape := ⟨2, ![16384, 64]⟩
abbrev S16384 : Shape := ⟨1, ![16384]⟩
abbrev S100000x64 : Shape := ⟨2, ![100000, 64]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S100000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S_d0_1 : S16384x64.ReducesTo [0, 1] S_
  gather_S100000x64_S16384x1_S16384x64_1_0_n_n_0_1_164_wf : GatherDims.WF S100000x64 S16384x1 S16384x64 [1] [0] [] [0] [] 1 ![1, 64]

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

class Facts : Prop extends Facts₀ where

variable [Facts]
-- ==== Proof.Spec.lean ====
/-
  The specification both programs are compared with, stated over the real numbers.

  For feature vectors x_i (64 components each), integer class labels lab_i and class centres c_k (64 components
  each), the centre loss is
      L(x, lab, c) = ( sum over samples i and components j of (x_i[j] - c_{lab_i}[j])^2 ) / 2 / 16384 .
  Every summand is a square of a difference of finite numbers, so the whole expression lives in the reals; the two
  divisions are one division by 32768 = 2 * 16384.

  An input array satisfying the precondition (every float finite, every label in [0, 100000)) is the image of real
  arrays and of a label function into Fin 100000: that is what Decoded records.
-/
import Mathlib
import Idealize.ShloMosaic.PureOps.Ideal
import Idealize.ShloMosaic.Lib.ValueIdx

noncomputable section

namespace Cert.Proof.Spec

open Idealize.ShloMosaic Idealize.ShloMosaic.ValueIdx

/-- The centre loss over the reals: the sum of squared distances of each sample to the centre its label names,
    halved and averaged over the 16384 samples. -/
def lossR (xr : Fin 16384 → Fin 64 → ℝ) (lb : Fin 16384 → Fin 100000) (cr : Fin 100000 → Fin 64 → ℝ) : ℝ :=
  (∑ i : Fin 16384, ∑ j : Fin 64, (xr i j - cr (lb i) j) ^ 2) / 32768

/-- Input arrays in the precondition's domain, read as real arrays and a label function: every feature and every
    centre component is (the image of) a real number, and every label word, read as a natural number, names one of
    the 100000 centres. -/
structure Decoded (x : FVec Ideal ⟨2, ![16384, 64]⟩ .f32) (lab : IVec ⟨1, ![16384]⟩ 32)
    (c : FVec Ideal ⟨2, ![100000, 64]⟩ .f32) where
  xr : Fin 16384 → Fin 64 → ℝ
  cr : Fin 100000 → Fin 64 → ℝ
  lb : Fin 16384 → Fin 100000
  hx : ∀ (i : Fin 16384) (j : Fin 64), x (ix2 i j) = ((xr i j : ℝ) : EReal)
  hc : ∀ (k : Fin 100000) (j : Fin 64), c (ix2 k j) = ((cr k j : ℝ) : EReal)
  hl : ∀ i : Fin 16384, (lab (ix1 i)).toNat = (lb i).val

/-- The loss of decoded inputs, as an extended real. -/
def Decoded.loss {x : FVec Ideal ⟨2, ![16384, 64]⟩ .f32} {lab : IVec ⟨1, ![16384]⟩ 32}
    {c : FVec Ideal ⟨2, ![100000, 64]⟩ .f32} (D : Decoded x lab c) : EReal :=
  ((lossR D.xr D.lb D.cr : ℝ) : EReal)

end Cert.Proof.Spec

end
-- ==== Proof.PreDecode.lean ====
/-
  What the certificate's precondition says about its three input arrays.

  The precondition is a one-bit value: the conjunction of "every feature has absolute value strictly below
  +infinity", "every centre component has absolute value strictly below +infinity" and "every label l satisfies
  0 <= l and l <= 99999 as a signed 32-bit number", each conjunct a reduction by "and" over all elements. Assuming
  the value is 1, every element passes its test.

  Two consequences are drawn. At any float instance, a label word that is nonnegative and at most 99999 as a signed
  number has its top bit clear, so read as a natural number it is below 100000. At the extended-real instance, the
  absolute value of v is max v (-v), which is +infinity at both infinities; so a value whose absolute value is
  strictly below +infinity is a real number. Hence the feature and centre arrays are images of real arrays, and the
  labels are a function into Fin 100000: the decoded form of the inputs.
-/
import Mathlib
import Idealize.ShloMosaic.Lib.ReduceAll
import Idealize.ShloMosaic.Lib.ValueIdx
import Idealize.ShloMosaic.PureOps.Ideal
import proofs.«204200_g67499706024535_cont_9to1c4b_715_37_alg».proof.Proof.Gen.Pre_input_domain
import proofs.«204200_g67499706024535_cont_9to1c4b_715_37_alg».proof.Proof.Spec

noncomputable section

namespace Cert.Proof.PreDecode

open Idealize.ShloMosaic Idealize.ShloMosaic.ValueIdx

/-- The rank-0 shape has exactly one index. -/
instance : Subsingleton (Cert.Pre_input_domain.S_).Idx := ⟨fun a b => funext fun d => d.elim0⟩

/-- The precondition, read element by element, at any float instance: each feature and each centre component
    compares below the pattern of +infinity in absolute value, and each label word passes both signed range tests. -/
theorem pre_elems {F : FTy → Type} [FloatOps F] (x : FVec F ⟨2, ![16384, 64]⟩ .f32) (lab : IVec ⟨1, ![16384]⟩ 32)
    (c : FVec F ⟨2, ![100000, 64]⟩ .f32)
    (h : Cert.Pre_input_domain.fn (F := F) x lab c = fun _ => 1#1) :
    (∀ i, FloatOps.cmpf .olt (FloatOps.hostAbsf (x i)) (FloatOps.ofBits (F := F) .f32 0x7F800000#32) = 1#1) ∧
    (∀ i, FloatOps.cmpf .olt (FloatOps.hostAbsf (c i)) (FloatOps.ofBits (F := F) .f32 0x7F800000#32) = 1#1) ∧
    (∀ j, IntOp.andi (IntOp.cmpi .sge (lab j) 0#32) (IntOp.cmpi .sle (lab j) 99999#32) = 1#1) := by
  have e := congrFun h ix0
  dsimp only [Cert.Pre_input_domain.fn] at e
  simp only [andi] at e
  rw [IntOp.andi_eq_one, IntOp.andi_eq_one] at e
  obtain ⟨⟨hx, hc⟩, hl⟩ := e
  exact ⟨fun i => Host.reduce_andi_all _ _ _ _ _ hx i, fun i => Host.reduce_andi_all _ _ _ _ _ hc i,
    fun j => Host.reduce_andi_all _ _ _ _ _ hl j⟩

/-- A 32-bit word that is at least 0 and at most 99999 as a signed number is below 100000 as an unsigned one:
    a nonnegative signed word has its top bit clear, so both readings agree. -/
theorem word_inb (v : BitVec 32)
    (e : IntOp.andi (IntOp.cmpi .sge v 0#32) (IntOp.cmpi .sle v 99999#32) = 1#1) : v.toNat < 100000 := by
  rw [IntOp.andi_eq_one, IntOp.cmpi_sge, IntOp.cmpi_sle] at e
  obtain ⟨h0, h1⟩ := e
  have hz : (0#32 : BitVec 32).toInt = 0 := by decide
  have hn : (99999#32 : BitVec 32).toInt = 99999 := by decide
  rw [hz] at h0
  rw [hn] at h1
  have hv := BitVec.toInt_eq_toNat_cond v
  have hlt := v.isLt
  split at hv <;> omega

/-- every label word, read as a natural number, is below 100000: at ANY float instance -/
theorem labels_inb {F : FTy → Type} [FloatOps F] (x : FVec F ⟨2, ![16384, 64]⟩ .f32) (lab : IVec ⟨1, ![16384]⟩ 32)
    (c : FVec F ⟨2, ![100000, 64]⟩ .f32)
    (h : Cert.Pre_input_domain.fn (F := F) x lab c = fun _ => 1#1) :
    ∀ j : (⟨1, ![16384]⟩ : Shape).Idx, (lab j).toNat < 100000 :=
  fun j => word_inb (lab j) ((pre_elems x lab c h).2.2 j)

/-- An extended real whose absolute value max v (-v) is strictly below +infinity is a real number: the two
    infinities both have absolute value +infinity. -/
theorem real_of_finite (v : EReal)
    (e : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have ht : Ideal.ofBits .f32 0x7F800000#32 = (⊤ : EReal) := by simp [Ideal.ofBits, Ideal.ieee]
  change Ideal.cmp .olt (max v (-v)) (Ideal.ofBits .f32 0x7F800000#32) = 1#1 at e
  rw [ht] at e
  induction v using EReal.rec with
  | bot => exact absurd e (by simp [Ideal.cmp])
  | coe r => exact ⟨r, rfl⟩
  | top => exact absurd e (by simp [Ideal.cmp])

/-- at Ideal the inputs are images of real arrays and of a label function -/
noncomputable def decode (x : FVec Ideal ⟨2, ![16384, 64]⟩ .f32) (lab : IVec ⟨1, ![16384]⟩ 32)
    (c : FVec Ideal ⟨2, ![100000, 64]⟩ .f32)
    (h : Cert.Pre_input_domain.fn (F := Ideal) x lab c = fun _ => 1#1) : Cert.Proof.Spec.Decoded x lab c where
  xr := fun i j => Classical.choose (real_of_finite (x (ix2 i j)) ((pre_elems x lab c h).1 (ix2 i j)))
  cr := fun k j => Classical.choose (real_of_finite (c (ix2 k j)) ((pre_elems x lab c h).2.1 (ix2 k j)))
  lb := fun i => ⟨(lab (ix1 i)).toNat, labels_inb x lab c h (ix1 i)⟩
  hx := fun i j => Classical.choose_spec (real_of_finite (x (ix2 i j)) ((pre_elems x lab c h).1 (ix2 i j)))
  hc := fun k j => Classical.choose_spec (real_of_finite (c (ix2 k j)) ((pre_elems x lab c h).2.1 (ix2 k j)))
  hl := fun _ => rfl

/-- The decoded label function is the label word read as a natural number. -/
theorem decode_lb_val (x : FVec Ideal ⟨2, ![16384, 64]⟩ .f32) (lab : IVec ⟨1, ![16384]⟩ 32)
    (c : FVec Ideal ⟨2, ![100000, 64]⟩ .f32)
    (h : Cert.Pre_input_domain.fn (F := Ideal) x lab c = fun _ => 1#1) (i : Fin 16384) :
    ((decode x lab c h).lb i).val = (lab (ix1 i)).toNat := rfl

end Cert.Proof.PreDecode

end
-- ==== Proof.LibRowGatherScatter.lean ====
/-
  Reading a gather of whole rows and an accumulating scatter of whole rows ALONG AXIS 0, at an index.

  The operand is an array whose first axis counts N rows (a row being a scalar, a vector of A entries or an
  A × B block), and the index array is a column [E, 1] holding one integer word per edge. The gather's result
  element (e, …) is the operand's element (r, …) where r is edge e's word read signed and clamped into
  [0, N − 1]; the coordinates inside the row are kept. The accumulating scatter leaves at (n, …) the operand's
  element plus the sum of the updates (e, …) over the edges e whose word, read signed, is exactly n: an
  update's coordinates inside the row are its own, so only the edge varies, and a word outside [0, N − 1]
  adds nowhere.
-/
import Idealize.ShloMosaic.PureOps.ShapeOps
import Idealize.ShloMosaic.PureOps.Contract
import Idealize.ShloMosaic.PureOps.Ideal
import Idealize.ShloMosaic.Lib.ValueIdx

set_option maxRecDepth 16384

noncomputable section

open scoped BigOperators

namespace Cert.Lib

open Idealize.ShloMosaic Idealize.ShloMosaic.ValueIdx

/-! ## Rows named by an integer word -/

/-- The row a word names FOR READING, among N rows: the word read signed, clamped into [0, N − 1]. -/
def rowOf (N : Nat) [NeZero N] {w : Nat} (v : BitVec w) : Fin N :=
  ⟨(max 0 (min v.toInt ((N : Int) - 1))).toNat, by have := NeZero.pos N; omega⟩

/-- The value of the row a word names for reading. -/
theorem rowOf_val (N : Nat) [NeZero N] {w : Nat} (v : BitVec w) :
    (rowOf N v).val = (max 0 (min v.toInt ((N : Int) - 1))).toNat := rfl

/-- The same row, as the smaller of the word's natural-number part and N − 1. -/
theorem rowOf_val_min (N : Nat) [NeZero N] {w : Nat} (v : BitVec w) :
    (rowOf N v).val = min v.toInt.toNat (N - 1) := by
  have := NeZero.pos N
  rw [rowOf_val]
  omega

/-- A word ADDS INTO row n exactly when, read signed, it is n (a word outside [0, N − 1] adds nowhere). -/
def landsOn {N w : Nat} (v : BitVec w) (n : Fin N) : Prop := v.toInt = (n.val : Int)

instance {N w : Nat} (v : BitVec w) (n : Fin N) : Decidable (landsOn v n) := by unfold landsOn; infer_instance

/-- A word that adds into row n reads row n. -/
theorem rowOf_of_landsOn {N w : Nat} [NeZero N] {v : BitVec w} {n : Fin N} (h : landsOn v n) : rowOf N v = n := by
  unfold landsOn at h
  have hn := n.isLt
  apply Fin.ext
  rw [rowOf_val]
  omega

/-! ## The gather of rows of a rank-2 operand -/

/-- A gather of whole rows of an [N, A] array at one row per edge. -/
abbrev g2 (N E A : Nat)
    (wf : GatherDims.WF (⟨2, ![N, A]⟩ : Shape) (⟨2, ![E, 1]⟩ : Shape) (⟨2, ![E, A]⟩ : Shape)
      [1] [0] [] [0] [] 1 ![1, A]) :
    GatherDims (⟨2, ![N, A]⟩ : Shape) (⟨2, ![E, 1]⟩ : Shape) (⟨2, ![E, A]⟩ : Shape) where
  offsetDims := [1]
  collapsedSliceDims := [0]
  operandBatchingDims := []
  startIndicesBatchingDims := []
  startIndexMap := [0]
  indexVectorDim := 1
  sliceSizes := ![1, A]
  wf := wf

/-- The index array's entry that result element (e, j) reads its row from: edge e's. -/
theorem g2_siIdx {N E A : Nat} (wf) (e : Fin E) (j : Fin A) (c) :
    (g2 N E A wf).siIdx (ix2 e j) c = ix2 e (0 : Fin 1) := by
  funext b
  refine Fin.ext ?_
  match b with
  | ⟨0, _⟩ => rfl
  | ⟨1, _⟩ =>
    show c.val = 0
    have h : c.val < 1 := c.isLt
    omega

/-- On the row axis a result element reads its edge's word, read signed and clamped into the row range. -/
theorem g2_pos0 {N E A w : Nat} [NeZero N] (wf) (idx : IVec (⟨2, ![E, 1]⟩ : Shape) w) (e : Fin E) (j : Fin A) :
    (g2 N E A wf).start (ix2 e j) idx 0 + (g2 N E A wf).offCoord (ix2 e j) 0
      = (rowOf N (idx (ix2 e (0 : Fin 1)))).val := by
  rw [GatherDims.offCoord_eq_zero _ _ _ (fun h => ((GatherDims.mem_sKept _ _).mp h).1 (List.mem_singleton.mpr rfl)),
    Nat.add_zero]
  unfold GatherDims.start
  rw [dif_pos (show (0 : Fin 2) ∈ (g2 N E A wf).startIndexMap from List.mem_singleton.mpr rfl), g2_siIdx,
    rowOf_val_min]
  rfl

/-- On the column axis a result element reads its own column. -/
theorem g2_pos1 {N E A w : Nat} (wf) (idx : IVec (⟨2, ![E, 1]⟩ : Shape) w) (e : Fin E) (j : Fin A) :
    (g2 N E A wf).start (ix2 e j) idx 1 + (g2 N E A wf).offCoord (ix2 e j) 1 = j.val := by
  show 0 + j.val = j.val
  exact Nat.zero_add _

/-- THE GATHER OF ROWS READ AT (e, j): the operand at edge e's row, the column kept. -/
theorem gather2 {α : Type} {N E A w : Nat} [NeZero N] (wf)
    (x : (⟨2, ![N, A]⟩ : Shape).Idx → α) (idx : IVec (⟨2, ![E, 1]⟩ : Shape) w) (e : Fin E) (j : Fin A) :
    Host.gather (g2 N E A wf) x idx (ix2 e j) = x (ix2 (rowOf N (idx (ix2 e (0 : Fin 1)))) j) := by
  unfold Host.gather
  congr 1
  funext a
  refine Fin.ext ?_
  show (g2 N E A wf).start (ix2 e j) idx a + (g2 N E A wf).batchCoord (ix2 e j) a
      + (g2 N E A wf).offCoord (ix2 e j) a = _
  rw [GatherDims.batchCoord_eq_zero _ _ _ List.not_mem_nil, Nat.add_zero]
  match a with
  | ⟨0, _⟩ => exact g2_pos0 wf idx e j
  | ⟨1, _⟩ => exact g2_pos1 wf idx e j

/-! ## The accumulating scatter of rows onto a rank-2 operand -/

/-- A scatter of whole rows, one per edge, each onto one row of an [N, A] array. -/
abbrev s2 (N E A : Nat)
    (wf : ScatterDims.WF (⟨2, ![N, A]⟩ : Shape) (⟨2, ![E, 1]⟩ : Shape) (⟨2, ![E, A]⟩ : Shape) [1] [0] [0] 1) :
    ScatterDims (⟨2, ![N, A]⟩ : Shape) (⟨2, ![E, 1]⟩ : Shape) (⟨2, ![E, A]⟩ : Shape) where
  updateWindowDims := [1]
  insertedWindowDims := [0]
  scatterDimsToOperandDims := [0]
  indexVectorDim := 1
  wf := wf

/-- The edge of a rank-2 update index. -/
abbrev edge2 {E A : Nat} (j : (⟨2, ![E, A]⟩ : Shape).Idx) : Fin E := ⟨(j 0).val, (j 0).isLt⟩

/-- The index array's entry an update reads its row from: its edge's. -/
theorem s2_siIdx {N E A : Nat} (wf) (j : (⟨2, ![E, A]⟩ : Shape).Idx) (c) :
    (s2 N E A wf).siIdx j c = ix2 (edge2 j) (0 : Fin 1) := by
  funext b
  refine Fin.ext ?_
  match b with
  | ⟨0, _⟩ => rfl
  | ⟨1, _⟩ =>
    show c.val = 0
    have h : c.val < 1 := c.isLt
    omega

/-- Where an update lands on the row axis: at its edge's word read signed. -/
theorem s2_pos0 {N E A w : Nat} (wf) (j : (⟨2, ![E, A]⟩ : Shape).Idx) (idx : IVec (⟨2, ![E, 1]⟩ : Shape) w) :
    (s2 N E A wf).start j idx 0 + ((s2 N E A wf).window j 0 : Int) = (idx (ix2 (edge2 j) (0 : Fin 1))).toInt := by
  have hw : (s2 N E A wf).window j 0 = 0 := rfl
  rw [hw]
  unfold ScatterDims.start
  rw [dif_pos (show (0 : Fin 2) ∈ (s2 N E A wf).scatterDimsToOperandDims from List.mem_singleton.mpr rfl), s2_siIdx]
  exact Int.add_zero _

/-- Where an update lands on the column axis: at its own column. -/
theorem s2_pos1 {N E A w : Nat} (wf) (j : (⟨2, ![E, A]⟩ : Shape).Idx) (idx : IVec (⟨2, ![E, 1]⟩ : Shape) w) :
    (s2 N E A wf).start j idx 1 + ((s2 N E A wf).window j 1 : Int) = ((j 1).val : Int) := by
  show (0 : Int) + (((j 1).val : Nat) : Int) = _
  exact Int.zero_add _

/-- An update lands on (n, a) exactly when its edge's word is n and its column is a. -/
theorem s2_lands_iff {N E A w : Nat} (wf) (j : (⟨2, ![E, A]⟩ : Shape).Idx) (idx : IVec (⟨2, ![E, 1]⟩ : Shape) w)
    (n : Fin N) (a : Fin A) :
    (s2 N E A wf).resultIdx? j idx = some (ix2 n a)
      ↔ landsOn (idx (ix2 (edge2 j) (0 : Fin 1))) n ∧ (j 1).val = a.val := by
  unfold ScatterDims.resultIdx? landsOn
  constructor
  · intro h
    split at h
    · rename_i hr
      have he := Option.some.inj h
      have e0 := congrArg (fun f => (f 0).val) he
      have e1 := congrArg (fun f => (f 1).val) he
      have r0 := hr 0
      simp only [s2_pos0, s2_pos1] at e0 e1 r0
      have e1' : (j 1).val = (ix2 n a 1).val := by simpa using e1
      have e0' : (idx (ix2 (edge2 j) (0 : Fin 1))).toInt.toNat = (ix2 n a 0).val := e0
      have e0'' : (idx (ix2 (edge2 j) (0 : Fin 1))).toInt.toNat = n.val := e0'
      refine ⟨?_, e1'⟩
      omega
    · exact absurd h (by simp)
  · rintro ⟨h0, h1⟩
    have hr : ∀ b, 0 ≤ (s2 N E A wf).start j idx b + ((s2 N E A wf).window j b : Int)
        ∧ (s2 N E A wf).start j idx b + ((s2 N E A wf).window j b : Int) < ((⟨2, ![N, A]⟩ : Shape).size b : Int) := by
      intro b
      match b with
      | ⟨0, _⟩ =>
        rw [show (⟨0, _⟩ : Fin 2) = 0 from rfl, s2_pos0, h0]
        exact ⟨Int.natCast_nonneg _, by have := n.isLt; show (n.val : Int) < (N : Nat); omega⟩
      | ⟨1, _⟩ =>
        rw [show (⟨1, _⟩ : Fin 2) = 1 from rfl, s2_pos1]
        exact ⟨Int.natCast_nonneg _, by have := a.isLt; show ((j 1).val : Int) < (A : Nat); omega⟩
    rw [dif_pos hr]
    congr 1
    funext b
    refine Fin.ext ?_
    match b with
    | ⟨0, _⟩ => show ((s2 N E A wf).start j idx 0 + ((s2 N E A wf).window j 0 : Int)).toNat = n.val; rw [s2_pos0, h0]; omega
    | ⟨1, _⟩ => show ((s2 N E A wf).start j idx 1 + ((s2 N E A wf).window j 1 : Int)).toNat = a.val; rw [s2_pos1]; omega

/-- THE ACCUMULATING SCATTER OF ROWS READ AT (n, a): the operand's element plus the updates (e, a) over the
    edges e whose word adds into row n. -/
theorem scatterAdd2 {N E A w : Nat} (wf)
    (x : (⟨2, ![N, A]⟩ : Shape).Idx → EReal) (idx : IVec (⟨2, ![E, 1]⟩ : Shape) w)
    (upd : (⟨2, ![E, A]⟩ : Shape).Idx → EReal) (n : Fin N) (a : Fin A)
    [DecidablePred fun e : Fin E => landsOn (idx (ix2 e (0 : Fin 1))) n] :
    Ideal.hostScatterAdd (s2 N E A wf) x idx upd (ix2 n a)
      = x (ix2 n a) + ∑ e ∈ Finset.univ.filter (fun e : Fin E => landsOn (idx (ix2 e (0 : Fin 1))) n), upd (ix2 e a) := by
  unfold Ideal.hostScatterAdd
  refine congrArg (fun s => x (ix2 n a) + s) ?_
  symm
  refine Finset.sum_bij (fun e _ => ix2 e a) ?_ ?_ ?_ ?_
  · intro e he
    rw [Finset.mem_filter] at he ⊢
    exact ⟨Finset.mem_univ _, (s2_lands_iff wf _ idx n a).mpr ⟨he.2, rfl⟩⟩
  · intro e _ e' _ h
    exact Fin.ext (congrArg (fun f => (f 0).val) h)
  · intro j hj
    rw [Finset.mem_filter] at hj
    obtain ⟨h0, h1⟩ := (s2_lands_iff wf j idx n a).mp hj.2
    refine ⟨edge2 j, Finset.mem_filter.mpr ⟨Finset.mem_univ _, h0⟩, ?_⟩
    funext b
    refine Fin.ext ?_
    match b with
    | ⟨0, _⟩ => rfl
    | ⟨1, _⟩ => exact h1.symm
  · intro e _
    rfl

/-! ## The accumulating scatter of scalars onto a rank-1 operand -/

/-- A scatter of scalars, one per edge, each onto one entry of an [N] array. -/
abbrev s1 (N E : Nat)
    (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) where
  updateWindowDims := []
  insertedWindowDims := [0]
  scatterDimsToOperandDims := [0]
  indexVectorDim := 1
  wf := wf

/-- The edge of a rank-1 update index. -/
abbrev edge1 {E : Nat} (j : (⟨1, ![E]⟩ : Shape).Idx) : Fin E := ⟨(j 0).val, (j 0).isLt⟩

/-- The index array's entry an update reads its row from: its edge's. -/
theorem s1_siIdx {N E : Nat} (wf) (j : (⟨1, ![E]⟩ : Shape).Idx) (c) :
    (s1 N E wf).siIdx j c = ix2 (edge1 j) (0 : Fin 1) := by
  funext b
  refine Fin.ext ?_
  match b with
  | ⟨0, _⟩ => rfl
  | ⟨1, _⟩ =>
    show c.val = 0
    have h : c.val < 1 := c.isLt
    omega

/-- Where an update lands on the one axis: at its edge's word read signed. -/
theorem s1_pos0 {N E w : Nat} (wf) (j : (⟨1, ![E]⟩ : Shape).Idx) (idx : IVec (⟨2, ![E, 1]⟩ : Shape) w) :
    (s1 N E wf).start j idx 0 + ((s1 N E wf).window j 0 : Int) = (idx (ix2 (edge1 j) (0 : Fin 1))).toInt := by
  have hw : (s1 N E wf).window j 0 = 0 := rfl
  rw [hw]
  unfold ScatterDims.start
  rw [dif_pos (show (0 : Fin 1) ∈ (s1 N E wf).scatterDimsToOperandDims from List.mem_singleton.mpr rfl), s1_siIdx]
  exact Int.add_zero _

/-- An update lands on entry n exactly when its edge's word is n. -/
theorem s1_lands_iff {N E w : Nat} (wf) (j : (⟨1, ![E]⟩ : Shape).Idx) (idx : IVec (⟨2, ![E, 1]⟩ : Shape) w)
    (n : Fin N) :
    (s1 N E wf).resultIdx? j idx = some (ix1 n) ↔ landsOn (idx (ix2 (edge1 j) (0 : Fin 1))) n := by
  unfold ScatterDims.resultIdx? landsOn
  constructor
  · intro h
    split at h
    · rename_i hr
      have he := Option.some.inj h
      have e0 := congrArg (fun f => (f 0).val) he
      have r0 := hr 0
      simp only [s1_pos0] at e0 r0
      have e0' : (idx (ix2 (edge1 j) (0 : Fin 1))).toInt.toNat = (ix1 n 0).val := e0
      have e0'' : (idx (ix2 (edge1 j) (0 : Fin 1))).toInt.toNat = n.val := e0'
      omega
    · exact absurd h (by simp)
  · intro h0
    have hr : ∀ b, 0 ≤ (s1 N E wf).start j idx b + ((s1 N E wf).window j b : Int)
        ∧ (s1 N E wf).start j idx b + ((s1 N E wf).window j b : Int) < ((⟨1, ![N]⟩ : Shape).size b : Int) := by
      intro b
      match b with
      | ⟨0, _⟩ =>
        rw [show (⟨0, _⟩ : Fin 1) = 0 from rfl, s1_pos0, h0]
        exact ⟨Int.natCast_nonneg _, by have := n.isLt; show (n.val : Int) < (N : Nat); omega⟩
    rw [dif_pos hr]
    congr 1
    funext b
    refine Fin.ext ?_
    match b with
    | ⟨0, _⟩ => show ((s1 N E wf).start j idx 0 + ((s1 N E wf).window j 0 : Int)).toNat = n.val; rw [s1_pos0, h0]; omega

/-- THE ACCUMULATING SCATTER OF SCALARS READ AT n: the operand's entry plus the updates e over the edges e whose
    word adds into entry n. -/
theorem scatterAdd1 {N E w : Nat} (wf)
    (x : (⟨1, ![N]⟩ : Shape).Idx → EReal) (idx : IVec (⟨2, ![E, 1]⟩ : Shape) w)
    (upd : (⟨1, ![E]⟩ : Shape).Idx → EReal) (n : Fin N)
    [DecidablePred fun e : Fin E => landsOn (idx (ix2 e (0 : Fin 1))) n] :
    Ideal.hostScatterAdd (s1 N E wf) x idx upd (ix1 n)
      = x (ix1 n) + ∑ e ∈ Finset.univ.filter (fun e : Fin E => landsOn (idx (ix2 e (0 : Fin 1))) n), upd (ix1 e) := by
  unfold Ideal.hostScatterAdd
  refine congrArg (fun s => x (ix1 n) + s) ?_
  symm
  refine Finset.sum_bij (fun e _ => ix1 e) ?_ ?_ ?_ ?_
  · intro e he
    rw [Finset.mem_filter] at he ⊢
    exact ⟨Finset.mem_univ _, (s1_lands_iff wf _ idx n).mpr he.2⟩
  · intro e _ e' _ h
    exact Fin.ext (congrArg (fun f => (f 0).val) h)
  · intro j hj
    rw [Finset.mem_filter] at hj
    have h0 := (s1_lands_iff wf j idx n).mp hj.2
    refine ⟨edge1 j, Finset.mem_filter.mpr ⟨Finset.mem_univ _, h0⟩, ?_⟩
    funext b
    refine Fin.ext ?_
    match b with
    | ⟨0, _⟩ => rfl
  · intro e _
    rfl

/-! ## The gather of rows of a rank-3 operand -/

/-- A gather of whole A × B rows of an [N, A, B] array at one row per edge. -/
abbrev g3 (N E A B : Nat)
    (wf : GatherDims.WF (⟨3, ![N, A, B]⟩ : Shape) (⟨2, ![E, 1]⟩ : Shape) (⟨3, ![E, A, B]⟩ : Shape)
      [1, 2] [0] [] [0] [] 1 ![1, A, B]) :
    GatherDims (⟨3, ![N, A, B]⟩ : Shape) (⟨2, ![E, 1]⟩ : Shape) (⟨3, ![E, A, B]⟩ : Shape) where
  offsetDims := [1, 2]
  collapsedSliceDims := [0]
  operandBatchingDims := []
  startIndicesBatchingDims := []
  startIndexMap := [0]
  indexVectorDim := 1
  sliceSizes := ![1, A, B]
  wf := wf

/-- The index array's entry that result element (e, a, b) reads its row from: edge e's. -/
theorem g3_siIdx {N E A B : Nat} (wf) (e : Fin E) (a : Fin A) (b : Fin B) (c) :
    (g3 N E A B wf).siIdx (ix3 e a b) c = ix2 e (0 : Fin 1) := by
  funext k
  refine Fin.ext ?_
  match k with
  | ⟨0, _⟩ => rfl
  | ⟨1, _⟩ =>
    show c.val = 0
    have h : c.val < 1 := c.isLt
    omega

/-- On the row axis a result element reads its edge's word, read signed and clamped into the row range. -/
theorem g3_pos0 {N E A B w : Nat} [NeZero N] (wf) (idx : IVec (⟨2, ![E, 1]⟩ : Shape) w)
    (e : Fin E) (a : Fin A) (b : Fin B) :
    (g3 N E A B wf).start (ix3 e a b) idx 0 + (g3 N E A B wf).offCoord (ix3 e a b) 0
      = (rowOf N (idx (ix2 e (0 : Fin 1)))).val := by
  rw [GatherDims.offCoord_eq_zero _ _ _ (fun h => ((GatherDims.mem_sKept _ _).mp h).1 (List.mem_singleton.mpr rfl)),
    Nat.add_zero]
  unfold GatherDims.start
  rw [dif_pos (show (0 : Fin 3) ∈ (g3 N E A B wf).startIndexMap from List.mem_singleton.mpr rfl), g3_siIdx,
    rowOf_val_min]
  rfl

/-- On the second axis a result element reads its own second coordinate. -/
theorem g3_pos1 {N E A B w : Nat} (wf) (idx : IVec (⟨2, ![E, 1]⟩ : Shape) w) (e : Fin E) (a : Fin A) (b : Fin B) :
    (g3 N E A B wf).start (ix3 e a b) idx 1 + (g3 N E A B wf).offCoord (ix3 e a b) 1 = a.val := by
  show 0 + a.val = a.val
  exact Nat.zero_add _

/-- On the third axis a result element reads its own third coordinate. -/
theorem g3_pos2 {N E A B w : Nat} (wf) (idx : IVec (⟨2, ![E, 1]⟩ : Shape) w) (e : Fin E) (a : Fin A) (b : Fin B) :
    (g3 N E A B wf).start (ix3 e a b) idx 2 + (g3 N E A B wf).offCoord (ix3 e a b) 2 = b.val := by
  show 0 + b.val = b.val
  exact Nat.zero_add _

/-- THE GATHER OF ROWS READ AT (e, a, b): the operand at edge e's row, the coordinates inside the row kept. -/
theorem gather3 {α : Type} {N E A B w : Nat} [NeZero N] (wf)
    (x : (⟨3, ![N, A, B]⟩ : Shape).Idx → α) (idx : IVec (⟨2, ![E, 1]⟩ : Shape) w)
    (e : Fin E) (a : Fin A) (b : Fin B) :
    Host.gather (g3 N E A B wf) x idx (ix3 e a b) = x (ix3 (rowOf N (idx (ix2 e (0 : Fin 1)))) a b) := by
  unfold Host.gather
  congr 1
  funext k
  refine Fin.ext ?_
  show (g3 N E A B wf).start (ix3 e a b) idx k + (g3 N E A B wf).batchCoord (ix3 e a b) k
      + (g3 N E A B wf).offCoord (ix3 e a b) k = _
  rw [GatherDims.batchCoord_eq_zero _ _ _ List.not_mem_nil, Nat.add_zero]
  match k with
  | ⟨0, _⟩ => exact g3_pos0 wf idx e a b
  | ⟨1, _⟩ => exact g3_pos1 wf idx e a b
  | ⟨2, _⟩ => exact g3_pos2 wf idx e a b

/-! ## The accumulating scatter of rows onto a rank-3 operand -/

/-- A scatter of whole A × B rows, one per edge, each onto one row of an [N, A, B] array. -/
abbrev s3 (N E A B : Nat)
    (wf : ScatterDims.WF (⟨3, ![N, A, B]⟩ : Shape) (⟨2, ![E, 1]⟩ : Shape) (⟨3, ![E, A, B]⟩ : Shape)
      [1, 2] [0] [0] 1) :
    ScatterDims (⟨3, ![N, A, B]⟩ : Shape) (⟨2, ![E, 1]⟩ : Shape) (⟨3, ![E, A, B]⟩ : Shape) where
  updateWindowDims := [1, 2]
  insertedWindowDims := [0]
  scatterDimsToOperandDims := [0]
  indexVectorDim := 1
  wf := wf

/-- The edge of a rank-3 update index. -/
abbrev edge3 {E A B : Nat} (j : (⟨3, ![E, A, B]⟩ : Shape).Idx) : Fin E := ⟨(j 0).val, (j 0).isLt⟩

/-- The index array's entry an update reads its row from: its edge's. -/
theorem s3_siIdx {N E A B : Nat} (wf) (j : (⟨3, ![E, A, B]⟩ : Shape).Idx) (c) :
    (s3 N E A B wf).siIdx j c = ix2 (edge3 j) (0 : Fin 1) := by
  funext k
  refine Fin.ext ?_
  match k with
  | ⟨0, _⟩ => rfl
  | ⟨1, _⟩ =>
    show c.val = 0
    have h : c.val < 1 := c.isLt
    omega

/-- Where an update lands on the row axis: at its edge's word read signed. -/
theorem s3_pos0 {N E A B w : Nat} (wf) (j : (⟨3, ![E, A, B]⟩ : Shape).Idx) (idx : IVec (⟨2, ![E, 1]⟩ : Shape) w) :
    (s3 N E A B wf).start j idx 0 + ((s3 N E A B wf).window j 0 : Int)
      = (idx (ix2 (edge3 j) (0 : Fin 1))).toInt := by
  have hw : (s3 N E A B wf).window j 0 = 0 := rfl
  rw [hw]
  unfold ScatterDims.start
  rw [dif_pos (show (0 : Fin 3) ∈ (s3 N E A B wf).scatterDimsToOperandDims from List.mem_singleton.mpr rfl), s3_siIdx]
  exact Int.add_zero _

/-- Where an update lands on the second axis: at its own second coordinate. -/
theorem s3_pos1 {N E A B w : Nat} (wf) (j : (⟨3, ![E, A, B]⟩ : Shape).Idx) (idx : IVec (⟨2, ![E, 1]⟩ : Shape) w) :
    (s3 N E A B wf).start j idx 1 + ((s3 N E A B wf).window j 1 : Int) = ((j 1).val : Int) := by
  show (0 : Int) + (((j 1).val : Nat) : Int) = _
  exact Int.zero_add _

/-- Where an update lands on the third axis: at its own third coordinate. -/
theorem s3_pos2 {N E A B w : Nat} (wf) (j : (⟨3, ![E, A, B]⟩ : Shape).Idx) (idx : IVec (⟨2, ![E, 1]⟩ : Shape) w) :
    (s3 N E A B wf).start j idx 2 + ((s3 N E A B wf).window j 2 : Int) = ((j 2).val : Int) := by
  show (0 : Int) + (((j 2).val : Nat) : Int) = _
  exact Int.zero_add _

/-- An update lands on (n, a, b) exactly when its edge's word is n and its coordinates inside the row are (a, b). -/
theorem s3_lands_iff {N E A B w : Nat} (wf) (j : (⟨3, ![E, A, B]⟩ : Shape).Idx)
    (idx : IVec (⟨2, ![E, 1]⟩ : Shape) w) (n : Fin N) (a : Fin A) (b : Fin B) :
    (s3 N E A B wf).resultIdx? j idx = some (ix3 n a b)
      ↔ landsOn (idx (ix2 (edge3 j) (0 : Fin 1))) n ∧ (j 1).val = a.val ∧ (j 2).val = b.val := by
  unfold ScatterDims.resultIdx? landsOn
  constructor
  · intro h
    split at h
    · rename_i hr
      have he := Option.some.inj h
      have e0 := congrArg (fun f => (f 0).val) he
      have e1 := congrArg (fun f => (f 1).val) he
      have e2 := congrArg (fun f => (f 2).val) he
      have r0 := hr 0
      simp only [s3_pos0, s3_pos1, s3_pos2] at e0 e1 e2 r0
      have e1' : (j 1).val = (ix3 n a b 1).val := by simpa using e1
      have e2' : (j 2).val = (ix3 n a b 2).val := by simpa using e2
      have e0' : (idx (ix2 (edge3 j) (0 : Fin 1))).toInt.toNat = (ix3 n a b 0).val := e0
      have e0'' : (idx (ix2 (edge3 j) (0 : Fin 1))).toInt.toNat = n.val := e0'
      refine ⟨?_, e1', e2'⟩
      omega
    · exact absurd h (by simp)
  · rintro ⟨h0, h1, h2⟩
    have hr : ∀ k, 0 ≤ (s3 N E A B wf).start j idx k + ((s3 N E A B wf).window j k : Int)
        ∧ (s3 N E A B wf).start j idx k + ((s3 N E A B wf).window j k : Int)
            < ((⟨3, ![N, A, B]⟩ : Shape).size k : Int) := by
      intro k
      match k with
      | ⟨0, _⟩ =>
        rw [show (⟨0, _⟩ : Fin 3) = 0 from rfl, s3_pos0, h0]
        exact ⟨Int.natCast_nonneg _, by have := n.isLt; show (n.val : Int) < (N : Nat); omega⟩
      | ⟨1, _⟩ =>
        rw [show (⟨1, _⟩ : Fin 3) = 1 from rfl, s3_pos1]
        exact ⟨Int.natCast_nonneg _, by have := a.isLt; show ((j 1).val : Int) < (A : Nat); omega⟩
      | ⟨2, _⟩ =>
        rw [show (⟨2, _⟩ : Fin 3) = 2 from rfl, s3_pos2]
        exact ⟨Int.natCast_nonneg _, by have := b.isLt; show ((j 2).val : Int) < (B : Nat); omega⟩
    rw [dif_pos hr]
    congr 1
    funext k
    refine Fin.ext ?_
    match k with
    | ⟨0, _⟩ => show ((s3 N E A B wf).start j idx 0 + ((s3 N E A B wf).window j 0 : Int)).toNat = n.val; rw [s3_pos0, h0]; omega
    | ⟨1, _⟩ => show ((s3 N E A B wf).start j idx 1 + ((s3 N E A B wf).window j 1 : Int)).toNat = a.val; rw [s3_pos1]; omega
    | ⟨2, _⟩ => show ((s3 N E A B wf).start j idx 2 + ((s3 N E A B wf).window j 2 : Int)).toNat = b.val; rw [s3_pos2]; omega

/-- THE ACCUMULATING SCATTER OF ROWS READ AT (n, a, b): the operand's element plus the updates (e, a, b) over the
    edges e whose word adds into row n. -/
theorem scatterAdd3 {N E A B w : Nat} (wf)
    (x : (⟨3, ![N, A, B]⟩ : Shape).Idx → EReal) (idx : IVec (⟨2, ![E, 1]⟩ : Shape) w)
    (upd : (⟨3, ![E, A, B]⟩ : Shape).Idx → EReal) (n : Fin N) (a : Fin A) (b : Fin B)
    [DecidablePred fun e : Fin E => landsOn (idx (ix2 e (0 : Fin 1))) n] :
    Ideal.hostScatterAdd (s3 N E A B wf) x idx upd (ix3 n a b)
      = x (ix3 n a b)
        + ∑ e ∈ Finset.univ.filter (fun e : Fin E => landsOn (idx (ix2 e (0 : Fin 1))) n), upd (ix3 e a b) := by
  unfold Ideal.hostScatterAdd
  refine congrArg (fun s => x (ix3 n a b) + s) ?_
  symm
  refine Finset.sum_bij (fun e _ => ix3 e a b) ?_ ?_ ?_ ?_
  · intro e he
    rw [Finset.mem_filter] at he ⊢
    exact ⟨Finset.mem_univ _, (s3_lands_iff wf _ idx n a b).mpr ⟨he.2, rfl, rfl⟩⟩
  · intro e _ e' _ h
    exact Fin.ext (congrArg (fun f => (f 0).val) h)
  · intro j hj
    rw [Finset.mem_filter] at hj
    obtain ⟨h0, h1, h2⟩ := (s3_lands_iff wf j idx n a b).mp hj.2
    refine ⟨edge3 j, Finset.mem_filter.mpr ⟨Finset.mem_univ _, h0⟩, ?_⟩
    funext k
    refine Fin.ext ?_
    match k with
    | ⟨0, _⟩ => rfl
    | ⟨1, _⟩ => exact h1.symm
    | ⟨2, _⟩ => exact h2.symm
  · intro e _
    rfl

end Cert.Lib

end
-- ==== Proof.RefRun.lean ====
/-
  The reference program's run, and its result read as a real number.

  The reference computes the centre loss of 16384 feature vectors x_i (64 components each) against a table of
  100000 class centres c_k, the centre of sample i being the one its integer label lab_i names:

      ( sum over i and j of (x_i[j] - c_{lab_i}[j])^2 ) / 2 / 16384 .

  Its text is a straight line of thirty-one tensor operations once its two helper functions are substituted at their
  call sites: the row lookup (a label below zero is first wrapped by adding 100000; a mask records whether the
  wrapped label lies in [0, 99999]; the rows are gathered; where the mask is off the row is replaced by a
  not-a-number fill), then a difference, a square, a sum over both axes from zero, and two divisions by constants.

  Two layers. First, every weakly fair execution of that straight line terminates with the result buffer at the
  operations' composed term of the three argument arrays (refOut) and the arguments unchanged. Second, for argument
  arrays that are images of real arrays and of labels in [0, 100000), that term is the real-number loss: such a label
  is not negative as a signed word, so the wrap keeps it; it lies in range, so the mask is on everywhere and the
  fill is never chosen; the gather reads row lab_i of the table; every summand is then the image of a real number,
  a sum of images is the image of the sum, and dividing by 2 and then by 16384 is dividing by 32768.
-/
import proofs.«204200_g67499706024535_cont_9to1c4b_715_37_alg».proof.Proof.Gen.ReferenceIdeal
import proofs.«204200_g67499706024535_cont_9to1c4b_715_37_alg».proof.Proof.Spec
import proofs.«204200_g67499706024535_cont_9to1c4b_715_37_alg».proof.Proof.LibRowGatherScatter
import Idealize.ShloMosaic.Lib.StableHlo.Run
import Idealize.ShloMosaic.Lib.IdealHost
import Idealize.ShloMosaic.Lib.ValueIdx
import Idealize.ShloMosaic.PureOps.Ideal.Laws

noncomputable section

open scoped BigOperators

namespace Cert.Proof.RefRun

open Cert.ReferenceIdeal Cert.ReferenceIdeal.Gen Idealize.ShloMosaic Idealize.SL.Sem

/-! ## The composed term

What the thirty-one operations compute, as pure functions of the argument arrays. -/

section Term

variable {F : FTy → Type} [FloatOps F]

/-- The labels after the wrap of negative ones (lab + 100000 where lab < 0, else lab), as a column of row numbers. -/
def idxCol (lab : IVec S16384 32) : IVec S16384x1 32 :=
  broadcastInDim S16384x1 ![0] bcast_S16384_S16384x1_0
    (select (cmpi .slt lab (broadcastInDim S16384 ![] bcast_S_S16384 (constantI S_ 32 0#32)))
      (addi lab (broadcastInDim S16384 ![] bcast_S_S16384 (constantI S_ 32 100000#32))) lab)

/-- Per sample: does the row number lie in [0, 99999]? (The conjunction of the two comparisons, folded along the
    column's unit axis from the bit 1.) -/
def inRange (lab : IVec S16384 32) : IVec S16384 1 :=
  Host.reduce IntOp.andi
    (andi (cmpi .sge (idxCol lab) (broadcastInDim S16384x1 ![] bcast_S_S16384x1 (constantI S_ 32 0#32)))
      (cmpi .sle (idxCol lab) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The rows of the centre table the labels name, with a not-a-number fill where a label is out of range. -/
def taken (lab : IVec S16384 32) (c : FVec F S100000x64 .f32) : FVec F S16384x64 .f32 :=
  select (broadcastInDim S16384x64 ![0] bcast_S16384_S16384x64_0 (inRange lab))
    (Host.gather gather_S100000x64_S16384x1_S16384x64_1_0_n_n_0_1_164 c (idxCol lab))
    (broadcastInDim S16384x64 ![] bcast_S_S16384x64 (constant S_ .f32 0x7FC00000#32))

/-- The reference's result as one term of its three arguments: the squared differences summed over both axes from
    zero, divided by the constant 2 and then by the constant 16384. -/
def refOut (x : FVec F S16384x64 .f32) (lab : IVec S16384 32) (c : FVec F S100000x64 .f32) : FVec F S_ .f32 :=
  Host.divf
    (Host.divf
      (Host.reduceAdd (mulf (subf x (taken lab c)) (subf x (taken lab c))) (constant S_ .f32 0x00000000#32)
        reducesTo_S16384x64_S_d0_1 h_S_)
      (constant S_ .f32 0x40000000#32))
    (constant S_ .f32 0x46800000#32)

end Term

/-! ## The run

The program is the straight line of its operations, the helper functions' bodies written out at their calls; each
buffer ends at the fold of the operations over the launch contents, which at the result buffer is refOut of the
arguments and at an argument buffer is what was there. -/

section Run

open Idealize.ShloMosaic.TcCoe Idealize.ShloMosaic.StableHlo

variable {F : FTy → Type} [FloatOps F]

/-- The thirty-one operations in order: the row lookup's twenty-three (the wrap's select is the inner helper's one
    operation), then the difference, the square, the zero, the sum, and twice a constant and a division. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    binary main_arg0 main_v0 main_v1 (subf : (⟨S16384x64, .f32⟩ : BufTy).Contents (Elt F) → (⟨S16384x64, .f32⟩ : BufTy).Contents (Elt F) → (⟨S16384x64, .f32⟩ : BufTy).Contents (Elt F)),
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_0 (constant S_ .f32 0x40000000#32),
    binary main_v3 main_cst_0 main_v4 (Host.divf : (⟨S_, .f32⟩ : BufTy).Contents (Elt F) → (⟨S_, .f32⟩ : BufTy).Contents (Elt F) → (⟨S_, .f32⟩ : BufTy).Contents (Elt F)),
    nullary main_cst_1 (constant S_ .f32 0x46800000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

-- the straight line nests its thirty-one sequencing steps one inside the other, so re-associating them goes thirty-one deep
set_option maxRecDepth 1024 in
/-- The program is that straight line: the helper functions' definitions opened at their calls, and sequencing
    re-associated, both sides are one chain of steps. -/
theorem main_eq (c : Dev nD) : main (F := F) c = seq ops := by
  simp only [main, fn_take.body, fn_where.body, seq, bind_assoc, pure_bind]

/-- No buffer of the signature is scoped to a region … -/
theorem scopedRefs_eq : (Finset.univ.filter fun b : Ref sig .tc => b.isScoped) = ∅ := by decide
/-- … and it has no semaphore. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., binary_bufs_sub .., nullary_bufs_sub .., binary_bufs_sub ..,
    nullary_bufs_sub .., binary_bufs_sub ..⟩

-- the fold, the gather and the float sum are kept closed: the equation never looks inside them
attribute [local irreducible] Host.reduce Host.gather Host.reduceAdd in
/-- The fold of the operations at the result buffer is refOut of the argument buffers' contents: each operation's
    result is its function of its operands' contents, and every other buffer keeps what it held. -/
theorem out_eq (V : Valuation τ sig (Elt F)) :
    after ops V (main_v5 : DevRef τ sig)
      = refOut (V (main_arg0 : DevRef τ sig)) (V (main_arg1 : DevRef τ sig)) (V (main_arg2 : DevRef τ sig)) := by
  after_results_simp
  rfl

/-- No operation writes the first argument … -/
theorem arg0_eq (V : Valuation τ sig (Elt F)) :
    after ops V (main_arg0 : DevRef τ sig) = V (main_arg0 : DevRef τ sig) := by after_results_simp
/-- … nor the second … -/
theorem arg1_eq (V : Valuation τ sig (Elt F)) :
    after ops V (main_arg1 : DevRef τ sig) = V (main_arg1 : DevRef τ sig) := by after_results_simp
/-- … nor the third. -/
theorem arg2_eq (V : Valuation τ sig (Elt F)) :
    after ops V (main_arg2 : DevRef τ sig) = V (main_arg2 : DevRef τ sig) := by after_results_simp

/-- On the one device, for any float values, from any memory with zero counters: every weakly fair execution of the
    program terminates with the result buffer at refOut of the arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Run

/-! ## The value

For arguments that are images of real arrays and of labels in [0, 100000), refOut is the real-number loss. -/

section Value

open Idealize.ShloMosaic.ValueIdx Cert.Proof.Spec

/-! ### A label word below 100000 -/

/-- Read as a signed number it is its natural-number value: it is far below 2^31. -/
theorem toInt_of_lt (v : BitVec 32) (h : v.toNat < 100000) : v.toInt = (v.toNat : Int) :=
  BitVec.toInt_eq_toNat_of_lt (by omega)

/-- It is not below zero as a signed word. -/
theorem cmp_slt_zero (v : BitVec 32) (h : v.toNat < 100000) : IntOp.cmpi .slt v 0#32 = 0#1 := by
  have ht := toInt_of_lt v h
  have hd : v.slt 0#32 = false := by
    rw [BitVec.slt_eq_decide, ht, BitVec.toInt_zero]; exact decide_eq_false (by omega)
  show BitVec.ofBool (v.slt 0#32) = 0#1
  rw [hd]; rfl

/-- It is at least zero and at most 99999 as a signed word. -/
theorem cmp_in_range (v : BitVec 32) (h : v.toNat < 100000) :
    IntOp.andi (IntOp.cmpi .sge v 0#32) (IntOp.cmpi .sle v 99999#32) = 1#1 := by
  have ht := toInt_of_lt v h
  have h1 : (0#32 : BitVec 32).sle v = true := by
    rw [BitVec.sle_eq_decide, ht, BitVec.toInt_zero]; exact decide_eq_true (by omega)
  have h2 : v.sle 99999#32 = true := by
    rw [BitVec.sle_eq_decide, ht, show (99999#32 : BitVec 32).toInt = 99999 by decide]; exact decide_eq_true (by omega)
  show IntOp.andi (BitVec.ofBool ((0#32 : BitVec 32).sle v)) (BitVec.ofBool (v.sle 99999#32)) = 1#1
  rw [h1, h2]; rfl

/-- A conjunction folded from the bit 1 over bits that are all 1 is 1. -/
theorem foldl_andi_one {ι : Type} (l : List ι) (g : ι → BitVec 1) (hg : ∀ n, g n = 1#1) :
    l.foldl (fun r n => IntOp.andi r (g n)) 1#1 = 1#1 := by
  induction l with
  | nil => rfl
  | cons a l ih => rw [List.foldl_cons, hg a, show IntOp.andi 1#1 1#1 = 1#1 from rfl]; exact ih

/-! ### Extended reals -/

/-- A finite sum of images of real numbers is the image of their sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The single-precision pattern 0x40000000 (exponent field 128, significand 0) denotes 2. -/
theorem ofBits_two : Ideal.ofBits .f32 0x40000000#32 = ((2 : ℝ) : EReal) := by
  simp [Ideal.ofBits, Ideal.ieee, -EReal.coe_mul]; norm_num

/-- The single-precision pattern 0x46800000 (exponent field 141, significand 0) denotes 2^14 = 16384. -/
theorem ofBits_16384 : Ideal.ofBits .f32 0x46800000#32 = ((16384 : ℝ) : EReal) := by
  simp [Ideal.ofBits, Ideal.ieee, -EReal.coe_mul]; norm_num

/-! ### The arrays -/

variable {x : FVec Ideal S16384x64 .f32} {lab : IVec S16384 32} {c : FVec Ideal S100000x64 .f32}

/-- Every label word is below 100000. -/
theorem lab_lt (D : Decoded x lab c) (j : S16384.Idx) : (lab j).toNat < 100000 := by
  obtain ⟨a, rfl⟩ : ∃ a : Fin 16384, j = ix1 a := ⟨j 0, eq_ix1 j⟩
  rw [D.hl]; exact (D.lb a).isLt

/-- The wrap of negative labels changes nothing: no label is negative. -/
theorem sel_eq (D : Decoded x lab c) :
    select (cmpi .slt lab (broadcastInDim S16384 ![] bcast_S_S16384 (constantI S_ 32 0#32)))
      (addi lab (broadcastInDim S16384 ![] bcast_S_S16384 (constantI S_ 32 100000#32))) lab = lab := by
  funext j
  show Scalar.select (IntOp.cmpi .slt (lab j) 0#32) _ (lab j) = lab j
  rw [cmp_slt_zero _ (lab_lt D j), select_zero]

/-- Row e of the column of row numbers is sample e's label. -/
theorem idxCol_apply (D : Decoded x lab c) (e : Fin 16384) (z : Fin 1) : idxCol lab (ix2 e z) = lab (ix1 e) := by
  unfold idxCol
  rw [sel_eq D]
  show lab _ = lab (ix1 e)
  congr 1
  funext a
  match a with
  | ⟨0, _⟩ => rfl

/-- The in-range mask is on at every sample. -/
theorem inRange_apply (D : Decoded x lab c) (j : S16384.Idx) : inRange lab j = 1#1 := by
  unfold inRange Host.reduce
  refine foldl_andi_one _ _ (fun n => ?_)
  obtain ⟨a, b, hab⟩ : ∃ a b, S16384x1.rowMajor.symm n = ix2 a b := ⟨_, _, eq_ix2 _⟩
  rw [hab]
  show IntOp.andi (IntOp.cmpi .sge (idxCol lab (ix2 a b)) 0#32) (IntOp.cmpi .sle (idxCol lab (ix2 a b)) 99999#32) = 1#1
  rw [idxCol_apply D]
  exact cmp_in_range _ (lab_lt D _)

/-- The row a label word names for reading (the word read signed, clamped into [0, 99999]) is the label. -/
theorem rowOf_label (D : Decoded x lab c) (e : Fin 16384) : Cert.Lib.rowOf 100000 (lab (ix1 e)) = D.lb e := by
  apply Fin.ext
  rw [Cert.Lib.rowOf_val, toInt_of_lt _ (lab_lt D _), D.hl e]
  have := (D.lb e).isLt
  omega

/-- The looked-up array at (e, j) is the centre table at (lab_e, j): the mask is on, so the gathered value is kept,
    and the gather reads whole rows at the row the label names. -/
theorem taken_apply (D : Decoded x lab c) (e : Fin 16384) (j : Fin 64) :
    taken lab c (ix2 e j) = c (ix2 (D.lb e) j) := by
  unfold taken
  rw [select_apply]
  have hm : broadcastInDim S16384x64 ![0] bcast_S16384_S16384x64_0 (inRange lab) (ix2 e j) = 1#1 :=
    inRange_apply D _
  rw [hm, select_one]
  have hg : gather_S100000x64_S16384x1_S16384x64_1_0_n_n_0_1_164
      = Cert.Lib.g2 100000 16384 64 gather_S100000x64_S16384x1_S16384x64_1_0_n_n_0_1_164_wf := rfl
  rw [hg, Cert.Lib.gather2, idxCol_apply D e 0, rowOf_label D e]

/-- One summand: the squared difference at (a, b) is the image of the real squared difference. -/
theorem term_eq (D : Decoded x lab c) (a : Fin 16384) (b : Fin 64) :
    mulf (subf x (taken lab c)) (subf x (taken lab c)) (ix2 a b)
      = (((D.xr a b - D.cr (D.lb a) b) ^ 2 : ℝ) : EReal) := by
  rw [mulf_apply, subf_apply, taken_apply D, D.hx, D.hc, ← EReal.coe_sub, ← EReal.coe_mul, pow_two]

/-- THE VALUE: refOut of decoded arguments is the real-number loss at its one index. The sum over both axes from
    zero is the double sum of the summands, each the image of a real; the two divisions by the nonzero constants 2
    and 16384 are products with 1/2 and 1/16384, and (S · 1/2) · 1/16384 = S / 32768. -/
theorem out_value (D : Decoded x lab c) : refOut x lab c = fun _ => D.loss := by
  funext k
  have hL : D.loss
      = (((∑ i : Fin 16384, ∑ j : Fin 64, (D.xr i j - D.cr (D.lb i) j) ^ 2) / 32768 : ℝ) : EReal) := rfl
  unfold refOut
  rw [hostDivf_apply, hostDivf_apply, hostReduceAdd_apply, constant_apply, constant_apply,
    Ideal.hostReduceAdd_total _ (fun b => b.elim0), constant_apply, Ideal.ofBits_zero_f32, zero_add, sum_idx2]
  rw [Finset.sum_congr rfl (fun a _ => (Finset.sum_congr rfl (fun b _ => term_eq D a b)).trans (coe_sum _ _)), coe_sum]
  rw [ofBits_two, ofBits_16384, Ideal.div_coe (by norm_num), Ideal.div_coe (by norm_num), ← EReal.coe_mul, ← EReal.coe_mul,
    hL]
  refine congrArg (fun r : ℝ => (r : EReal)) ?_
  ring

end Value

/-! ## The reference's run, at the specification -/

/-- On the one device, at the exact values, from any memory with zero counters whose argument arrays are images of
    real arrays and of labels in [0, 100000): every weakly fair execution of the reference terminates with its result
    the real-number centre loss of those arrays and its arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (D : ∀ c : Dev Cert.ReferenceIdeal.nD, Cert.Proof.Spec.Decoded
           (m ((c.tc : Thread Cert.ReferenceIdeal.nD Cert.ReferenceIdeal.τ).loc Cert.ReferenceIdeal.main_arg0))
           (m ((c.tc : Thread Cert.ReferenceIdeal.nD Cert.ReferenceIdeal.τ).loc Cert.ReferenceIdeal.main_arg1))
           (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread _ _).loc Cert.ReferenceIdeal.main_v5) = (fun _ => (D c).loss)
        ∧ r.2.mem ((c.tc : Thread _ _).loc Cert.ReferenceIdeal.main_arg0)
            = m ((c.tc : Thread _ _).loc Cert.ReferenceIdeal.main_arg0)
        ∧ r.2.mem ((c.tc : Thread _ _).loc Cert.ReferenceIdeal.main_arg1)
            = m ((c.tc : Thread _ _).loc Cert.ReferenceIdeal.main_arg1)
        ∧ r.2.mem ((c.tc : Thread _ _).loc Cert.ReferenceIdeal.main_arg2)
            = m ((c.tc : Thread _ _).loc Cert.ReferenceIdeal.main_arg2)) :=
  (θ_run _ _ _).mono (fun _ h c => ⟨(h c).1.trans (out_value (D c)), (h c).2⟩) (run_out (F := Ideal) m ρ)

end Cert.Proof.RefRun

end
-- ==== Proof.KIPay.lean ====
/-
  The kernel program's vocabulary for its run: the arrays of a device as locations, what one worker computes as a pure
  function of the arrays, and what the call to the vector subcores hands out and takes back.

  The program transposes the feature table (16384 × 64) and the centre table (100000 × 64), calls one kernel on the
  32 vector subcores of its two SparseCores, and sums the 32 × 16 table the kernel writes. Worker w = 2 i + c (vector
  subcore i of SparseCore c) owns rows 2w and 2w + 1 of both transposed tables and row w of the result table. The
  three input tables are only read, so every worker holds a read share of each, whole; the result table is split by
  rows. What a worker leaves in its row is stated as a pure function of the tables, generic in the float instance,
  written as the nest of loops computes it (table, tileOut, tileAcc, rowAcc, chunk, trip, grp), so that the same text
  serves the word-level program and its idealization.
-/
import proofs.«204200_g67499706024535_cont_9to1c4b_715_37_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«204200_g67499706024535_cont_9to1c4b_715_37_alg».proof.Proof.Gen.KernelIdeal
import proofs.«204200_g67499706024535_cont_9to1c4b_715_37_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the kernel's memrefs, spelt as the body table passes them
local notation "xW" => (Memref.whole Cert.KernelIdeal.main_v0_scv : Memref Cert.KernelIdeal.sig Kind.scVector Space.hbm Cert.KernelIdeal.S64x16384 EltTy.f32)
local notation "lW" => (Memref.whole Cert.KernelIdeal.main_arg1_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S64x100000 EltTy.f32)
local notation "oW" => (Memref.whole Cert.KernelIdeal.main_v2_scv : Memref Cert.KernelIdeal.sig Kind.scVector Space.hbm Cert.KernelIdeal.S32x16 EltTy.f32)
local notation "rowS" => (Memref.whole Cert.KernelIdeal.cc0_scratch0 : Memref Cert.KernelIdeal.sig Kind.scVector Space.vmem Cert.KernelIdeal.S100000 EltTy.f32)
local notation "labS" => (Memref.whole Cert.KernelIdeal.cc0_scratch1 : Memref Cert.KernelIdeal.sig Kind.scVector Space.vmem Cert.KernelIdeal.S16384 EltTy.i32)
local notation "fb0" => (Memref.whole Cert.KernelIdeal.cc0_scratch2 : Memref Cert.KernelIdeal.sig Kind.scVector Space.vmem Cert.KernelIdeal.S4096 EltTy.f32)
local notation "fb1" => (Memref.whole Cert.KernelIdeal.cc0_scratch3 : Memref Cert.KernelIdeal.sig Kind.scVector Space.vmem Cert.KernelIdeal.S4096 EltTy.f32)
local notation "accS" => (Memref.whole Cert.KernelIdeal.cc0_scratch4 : Memref Cert.KernelIdeal.sig Kind.scVector Space.vmem Cert.KernelIdeal.S16 EltTy.f32)

variable [FloatOps F]

abbrev cV (L : grid0.Coords) : Fin τ.nSC := (L 0).castLE hcore0
abbrev jV (L : grid0.Coords) : Fin τ.nSub := (L 1).castLE hsub0

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays of a device, as locations

The three arguments, the two transposed copies the host writes before the call, the table of partial sums the call
writes, and the scalar result. -/

abbrev a0Loc (d : Dev nD) : Loc nD τ sig := (SparseCore.T d).loc main_arg0
abbrev lLoc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v0
abbrev cLoc (d : Dev nD) : Loc nD τ sig := (SparseCore.T d).loc main_v1
abbrev oLoc (d : Dev nD) : Loc nD τ sig := (SparseCore.T d).loc main_v2
abbrev zLoc (d : Dev nD) : Loc nD τ sig := (SparseCore.T d).loc main_cst
abbrev rLoc (d : Dev nD) : Loc nD τ sig := (SparseCore.T d).loc main_v3

/-! ## What one worker computes, as a pure function of the arrays

Worker w (of 32) owns rows 2w and 2w+1 of the transposed feature table X (64 × 16384) and of the transposed centre
table C (64 × 100000). For each of its rows f it visits the 16384 columns b in four chunks h of 4096, each chunk in 32
trips k of 128 columns, each trip in eight groups u of 16 lanes: b = 4096 h + 128 k + 16 u + lane. A group adds, lane by
lane, the square of X[f, b] − C[f, lab b] to one of four running vectors: group u goes to vector u mod 4. At the end the
four vectors are added pairwise and scaled by 2^-15. Indices are reduced into range so that the functions are total; on
the ranges the program uses the reductions are identities. -/

section Value

abbrev A4 (F : FTy → Type) : Type := FVec F S16 .f32 × FVec F S16 .f32 × FVec F S16 .f32 × FVec F S16 .f32

/-- Position j of the label vector. -/
def li (j : Nat) : S16384.Idx := ValueIdx.ix1 ⟨j % 16384, Nat.mod_lt _ (by decide)⟩
/-- Position j of a centre row. -/
def ri (j : Nat) : S100000.Idx := ValueIdx.ix1 ⟨j % 100000, Nat.mod_lt _ (by decide)⟩
/-- Position j of a feature chunk. -/
def fi (j : Nat) : S4096.Idx := ValueIdx.ix1 ⟨j % 4096, Nat.mod_lt _ (by decide)⟩

/-- One group: sixteen lanes of squared differences added to a running vector. The features are the chunk's entries
    from oF on, the labels the label vector's entries from oL on, the centres the row's entries the labels name. -/
def grp (row : FVec F S100000 .f32) (lab : IVec S16384 32) (fb : FVec F S4096 .f32) (oL oF : Nat) (a : FVec F S16 .f32) :
    FVec F S16 .f32 :=
  addf a (mulf (subf (fun x => fb (fi (oF + (x 0).val))) (fun x => row (ri (lab (li (oL + (x 0).val))).toNat)))
    (subf (fun x => fb (fi (oF + (x 0).val))) (fun x => row (ri (lab (li (oL + (x 0).val))).toNat))))

/-- One trip k of chunk h: eight groups, group u into running vector u mod 4. -/
def trip (row : FVec F S100000 .f32) (lab : IVec S16384 32) (fb : FVec F S4096 .f32) (h k : Nat) (A : A4 F) : A4 F :=
  (grp row lab fb (4096 * h + 128 * k + 64) (128 * k + 64) (grp row lab fb (4096 * h + 128 * k) (128 * k) A.1),
   grp row lab fb (4096 * h + 128 * k + 80) (128 * k + 80) (grp row lab fb (4096 * h + 128 * k + 16) (128 * k + 16) A.2.1),
   grp row lab fb (4096 * h + 128 * k + 96) (128 * k + 96) (grp row lab fb (4096 * h + 128 * k + 32) (128 * k + 32) A.2.2.1),
   grp row lab fb (4096 * h + 128 * k + 112) (128 * k + 112) (grp row lab fb (4096 * h + 128 * k + 48) (128 * k + 48) A.2.2.2))

/-- The first n trips of chunk h. -/
def chunk (row : FVec F S100000 .f32) (lab : IVec S16384 32) (fb : FVec F S4096 .f32) (h : Nat) : Nat → A4 F → A4 F
  | 0, A => A
  | n + 1, A => trip row lab fb h n (chunk row lab fb h n A)

/-- Row f of the transposed centre table. -/
def rowOf (C : FVec F S64x100000 .f32) (f : Nat) : FVec F S100000 .f32 :=
  fun j => C (ValueIdx.ix2 ⟨f % 64, Nat.mod_lt _ (by decide)⟩ ⟨(j 0).val, (j 0).isLt⟩)
/-- Chunk h of row f of the transposed feature table. -/
def chunkOf (X : FVec F S64x16384 .f32) (f h : Nat) : FVec F S4096 .f32 :=
  fun j => X (ValueIdx.ix2 ⟨f % 64, Nat.mod_lt _ (by decide)⟩ ⟨(4096 * h + (j 0).val) % 16384, Nat.mod_lt _ (by decide)⟩)

/-- All four chunks of row f. -/
def rowAcc (X : FVec F S64x16384 .f32) (lab : IVec S16384 32) (C : FVec F S64x100000 .f32) (f : Nat) (A : A4 F) : A4 F :=
  chunk (rowOf C f) lab (chunkOf X f 3) 3 32 (chunk (rowOf C f) lab (chunkOf X f 2) 2 32
    (chunk (rowOf C f) lab (chunkOf X f 1) 1 32 (chunk (rowOf C f) lab (chunkOf X f 0) 0 32 A)))

/-- Both rows of worker w, from four zero vectors. -/
def tileAcc (X : FVec F S64x16384 .f32) (lab : IVec S16384 32) (C : FVec F S64x100000 .f32) (w : Nat) : A4 F :=
  rowAcc X lab C (2 * w + 1) (rowAcc X lab C (2 * w) (k0_pay42 (F := F), k0_pay42 (F := F), k0_pay42 (F := F), k0_pay42 (F := F)))

/-- Worker w's sixteen results: the four running vectors added pairwise and scaled. -/
def tileOut (X : FVec F S64x16384 .f32) (lab : IVec S16384 32) (C : FVec F S64x100000 .f32) (w : Nat) : FVec F S16 .f32 :=
  k0_pay9 (tileAcc X lab C w).1 (tileAcc X lab C w).2.1 (tileAcc X lab C w).2.2.1 (tileAcc X lab C w).2.2.2

/-- The 32 × 16 table of partial sums: row w is worker w's results. -/
def table (X : FVec F S64x16384 .f32) (lab : IVec S16384 32) (C : FVec F S64x100000 .f32) : FVec F S32x16 .f32 :=
  fun idx => tileOut X lab C (idx 0).val (ValueIdx.ix1 ⟨(idx 1).val, (idx 1).isLt⟩)

end Value

/-! ## The launch memory, and what the call is handed -/

variable (m : (ℓ : Loc nD τ sig) → Buf (Elt F) ℓ) (ρ : Dev nD → PrngReg)

/-- The transposed feature table, as the host's first operation writes it. -/
def XT (d : Dev nD) : Buf (Elt F) (xLoc d) :=
  (transpose S64x16384 [1, 0] (m (a0Loc d)) transposes_S16384x64_S64x16384_1_0 : FVec F S64x16384 .f32)
/-- The transposed centre table, as the host's second operation writes it. -/
def CTr (d : Dev nD) : Buf (Elt F) (cLoc d) :=
  (transpose S64x100000 [1, 0] (m (a2Loc d)) transposes_S100000x64_S64x100000_1_0 : FVec F S64x100000 .f32)
/-- The table of partial sums the call leaves. -/
def G (d : Dev nD) : Buf (Elt F) (oLoc d) := table (XT m d) (m (lLoc d)) (CTr m d)

/-- The read shares: one per SparseCore, and of that one per vector subcore. -/
abbrev qC (c : Fin 2) : PosShare TreeShare := Transfers.shareTok fullShare 2 c
abbrev qT (c : Fin 2) (i : Fin 16) : PosShare TreeShare := Transfers.shareTok (qC c) 16 i

omit [FloatOps F] in
theorem hdiv : 32 ∣ S32x16.size 0 := ⟨1, rfl⟩
/-- Row w of the table of partial sums. -/
abbrev orow (w : Fin 32) : Rect S32x16 := Rect.part (s := S32x16) (a₀ := 0) hdiv w
abbrev oSet (w : Fin 32) : Finset S32x16.Idx := ((oW).view.slice (orow w)).set
/-- The worker number of vector subcore i of SparseCore c. -/
def wid (c : Fin 2) (i : Fin 16) : Fin 32 := ⟨2 * i.val + c.val, by omega⟩

/-- What vector subcore i of SparseCore c is handed: a read share of each of the three tables, and row wid c i of the
    table of partial sums outright, at contents O. -/
def tileIn (d : Dev nD) (c : Fin 2) (i : Fin 16) (O : Buf (Elt F) (oLoc d)) : sProp 𝕄 :=
  iprop((xLoc d ↦{qT c i} XT m d) ∗ (lLoc d ↦{qT c i} m (lLoc d)) ∗ (cLoc d ↦{qT c i} CTr m d) ∗ (oLoc d ↦[oSet (wid c i)]{fullShare} O))
/-- What SparseCore c is handed: its read shares, and its sixteen rows. -/
def coreIn (d : Dev nD) (c : Fin 2) (O : Buf (Elt F) (oLoc d)) : sProp 𝕄 :=
  iprop((xLoc d ↦{qC c} XT m d) ∗ (lLoc d ↦{qC c} m (lLoc d)) ∗ (cLoc d ↦{qC c} CTr m d)
    ∗ bigSep Finset.univ (fun i : Fin 16 => oLoc d ↦[oSet (wid c i)]{fullShare} O))

/-- The handshakes' payloads: in, the rows at their launch contents; out, at the table of partial sums. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (G m d)
  go := fun q d c i => match q with | 0 => tileIn m d (Fin.cast nCore_zero c) (Fin.cast nSub_zero i) (m (oLoc d))
  td := fun q d c i => match q with | 0 => tileIn m d (Fin.cast nCore_zero c) (Fin.cast nSub_zero i) (G m d)
  x := fun _ _ => iprop(emp)

instance P_storable : (P (F := F) m).IsStorable where
  st q d c := match q with | 0 => by unfold P coreIn; infer_instance
  dn q d c := match q with | 0 => by unfold P coreIn; infer_instance
  go q d c i := match q with | 0 => by unfold P tileIn; infer_instance
  td q d c i := match q with | 0 => by unfold P tileIn; infer_instance

end Cert.Proof.KI

end
-- ==== Proof.Regroup.lean ====
/-
  Regrouping a sum over a 64 × 16384 table of real numbers.

  The 64 rows are numbered as 2 w + r with w < 32 and r < 2; the 16384 columns are numbered by their digits
  4096 h + 128 k + 16 u + l with h < 4, k < 32, u < 8, l < 16; and the eight values of u are numbered as q + 4 e with
  q < 4 and e < 2.  Each of these numberings is a bijection (a mixed-radix digit expansion), so a sum over all rows,
  or over all columns, is the iterated sum over the digits.  Since addition of real numbers is commutative and
  associative, the iterated sums may be nested in any order.  Hence adding, over all pairs (w, l), the four partial
  sums q = 0, 1, 2, 3 (each of which collects the columns with u = q and u = q + 4 of the two rows 2 w, 2 w + 1) gives
  the sum of the whole table; the common factor 1 / 32768 is pulled out of the sum by distributivity.
-/
import Mathlib

namespace Cert.Proof.Regroup

open Finset

/-- Row number 2 w + r. -/
def fIdx (w : Fin 32) (r : Fin 2) : Fin 64 := ⟨2 * w.val + r.val, by omega⟩

/-- Group number q + 4 e. -/
def uIdx (q : Fin 4) (e : Fin 2) : Fin 8 := ⟨q.val + 4 * e.val, by omega⟩

/-- Column number 4096 h + 128 k + 16 u + l. -/
def bIdx (h : Fin 4) (k : Fin 32) (u : Fin 8) (l : Fin 16) : Fin 16384 :=
  ⟨4096 * h.val + 128 * k.val + 16 * u.val + l.val, by omega⟩

/-- partial sum q of lane l of worker w -/
def lane (g : Fin 64 → Fin 16384 → ℝ) (w : Fin 32) (q : Fin 4) (l : Fin 16) : ℝ :=
  ∑ r : Fin 2, ∑ h : Fin 4, ∑ k : Fin 32,
    (g (fIdx w r) (bIdx h k (uIdx q 0) l) + g (fIdx w r) (bIdx h k (uIdx q 1) l))

section Digits

variable {M : Type*} [AddCommMonoid M]

/-- Two-digit expansion: if every number below m n is written uniquely as n a + b with a < m and b < n, and the map
    φ realises this numbering, then a sum over the numbers below m n is the double sum over the two digits. -/
theorem sum_digits {m n N : ℕ} (hN : m * n = N) (f : Fin N → M) (φ : Fin m → Fin n → Fin N)
    (hφ : ∀ a b, (φ a b).val = n * a.val + b.val) :
    ∑ i : Fin N, f i = ∑ a : Fin m, ∑ b : Fin n, f (φ a b) := by
  subst hN
  rw [← Equiv.sum_comp finProdFinEquiv f, Fintype.sum_prod_type]
  refine Finset.sum_congr rfl fun a _ => Finset.sum_congr rfl fun b _ => ?_
  congr 1
  apply Fin.ext
  rw [hφ]
  simp [Nat.add_comm]

/-- The 64 rows are the rows 2 w + r. -/
theorem sum_rows (F : Fin 64 → M) :
    ∑ f : Fin 64, F f = ∑ w : Fin 32, ∑ r : Fin 2, F (fIdx w r) :=
  sum_digits (m := 32) (n := 2) (by norm_num) F fIdx (fun _ _ => rfl)

/-- The eight groups are the groups q and q + 4 for q < 4. -/
theorem sum_groups (H : Fin 8 → M) :
    ∑ u : Fin 8, H u = ∑ q : Fin 4, (H (uIdx q 0) + H (uIdx q 1)) := by
  rw [sum_digits (m := 2) (n := 4) (by norm_num) H (fun e q => uIdx q e)
    (fun e q => Nat.add_comm q.val (4 * e.val)), Finset.sum_comm]
  refine Finset.sum_congr rfl fun q _ => ?_
  rw [Fin.sum_univ_two]

/-- The 16384 columns are the columns 4096 h + 128 k + 16 u + l: split off the digits one after the other. -/
theorem sum_cols (G : Fin 16384 → M) :
    ∑ b : Fin 16384, G b
      = ∑ h : Fin 4, ∑ k : Fin 32, ∑ u : Fin 8, ∑ l : Fin 16, G (bIdx h k u l) := by
  rw [sum_digits (m := 4) (n := 4096) (by norm_num) G
    (fun h x => (⟨4096 * h.val + x.val, by omega⟩ : Fin 16384)) (fun _ _ => rfl)]
  refine Finset.sum_congr rfl fun h _ => ?_
  rw [sum_digits (m := 32) (n := 128) (N := 4096) (by norm_num)
    (fun x : Fin 4096 => G (⟨4096 * h.val + x.val, by omega⟩ : Fin 16384))
    (fun k y => (⟨128 * k.val + y.val, by omega⟩ : Fin 4096)) (fun _ _ => rfl)]
  refine Finset.sum_congr rfl fun k _ => ?_
  rw [sum_digits (m := 8) (n := 16) (N := 128) (by norm_num)
    (fun y : Fin 128 => G (⟨4096 * h.val + (128 * k.val + y.val), by omega⟩ : Fin 16384))
    (fun u l => (⟨16 * u.val + l.val, by omega⟩ : Fin 128)) (fun _ _ => rfl)]
  refine Finset.sum_congr rfl fun u _ => Finset.sum_congr rfl fun l _ => ?_
  congr 1
  apply Fin.ext
  show 4096 * h.val + (128 * k.val + (16 * u.val + l.val)) = 4096 * h.val + 128 * k.val + 16 * u.val + l.val
  omega

end Digits

/-- For one worker and one lane, the four partial sums together collect all eight groups of every trip of every
    chunk of the worker's two rows. -/
theorem sum_lanes (g : Fin 64 → Fin 16384 → ℝ) (w : Fin 32) (l : Fin 16) :
    ∑ q : Fin 4, lane g w q l
      = ∑ r : Fin 2, ∑ h : Fin 4, ∑ k : Fin 32, ∑ u : Fin 8, g (fIdx w r) (bIdx h k u l) := by
  unfold lane
  rw [Finset.sum_comm]
  refine Finset.sum_congr rfl fun r _ => ?_
  rw [Finset.sum_comm]
  refine Finset.sum_congr rfl fun h _ => ?_
  rw [Finset.sum_comm]
  refine Finset.sum_congr rfl fun k _ => ?_
  exact (sum_groups (fun u => g (fIdx w r) (bIdx h k u l))).symm

/-- For one worker, all lanes and partial sums together collect the worker's two rows completely. -/
theorem sum_worker (g : Fin 64 → Fin 16384 → ℝ) (w : Fin 32) :
    ∑ l : Fin 16, ∑ q : Fin 4, lane g w q l = ∑ r : Fin 2, ∑ b : Fin 16384, g (fIdx w r) b := by
  rw [Finset.sum_congr rfl fun l _ => sum_lanes g w l]
  rw [Finset.sum_comm]
  refine Finset.sum_congr rfl fun r _ => ?_
  rw [sum_cols (g (fIdx w r))]
  rw [Finset.sum_comm]
  refine Finset.sum_congr rfl fun h _ => ?_
  rw [Finset.sum_comm]
  refine Finset.sum_congr rfl fun k _ => ?_
  exact Finset.sum_comm

/-- The sum of the whole table is the sum over all workers, lanes and partial sums. -/
theorem sum_table (g : Fin 64 → Fin 16384 → ℝ) :
    ∑ b : Fin 16384, ∑ f : Fin 64, g f b = ∑ w : Fin 32, ∑ l : Fin 16, ∑ q : Fin 4, lane g w q l := by
  rw [Finset.sum_comm, sum_rows (fun f => ∑ b : Fin 16384, g f b)]
  exact Finset.sum_congr rfl fun w _ => (sum_worker g w).symm

/-- Adding the scaled lane values ((p0 + p1) + (p2 + p3)) / 32768 over all workers and lanes gives the sum of the
    whole table divided by 32768. -/
theorem regroup (g : Fin 64 → Fin 16384 → ℝ) :
    ∑ w : Fin 32, ∑ l : Fin 16,
        ((lane g w 0 l + lane g w 1 l) + (lane g w 2 l + lane g w 3 l)) * (1 / 32768 : ℝ)
      = (∑ b : Fin 16384, ∑ f : Fin 64, g f b) / 32768 := by
  rw [sum_table, div_eq_mul_one_div (∑ w : Fin 32, ∑ l : Fin 16, ∑ q : Fin 4, lane g w q l) 32768,
    Finset.sum_mul]
  refine Finset.sum_congr rfl fun w _ => ?_
  rw [Finset.sum_mul]
  refine Finset.sum_congr rfl fun l _ => ?_
  rw [Fin.sum_univ_four]
  ring

end Cert.Proof.Regroup
-- ==== Proof.KIValue.lean ====
/-
  The value of the kernel's table of partial sums, and of the host's sum over it, when every float is read as an
  extended real number and every operation is exact.

  The inputs are in the specification's domain: every feature and every centre component is (the image of) a real
  number and every label names one of the 100000 centres. Write g f b = (x_b[f] − c_{lab b}[f])² for the real summand
  of the loss at component f < 64 of sample b < 16384.

  Reading the transposed tables entry by entry, one group of sixteen lanes adds g f b, for the sixteen consecutive
  samples b it covers, to a running vector; a difference and a product of images of reals are images of reals, so a
  running vector that starts as the image of a real vector stays one. A trip is eight groups, a chunk 32 trips, a row
  four chunks, a worker two rows from the zero vector: by induction on the number of trips each running vector of a
  worker is the image of the real vector whose lane l holds the sum of g f b over the worker's two rows f and over
  the samples b = 4096 h + 128 k + 16 u + l with u one of the two groups that feed this running vector. Adding the
  four running vectors pairwise and multiplying by 2^-15 = 1 / 32768 gives the worker's row of the table.

  The host adds up all 32 × 16 entries from zero. A finite sum of images of reals is the image of the sum, and the
  rearrangement of that double sum into the sum over all samples and components, divided by 32768, is the regrouping
  identity proved separately; the result is the specification's loss.
-/
import proofs.«204200_g67499706024535_cont_9to1c4b_715_37_alg».proof.Proof.RefRun
import proofs.«204200_g67499706024535_cont_9to1c4b_715_37_alg».proof.Proof.KIPay
import proofs.«204200_g67499706024535_cont_9to1c4b_715_37_alg».proof.Proof.Regroup
import proofs.«204200_g67499706024535_cont_9to1c4b_715_37_alg».proof.Proof.Spec
import Idealize.ShloMosaic.Lib.ValueLayout
import Idealize.ShloMosaic.Lib.IdealHost
import Idealize.ShloMosaic.PureOps.Ideal.Laws

noncomputable section

namespace Cert.Proof.KI

open Cert.KernelIdeal Cert.KernelIdeal.Gen
open Idealize.ShloMosaic Idealize.ShloMosaic.ValueIdx
open Cert.Proof.Regroup

section Reads

variable {x : FVec Ideal S16384x64 .f32} {lab : IVec S16384 32} {c : FVec Ideal S100000x64 .f32}
variable (D : Cert.Proof.Spec.Decoded x lab c)

/-- The feature table as the kernel sees it: transposed to 64 × 16384. -/
abbrev xT (x : FVec Ideal S16384x64 .f32) : FVec Ideal S64x16384 .f32 :=
  transpose S64x16384 [1, 0] x transposes_S16384x64_S64x16384_1_0
/-- The centre table as the kernel sees it: transposed to 64 × 100000. -/
abbrev cT (c : FVec Ideal S100000x64 .f32) : FVec Ideal S64x100000 .f32 :=
  transpose S64x100000 [1, 0] c transposes_S100000x64_S64x100000_1_0

/-- Entry j < 4096 of chunk h of row f of the transposed feature table is the real feature f of sample 4096 h + j. -/
theorem chunkOf_fi (f : Fin 64) (h j : Nat) (hj : j < 4096) :
    chunkOf (xT x) f.val h (fi j)
      = ((D.xr ⟨(4096 * h + j) % 16384, Nat.mod_lt _ (by decide)⟩ f : ℝ) : EReal) := by
  have hf : (⟨f.val % 64, Nat.mod_lt _ (by decide)⟩ : Fin 64) = f := Fin.ext (Nat.mod_eq_of_lt f.isLt)
  have hb : (⟨(4096 * h + j % 4096) % 16384, Nat.mod_lt _ (by decide)⟩ : Fin 16384)
      = ⟨(4096 * h + j) % 16384, Nat.mod_lt _ (by decide)⟩ :=
    Fin.ext (by show (4096 * h + j % 4096) % 16384 = (4096 * h + j) % 16384; rw [Nat.mod_eq_of_lt hj])
  show transpose S64x16384 [1, 0] x _ (ix2 (⟨f.val % 64, Nat.mod_lt _ (by decide)⟩ : Fin 64)
    (⟨(4096 * h + j % 4096) % 16384, Nat.mod_lt _ (by decide)⟩ : Fin 16384)) = _
  rw [hf, hb, transpose_ix2_apply, D.hx]

/-- Entry k of row f of the transposed centre table is the real component f of centre k. -/
theorem rowOf_ri (f : Fin 64) (k : Fin 100000) :
    rowOf (cT c) f.val (ri k.val) = ((D.cr k f : ℝ) : EReal) := by
  have hf : (⟨f.val % 64, Nat.mod_lt _ (by decide)⟩ : Fin 64) = f := Fin.ext (Nat.mod_eq_of_lt f.isLt)
  have hk : (⟨k.val % 100000, Nat.mod_lt _ (by decide)⟩ : Fin 100000) = k := Fin.ext (Nat.mod_eq_of_lt k.isLt)
  show transpose S64x100000 [1, 0] c _ (ix2 (⟨f.val % 64, Nat.mod_lt _ (by decide)⟩ : Fin 64)
    (⟨k.val % 100000, Nat.mod_lt _ (by decide)⟩ : Fin 100000)) = _
  rw [hf, hk, transpose_ix2_apply, D.hc]

/-- The label word at position b, read as a natural number, is the decoded label of sample b. -/
theorem lab_li (b : Nat) :
    (lab (li b)).toNat = (D.lb ⟨b % 16384, Nat.mod_lt _ (by decide)⟩).val := by
  unfold li
  exact D.hl _

/-- The summand of the loss: the squared difference of feature f of sample b and the same component of the centre
    the sample's label names. -/
def g (f : Fin 64) (b : Fin 16384) : ℝ := (D.xr b f - D.cr (D.lb b) f) ^ 2

/-- The same with the sample given as a natural number, reduced into range. -/
def gN (f : Fin 64) (b : Nat) : ℝ := g D f ⟨b % 16384, Nat.mod_lt _ (by decide)⟩

/-- A vector of sixteen real numbers read as a vector of extended reals. -/
def cv (r : Fin 16 → ℝ) : FVec Ideal S16 .f32 := fun i => ((r ⟨(i 0).val, (i 0).isLt⟩ : ℝ) : EReal)

theorem cv_apply (r : Fin 16 → ℝ) (l : Fin 16) : cv r (ix1 l) = ((r l : ℝ) : EReal) := rfl

/-- One group: lane l of the running vector grows by the summand of sample 4096 h + oF + l. -/
theorem grp_cv (f : Fin 64) (h oF : Nat) (hoF : oF + 16 ≤ 4096) (r : Fin 16 → ℝ) :
    grp (rowOf (cT c) f.val) lab (chunkOf (xT x) f.val h) (4096 * h + oF) oF (cv r)
      = cv (fun l => r l + gN D f (4096 * h + oF + l.val)) := by
  funext i
  obtain ⟨l, rfl⟩ : ∃ l : Fin 16, i = ix1 l := ⟨i 0, eq_ix1 i⟩
  show cv r (ix1 l)
      + (chunkOf (xT x) f.val h (fi (oF + l.val))
          - rowOf (cT c) f.val (ri (lab (li (4096 * h + oF + l.val))).toNat))
        * (chunkOf (xT x) f.val h (fi (oF + l.val))
          - rowOf (cT c) f.val (ri (lab (li (4096 * h + oF + l.val))).toNat)) = _
  have hl := l.isLt
  rw [chunkOf_fi D f h (oF + l.val) (by omega), lab_li D, rowOf_ri D, cv_apply, cv_apply,
    ← EReal.coe_sub, ← EReal.coe_mul, ← EReal.coe_add]
  congr 1
  unfold gN g
  rw [Nat.add_assoc, pow_two]

end Reads

section Accumulate

variable {x : FVec Ideal S16384x64 .f32} {lab : IVec S16384 32} {c : FVec Ideal S100000x64 .f32}
variable (D : Cert.Proof.Spec.Decoded x lab c)

/-- Two groups in a row on one running vector. -/
theorem grp2_cv (f : Fin 64) (h oF oF' oL oL' a b : Nat) (hoF : oF + 16 ≤ 4096) (hoF' : oF' + 16 ≤ 4096)
    (h1 : oL = 4096 * h + oF) (h2 : oL' = 4096 * h + oF') (ha : 4096 * h + oF = a) (hb : 4096 * h + oF' = b)
    (r : Fin 16 → ℝ) :
    grp (rowOf (cT c) f.val) lab (chunkOf (xT x) f.val h) oL' oF'
        (grp (rowOf (cT c) f.val) lab (chunkOf (xT x) f.val h) oL oF (cv r))
      = cv (fun l => r l + (gN D f (a + l.val) + gN D f (b + l.val))) := by
  subst h1 h2 ha hb
  rw [grp_cv D f h oF hoF, grp_cv D f h oF' hoF']
  congr 1
  funext l
  exact add_assoc _ _ _

/-- Four real vectors read as the four running vectors. -/
def cv4 (r0 r1 r2 r3 : Fin 16 → ℝ) : A4 Ideal := (cv r0, cv r1, cv r2, cv r3)

/-- What trip k of chunk h of row f adds to running vector q at lane l: the summands of groups q and q + 4. -/
def tt (f : Fin 64) (h k q : Nat) (l : Fin 16) : ℝ :=
  gN D f (4096 * h + 128 * k + 16 * q + l.val) + gN D f (4096 * h + 128 * k + 16 * (q + 4) + l.val)

/-- One trip on four real running vectors. -/
theorem trip_cv4 (f : Fin 64) (h k : Nat) (hk : k < 32) (r0 r1 r2 r3 : Fin 16 → ℝ) :
    trip (rowOf (cT c) f.val) lab (chunkOf (xT x) f.val h) h k (cv4 r0 r1 r2 r3)
      = cv4 (fun l => r0 l + tt D f h k 0 l) (fun l => r1 l + tt D f h k 1 l)
          (fun l => r2 l + tt D f h k 2 l) (fun l => r3 l + tt D f h k 3 l) := by
  unfold trip cv4 tt
  refine Prod.ext ?_ (Prod.ext ?_ (Prod.ext ?_ ?_))
  · exact grp2_cv D f h (128 * k) (128 * k + 64) _ _ _ _ (by omega) (by omega) (by omega) (by omega) (by omega)
      (by omega) r0
  · exact grp2_cv D f h (128 * k + 16) (128 * k + 80) _ _ _ _ (by omega) (by omega) (by omega) (by omega) (by omega)
      (by omega) r1
  · exact grp2_cv D f h (128 * k + 32) (128 * k + 96) _ _ _ _ (by omega) (by omega) (by omega) (by omega) (by omega)
      (by omega) r2
  · exact grp2_cv D f h (128 * k + 48) (128 * k + 112) _ _ _ _ (by omega) (by omega) (by omega) (by omega) (by omega)
      (by omega) r3

/-- What the first n trips of chunk h of row f add to running vector q at lane l. -/
def ct (f : Fin 64) (h n q : Nat) (l : Fin 16) : ℝ := ∑ k ∈ Finset.range n, tt D f h k q l

/-- The first n trips of a chunk on four real running vectors. -/
theorem chunk_cv4 (f : Fin 64) (h n : Nat) (hn : n ≤ 32) (r0 r1 r2 r3 : Fin 16 → ℝ) :
    chunk (rowOf (cT c) f.val) lab (chunkOf (xT x) f.val h) h n (cv4 r0 r1 r2 r3)
      = cv4 (fun l => r0 l + ct D f h n 0 l) (fun l => r1 l + ct D f h n 1 l)
          (fun l => r2 l + ct D f h n 2 l) (fun l => r3 l + ct D f h n 3 l) := by
  induction n with
  | zero =>
    show cv4 r0 r1 r2 r3 = _
    unfold ct
    simp only [Finset.range_zero, Finset.sum_empty, add_zero]
  | succ n ih =>
    show trip _ lab _ h n (chunk _ lab _ h n (cv4 r0 r1 r2 r3)) = _
    rw [ih (by omega), trip_cv4 D f h n (by omega)]
    unfold ct
    simp only [Finset.sum_range_succ, add_assoc]

/-- What the four chunks of row f add to running vector q at lane l. -/
def rt (f : Fin 64) (q : Nat) (l : Fin 16) : ℝ :=
  ct D f 0 32 q l + ct D f 1 32 q l + ct D f 2 32 q l + ct D f 3 32 q l

/-- A whole row on four real running vectors. -/
theorem rowAcc_cv4 (f : Fin 64) (r0 r1 r2 r3 : Fin 16 → ℝ) :
    rowAcc (xT x) lab (cT c) f.val (cv4 r0 r1 r2 r3)
      = cv4 (fun l => r0 l + rt D f 0 l) (fun l => r1 l + rt D f 1 l)
          (fun l => r2 l + rt D f 2 l) (fun l => r3 l + rt D f 3 l) := by
  unfold rowAcc
  rw [chunk_cv4 D f 0 32 (le_refl _), chunk_cv4 D f 1 32 (le_refl _), chunk_cv4 D f 2 32 (le_refl _),
    chunk_cv4 D f 3 32 (le_refl _)]
  unfold rt
  simp only [add_assoc]

end Accumulate

section Result

variable {x : FVec Ideal S16384x64 .f32} {lab : IVec S16384 32} {c : FVec Ideal S100000x64 .f32}
variable (D : Cert.Proof.Spec.Decoded x lab c)

/-- The vector the running vectors start from is the real zero vector. -/
theorem pay42_cv : (k0_pay42 (F := Ideal)) = cv (fun _ => 0) := by
  funext i
  show Ideal.ofBits .f32 0x00000000#32 = ((0 : ℝ) : EReal)
  rw [Ideal.ofBits_zero_f32, EReal.coe_zero]

/-- What worker w's two rows add to running vector q at lane l. -/
def wt (w : Fin 32) (q : Nat) (l : Fin 16) : ℝ := rt D (fIdx w 0) q l + rt D (fIdx w 1) q l

/-- Worker w's four running vectors after both of its rows. -/
theorem tileAcc_cv4 (w : Fin 32) :
    tileAcc (xT x) lab (cT c) w.val = cv4 (wt D w 0) (wt D w 1) (wt D w 2) (wt D w 3) := by
  show rowAcc (xT x) lab (cT c) (fIdx w 1).val (rowAcc (xT x) lab (cT c) (fIdx w 0).val
    (k0_pay42 (F := Ideal), k0_pay42 (F := Ideal), k0_pay42 (F := Ideal), k0_pay42 (F := Ideal))) = _
  rw [pay42_cv]
  show rowAcc (xT x) lab (cT c) (fIdx w 1).val (rowAcc (xT x) lab (cT c) (fIdx w 0).val
    (cv4 (fun _ => 0) (fun _ => 0) (fun _ => 0) (fun _ => 0))) = _
  rw [rowAcc_cv4 D, rowAcc_cv4 D]
  unfold wt
  simp only [zero_add]

/-- The single-precision pattern 0x38000000 (exponent field 112, significand 0) denotes 2^-15 = 1 / 32768. -/
theorem ofBits_scale : Ideal.ofBits .f32 0x38000000#32 = ((1 / 32768 : ℝ) : EReal) := by
  simp [Ideal.ofBits, Ideal.ieee, -EReal.coe_mul]; norm_num

/-- The final combination on four real vectors: added pairwise, then scaled. -/
theorem pay9_cv (r0 r1 r2 r3 : Fin 16 → ℝ) :
    k0_pay9 (F := Ideal) (cv r0) (cv r1) (cv r2) (cv r3)
      = cv (fun l => ((r0 l + r1 l) + (r2 l + r3 l)) * (1 / 32768)) := by
  funext i
  obtain ⟨l, rfl⟩ : ∃ l : Fin 16, i = ix1 l := ⟨i 0, eq_ix1 i⟩
  show ((cv r0 (ix1 l) + cv r1 (ix1 l)) + (cv r2 (ix1 l) + cv r3 (ix1 l))) * Ideal.ofBits .f32 0x38000000#32 = _
  rw [ofBits_scale, cv_apply, cv_apply, cv_apply, cv_apply, cv_apply, ← EReal.coe_add, ← EReal.coe_add,
    ← EReal.coe_add, ← EReal.coe_mul]

/-- An entry of the table of partial sums, as a real number. -/
theorem table_apply (w : Fin 32) (l : Fin 16) :
    table (xT x) lab (cT c) (ix2 w l)
      = ((((wt D w 0 l + wt D w 1 l) + (wt D w 2 l + wt D w 3 l)) * (1 / 32768) : ℝ) : EReal) := by
  show k0_pay9 (F := Ideal) (tileAcc (xT x) lab (cT c) w.val).1 (tileAcc (xT x) lab (cT c) w.val).2.1
    (tileAcc (xT x) lab (cT c) w.val).2.2.1 (tileAcc (xT x) lab (cT c) w.val).2.2.2 (ix1 l) = _
  rw [tileAcc_cv4 D w]
  show k0_pay9 (F := Ideal) (cv (wt D w 0)) (cv (wt D w 1)) (cv (wt D w 2)) (cv (wt D w 3)) (ix1 l) = _
  rw [pay9_cv, cv_apply]

/-- A trip's contribution, with the sample numbers written by their digits. -/
theorem tt_eq (f : Fin 64) (h : Fin 4) (k : Fin 32) (q : Fin 4) (l : Fin 16) :
    tt D f h.val k.val q.val l = g D f (bIdx h k (uIdx q 0) l) + g D f (bIdx h k (uIdx q 1) l) := by
  have e0 : (⟨(4096 * h.val + 128 * k.val + 16 * q.val + l.val) % 16384, Nat.mod_lt _ (by decide)⟩ : Fin 16384)
      = bIdx h k (uIdx q 0) l :=
    Fin.ext (by
      show (4096 * h.val + 128 * k.val + 16 * q.val + l.val) % 16384
        = 4096 * h.val + 128 * k.val + 16 * (q.val + 4 * 0) + l.val
      omega)
  have e1 : (⟨(4096 * h.val + 128 * k.val + 16 * (q.val + 4) + l.val) % 16384, Nat.mod_lt _ (by decide)⟩ : Fin 16384)
      = bIdx h k (uIdx q 1) l :=
    Fin.ext (by
      show (4096 * h.val + 128 * k.val + 16 * (q.val + 4) + l.val) % 16384
        = 4096 * h.val + 128 * k.val + 16 * (q.val + 4 * 1) + l.val
      omega)
  unfold tt gN
  rw [e0, e1]

/-- A chunk's contribution as a sum over its 32 trips. -/
theorem ct_eq (f : Fin 64) (h : Fin 4) (q : Fin 4) (l : Fin 16) :
    ct D f h.val 32 q.val l
      = ∑ k : Fin 32, (g D f (bIdx h k (uIdx q 0) l) + g D f (bIdx h k (uIdx q 1) l)) := by
  unfold ct
  rw [← Fin.sum_univ_eq_sum_range (fun k => tt D f h.val k q.val l) 32]
  exact Finset.sum_congr rfl fun k _ => tt_eq D f h k q l

/-- A row's contribution as a sum over its four chunks. -/
theorem rt_eq (f : Fin 64) (q : Fin 4) (l : Fin 16) :
    rt D f q.val l
      = ∑ h : Fin 4, ∑ k : Fin 32, (g D f (bIdx h k (uIdx q 0) l) + g D f (bIdx h k (uIdx q 1) l)) := by
  rw [Fin.sum_univ_four, ← ct_eq D f 0 q l, ← ct_eq D f 1 q l, ← ct_eq D f 2 q l, ← ct_eq D f 3 q l]
  rfl

/-- A worker's contribution to running vector q at lane l is partial sum q of that lane. -/
theorem wt_eq_lane (w : Fin 32) (q : Fin 4) (l : Fin 16) : wt D w q.val l = lane (g D) w q l := by
  unfold wt lane
  rw [Fin.sum_univ_two, rt_eq, rt_eq]

/-- An entry of the table of partial sums in terms of the lane's four partial sums. -/
theorem table_lane (w : Fin 32) (l : Fin 16) :
    table (xT x) lab (cT c) (ix2 w l)
      = ((((lane (g D) w 0 l + lane (g D) w 1 l) + (lane (g D) w 2 l + lane (g D) w 3 l)) * (1 / 32768) : ℝ) : EReal) := by
  have h0 : wt D w 0 l = lane (g D) w 0 l := wt_eq_lane D w 0 l
  have h1 : wt D w 1 l = lane (g D) w 1 l := wt_eq_lane D w 1 l
  have h2 : wt D w 2 l = lane (g D) w 2 l := wt_eq_lane D w 2 l
  have h3 : wt D w 3 l = lane (g D) w 3 l := wt_eq_lane D w 3 l
  rw [table_apply D w l, h0, h1, h2, h3]

end Result

/-- The host's sum over the table of partial sums is the specification's loss. -/
theorem total (x : FVec Ideal S16384x64 .f32) (lab : IVec S16384 32) (c : FVec Ideal S100000x64 .f32)
    (D : Cert.Proof.Spec.Decoded x lab c) :
    (Host.reduceAdd (table (F := Ideal) (transpose S64x16384 [1, 0] x transposes_S16384x64_S64x16384_1_0) lab
          (transpose S64x100000 [1, 0] c transposes_S100000x64_S64x100000_1_0))
        (constant (F := Ideal) S_ .f32 0x00000000#32) reducesTo_S32x16_S_d0_1 h_S_ : FVec Ideal S_ .f32)
      = fun _ => D.loss := by
  funext j
  rw [hostReduceAdd_apply, Ideal.hostReduceAdd_total _ (fun b => b.elim0), constant_apply, Ideal.ofBits_zero_f32,
    zero_add, sum_idx2]
  rw [Finset.sum_congr rfl (fun w _ =>
      (Finset.sum_congr rfl (fun l _ => table_lane D w l)).trans (Cert.Proof.RefRun.coe_sum _ _)),
    Cert.Proof.RefRun.coe_sum, regroup]
  rfl

end Cert.Proof.KI

end
-- ==== Proof.KILaunch.lean ====
/-
  The launch of the idealized kernel program: from "every vector subcore's task is proved" to the run of the whole
  program, with its result named.

  The program's host part transposes the feature table and the centre table, calls the two SparseCores, and sums the
  32 x 16 table of partial sums the call leaves, from zero. The resources travel as follows. The three tables the
  workers only read (transposed features, labels, transposed centres) go out as read shares: the host keeps a
  remainder and gives each SparseCore one share; each SparseCore keeps a remainder of its share and gives each of its
  sixteen vector subcores one; the shares recombine on the way back, so the tables return whole and unchanged. The
  table of partial sums is split by rows: its 32 rows are pairwise disjoint and cover it, and (SparseCore c, vector
  subcore i) |-> 2 i + c is a bijection onto the 32 rows, so the whole table is the separating conjunction over c and
  i of row 2 i + c. Each row comes back holding the corresponding row of one function, the table the workers compute,
  so the rows rejoin to the whole table at that function. After the call the host's sum therefore reads that table,
  and the final memory holds the scalar result at its sum and the three arguments at their launch contents.
-/
import proofs.«204200_g67499706024535_cont_9to1c4b_715_37_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "oW" => (Memref.whole Cert.KernelIdeal.main_v2_scv : Memref Cert.KernelIdeal.sig Kind.scVector Space.hbm Cert.KernelIdeal.S32x16 EltTy.f32)

variable [FloatOps F]
variable (m : (ℓ : Loc nD τ sig) → Buf (Elt F) ℓ) (ρ : Dev nD → PrngReg)

/-! ## The rows of the table of partial sums -/

omit [FloatOps F] in
theorem oSet_eq (w : Fin 32) : oSet w = (orow w).set := by
  show ((View.whole (main_v2_scv : Ref sig .scVector)).slice (orow w)).set = _
  rw [View.set_slice]; exact Finset.map_refl

omit [FloatOps F] in
theorem rows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdiv h

omit [FloatOps F] in
theorem rows_cover : (Finset.univ : Finset (Fin 32)).biUnion oSet = Finset.univ :=
  (Finset.biUnion_congr rfl fun i _ => oSet_eq i).trans (Rect.biUnion_part hdiv)

omit [FloatOps F] in
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet rows_disjoint, rows_cover]; try rfl

/-- The worker number is a bijection from (SparseCore, vector subcore) to the 32 workers: w = 2 i + c. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
/-- The whole table is its 32 rows, grouped by SparseCore and vector subcore. -/
theorem oPts_cores (d : Dev nD) (f : Buf (Elt F) (oLoc d)) :
    (oLoc d ↦{fullShare} f : sProp 𝕄)
      = bigSep Finset.univ fun c : Fin 2 => bigSep Finset.univ fun i : Fin 16 => oLoc d ↦[oSet (wid c i)]{fullShare} f := by
  rw [oPts_rows, bigSep_univ_equiv widEquiv, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands split among its vector subcores -/

/-- What a SparseCore keeps of its read shares while its vector subcores hold theirs. -/
def coreRest (d : Dev nD) (c : Fin 2) : sProp 𝕄 :=
  iprop((xLoc d ↦{Transfers.shareDrop (qC c) 16} XT m d) ∗ (lLoc d ↦{Transfers.shareDrop (qC c) 16} m (lLoc d))
    ∗ (cLoc d ↦{Transfers.shareDrop (qC c) 16} CTr m d))

theorem core_split (d : Dev nD) (c : Fin 2) (O : Buf (Elt F) (oLoc d)) :
    coreIn m d c O ⊢ iprop(coreRest m d c ∗ bigSep Finset.univ fun i : Fin 16 => tileIn m d c i O) := by
  unfold coreIn tileIn coreRest
  rw [bigSep_sep', bigSep_sep', bigSep_sep']
  iintro ⟨Hx, Hl, Hc, Ho⟩
  ihave Hx' := (Transfers.pointsTo_toks_split (qC c) 16) $$ Hx
  ihave Hl' := (Transfers.pointsTo_toks_split (qC c) 16) $$ Hl
  ihave Hc' := (Transfers.pointsTo_toks_split (qC c) 16) $$ Hc
  icases Hx' with ⟨Hxr, Hxt⟩
  icases Hl' with ⟨Hlr, Hlt⟩
  icases Hc' with ⟨Hcr, Hct⟩
  isplitl [Hxr Hlr Hcr]
  · isplitl [Hxr]; · iexact Hxr
    isplitl [Hlr]; · iexact Hlr
    iexact Hcr
  isplitl [Hxt]; · iexact Hxt
  isplitl [Hlt]; · iexact Hlt
  isplitl [Hct]; · iexact Hct
  iexact Ho

theorem core_join (d : Dev nD) (c : Fin 2) (O : Buf (Elt F) (oLoc d)) :
    iprop(coreRest m d c ∗ bigSep Finset.univ fun i : Fin 16 => tileIn m d c i O) ⊢ coreIn m d c O := by
  unfold coreIn tileIn coreRest
  rw [bigSep_sep', bigSep_sep', bigSep_sep']
  iintro ⟨⟨Hxr, Hlr, Hcr⟩, Hxt, Hlt, Hct, Ho⟩
  isplitl [Hxr Hxt]
  · iapply (Transfers.pointsTo_toks_join (qC c) 16); isplitl [Hxr]; · iexact Hxr
    iexact Hxt
  isplitl [Hlr Hlt]
  · iapply (Transfers.pointsTo_toks_join (qC c) 16); isplitl [Hlr]; · iexact Hlr
    iexact Hlt
  isplitl [Hcr Hct]
  · iapply (Transfers.pointsTo_toks_join (qC c) 16); isplitl [Hcr]; · iexact Hcr
    iexact Hct
  iexact Ho

theorem vecSplit : (K (F := F)).VecSplit' (P m) 0 := by
  intro d c
  show coreIn m d (Fin.cast nCore_zero c) (m (oLoc d)) ⊢ |={Set.univ}=> iprop(
      (bigSep Finset.univ fun i : Fin ((K (F := F)).nSub 0) => tileIn m d (Fin.cast nCore_zero c) (Fin.cast nSub_zero i) (m (oLoc d)))
      ∗ ((bigSep Finset.univ fun i : Fin ((K (F := F)).nSub 0) => tileIn m d (Fin.cast nCore_zero c) (Fin.cast nSub_zero i) (G m d))
          -∗ coreIn m d (Fin.cast nCore_zero c) (G m d)))
  rw [bigSep_tasks (F := F) (fun i => tileIn m d (Fin.cast nCore_zero c) i (m (oLoc d))),
    bigSep_tasks (F := F) (fun i => tileIn m d (Fin.cast nCore_zero c) i (G m d))]
  iintro H
  ihave H' := (core_split m d (Fin.cast nCore_zero c) (m (oLoc d))) $$ H
  icases H' with ⟨Hr, Ht⟩
  imodintro
  isplitl [Ht]; · iexact Ht
  iintro Ht
  iapply (core_join m d (Fin.cast nCore_zero c) (G m d))
  isplitl [Hr]; · iexact Hr
  iexact Ht

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev l' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev c' : DevRef τ sig := Proc.devRef .tc (main_v1 : Ref sig .tc)
abbrev o' : DevRef τ sig := Proc.devRef .tc (main_v2 : Ref sig .tc)
abbrev z' : DevRef τ sig := Proc.devRef .tc (main_cst : Ref sig .tc)
abbrev r' : DevRef τ sig := Proc.devRef .tc (main_v3 : Ref sig .tc)

/-- The host's four operations: the two transpositions before the call, the zero and the sum over the whole table
    after it. -/
abbrev opTx : HloOp τ sig (Elt F) :=
  StableHlo.unary main_arg0 main_v0 ((transpose S64x16384 [1, 0] · transposes_S16384x64_S64x16384_1_0) : (⟨S16384x64, .f32⟩ : BufTy).Contents (Elt F) → (⟨S64x16384, .f32⟩ : BufTy).Contents (Elt F))
abbrev opTc : HloOp τ sig (Elt F) :=
  StableHlo.unary main_arg2 main_v1 ((transpose S64x100000 [1, 0] · transposes_S100000x64_S64x100000_1_0) : (⟨S100000x64, .f32⟩ : BufTy).Contents (Elt F) → (⟨S64x100000, .f32⟩ : BufTy).Contents (Elt F))
abbrev opZ : HloOp τ sig (Elt F) := StableHlo.nullary main_cst (constant S_ .f32 0x00000000#32)
abbrev opR : HloOp τ sig (Elt F) :=
  StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))

omit [FloatOps F] in
theorem held_one (d : Dev nD) (a : DevRef τ sig) (W : Valuation τ sig (Elt F)) :
    (held (T d) {a} W : sProp 𝕄) = (((d, a) : Loc nD τ sig) ↦{fullShare} W a) := by
  unfold held; rw [bigSep_singleton]
omit [FloatOps F] in
theorem held_two (d : Dev nD) (a b : DevRef τ sig) (h : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (Finset.notMem_singleton.mpr h), bigSep_singleton]
omit [FloatOps F] in
theorem held_three (d : Dev nD) (a b c : DevRef τ sig) (hab : a ≠ b) (hac : a ≠ c) (hbc : b ≠ c) (W : Valuation τ sig (Elt F)) :
    (held (T d) {a, b, c} W : sProp 𝕄)
      = iprop((((d, a) : Loc nD τ sig) ↦{fullShare} W a) ∗ (((d, b) : Loc nD τ sig) ↦{fullShare} W b) ∗ (((d, c) : Loc nD τ sig) ↦{fullShare} W c)) := by
  unfold held
  rw [SparseCore.bigSep_insert' (by rw [Finset.mem_insert, Finset.mem_singleton]; exact not_or.mpr ⟨hab, hac⟩),
    SparseCore.bigSep_insert' (Finset.notMem_singleton.mpr hbc), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (lLoc d ↦{fullShare} W main_arg1) ∗ (a2Loc d ↦{fullShare} W main_arg2)
      ∗ (xLoc d ↦{fullShare} W main_v0) ∗ (cLoc d ↦{fullShare} W main_v1) ∗ (oLoc d ↦{fullShare} W main_v2)
      ∗ (zLoc d ↦{fullShare} W main_cst) ∗ (rLoc d ↦{fullShare} W main_v3)) := by
  unfold unscopedBufs
  rw [show (Finset.univ.filter fun b : Ref sig .tc => ¬ b.isScoped) = {main_arg0, main_arg1, main_arg2, main_v0, main_v1, main_v2, main_cst, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents, as a valuation of device d's arrays. -/
def V0 (d : Dev nD) : Valuation τ sig (Elt F) := fun b => m (d, b)
/-- The zero the sum starts from. -/
abbrev ZERO (d : Dev nD) : Buf (Elt F) (zLoc d) := (constant S_ .f32 0x00000000#32 : FVec F S_ .f32)
/-- The contents the sum is taken at: the table of partial sums as the call left it, and the zero. -/
def V5 (d : Dev nD) : Valuation τ sig (Elt F) := Function.update (Function.update (V0 m d) o' (G m d)) z' (ZERO d)

theorem V5_o (d : Dev nD) : V5 m d o' = G m d :=
  (Function.update_of_ne (show o' ≠ z' by decide) _ _).trans (Function.update_self _ _ _)
theorem V5_z (d : Dev nD) : V5 m d z' = ZERO d := Function.update_self _ _ _
theorem V5_r (d : Dev nD) : V5 m d r' = m (rLoc d) :=
  (Function.update_of_ne (show r' ≠ z' by decide) _ _).trans (Function.update_of_ne (show r' ≠ o' by decide) _ _)

/-- The scalar result: the sum of the whole table of partial sums, from zero. -/
abbrev RES (d : Dev nD) : Buf (Elt F) (rLoc d) :=
  (Host.reduceAdd (G m d : FVec F S32x16 .f32) (constant S_ .f32 0x00000000#32) reducesTo_S32x16_S_d0_1 h_S_ : FVec F S_ .f32)

theorem heldTx (d : Dev nD) :
    (held (T d) {a0', x'} ((opTx (F := F)).result (V0 m d)) : sProp 𝕄) = iprop((a0Loc d ↦{fullShare} m (a0Loc d)) ∗ (xLoc d ↦{fullShare} XT m d)) := by
  rw [held_two d a0' x' (by decide),
    (opTx (F := F)).result_of_not_mem (V0 m d) (b := a0') (show a0' ∉ ({x'} : Finset (DevRef τ sig)) by decide),
    show (opTx (F := F)).result (V0 m d) x' = XT m d from StableHlo.unary_result _ _ _ _ _ _]
  rfl
theorem heldTc (d : Dev nD) :
    (held (T d) {a2', c'} ((opTc (F := F)).result (V0 m d)) : sProp 𝕄) = iprop((a2Loc d ↦{fullShare} m (a2Loc d)) ∗ (cLoc d ↦{fullShare} CTr m d)) := by
  rw [held_two d a2' c' (by decide),
    (opTc (F := F)).result_of_not_mem (V0 m d) (b := a2') (show a2' ∉ ({c'} : Finset (DevRef τ sig)) by decide),
    show (opTc (F := F)).result (V0 m d) c' = CTr m d from StableHlo.unary_result _ _ _ _ _ _]
  rfl
theorem heldZ (d : Dev nD) :
    (held (T d) {z'} ((opZ (F := F)).result (V0 m d)) : sProp 𝕄) = (zLoc d ↦{fullShare} ZERO d) := by
  rw [held_one d z', show (opZ (F := F)).result (V0 m d) z' = ZERO d from StableHlo.nullary_result _ _ _ _]
theorem heldR (d : Dev nD) :
    (held (T d) {o', z', r'} ((opR (F := F)).result (V5 m d)) : sProp 𝕄)
      = iprop((oLoc d ↦{fullShare} G m d) ∗ (zLoc d ↦{fullShare} ZERO d) ∗ (rLoc d ↦{fullShare} RES m d)) := by
  rw [held_three d o' z' r' (by decide) (by decide) (by decide),
    (opR (F := F)).result_of_not_mem (V5 m d) (b := o') (show o' ∉ ({r'} : Finset (DevRef τ sig)) by decide),
    (opR (F := F)).result_of_not_mem (V5 m d) (b := z') (show z' ∉ ({r'} : Finset (DevRef τ sig)) by decide),
    show (opR (F := F)).result (V5 m d) r' = RES m d from
      (StableHlo.binary_result _ _ _ _ _ _ _ _).trans (by rw [V5_o, V5_z]),
    V5_o, V5_z]

/-! ## The call's operands: read shares of the three tables, the rows of the table of partial sums -/

/-- What the TensorCore keeps of the three tables across the call. -/
def callRest (d : Dev nD) : sProp 𝕄 :=
  iprop((xLoc d ↦{Transfers.shareDrop fullShare 2} XT m d) ∗ (lLoc d ↦{Transfers.shareDrop fullShare 2} m (lLoc d))
    ∗ (cLoc d ↦{Transfers.shareDrop fullShare 2} CTr m d))

theorem call_in (d : Dev nD) (O : Buf (Elt F) (oLoc d)) :
    iprop((xLoc d ↦{fullShare} XT m d) ∗ (lLoc d ↦{fullShare} m (lLoc d)) ∗ (cLoc d ↦{fullShare} CTr m d) ∗ (oLoc d ↦{fullShare} O))
      ⊢ iprop(callRest m d ∗ coreIn m d 0 O ∗ coreIn m d 1 O) := by
  unfold coreIn callRest
  rw [oPts_cores d O, bigSep_univ_two]
  iintro ⟨Hx, Hl, Hc, Ho0, Ho1⟩
  ihave Hx' := (Transfers.pointsTo_toks_split fullShare 2) $$ Hx
  ihave Hl' := (Transfers.pointsTo_toks_split fullShare 2) $$ Hl
  ihave Hc' := (Transfers.pointsTo_toks_split fullShare 2) $$ Hc
  icases Hx' with ⟨Hxr, Hxt⟩
  icases Hl' with ⟨Hlr, Hlt⟩
  icases Hc' with ⟨Hcr, Hct⟩
  ihave Hxt' := (Entails.of_eq (bigSep_univ_two _)) $$ Hxt
  ihave Hlt' := (Entails.of_eq (bigSep_univ_two _)) $$ Hlt
  ihave Hct' := (Entails.of_eq (bigSep_univ_two _)) $$ Hct
  icases Hxt' with ⟨Hx0, Hx1⟩
  icases Hlt' with ⟨Hl0, Hl1⟩
  icases Hct' with ⟨Hc0, Hc1⟩
  isplitl [Hxr Hlr Hcr]
  · isplitl [Hxr]; · iexact Hxr
    isplitl [Hlr]; · iexact Hlr
    iexact Hcr
  isplitl [Hx0 Hl0 Hc0 Ho0]
  · isplitl [Hx0]; · iexact Hx0
    isplitl [Hl0]; · iexact Hl0
    isplitl [Hc0]; · iexact Hc0
    iexact Ho0
  isplitl [Hx1]; · iexact Hx1
  isplitl [Hl1]; · iexact Hl1
  isplitl [Hc1]; · iexact Hc1
  iexact Ho1

theorem call_out (d : Dev nD) (O : Buf (Elt F) (oLoc d)) :
    iprop(callRest m d ∗ coreIn m d 0 O ∗ coreIn m d 1 O)
      ⊢ iprop((xLoc d ↦{fullShare} XT m d) ∗ (lLoc d ↦{fullShare} m (lLoc d)) ∗ (cLoc d ↦{fullShare} CTr m d) ∗ (oLoc d ↦{fullShare} O)) := by
  unfold coreIn callRest
  rw [oPts_cores d O, bigSep_univ_two]
  iintro ⟨⟨Hxr, Hlr, Hcr⟩, ⟨Hx0, Hl0, Hc0, Ho0⟩, Hx1, Hl1, Hc1, Ho1⟩
  isplitl [Hxr Hx0 Hx1]
  · iapply (Transfers.pointsTo_toks_join fullShare 2); isplitl [Hxr]; · iexact Hxr
    rw [bigSep_univ_two]; isplitl [Hx0]; · iexact Hx0
    iexact Hx1
  isplitl [Hlr Hl0 Hl1]
  · iapply (Transfers.pointsTo_toks_join fullShare 2); isplitl [Hlr]; · iexact Hlr
    rw [bigSep_univ_two]; isplitl [Hl0]; · iexact Hl0
    iexact Hl1
  isplitl [Hcr Hc0 Hc1]
  · iapply (Transfers.pointsTo_toks_join fullShare 2); isplitl [Hcr]; · iexact Hcr
    rw [bigSep_univ_two]; isplitl [Hc0]; · iexact Hc0
    iexact Hc1
  isplitl [Ho0]; · iexact Ho0
  iexact Ho1

/-- What the call takes for the two SparseCores, and what it hands back. -/
theorem st0_eq (d : Dev nD) :
    (bigSep Finset.univ fun c : Fin ((K (F := F)).nCore 0) => (P m).st 0 d c) = iprop(coreIn m d 0 (m (oLoc d)) ∗ coreIn m d 1 (m (oLoc d))) := by
  show (bigSep (Finset.univ : Finset (Fin 2)) fun c => coreIn m d (Fin.cast nCore_zero c) (m (oLoc d))) = _
  rw [bigSep_univ_two]; rfl
theorem dn0_eq (d : Dev nD) :
    (bigSep Finset.univ fun c : Fin ((K (F := F)).nCore 0) => (P m).dn 0 d c) = iprop(coreIn m d 0 (G m d) ∗ coreIn m d 1 (G m d)) := by
  show (bigSep (Finset.univ : Finset (Fin 2)) fun c => coreIn m d (Fin.cast nCore_zero c) (G m d)) = _
  rw [bigSep_univ_two]; rfl

/-- What @main leaves the claim: the scalar result at the sum of the table of partial sums, the three arguments at
    their launch contents. -/
abbrev FIN (d : Dev nD) : sProp 𝕄 :=
  iprop((rLoc d ↦{fullShare} RES m d) ∗ (a0Loc d ↦{fullShare} m (a0Loc d)) ∗ (lLoc d ↦{fullShare} m (lLoc d)) ∗ (a2Loc d ↦{fullShare} m (a2Loc d)))

/-- @main on device d's TensorCore: the two transpositions, the call (the three tables out as read shares and back,
    the table of partial sums out by rows and back at what the workers computed), the zero, the sum. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hl, Ha2, Hx, Hc, Ho, Hz, Hr⟩, -, -⟩, -⟩
  -- the first transposition
  iapply (wp_hlo_within 𝒱 (SparseCore.T d) none Set.univ (op := opTx) (S := {a0', x'}) (Finset.Subset.refl _) (V := V0 m d)) $$ [Hb Ha0 Hx]
  · isplitl [Hb]; · iexact Hb
    rw [held_two d a0' x' (by decide)]
    isplitl [Ha0]; · iexact Ha0
    iexact Hx
  iintro ⟨Hb, Hh⟩
  ihave Hh' := (Entails.of_eq (heldTx m d)) $$ Hh
  icases Hh' with ⟨Ha0, Hx⟩
  rw [wp_ret]; imodintro
  -- the second
  iapply (wp_hlo_within 𝒱 (SparseCore.T d) none Set.univ (op := opTc) (S := {a2', c'}) (Finset.Subset.refl _) (V := V0 m d)) $$ [Hb Ha2 Hc]
  · isplitl [Hb]; · iexact Hb
    rw [held_two d a2' c' (by decide)]
    isplitl [Ha2]; · iexact Ha2
    iexact Hc
  iintro ⟨Hb, Hh⟩
  ihave Hh' := (Entails.of_eq (heldTc m d)) $$ Hh
  icases Hh' with ⟨Ha2, Hc⟩
  rw [wp_ret]; imodintro
  -- the call
  ihave Hin := (call_in m d (m (oLoc d))) $$ [Hx Hl Hc Ho]
  · isplitl [Hx]; · iexact Hx
    isplitl [Hl]; · iexact Hl
    isplitl [Hc]; · iexact Hc
    iexact Ho
  icases Hin with ⟨Hrest, Hin⟩
  iapply ((K (F := F)).wp_run (D (F := F)) 𝒱 (EH := EH) (P := P m) κ d 0) $$ [Hst Hin Hrest Hb Ha0 Ha2 Hz Hr]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hout := (call_out m d (G m d)) $$ [Hrest Hdn']
  · isplitl [Hrest]; · iexact Hrest
    iexact Hdn'
  icases Hout with ⟨Hx, Hl, Hc, Ho⟩
  -- the zero
  iapply (wp_hlo_within 𝒱 (SparseCore.T d) none Set.univ (op := opZ) (S := {z'}) (Finset.Subset.refl _) (V := V0 m d)) $$ [Hb Hz]
  · isplitl [Hb]; · iexact Hb
    rw [held_one d z']; iexact Hz
  iintro ⟨Hb, Hh⟩
  ihave Hz := (Entails.of_eq (heldZ m d)) $$ Hh
  rw [wp_ret]; imodintro
  -- the sum
  iapply (wp_hlo_within 𝒱 (SparseCore.T d) none Set.univ (op := opR) (S := {o', z', r'}) (Finset.Subset.refl _) (V := V5 m d)) $$ [Hb Ho Hz Hr]
  · isplitl [Hb]; · iexact Hb
    rw [held_three d o' z' r' (by decide) (by decide) (by decide), V5_o, V5_z, V5_r]
    isplitl [Ho]; · iexact Ho
    isplitl [Hz]; · iexact Hz
    iexact Hr
  iintro ⟨Hb, Hh⟩
  ihave Hh' := (Entails.of_eq (heldR m d)) $$ Hh
  icases Hh' with ⟨-, -, Hr⟩
  rw [wp_ret]; imodintro; imodintro
  isplitl [Hst]; · iexact Hst
  isplitl [Hr]; · iexact Hr
  isplitl [Ha0]; · iexact Ha0
  isplitl [Hl]; · iexact Hl
  iexact Ha2

def fq (d : Dev nD) (s' : Phys nD τ sig (Elt F)) : Prop :=
  s'.mem.mem (rLoc d) = RES m d ∧ s'.mem.mem (a0Loc d) = m (a0Loc d) ∧ s'.mem.mem (lLoc d) = m (lLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr, Ha0, Hl, Ha2⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h2, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h3, HSI, -⟩
  ihave H := (SI_pointsTo_agree (st := s') (ℓ := a2Loc d) (I := Finset.univ) (q := fullShare) (f := m (a2Loc d))) $$ [HSI Ha2]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every weakly fair execution of the program's threads ends, nothing faulting, with the scalar result at the sum of
    the table of partial sums the workers compute and the three arguments unchanged, given each worker's task. -/
theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD,
        r.2.mem (rLoc c) = (Host.reduceAdd (G m c : FVec F S32x16 .f32) (constant S_ .f32 0x00000000#32) reducesTo_S32x16_S_d0_1 h_S_ : FVec F S_ .f32)
        ∧ r.2.mem (a0Loc c) = m (a0Loc c) ∧ r.2.mem (lLoc c) = m (lLoc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.KIGrp.lean ====
/-
  One group of a trip of the kernel's inner loops, read as the specification's function, and the loops' invariants.

  A group reads sixteen consecutive labels from the label scratch, the centre-row scratch at those labels, sixteen
  consecutive features from a chunk scratch, and adds the squares of the differences to a running vector. With the two
  offsets in closed form, and the labels known to name positions of the centre row, the value is grp of KIPay.
-/
import proofs.«204200_g67499706024535_cont_9to1c4b_715_37_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "rowS" => (Memref.whole Cert.KernelIdeal.cc0_scratch0 : Memref Cert.KernelIdeal.sig Kind.scVector Space.vmem Cert.KernelIdeal.S100000 EltTy.f32)
local notation "labS" => (Memref.whole Cert.KernelIdeal.cc0_scratch1 : Memref Cert.KernelIdeal.sig Kind.scVector Space.vmem Cert.KernelIdeal.S16384 EltTy.i32)
local notation "fb0" => (Memref.whole Cert.KernelIdeal.cc0_scratch2 : Memref Cert.KernelIdeal.sig Kind.scVector Space.vmem Cert.KernelIdeal.S4096 EltTy.f32)
local notation "fb1" => (Memref.whole Cert.KernelIdeal.cc0_scratch3 : Memref Cert.KernelIdeal.sig Kind.scVector Space.vmem Cert.KernelIdeal.S4096 EltTy.f32)

variable [FloatOps F]

/-! ## Reads at closed-form offsets -/

omit [FloatOps F] in
/-- Sixteen consecutive positions of a chunk: the window's position under lane x is oF + x. -/
theorem win4096 (offF : Fin 1 → Nat) (hF : ∀ a, offF a + S16.size a ≤ S4096.size a) (oF : Nat) (eF : offF 0 = oF)
    (x : (Rect.unit (s := S4096) offF S16.size hF).toLoadRect.shape.Idx) :
    ((Rect.unit (s := S4096) offF S16.size hF).toLoadRect.idx x : S4096.Idx) = fi (oF + (x 0).val) := by
  funext a
  match a with
  | ⟨0, _⟩ =>
    apply Fin.ext
    have h16 := hF 0
    have hx : (x 0).val < 16 := (x 0).isLt
    subst eF
    show offF 0 + 1 * (x 0).val = (offF 0 + (x 0).val) % 4096
    have e1 : S16.size 0 = 16 := rfl
    have e2 : S4096.size 0 = 4096 := rfl
    rw [e1, e2] at h16
    rw [Nat.mod_eq_of_lt (by omega)]; omega

omit [FloatOps F] in
/-- Sixteen consecutive positions of the label vector: the window's position under lane x is oL + x. -/
theorem win16384 (offL : Fin 1 → Nat) (hL : ∀ a, offL a + S16.size a ≤ S16384.size a) (oL : Nat) (eL : offL 0 = oL)
    (x : (Rect.unit (s := S16384) offL S16.size hL).toLoadRect.shape.Idx) :
    ((Rect.unit (s := S16384) offL S16.size hL).toLoadRect.idx x : S16384.Idx) = li (oL + (x 0).val) := by
  funext a
  match a with
  | ⟨0, _⟩ =>
    apply Fin.ext
    have h16 := hL 0
    have hx : (x 0).val < 16 := (x 0).isLt
    subst eL
    show offL 0 + 1 * (x 0).val = (offL 0 + (x 0).val) % 16384
    have e1 : S16.size 0 = 16 := rfl
    have e2 : S16384.size 0 = 16384 := rfl
    rw [e1, e2] at h16
    rw [Nat.mod_eq_of_lt (by omega)]; omega

omit [FloatOps F] in
/-- The features a group reads from the first chunk scratch. -/
theorem feat0_eq (fb : FVec F S4096 .f32) (offF : Fin 1 → Nat) (hF : ∀ a, offF a + S16.size a ≤ S4096.size a) (oF : Nat) (eF : offF 0 = oF) :
    (fb0).view.readAt (Elt F) (Rect.unit (s := S4096) offF S16.size hF).toLoadRect fb = fun x => fb (fi (oF + (x 0).val)) := by
  funext x
  simp only [View.readAt_apply, Memref.view_whole, View.read_whole]
  exact congrArg fb (win4096 offF hF oF eF x)

omit [FloatOps F] in
/-- The features a group reads from the second chunk scratch. -/
theorem feat1_eq (fb : FVec F S4096 .f32) (offF : Fin 1 → Nat) (hF : ∀ a, offF a + S16.size a ≤ S4096.size a) (oF : Nat) (eF : offF 0 = oF) :
    (fb1).view.readAt (Elt F) (Rect.unit (s := S4096) offF S16.size hF).toLoadRect fb = fun x => fb (fi (oF + (x 0).val)) := by
  funext x
  simp only [View.readAt_apply, Memref.view_whole, View.read_whole]
  exact congrArg fb (win4096 offF hF oF eF x)

omit [FloatOps F] in
/-- The centres a group reads: the centre-row scratch at the sixteen labels. -/
theorem cent_eq (row : FVec F S100000 .f32) (lab : IVec S16384 32) (offL : Fin 1 → Nat) (hL : ∀ a, offL a + S16.size a ≤ S16384.size a)
    (hh : ∀ a x, ((![(labS).view.readAt (Elt F) (Rect.unit (s := S16384) offL S16.size hL).toLoadRect lab] : Fin 1 → IVec S16 32) a x).toNat < S100000.size a)
    (oL : Nat) (eL : offL 0 = oL) :
    loadIdx ((rowS).view.readAt (Elt F) (LoadRect.whole S100000) row)
        (![(labS).view.readAt (Elt F) (Rect.unit (s := S16384) offL S16.size hL).toLoadRect lab] : Fin 1 → IVec S16 32) hh
      = fun x => row (ri (lab (li (oL + (x 0).val))).toNat) := by
  funext x
  have e0 : (rowS).view.readAt (Elt F) (LoadRect.whole S100000) row = row :=
    Memref.readAt_whole (Elt F) (Cert.KernelIdeal.cc0_scratch0 : Ref Cert.KernelIdeal.sig Kind.scVector) row
  rw [e0]
  unfold loadIdx
  refine congrArg row ?_
  funext a
  match a with
  | ⟨0, _⟩ =>
    apply Fin.ext
    have hx := hh 0 x
    have e : ((labS).view.readAt (Elt F) (Rect.unit (s := S16384) offL S16.size hL).toLoadRect lab x) = lab (li (oL + (x 0).val)) := by
      simp only [View.readAt_apply, Memref.view_whole, View.read_whole]
      exact congrArg lab (win16384 offL hL oL eL x)
    show ((labS).view.readAt (Elt F) (Rect.unit (s := S16384) offL S16.size hL).toLoadRect lab x).toNat = (lab (li (oL + (x 0).val))).toNat % 100000
    have hx' : ((labS).view.readAt (Elt F) (Rect.unit (s := S16384) offL S16.size hL).toLoadRect lab x).toNat < 100000 := hx
    rw [e] at hx' ⊢
    exact (Nat.mod_eq_of_lt hx').symm

/-- One group through the first chunk scratch. -/
theorem grp0_eq (row : FVec F S100000 .f32) (lab : IVec S16384 32) (fb : FVec F S4096 .f32)
    (offL : Fin 1 → Nat) (hL : ∀ a, offL a + S16.size a ≤ S16384.size a) (offF : Fin 1 → Nat) (hF : ∀ a, offF a + S16.size a ≤ S4096.size a)
    (hh : ∀ a x, ((![(labS).view.readAt (Elt F) (Rect.unit (s := S16384) offL S16.size hL).toLoadRect lab] : Fin 1 → IVec S16 32) a x).toNat < S100000.size a)
    (oL oF : Nat) (eL : offL 0 = oL) (eF : offF 0 = oF) (a : FVec F S16 .f32) :
    addf a (mulf
        (subf ((fb0).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh))
        (subf ((fb0).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh)))
      = grp row lab fb oL oF a := by
  rw [cent_eq row lab offL hL hh oL eL, feat0_eq fb offF hF oF eF]; rfl

/-- One group through the second chunk scratch. -/
theorem grp1_eq (row : FVec F S100000 .f32) (lab : IVec S16384 32) (fb : FVec F S4096 .f32)
    (offL : Fin 1 → Nat) (hL : ∀ a, offL a + S16.size a ≤ S16384.size a) (offF : Fin 1 → Nat) (hF : ∀ a, offF a + S16.size a ≤ S4096.size a)
    (hh : ∀ a x, ((![(labS).view.readAt (Elt F) (Rect.unit (s := S16384) offL S16.size hL).toLoadRect lab] : Fin 1 → IVec S16 32) a x).toNat < S100000.size a)
    (oL oF : Nat) (eL : offL 0 = oL) (eF : offF 0 = oF) (a : FVec F S16 .f32) :
    addf a (mulf
        (subf ((fb1).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh))
        (subf ((fb1).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh)))
      = grp row lab fb oL oF a := by
  rw [cent_eq row lab offL hL hh oL eL, feat1_eq fb offF hF oF eF]; rfl

/-- A printed offset chain, given in closed form, is the specification's offset. -/
macro "off_eq " e:term : tactic => `(tactic| (rw [$e:term]; all_goals (first | rfl | (simp only [Matrix.cons_val_zero]; omega))))

/-! ## The inner loops' invariants -/

section Inv

variable (d : Dev nD) (L : grid0.Coords)

abbrev thr : Thread nD τ := V d (cV L) (jV L)

omit [FloatOps F] in
theorem pts_s0 (f : Buf (Elt F) ((thr d L).loc cc0_scratch0)) : ((rowS).view.loc (thr d L) ↦{fullShare} f : sProp 𝕄) = ((thr d L).loc cc0_scratch0 ↦{fullShare} f) := rfl
omit [FloatOps F] in
theorem pts_s1 (f : Buf (Elt F) ((thr d L).loc cc0_scratch1)) : ((labS).view.loc (thr d L) ↦{fullShare} f : sProp 𝕄) = ((thr d L).loc cc0_scratch1 ↦{fullShare} f) := rfl
omit [FloatOps F] in
theorem pts_s2 (f : Buf (Elt F) ((thr d L).loc cc0_scratch2)) : ((fb0).view.loc (thr d L) ↦{fullShare} f : sProp 𝕄) = ((thr d L).loc cc0_scratch2 ↦{fullShare} f) := rfl
omit [FloatOps F] in
theorem pts_s3 (f : Buf (Elt F) ((thr d L).loc cc0_scratch3)) : ((fb1).view.loc (thr d L) ↦{fullShare} f : sProp 𝕄) = ((thr d L).loc cc0_scratch3 ↦{fullShare} f) := rfl

/-- Before trip k of a loop over chunk h through the first chunk scratch: the running vectors are the first k trips'
    from A0, and the three scratches hold the centre row, the labels and the chunk. -/
def inv0 (row : Buf (Elt F) ((thr d L).loc cc0_scratch0)) (lab : Buf (Elt F) ((thr d L).loc cc0_scratch1)) (fb : Buf (Elt F) ((thr d L).loc cc0_scratch2))
    (h : Nat) (A0 : A4 F) (k : Nat) (acc : A4 F) : sProp 𝕄 :=
  iprop(⌜acc = chunk row lab fb h k A0⌝ ∗ ((thr d L).loc cc0_scratch0 ↦{fullShare} row) ∗ ((thr d L).loc cc0_scratch1 ↦{fullShare} lab)
    ∗ ((thr d L).loc cc0_scratch2 ↦{fullShare} fb))

/-- The same through the second chunk scratch. -/
def inv1 (row : Buf (Elt F) ((thr d L).loc cc0_scratch0)) (lab : Buf (Elt F) ((thr d L).loc cc0_scratch1)) (fb : Buf (Elt F) ((thr d L).loc cc0_scratch3))
    (h : Nat) (A0 : A4 F) (k : Nat) (acc : A4 F) : sProp 𝕄 :=
  iprop(⌜acc = chunk row lab fb h k A0⌝ ∗ ((thr d L).loc cc0_scratch0 ↦{fullShare} row) ∗ ((thr d L).loc cc0_scratch1 ↦{fullShare} lab)
    ∗ ((thr d L).loc cc0_scratch3 ↦{fullShare} fb))

end Inv

end Cert.Proof.KI

end
-- ==== Proof.KITrips.lean ====
/-
  One trip of each of the kernel's eight inner loops, from the loop's invariant before trip k to the invariant before
  trip k + 1: the trip's eight groups are read by the group lemmas at the closed forms of their offset chains, and the
  running vectors after the trip are the specification's trip applied to the running vectors before it.
-/
import proofs.«204200_g67499706024535_cont_9to1c4b_715_37_alg».proof.Proof.KIGrp

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S64x16384 EltTy.f32)
local notation "lW" => (Memref.whole Cert.KernelIdeal.main_arg1_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S64x100000 EltTy.f32)
local notation "oW" => (Memref.whole Cert.KernelIdeal.main_v2_scv : Memref Cert.KernelIdeal.sig Kind.scVector Space.hbm Cert.KernelIdeal.S32x16 EltTy.f32)
local notation "rowS" => (Memref.whole Cert.KernelIdeal.cc0_scratch0 : Memref Cert.KernelIdeal.sig Kind.scVector Space.vmem Cert.KernelIdeal.S100000 EltTy.f32)
local notation "labS" => (Memref.whole Cert.KernelIdeal.cc0_scratch1 : Memref Cert.KernelIdeal.sig Kind.scVector Space.vmem Cert.KernelIdeal.S16384 EltTy.i32)
local notation "fb0" => (Memref.whole Cert.KernelIdeal.cc0_scratch2 : Memref Cert.KernelIdeal.sig Kind.scVector Space.vmem Cert.KernelIdeal.S4096 EltTy.f32)
local notation "fb1" => (Memref.whole Cert.KernelIdeal.cc0_scratch3 : Memref Cert.KernelIdeal.sig Kind.scVector Space.vmem Cert.KernelIdeal.S4096 EltTy.f32)
local notation "accS" => (Memref.whole Cert.KernelIdeal.cc0_scratch4 : Memref Cert.KernelIdeal.sig Kind.scVector Space.vmem Cert.KernelIdeal.S16 EltTy.f32)

variable [FloatOps F]

section Trips

variable (d : Dev nD) (L : grid0.Coords)

/-- One trip of inner loop 1 (chunk 0, through chunk scratch 0). -/
theorem trip1 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
     (k : Fin k0_t1_loop.trips) (acc : A4 F) :
    inv0 d L row lab fb 0 A0 k.val acc
      ⊢ wp frame (wpE (defs₀ (F := F)) 𝒱₀ (thr d L) none) Set.univ
          (k0_t1_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv0 d L row lab fb 0 A0 (k.val + 1)) := by
  obtain ⟨a0, a1, a2, a3⟩ := acc
  unfold k0_t1_body
  simp only [k0_part1_eq_skeleton]; unfold k0_part1_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 0 k.val (chunk row lab fb 0 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off12_eq k)) (by off_eq (k0_off13_eq k)) _).trans
        (congrArg (grp row lab fb _ _) (grp0_eq row lab fb _ _ _ _ _ _ _ (by off_eq (k0_off4_eq k)) (by off_eq (k0_off5_eq k)) a0))
    · exact (grp0_eq row lab fb _ _ _ _ _ _ _ (by off_eq (k0_off14_eq k)) (by off_eq (k0_off15_eq k)) _).trans
        (congrArg (grp row lab fb _ _) (grp0_eq row lab fb _ _ _ _ _ _ _ (by off_eq (k0_off6_eq k)) (by off_eq (k0_off7_eq k)) a1))
    · exact (grp0_eq row lab fb _ _ _ _ _ _ _ (by off_eq (k0_off16_eq k)) (by off_eq (k0_off17_eq k)) _).trans
        (congrArg (grp row lab fb _ _) (grp0_eq row lab fb _ _ _ _ _ _ _ (by off_eq (k0_off8_eq k)) (by off_eq (k0_off9_eq k)) a2))
    · exact (grp0_eq row lab fb _ _ _ _ _ _ _ (by off_eq (k0_off18_eq k)) (by off_eq (k0_off19_eq k)) _).trans
        (congrArg (grp row lab fb _ _) (grp0_eq row lab fb _ _ _ _ _ _ _ (by off_eq (k0_off10_eq k)) (by off_eq (k0_off11_eq k)) a3))
  isplitl [Hrow]; · iexact Hrow
  isplitl [Hlab]; · iexact Hlab
  iexact Hfb

/-- One trip of inner loop 2 (chunk 1, through chunk scratch 1). -/
theorem trip2 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t2_loop.trips) (acc : A4 F) :
    inv1 d L row lab fb 1 A0 k.val acc
      ⊢ wp frame (wpE (defs₀ (F := F)) 𝒱₀ (thr d L) none) Set.univ
          (k0_t2_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv1 d L row lab fb 1 A0 (k.val + 1)) := by
  obtain ⟨a0, a1, a2, a3⟩ := acc
  unfold k0_t2_body
  simp only [k0_part2_eq_skeleton]; unfold k0_part2_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 1 k.val (chunk row lab fb 1 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off29_eq k)) (by off_eq (k0_off30_eq k)) _).trans
        (congrArg (grp row lab fb _ _) (grp1_eq row lab fb _ _ _ _ _ _ _ (by off_eq (k0_off21_eq k)) (by off_eq (k0_off22_eq k)) a0))
    · exact (grp1_eq row lab fb _ _ _ _ _ _ _ (by off_eq (k0_off31_eq k)) (by off_eq (k0_off32_eq k)) _).trans
        (congrArg (grp row lab fb _ _) (grp1_eq row lab fb _ _ _ _ _ _ _ (by off_eq (k0_off23_eq k)) (by off_eq (k0_off24_eq k)) a1))
    · exact (grp1_eq row lab fb _ _ _ _ _ _ _ (by off_eq (k0_off33_eq k)) (by off_eq (k0_off34_eq k)) _).trans
        (congrArg (grp row lab fb _ _) (grp1_eq row lab fb _ _ _ _ _ _ _ (by off_eq (k0_off25_eq k)) (by off_eq (k0_off26_eq k)) a2))
    · exact (grp1_eq row lab fb _ _ _ _ _ _ _ (by off_eq (k0_off35_eq k)) (by off_eq (k0_off36_eq k)) _).trans
        (congrArg (grp row lab fb _ _) (grp1_eq row lab fb _ _ _ _ _ _ _ (by off_eq (k0_off27_eq k)) (by off_eq (k0_off28_eq k)) a3))
  isplitl [Hrow]; · iexact Hrow
  isplitl [Hlab]; · iexact Hlab
  iexact Hfb

/-- One trip of inner loop 3 (chunk 2, through chunk scratch 0). -/
theorem trip3 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t3_loop.trips) (acc : A4 F) :
    inv0 d L row lab fb 2 A0 k.val acc
      ⊢ wp frame (wpE (defs₀ (F := F)) 𝒱₀ (thr d L) none) Set.univ
          (k0_t3_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv0 d L row lab fb 2 A0 (k.val + 1)) := by
  obtain ⟨a0, a1, a2, a3⟩ := acc
  unfold k0_t3_body
  simp only [k0_part3_eq_skeleton]; unfold k0_part3_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 2 k.val (chunk row lab fb 2 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off46_eq k)) (by off_eq (k0_off47_eq k)) _).trans
        (congrArg (grp row lab fb _ _) (grp0_eq row lab fb _ _ _ _ _ _ _ (by off_eq (k0_off38_eq k)) (by off_eq (k0_off39_eq k)) a0))
    · exact (grp0_eq row lab fb _ _ _ _ _ _ _ (by off_eq (k0_off48_eq k)) (by off_eq (k0_off49_eq k)) _).trans
        (congrArg (grp row lab fb _ _) (grp0_eq row lab fb _ _ _ _ _ _ _ (by off_eq (k0_off40_eq k)) (by off_eq (k0_off41_eq k)) a1))
    · exact (grp0_eq row lab fb _ _ _ _ _ _ _ (by off_eq (k0_off50_eq k)) (by off_eq (k0_off51_eq k)) _).trans
        (congrArg (grp row lab fb _ _) (grp0_eq row lab fb _ _ _ _ _ _ _ (by off_eq (k0_off42_eq k)) (by off_eq (k0_off43_eq k)) a2))
    · exact (grp0_eq row lab fb _ _ _ _ _ _ _ (by off_eq (k0_off52_eq k)) (by off_eq (k0_off53_eq k)) _).trans
        (congrArg (grp row lab fb _ _) (grp0_eq row lab fb _ _ _ _ _ _ _ (by off_eq (k0_off44_eq k)) (by off_eq (k0_off45_eq k)) a3))
  isplitl [Hrow]; · iexact Hrow
  isplitl [Hlab]; · iexact Hlab
  iexact Hfb

/-- One trip of inner loop 4 (chunk 3, through chunk scratch 1). -/
theorem trip4 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t4_loop.trips) (acc : A4 F) :
    inv1 d L row lab fb 3 A0 k.val acc
      ⊢ wp frame (wpE (defs₀ (F := F)) 𝒱₀ (thr d L) none) Set.univ
          (k0_t4_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv1 d L row lab fb 3 A0 (k.val + 1)) := by
  obtain ⟨a0, a1, a2, a3⟩ := acc
  unfold k0_t4_body
  simp only [k0_part4_eq_skeleton]; unfold k0_part4_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 3 k.val (chunk row lab fb 3 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off62_eq k)) (by off_eq (k0_off63_eq k)) _).trans
        (congrArg (grp row lab fb _ _) (grp1_eq row lab fb _ _ _ _ _ _ _ (by off_eq (k0_off54_eq k)) (by off_eq (k0_off55_eq k)) a0))
    · exact (grp1_eq row lab fb _ _ _ _ _ _ _ (by off_eq (k0_off64_eq k)) (by off_eq (k0_off65_eq k)) _).trans
        (congrArg (grp row lab fb _ _) (grp1_eq row lab fb _ _ _ _ _ _ _ (by off_eq (k0_off56_eq k)) (by off_eq (k0_off57_eq k)) a1))
    · exact (grp1_eq row lab fb _ _ _ _ _ _ _ (by off_eq (k0_off66_eq k)) (by off_eq (k0_off67_eq k)) _).trans
        (congrArg (grp row lab fb _ _) (grp1_eq row lab fb _ _ _ _ _ _ _ (by off_eq (k0_off58_eq k)) (by off_eq (k0_off59_eq k)) a2))
    · exact (grp1_eq row lab fb _ _ _ _ _ _ _ (by off_eq (k0_off68_eq k)) (by off_eq (k0_off69_eq k)) _).trans
        (congrArg (grp row lab fb _ _) (grp1_eq row lab fb _ _ _ _ _ _ _ (by off_eq (k0_off60_eq k)) (by off_eq (k0_off61_eq k)) a3))
  isplitl [Hrow]; · iexact Hrow
  isplitl [Hlab]; · iexact Hlab
  iexact Hfb

/-- One trip of inner loop 5 (chunk 0, through chunk scratch 0). -/
theorem trip5 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
    (v1 : BitVec 32) (v53_0 : FVec F S16 .f32) (v53_1 : FVec F S16 .f32) (v53_2 : FVec F S16 .f32) (v53_3 : FVec F S16 .f32) (k : Fin k0_t5_loop.trips) (acc : A4 F) :
    inv0 d L row lab fb 0 A0 k.val acc
      ⊢ wp frame (wpE (defs₀ (F := F)) 𝒱₀ (thr d L) none) Set.univ
          (k0_t5_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v53_0 v53_1 v53_2 v53_3 k acc)
          (inv0 d L row lab fb 0 A0 (k.val + 1)) := by
  obtain ⟨a0, a1, a2, a3⟩ := acc
  unfold k0_t5_body
  simp only [k0_part5_eq_skeleton]; unfold k0_part5_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 0 k.val (chunk row lab fb 0 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off79_eq k)) (by off_eq (k0_off80_eq k)) _).trans
        (congrArg (grp row lab fb _ _) (grp0_eq row lab fb _ _ _ _ _ _ _ (by off_eq (k0_off71_eq k)) (by off_eq (k0_off72_eq k)) a0))
    · exact (grp0_eq row lab fb _ _ _ _ _ _ _ (by off_eq (k0_off81_eq k)) (by off_eq (k0_off82_eq k)) _).trans
        (congrArg (grp row lab fb _ _) (grp0_eq row lab fb _ _ _ _ _ _ _ (by off_eq (k0_off73_eq k)) (by off_eq (k0_off74_eq k)) a1))
    · exact (grp0_eq row lab fb _ _ _ _ _ _ _ (by off_eq (k0_off83_eq k)) (by off_eq (k0_off84_eq k)) _).trans
        (congrArg (grp row lab fb _ _) (grp0_eq row lab fb _ _ _ _ _ _ _ (by off_eq (k0_off75_eq k)) (by off_eq (k0_off76_eq k)) a2))
    · exact (grp0_eq row lab fb _ _ _ _ _ _ _ (by off_eq (k0_off85_eq k)) (by off_eq (k0_off86_eq k)) _).trans
        (congrArg (grp row lab fb _ _) (grp0_eq row lab fb _ _ _ _ _ _ _ (by off_eq (k0_off77_eq k)) (by off_eq (k0_off78_eq k)) a3))
  isplitl [Hrow]; · iexact Hrow
  isplitl [Hlab]; · iexact Hlab
  iexact Hfb

/-- One trip of inner loop 6 (chunk 1, through chunk scratch 1). -/
theorem trip6 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v53_0 : FVec F S16 .f32) (v53_1 : FVec F S16 .f32) (v53_2 : FVec F S16 .f32) (v53_3 : FVec F S16 .f32) (k : Fin k0_t6_loop.trips) (acc : A4 F) :
    inv1 d L row lab fb 1 A0 k.val acc
      ⊢ wp frame (wpE (defs₀ (F := F)) 𝒱₀ (thr d L) none) Set.univ
          (k0_t6_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v53_0 v53_1 v53_2 v53_3 k acc)
          (inv1 d L row lab fb 1 A0 (k.val + 1)) := by
  obtain ⟨a0, a1, a2, a3⟩ := acc
  unfold k0_t6_body
  simp only [k0_part6_eq_skeleton]; unfold k0_part6_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 1 k.val (chunk row lab fb 1 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off95_eq k)) (by off_eq (k0_off96_eq k)) _).trans
        (congrArg (grp row lab fb _ _) (grp1_eq row lab fb _ _ _ _ _ _ _ (by off_eq (k0_off87_eq k)) (by off_eq (k0_off88_eq k)) a0))
    · exact (grp1_eq row lab fb _ _ _ _ _ _ _ (by off_eq (k0_off97_eq k)) (by off_eq (k0_off98_eq k)) _).trans
        (congrArg (grp row lab fb _ _) (grp1_eq row lab fb _ _ _ _ _ _ _ (by off_eq (k0_off89_eq k)) (by off_eq (k0_off90_eq k)) a1))
    · exact (grp1_eq row lab fb _ _ _ _ _ _ _ (by off_eq (k0_off99_eq k)) (by off_eq (k0_off100_eq k)) _).trans
        (congrArg (grp row lab fb _ _) (grp1_eq row lab fb _ _ _ _ _ _ _ (by off_eq (k0_off91_eq k)) (by off_eq (k0_off92_eq k)) a2))
    · exact (grp1_eq row lab fb _ _ _ _ _ _ _ (by off_eq (k0_off101_eq k)) (by off_eq (k0_off102_eq k)) _).trans
        (congrArg (grp row lab fb _ _) (grp1_eq row lab fb _ _ _ _ _ _ _ (by off_eq (k0_off93_eq k)) (by off_eq (k0_off94_eq k)) a3))
  isplitl [Hrow]; · iexact Hrow
  isplitl [Hlab]; · iexact Hlab
  iexact Hfb

/-- One trip of inner loop 7 (chunk 2, through chunk scratch 0). -/
theorem trip7 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
     (k : Fin k0_t7_loop.trips) (acc : A4 F) :
    inv0 d L row lab fb 2 A0 k.val acc
      ⊢ wp frame (wpE (defs₀ (F := F)) 𝒱₀ (thr d L) none) Set.univ
          (k0_t7_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv0 d L row lab fb 2 A0 (k.val + 1)) := by
  obtain ⟨a0, a1, a2, a3⟩ := acc
  unfold k0_t7_body
  simp only [k0_part7_eq_skeleton]; unfold k0_part7_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 2 k.val (chunk row lab fb 2 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off111_eq k)) (by off_eq (k0_off112_eq k)) _).trans
        (congrArg (grp row lab fb _ _) (grp0_eq row lab fb _ _ _ _ _ _ _ (by off_eq (k0_off103_eq k)) (by off_eq (k0_off104_eq k)) a0))
    · exact (grp0_eq row lab fb _ _ _ _ _ _ _ (by off_eq (k0_off113_eq k)) (by off_eq (k0_off114_eq k)) _).trans
        (congrArg (grp row lab fb _ _) (grp0_eq row lab fb _ _ _ _ _ _ _ (by off_eq (k0_off105_eq k)) (by off_eq (k0_off106_eq k)) a1))
    · exact (grp0_eq row lab fb _ _ _ _ _ _ _ (by off_eq (k0_off115_eq k)) (by off_eq (k0_off116_eq k)) _).trans
        (congrArg (grp row lab fb _ _) (grp0_eq row lab fb _ _ _ _ _ _ _ (by off_eq (k0_off107_eq k)) (by off_eq (k0_off108_eq k)) a2))
    · exact (grp0_eq row lab fb _ _ _ _ _ _ _ (by off_eq (k0_off117_eq k)) (by off_eq (k0_off118_eq k)) _).trans
        (congrArg (grp row lab fb _ _) (grp0_eq row lab fb _ _ _ _ _ _ _ (by off_eq (k0_off109_eq k)) (by off_eq (k0_off110_eq k)) a3))
  isplitl [Hrow]; · iexact Hrow
  isplitl [Hlab]; · iexact Hlab
  iexact Hfb

/-- One trip of inner loop 8 (chunk 3, through chunk scratch 1). -/
theorem trip8 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
     (k : Fin k0_t8_loop.trips) (acc : A4 F) :
    inv1 d L row lab fb 3 A0 k.val acc
      ⊢ wp frame (wpE (defs₀ (F := F)) 𝒱₀ (thr d L) none) Set.univ
          (k0_t8_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv1 d L row lab fb 3 A0 (k.val + 1)) := by
  obtain ⟨a0, a1, a2, a3⟩ := acc
  unfold k0_t8_body
  simp only [k0_part8_eq_skeleton]; unfold k0_part8_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 3 k.val (chunk row lab fb 3 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off127_eq k)) (by off_eq (k0_off128_eq k)) _).trans
        (congrArg (grp row lab fb _ _) (grp1_eq row lab fb _ _ _ _ _ _ _ (by off_eq (k0_off119_eq k)) (by off_eq (k0_off120_eq k)) a0))
    · exact (grp1_eq row lab fb _ _ _ _ _ _ _ (by off_eq (k0_off129_eq k)) (by off_eq (k0_off130_eq k)) _).trans
        (congrArg (grp row lab fb _ _) (grp1_eq row lab fb _ _ _ _ _ _ _ (by off_eq (k0_off121_eq k)) (by off_eq (k0_off122_eq k)) a1))
    · exact (grp1_eq row lab fb _ _ _ _ _ _ _ (by off_eq (k0_off131_eq k)) (by off_eq (k0_off132_eq k)) _).trans
        (congrArg (grp row lab fb _ _) (grp1_eq row lab fb _ _ _ _ _ _ _ (by off_eq (k0_off123_eq k)) (by off_eq (k0_off124_eq k)) a2))
    · exact (grp1_eq row lab fb _ _ _ _ _ _ _ (by off_eq (k0_off133_eq k)) (by off_eq (k0_off134_eq k)) _).trans
        (congrArg (grp row lab fb _ _) (grp1_eq row lab fb _ _ _ _ _ _ _ (by off_eq (k0_off125_eq k)) (by off_eq (k0_off126_eq k)) a3))
  isplitl [Hrow]; · iexact Hrow
  isplitl [Hlab]; · iexact Hlab
  iexact Hfb

end Trips

end Cert.Proof.KI

end
-- ==== Proof.KILands.lean ====
/-
  What the kernel's one-row copies read and write, as equations between indices.

  Each copy goes through a window onto a rank-2 array that is one row wide: the rectangle of sizes [1, n] at
  offsets [f, c0], with the leading axis of size one then dropped, so that the window is indexed by a single
  coordinate j below n. Dropping a leading axis of size one matches j with the pair (0, j), and the rectangle places
  (0, j) at (f + 0, c0 + j). So reading through the window gives, at j, the array's element (f, c0 + j): a whole row
  of the centre table when c0 = 0 and n is the row length, and a quarter of a row of the feature table when
  c0 = 4096 c and n = 4096. Writing a whole payload through the window onto a row w of the table of partial sums
  leaves, at each element the window covers, the payload at that element's column, and every such element lies in
  row w.
-/
import proofs.«204200_g67499706024535_cont_9to1c4b_715_37_alg».proof.Proof.KIPay

-- a bound the statement carries for its caller need not be used by the proof

noncomputable section

namespace Cert.Proof.KI

open Cert.KernelIdeal Cert.KernelIdeal.Gen

open Idealize.ShloMosaic

variable {F : FTy → Type}

local notation "xW" => (Memref.whole Cert.KernelIdeal.main_v0_scv : Memref Cert.KernelIdeal.sig Kind.scVector Space.hbm Cert.KernelIdeal.S64x16384 EltTy.f32)
local notation "cW" => (Memref.whole Cert.KernelIdeal.main_v1_scv : Memref Cert.KernelIdeal.sig Kind.scVector Space.hbm Cert.KernelIdeal.S64x100000 EltTy.f32)
local notation "oW" => (Memref.whole Cert.KernelIdeal.main_v2_scv : Memref Cert.KernelIdeal.sig Kind.scVector Space.hbm Cert.KernelIdeal.S32x16 EltTy.f32)

/-! ## One row of a rank-2 shape, indexed by its column -/

/-- The rectangle of sizes [1, n] at offsets off, read through the matching of a single coordinate j with the pair
    (0, j): on the row axis it sits at off 0, on the column axis at off 1 + j. -/
theorem unit_row_emb {R K n : Nat} (off : Fin 2 → Nat)
    (h : ∀ a, off a + (⟨2, ![1, n]⟩ : Shape).size a ≤ (⟨2, ![R, K]⟩ : Shape).size a)
    (hn : (⟨1, ![n]⟩ : Shape).numel = (⟨2, ![1, n]⟩ : Shape).numel) (j : (⟨1, ![n]⟩ : Shape).Idx) :
    ((Rect.unit (s := ⟨2, ![R, K]⟩) off (⟨2, ![1, n]⟩ : Shape).size h).emb (Shape.reshapeEquiv hn j) 0).val = off 0
    ∧ ((Rect.unit (s := ⟨2, ![R, K]⟩) off (⟨2, ![1, n]⟩ : Shape).size h).emb (Shape.reshapeEquiv hn j) 1).val
        = off 1 + (j 0).val := by
  have hc : Shape.reshapeEquiv hn j = Fin.cons ⟨0, Nat.one_pos⟩ j := Shape.reshapeEquiv_cons_one (n := 1) (d := ![n]) hn j
  rw [hc]
  constructor
  · rw [Rect.emb_apply]
    show off 0 + 1 * 0 = off 0
    omega
  · rw [Rect.emb_apply]
    show off 1 + 1 * (j 0).val = off 1 + (j 0).val
    omega

/-! ## A row of the centre table -/

abbrev rowM (off : Fin 2 → Nat) (h : ∀ a, off a + S1x100000.size a ≤ S64x100000.size a) : Memref sig .scVector .hbm S100000 .f32 :=
  ((cW).slice (Rect.unit (s := S64x100000) off S1x100000.size h) (fun _ => rfl)).squeeze S100000 squeezes_S1x100000_S100000

/-- Reading the centre table through the window on row f gives row f. -/
theorem row_read (C : FVec F S64x100000 .f32) (off : Fin 2 → Nat) (h) (f : Nat) (hf : f < 64) (e : off = ![f, 0]) :
    (rowM off h).view.read (Elt F) C = rowOf C f := by
  subst e
  funext j
  refine (View.read_apply _ _).trans ((cast_eq _ _).trans ?_)
  obtain ⟨h0, h1⟩ := unit_row_emb (R := 64) (K := 100000) (n := 100000) ![f, 0] h squeezes_S1x100000_S100000.numel_eq j
  show C _ = C _
  congr 1
  funext a
  apply Fin.ext
  match a with
  | ⟨0, _⟩ => exact h0.trans (Nat.mod_eq_of_lt hf).symm
  | ⟨1, _⟩ => exact h1.trans (Nat.zero_add _)

/-! ## A quarter of a row of the feature table -/

abbrev chM (off : Fin 2 → Nat) (h : ∀ a, off a + S1x4096.size a ≤ S64x16384.size a) : Memref sig .scVector .hbm S4096 .f32 :=
  ((xW).slice (Rect.unit (s := S64x16384) off S1x4096.size h) (fun _ => rfl)).squeeze S4096 squeezes_S1x4096_S4096

/-- Reading the feature table through the window on columns 4096 c … 4096 c + 4095 of row f gives chunk c of row f:
    the column 4096 c + j is below 16384 for c below 4 and j below 4096. -/
theorem chunk_read (X : FVec F S64x16384 .f32) (off : Fin 2 → Nat) (h) (f c : Nat) (hf : f < 64) (hc : c < 4)
    (e : off = ![f, 4096 * c]) :
    (chM off h).view.read (Elt F) X = chunkOf X f c := by
  subst e
  funext j
  refine (View.read_apply _ _).trans ((cast_eq _ _).trans ?_)
  obtain ⟨h0, h1⟩ := unit_row_emb (R := 64) (K := 16384) (n := 4096) ![f, 4096 * c] h squeezes_S1x4096_S4096.numel_eq j
  have hj : (j 0).val < 4096 := (j 0).isLt
  show X _ = X _
  congr 1
  funext a
  apply Fin.ext
  match a with
  | ⟨0, _⟩ => exact h0.trans (Nat.mod_eq_of_lt hf).symm
  | ⟨1, _⟩ => exact h1.trans (Nat.mod_eq_of_lt (show 4096 * c + (j 0).val < 16384 by omega)).symm

/-! ## A row of the table of partial sums -/

abbrev outM (off : Fin 2 → Nat) (h : ∀ a, off a + S1x16.size a ≤ S32x16.size a) : Memref sig .scVector .hbm S16 .f32 :=
  ((oW).slice (Rect.unit (s := S32x16) off S1x16.size h) (fun _ => rfl)).squeeze S16 squeezes_S1x16_S16

/-- a row written whole: on the row's elements the new contents are the payload at the column, and the row number is w -/
theorem out_write (O : FVec F S32x16 .f32) (p : FVec F S16 .f32) (off : Fin 2 → Nat) (h) (w : Nat) (hw : w < 32)
    (e : off = ![w, 0]) :
    ∀ i ∈ (outM off h).view.set,
      (outM off h).view.write (Elt F) O p Finset.univ i = p (ValueIdx.ix1 ⟨(i 1).val, (i 1).isLt⟩) ∧ (i 0).val = w := by
  subst e
  intro i hi
  obtain ⟨x, -, rfl⟩ := Finset.mem_map.mp hi
  obtain ⟨h0, h1⟩ := unit_row_emb (R := 32) (K := 16) (n := 16) ![w, 0] h squeezes_S1x16_S16.numel_eq x
  refine ⟨?_, h0⟩
  refine (View.write_emb_of_mem _ _ (Finset.mem_univ x)).trans ((cast_eq _ _).trans ?_)
  congr 1
  funext a
  apply Fin.ext
  match a with
  | ⟨0, _⟩ => exact (h1.trans (Nat.zero_add _)).symm

end Cert.Proof.KI

end
-- ==== Proof.KITile.lean ====
/-
  One vector subcore's task of the kernel, run once at a symbolic subcore, with what it writes named.

  The task copies the labels and, for each of its two table rows, the centre row and the row's four feature chunks
  into its own memory (each copy on a semaphore of its own, issued one at a time and waited for before the memory it
  fills is read), runs eight counted loops of thirty-two trips over the chunks, adds the four running vectors, scales
  the sum, stores it to a sixteen-entry scratch and copies that to the subcore's row of the table of partial sums.
  What each copy lands is the specification's row or chunk; each loop is taken by its invariant (KIGrp) with the trip
  lemmas (KITrips); so the running vectors at the end are the specification's, and the subcore's row of the table
  holds the specification's table on that row.
-/
import proofs.«204200_g67499706024535_cont_9to1c4b_715_37_alg».proof.Proof.KITrips
import proofs.«204200_g67499706024535_cont_9to1c4b_715_37_alg».proof.Proof.KILands
import Mathlib.Tactic.Rename
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S64x16384 EltTy.f32)
local notation "lW" => (Memref.whole Cert.KernelIdeal.main_arg1_scv : Memref Cert.KernelIdeal.sig Kind.scVector Space.hbm Cert.KernelIdeal.S16384 EltTy.i32)
local notation "cW" => (Memref.whole Cert.KernelIdeal.main_v1_scv : Memref Cert.KernelIdeal.sig Kind.scVector Space.hbm Cert.KernelIdeal.S64x100000 EltTy.f32)
local notation "oW" => (Memref.whole Cert.KernelIdeal.main_v2_scv : Memref Cert.KernelIdeal.sig Kind.scVector Space.hbm Cert.KernelIdeal.S32x16 EltTy.f32)
local notation "rowS" => (Memref.whole Cert.KernelIdeal.cc0_scratch0 : Memref Cert.KernelIdeal.sig Kind.scVector Space.vmem Cert.KernelIdeal.S100000 EltTy.f32)
local notation "labS" => (Memref.whole Cert.KernelIdeal.cc0_scratch1 : Memref Cert.KernelIdeal.sig Kind.scVector Space.vmem Cert.KernelIdeal.S16384 EltTy.i32)
local notation "fb0" => (Memref.whole Cert.KernelIdeal.cc0_scratch2 : Memref Cert.KernelIdeal.sig Kind.scVector Space.vmem Cert.KernelIdeal.S4096 EltTy.f32)
local notation "fb1" => (Memref.whole Cert.KernelIdeal.cc0_scratch3 : Memref Cert.KernelIdeal.sig Kind.scVector Space.vmem Cert.KernelIdeal.S4096 EltTy.f32)
local notation "accS" => (Memref.whole Cert.KernelIdeal.cc0_scratch4 : Memref Cert.KernelIdeal.sig Kind.scVector Space.vmem Cert.KernelIdeal.S16 EltTy.f32)

variable (m : (ℓ : Loc nD τ sig) → Buf (Elt F) ℓ)
variable [FloatOps F]

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The five transfer-completion cells of the subcore: the centre row's, the two feature chunks', the label copy's and
    the result copy's. -/
abbrev cRow : GSem nD τ sig := (thr d L, .dma cc0_scratch5.sem)
abbrev cF0 : GSem nD τ sig := (thr d L, .dma cc0_scratch6.sem)
abbrev cF1 : GSem nD τ sig := (thr d L, .dma cc0_scratch7.sem)
abbrev cLab : GSem nD τ sig := (thr d L, .dma cc0_scoped0.sem)
abbrev cOut : GSem nD τ sig := (thr d L, .dma cc0_scoped1.sem)

omit [FloatOps F] in
theorem ownSems0_V :
    (ownSems0 (thr d L) : sProp 𝕄)
      = iprop(semVal (cRow d L) 0 ∗ semVal (cF0 d L) 0 ∗ semVal (cF1 d L) 0 ∗ semVal (cLab d L) 0 ∗ semVal (cOut d L) 0
          ∗ bigSep ((((((ownCells (thr d L)).erase (cRow d L)).erase (cF0 d L)).erase (cF1 d L)).erase (cLab d L)).erase (cOut d L))
              fun g => semVal g 0) := by
  unfold SparseCore.Cfg.ownSems0
  have hm : ∀ sm : DmaSem sig, (SemLoc.dma sm : SemLoc sig).isScoped .scVector = true → ((thr d L, SemLoc.dma sm) : GSem nD τ sig) ∈ ownCells (thr d L) :=
    fun sm h => (mem_ownCells (g := (thr d L, SemLoc.dma sm))).mpr ⟨rfl, h⟩
  have hne : ∀ a b : DmaSem sig, a ≠ b → ((thr d L, SemLoc.dma a) : GSem nD τ sig) ≠ (thr d L, SemLoc.dma b) :=
    fun a b h e => h (SemLoc.dma.inj (Prod.mk.inj e).2)
  rw [SparseCore.bigSep_erase' (hm cc0_scratch5.sem (by decide)),
    SparseCore.bigSep_erase' (Finset.mem_erase.mpr ⟨hne _ _ (by decide), hm cc0_scratch6.sem (by decide)⟩),
    SparseCore.bigSep_erase' (Finset.mem_erase.mpr ⟨hne _ _ (by decide), Finset.mem_erase.mpr ⟨hne _ _ (by decide), hm cc0_scratch7.sem (by decide)⟩⟩),
    SparseCore.bigSep_erase' (Finset.mem_erase.mpr ⟨hne _ _ (by decide), Finset.mem_erase.mpr ⟨hne _ _ (by decide),
      Finset.mem_erase.mpr ⟨hne _ _ (by decide), hm cc0_scoped0.sem (by decide)⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scoped1.sem (by decide)⟩⟩⟩⟩)]

abbrev pS (b : Ref sig .scVector) : DevRef τ sig := (Proc.scVector (cV L) (jV L)).devRef b

omit [FloatOps F] in
/-- The five scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (pS L cc0_scratch0)).erase (pS L cc0_scratch1)).erase (pS L cc0_scratch2)).erase
              (pS L cc0_scratch3)).erase (pS L cc0_scratch4))
              fun b => iprop(∃ f, ((d, b) : Loc nD τ sig) ↦{fullShare} f)) := by
  unfold SparseCore.Cfg.ownBufs
  have hm : ∀ b : Ref sig .scVector, (pS L b).owner = .proc (Proc.scVector (cV L) (jV L)) → pS L b ∈ ownRefs (τ := τ) (.scVector (cV L) (jV L)) :=
    fun b h => SparseCore.Cfg.mem_ownRefs_of_owner (p := Proc.scVector (cV L) (jV L)) (b := pS L b) h
  have hne : ∀ a b : Ref sig .scVector, a ≠ b → pS L a ≠ pS L b := fun a b h e => h (Proc.devRef_injective _ e)
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide),
      Finset.mem_erase.mpr ⟨hne _ _ (by decide), hm cc0_scratch3 rfl⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scratch4 rfl⟩⟩⟩⟩)]

/-! The arrays as the subcore's memrefs address them. -/

omit [FloatOps F] in
theorem pts_x (q : PosShare TreeShare) (f : Buf (Elt F) (xLoc d)) : ((xW).view.loc (thr d L) ↦{q} f : sProp 𝕄) = xLoc d ↦{q} f := by
  simp only [Memref.view_whole, View.set_whole]
omit [FloatOps F] in
theorem pts_l (q : PosShare TreeShare) (f : Buf (Elt F) (lLoc d)) : ((lW).view.loc (thr d L) ↦{q} f : sProp 𝕄) = lLoc d ↦{q} f := by
  simp only [Memref.view_whole, View.set_whole]
omit [FloatOps F] in
theorem pts_c (q : PosShare TreeShare) (f : Buf (Elt F) (cLoc d)) : ((cW).view.loc (thr d L) ↦{q} f : sProp 𝕄) = cLoc d ↦{q} f := by
  simp only [Memref.view_whole, View.set_whole]
omit [FloatOps F] in
theorem pts_s4 (f : Buf (Elt F) ((thr d L).loc cc0_scratch4)) : ((accS).view.loc (thr d L) ↦{fullShare} f : sProp 𝕄) = ((thr d L).loc cc0_scratch4 ↦{fullShare} f) := rfl

/-- The subcore's row of the table of partial sums, as the program slices it. -/
abbrev oRowK (L : grid0.Coords) : Memref sig .scVector .hbm S16 .f32 :=
  ((oW).slice (Rect.unit (s := S32x16) (k0_off135 L) S1x16.size (k0_off135_inb L)) (fun _ => rfl)).squeeze S16 squeezes_S1x16_S16

omit [FloatOps F] in
theorem orowK_eq : Rect.unit (s := S32x16) (k0_off135 L) S1x16.size (k0_off135_inb L) = orow (wid (cL L) (jL L)) := by
  unfold orow Rect.part Rect.block
  congr 1 <;> funext a
  · rw [k0_off135_eq]
    match a with
    | 0 => simp [Shape.partIx, Shape.partSize, wid]
    | 1 => simp [Shape.partIx, Shape.partSize]
  · match a with
    | 0 => simp [Shape.partSize]
    | 1 => simp [Shape.partSize]

omit [FloatOps F] in
theorem set_oRowK : (oRowK L).view.set = oSet (wid (cL L) (jL L)) := by
  show (((oW).view.slice (Rect.unit (s := S32x16) (k0_off135 L) S1x16.size (k0_off135_inb L))).reshape S16 squeezes_S1x16_S16.numel_eq).set
    = ((oW).view.slice (orow (wid (cL L) (jL L)))).set
  rw [View.set_reshape]
  exact orowK_eq L ▸ rfl

omit [FloatOps F] in
theorem pts_o (f : Buf (Elt F) (oLoc d)) :
    ((oRowK L).view.loc (thr d L) ↦[(oRowK L).view.set]{fullShare} f : sProp 𝕄) = oLoc d ↦[oSet (wid (cL L) (jL L))]{fullShare} f := by
  rw [set_oRowK]

omit [FloatOps F] in
/-- A held array's contents, named. -/
theorem pts_name {ℓ : Loc nD τ sig} {S : Finset (Idx ℓ)} {q : PosShare TreeShare} (Tm : Buf (Elt F) ℓ) :
    (ℓ ↦[S]{q} Tm : sProp 𝕄) ⊢ iprop(∃ f, ⌜f = Tm⌝ ∗ ℓ ↦[S]{q} f) := by
  iintro H
  iexists Tm
  isplitr
  · ipureintro; rfl
  · iexact H

set_option hygiene false in
/-- Name what a held scratch holds: a variable for the contents and the equation saying what they are. -/
macro "name_held " h:ident v:ident e:ident : tactic => `(tactic| (
  ihave Hn := (pts_name (F := F) _) $$ $h:ident
  icases Hn with ⟨%nv, %ne, Hnew⟩
  rename' nv => $v, ne => $e
  irename Hnew => $h))

set_option hygiene false in
/-- One inner loop by its invariant: in go the three scratches (centre row, labels, the chunk scratch named); the region
    is the loop's trip lemma; out come the running vectors after the loop, with the equation saying what they are,
    and the three scratches again. -/
macro "inner_loop " I:term:max T:term:max inv:ident hf:ident pf:ident A:ident hA:ident : tactic => `(tactic| (
  sl_for $I $$ [Hs0' Hs1' $hf:ident]
  case region => exact $T
  · unfold $inv
    isplitr
    · ipureintro; rfl
    isplitl [Hs0']
    · iapply (Entails.of_eq (pts_s0 (F := F) d L _)); iexact Hs0'
    isplitl [Hs1']
    · iapply (Entails.of_eq (pts_s1 (F := F) d L _)); iexact Hs1'
    iapply (Entails.of_eq ($pf (F := F) d L _)); iexact $hf
  iintro %nA HI
  rename' nA => $A
  unfold $inv
  icases HI with ⟨%nhA, Hs0, Hs1, HsF⟩
  rename' nhA => $hA
  ihave Hs0' := (Entails.of_eq (pts_s0 (F := F) d L _).symm) $$ Hs0
  ihave Hs1' := (Entails.of_eq (pts_s1 (F := F) d L _).symm) $$ Hs1
  ihave HsF' := (Entails.of_eq ($pf (F := F) d L _).symm) $$ HsF
  irename HsF' => $hf))

/-! ## What the copies land, as the specification's rows and chunks -/

omit [FloatOps F] in
/-- The centre-row scratch after a row copy: the specification's row. -/
theorem row_land (f0 : FVec F S100000 .f32) (C : FVec F S64x100000 .f32) (off : Fin 2 → Nat)
    (h : ∀ a, off a + S1x100000.size a ≤ S64x100000.size a) (f : Nat) (hf : f < 64) (e : off = ![f, 0]) :
    View.write (Elt F) (rowS).view f0 (ReadAs.same.apply ((rowM off h).view.read (Elt F) C)) Finset.univ = rowOf C f := by
  rw [ReadAs.apply_same, row_read C off h f hf e]
  simp only [Memref.view_whole, View.write_whole_univ]

omit [FloatOps F] in
/-- An offsets pair given coordinate by coordinate. -/
theorem off_pair (off : Fin 2 → Nat) (a b : Nat) (e0 : off 0 = a) (e1 : off 1 = b) : off = ![a, b] := by
  funext i
  match i with
  | ⟨0, _⟩ => exact e0
  | ⟨1, _⟩ => exact e1

omit [FloatOps F] in
/-- The first chunk scratch after a chunk copy: the specification's chunk. -/
theorem chunk_land0 (f2 : FVec F S4096 .f32) (X : FVec F S64x16384 .f32) (off : Fin 2 → Nat)
    (h : ∀ a, off a + S1x4096.size a ≤ S64x16384.size a) (f c : Nat) (hf : f < 64) (hc : c < 4) (e0 : off 0 = f) (e1 : off 1 = 4096 * c) :
    View.write (Elt F) (fb0).view f2 (ReadAs.same.apply ((chM off h).view.read (Elt F) X)) Finset.univ = chunkOf X f c := by
  rw [ReadAs.apply_same, chunk_read X off h f c hf hc (off_pair off _ _ e0 e1)]
  simp only [Memref.view_whole, View.write_whole_univ]

omit [FloatOps F] in
/-- The second chunk scratch after a chunk copy. -/
theorem chunk_land1 (f3 : FVec F S4096 .f32) (X : FVec F S64x16384 .f32) (off : Fin 2 → Nat)
    (h : ∀ a, off a + S1x4096.size a ≤ S64x16384.size a) (f c : Nat) (hf : f < 64) (hc : c < 4) (e0 : off 0 = f) (e1 : off 1 = 4096 * c) :
    View.write (Elt F) (fb1).view f3 (ReadAs.same.apply ((chM off h).view.read (Elt F) X)) Finset.univ = chunkOf X f c := by
  rw [ReadAs.apply_same, chunk_read X off h f c hf hc (off_pair off _ _ e0 e1)]
  simp only [Memref.view_whole, View.write_whole_univ]

omit [FloatOps F] in
/-- The label scratch after the label copy: the labels. -/
theorem lab_land (f1 lab : IVec S16384 32) :
    View.write (Elt F) (labS).view f1 (ReadAs.same.apply ((lW).view.read (Elt F) lab)) Finset.univ = lab := by
  rw [ReadAs.apply_same]
  simp only [Memref.view_whole, View.write_whole_univ, View.read_whole]

omit [FloatOps F] in
/-- The result scratch, stored whole and read back: the stored vector. -/
theorem acc_read (f4 p : FVec F S16 .f32) :
    ReadAs.same.apply ((accS).view.read (Elt F) ((accS).view.writes (Elt F) f4 [⟨Rect.unit (s := S16) ![0] S16.size inb_S16_S16_0, p⟩])) = p := by
  rw [ReadAs.apply_same]
  funext x
  have ex : (Rect.unit (s := S16) ![0] S16.size inb_S16_S16_0).emb x = x := by
    funext a
    match a with
    | ⟨0, _⟩ => exact Fin.ext (by show 0 + 1 * _ = _; omega)
  have hr := View.read_writes_cons_emb (Val := Elt F) (accS).view f4 (Rect.unit (s := S16) ![0] S16.size inb_S16_S16_0) p [] x
  rw [ex] at hr
  exact hr

omit [FloatOps F] in
/-- The printed offset chains of the row and chunk copies, coordinate by coordinate. -/
theorem off2_at (L : grid0.Coords) (r : Fin 2) :
    k0_off2 L (BitVec.ofNat 32 r.val) 0 = 4 * (L 1).val + 2 * (L 0).val + r.val ∧ k0_off2 L (BitVec.ofNat 32 r.val) 1 = 4096 * 0 := by
  rw [k0_off2_eq L r]; exact ⟨rfl, rfl⟩
omit [FloatOps F] in
theorem off3_at (L : grid0.Coords) (r : Fin 2) :
    k0_off3 L (BitVec.ofNat 32 r.val) 0 = 4 * (L 1).val + 2 * (L 0).val + r.val ∧ k0_off3 L (BitVec.ofNat 32 r.val) 1 = 4096 * 1 := by
  rw [k0_off3_eq L r]; exact ⟨rfl, rfl⟩
omit [FloatOps F] in
theorem off20_at (L : grid0.Coords) (r : Fin 2) :
    k0_off20 L (BitVec.ofNat 32 r.val) 0 = 4 * (L 1).val + 2 * (L 0).val + r.val ∧ k0_off20 L (BitVec.ofNat 32 r.val) 1 = 4096 * 2 := by
  rw [k0_off20_eq L r]; exact ⟨rfl, rfl⟩
omit [FloatOps F] in
theorem off37_at (L : grid0.Coords) (r : Fin 2) :
    k0_off37 L (BitVec.ofNat 32 r.val) 0 = 4 * (L 1).val + 2 * (L 0).val + r.val ∧ k0_off37 L (BitVec.ofNat 32 r.val) 1 = 4096 * 3 := by
  rw [k0_off37_eq L r]; exact ⟨rfl, rfl⟩

/-- The worker's row of the table of partial sums after the result copy: on that row, the table. The copy writes the
    row whole with the result scratch's contents, which are the scaled sum of the four running vectors, and those
    are the worker's running vectors of the specification. -/
theorem row_final (O : FVec F S32x16 .f32) (X : FVec F S64x16384 .f32) (lb : IVec S16384 32) (C : FVec F S64x100000 .f32)
    (f4 : FVec F S16 .f32) (A : A4 F) (w : Nat) (hw : w < 32) (e : k0_off135 L = ![w, 0]) (hA : A = tileAcc X lb C w) :
    ∀ i ∈ (oRowK L).view.set,
      (oRowK L).view.writes (Elt F) O [⟨Rect.whole S16, ReadAs.same.apply ((accS).view.read (Elt F)
        ((accS).view.writes (Elt F) f4 [⟨Rect.unit (s := S16) ![0] S16.size inb_S16_S16_0, k0_pay9 A.1 A.2.1 A.2.2.1 A.2.2.2⟩]))⟩] i
        = table X lb C i := by
  intro i hi
  have hp : ReadAs.same.apply ((accS).view.read (Elt F)
      ((accS).view.writes (Elt F) f4 [⟨Rect.unit (s := S16) ![0] S16.size inb_S16_S16_0, k0_pay9 A.1 A.2.1 A.2.2.1 A.2.2.2⟩]))
      = tileOut X lb C w := by
    rw [acc_read f4 _, hA]; rfl
  rw [hp]
  obtain ⟨y, rfl⟩ := View.exists_emb_of_mem_set (oRowK L).view hi
  have hw1 := out_write O (tileOut X lb C w) (k0_off135 L) (k0_off135_inb L) w hw e ((oRowK L).view.emb y) hi
  have ee : ((oRowK L).view.slice (Rect.whole S16)).emb y = (oRowK L).view.emb y :=
    congrArg (oRowK L).view.emb (Rect.emb_whole_apply S16 y)
  have l := View.write_emb_of_mem (Val := Elt F) (v := (oRowK L).view.slice (Rect.whole S16)) O (tileOut X lb C w) (M := Finset.univ) (x := y) (Finset.mem_univ _)
  have r := View.write_emb_of_mem (Val := Elt F) (v := (oRowK L).view) O (tileOut X lb C w) (M := Finset.univ) (x := y) (Finset.mem_univ _)
  rw [ee] at l
  have e1 : (oRowK L).view.writes (Elt F) O [⟨Rect.whole S16, tileOut X lb C w⟩] ((oRowK L).view.emb y)
      = (oRowK L).view.write (Elt F) O (tileOut X lb C w) Finset.univ ((oRowK L).view.emb y) := l.trans r.symm
  rw [e1, hw1.1]
  show _ = tileOut X lb C (((oRowK L).view.emb y) 0).val _
  rw [hw1.2]

set_option maxHeartbeats 4000000 in
/-- The task of the vector subcore at grid coordinates L of device d: from its read shares of the three tables and its
    row of the table of partial sums to the same with the row at the specification's table. -/
theorem tile_body (hF : (K (F := F)).Facts) (hlab : ∀ j, (m (lLoc d) j).toNat < 100000) (O : CellTallies nD τ sig (HIx 1)) (W : Waits sig (HIx 1)) (hO : ∀ g, O g none = 0) :
    iprop(levAts (K (F := F)).L (K (F := F)).lev ∗ emp ∗ tileIn m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0_k L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1)
          fun _ => iprop(tileIn m d (cL L) (jL L) (G m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hl, Hc, Ho⟩, ⟨⟨%f0, Hs0⟩, ⟨%f1, Hs1⟩, ⟨%f2, Hs2⟩, ⟨%f3, Hs3⟩, ⟨%f4, Hs4⟩, Hbufs⟩, ⟨HsemR, HsemF0, HsemF1, HsemL, HsemO, Hsems⟩, HO⟩
  ihave Hmw := ((K (F := F)).mayWaits_none (thr := thr d L) hO) $$ Hlv
  ihave Hx' := (Entails.of_eq (pts_x (F := F) d L _ _).symm) $$ Hx
  ihave Hl' := (Entails.of_eq (pts_l (F := F) d L _ _).symm) $$ Hl
  ihave Hc' := (Entails.of_eq (pts_c (F := F) d L _ _).symm) $$ Hc
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  -- the first row: the centre row, the labels and chunk 0 land; chunk 1 is on its way
  sl_exec
  name_held Hs0' row0 hrow0
  name_held Hs1' lab hlabq
  name_held Hs2' ch1 hch1
  have hlabv : ∀ i, (lab i).toNat < 100000 := by
    intro i
    rw [hlabq]
    simp only [Memref.view_whole, View.write_whole_univ]
    exact hlab _
  inner_loop (inv0 d L row0 lab ch1 0 (k0_pay42 (F := F), k0_pay42 (F := F), k0_pay42 (F := F), k0_pay42 (F := F)))
    (fun k acc => trip1 d L row0 lab ch1 hlabv _ k acc) inv0 Hs2' pts_s2 A1 hA1
  sl_exec
  name_held Hs3' ch2 hch2
  inner_loop (inv1 d L row0 lab ch2 1 A1) (fun k acc => trip2 d L row0 lab ch2 hlabv _ _ _ _ _ _ k acc) inv1 Hs3' pts_s3 A2 hA2
  sl_exec
  name_held Hs2' ch3 hch3
  inner_loop (inv0 d L row0 lab ch3 2 A2) (fun k acc => trip3 d L row0 lab ch3 hlabv _ _ _ _ _ _ k acc) inv0 Hs2' pts_s2 A3 hA3
  sl_exec
  name_held Hs3' ch4 hch4
  inner_loop (inv1 d L row0 lab ch4 3 A3) (fun k acc => trip4 d L row0 lab ch4 hlabv _ _ _ _ _ _ k acc) inv1 Hs3' pts_s3 A4 hA4
  -- the second row
  sl_exec
  name_held Hs0' row1 hrow1
  name_held Hs2' ch5 hch5
  inner_loop (inv0 d L row1 lab ch5 0 A4) (fun k acc => trip5 d L row1 lab ch5 hlabv _ _ _ _ _ _ k acc) inv0 Hs2' pts_s2 A5 hA5
  sl_exec
  name_held Hs3' ch6 hch6
  inner_loop (inv1 d L row1 lab ch6 1 A5) (fun k acc => trip6 d L row1 lab ch6 hlabv _ _ _ _ _ _ k acc) inv1 Hs3' pts_s3 A6 hA6
  sl_exec
  name_held Hs2' ch7 hch7
  inner_loop (inv0 d L row1 lab ch7 2 A6) (fun k acc => trip7 d L row1 lab ch7 hlabv _ k acc) inv0 Hs2' pts_s2 A7 hA7
  sl_exec
  name_held Hs3' ch8 hch8
  inner_loop (inv1 d L row1 lab ch8 3 A7) (fun k acc => trip8 d L row1 lab ch8 hlabv _ k acc) inv1 Hs3' pts_s3 A8 hA8
  -- the results: stored to the result scratch, copied out to the worker's row
  sl_exec
  sl_step
  -- what the scratches held, and so what the running vectors are
  have h0 : (L 0).val < 2 := (L 0).isLt
  have h1 : (L 1).val < 16 := (L 1).isLt
  have hfa : 4 * (L 1).val + 2 * (L 0).val < 64 := by omega
  have hfb : 4 * (L 1).val + 2 * (L 0).val + 1 < 64 := by omega
  have e_lab : lab = m (lLoc d) := hlabq.trans (lab_land f1 (m (lLoc d)))
  have e_r0 : row0 = rowOf (CTr m d) (4 * (L 1).val + 2 * (L 0).val) :=
    hrow0.trans (row_land f0 (CTr m d) _ _ _ hfa (k0_off1_eq L))
  have e_r1 : row1 = rowOf (CTr m d) (4 * (L 1).val + 2 * (L 0).val + 1) :=
    hrow1.trans (row_land row0 (CTr m d) _ _ _ hfb (k0_off70_eq L))
  have e_c1 : ch1 = chunkOf (XT m d) (4 * (L 1).val + 2 * (L 0).val) 0 :=
    hch1.trans (chunk_land0 f2 (XT m d) _ _ _ 0 hfa (by decide) (off2_at L 0).1 (off2_at L 0).2)
  have e_c2 : ch2 = chunkOf (XT m d) (4 * (L 1).val + 2 * (L 0).val) 1 :=
    hch2.trans (chunk_land1 f3 (XT m d) _ _ _ 1 hfa (by decide) (off3_at L 0).1 (off3_at L 0).2)
  have e_c3 : ch3 = chunkOf (XT m d) (4 * (L 1).val + 2 * (L 0).val) 2 :=
    hch3.trans (chunk_land0 ch1 (XT m d) _ _ _ 2 hfa (by decide) (off20_at L 0).1 (off20_at L 0).2)
  have e_c4 : ch4 = chunkOf (XT m d) (4 * (L 1).val + 2 * (L 0).val) 3 :=
    hch4.trans (chunk_land1 ch2 (XT m d) _ _ _ 3 hfa (by decide) (off37_at L 0).1 (off37_at L 0).2)
  have e_c5 : ch5 = chunkOf (XT m d) (4 * (L 1).val + 2 * (L 0).val + 1) 0 :=
    hch5.trans (chunk_land0 ch3 (XT m d) _ _ _ 0 hfb (by decide) (off2_at L 1).1 (off2_at L 1).2)
  have e_c6 : ch6 = chunkOf (XT m d) (4 * (L 1).val + 2 * (L 0).val + 1) 1 :=
    hch6.trans (chunk_land1 ch4 (XT m d) _ _ _ 1 hfb (by decide) (off3_at L 1).1 (off3_at L 1).2)
  have e_c7 : ch7 = chunkOf (XT m d) (4 * (L 1).val + 2 * (L 0).val + 1) 2 :=
    hch7.trans (chunk_land0 ch5 (XT m d) _ _ _ 2 hfb (by decide) (off20_at L 1).1 (off20_at L 1).2)
  have e_c8 : ch8 = chunkOf (XT m d) (4 * (L 1).val + 2 * (L 0).val + 1) 3 :=
    hch8.trans (chunk_land1 ch6 (XT m d) _ _ _ 3 hfb (by decide) (off37_at L 1).1 (off37_at L 1).2)
  have t1 : Scf.trips k0_t1_loop.lb k0_t1_loop.ub k0_t1_loop.st = 32 := by decide +kernel
  have t2 : Scf.trips k0_t2_loop.lb k0_t2_loop.ub k0_t2_loop.st = 32 := by decide +kernel
  have t3 : Scf.trips k0_t3_loop.lb k0_t3_loop.ub k0_t3_loop.st = 32 := by decide +kernel
  have t4 : Scf.trips k0_t4_loop.lb k0_t4_loop.ub k0_t4_loop.st = 32 := by decide +kernel
  have t5 : Scf.trips k0_t5_loop.lb k0_t5_loop.ub k0_t5_loop.st = 32 := by decide +kernel
  have t6 : Scf.trips k0_t6_loop.lb k0_t6_loop.ub k0_t6_loop.st = 32 := by decide +kernel
  have t7 : Scf.trips k0_t7_loop.lb k0_t7_loop.ub k0_t7_loop.st = 32 := by decide +kernel
  have t8 : Scf.trips k0_t8_loop.lb k0_t8_loop.ub k0_t8_loop.st = 32 := by decide +kernel
  have e2w : 2 * (2 * (L 1).val + (L 0).val) = 4 * (L 1).val + 2 * (L 0).val := by omega
  have eA : A8 = tileAcc (XT m d) (m (lLoc d)) (CTr m d) (2 * (L 1).val + (L 0).val) := by
    rw [hA8, hA7, hA6, hA5, hA4, hA3, hA2, hA1]
    simp only [t1, t2, t3, t4, t5, t6, t7, t8]
    rw [e_c1, e_c2, e_c3, e_c4, e_c5, e_c6, e_c7, e_c8, e_r0, e_r1, e_lab]
    unfold tileAcc rowAcc
    rw [e2w]
  have hW : ∀ (W' : Waits sig (HIx 1)) (s : SemLoc sig), (∀ p ∈ W', p ∈ W ∨ p.2 = none) →
      ∀ p ∈ insert (s, (default : HIx 1)) W', p ∈ W ∨ p.2 = none := by
    intro W' s h p hp
    rcases Finset.mem_insert.mp hp with hp | hp
    · exact .inr (hp ▸ rfl)
    · exact h p hp
  isplitl [Hx' Hl' Hc' Ho']
  · isplitl [Hx']
    · iapply (Entails.of_eq (pts_x (F := F) d L _ _)); iexact Hx'
    isplitl [Hl']
    · iapply (Entails.of_eq (pts_l (F := F) d L _ _)); iexact Hl'
    isplitl [Hc']
    · iapply (Entails.of_eq (pts_c (F := F) d L _ _)); iexact Hc'
    iapply (Entails.of_eq (pts_o (F := F) d L _))
    iapply (Entails.of_eq (pointsTo_congr (row_final (F := F) L (m (oLoc d)) (XT m d) (m (lLoc d)) (CTr m d) f4 A8
      (2 * (L 1).val + (L 0).val) (by omega) (k0_off135_eq L) eA)))
    iexact Ho'
  isplitl [Hs0' Hs1' Hs2' Hs3' Hs4' Hbufs]
  · isplitl [Hs0']
    · iexists _; iapply (Entails.of_eq (pts_s0 (F := F) d L _)); iexact Hs0'
    isplitl [Hs1']
    · iexists _; iapply (Entails.of_eq (pts_s1 (F := F) d L _)); iexact Hs1'
    isplitl [Hs2']
    · iexists _; iapply (Entails.of_eq (pts_s2 (F := F) d L _)); iexact Hs2'
    isplitl [Hs3']
    · iexists _; iapply (Entails.of_eq (pts_s3 (F := F) d L _)); iexact Hs3'
    isplitl [Hs4']
    · iexists _; iapply (Entails.of_eq (pts_s4 (F := F) d L _)); iexact Hs4'
    iexact Hbufs
  isplitl [HsemR HsemF0 HsemF1 HsemL HsemO Hsems]
  · isplitl [HsemR]; · iexact HsemR
    isplitl [HsemF0]; · iexact HsemF0
    isplitl [HsemF1]; · iexact HsemF1
    isplitl [HsemL]; · iexact HsemL
    isplitl [HsemO]; · iexact HsemO
    iexact Hsems
  iexists _
  isplitr
  swap
  · iexact HO
  · ipureintro
    repeat (first | exact fun p hp => Or.inl hp | refine hW _ _ ?_)

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xW (Memref.isWhole_whole _) lW (Memref.isWhole_whole _)
          cW (Memref.isWhole_whole _) oW (Memref.isWhole_whole _) rowS (Memref.isWhole_whole _) labS (Memref.isWhole_whole _)
          fb0 (Memref.isWhole_whole _) fb1 (Memref.isWhole_whole _) accS (Memref.isWhole_whole _)
          cc0_scratch5 cc0_scratch6 cc0_scratch7 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from its read shares and its row to the same with the row at the table of partial
    sums: the task's run at the subcore's coordinates. The labels name positions of a centre row. -/
theorem tileObl (hlab : ∀ d j, (m (lLoc d) j).toNat < 100000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hlab d) O W hO).trans (wp_mono frame _ _ fun _ => obl_post)

end Cert.Proof.KI

end
-- ==== Proof.KBPay.lean ====
/-
  The kernel program's vocabulary for its run: the arrays of a device as locations, what one worker computes as a pure
  function of the arrays, and what the call to the vector subcores hands out and takes back.

  The program transposes the feature table (16384 × 64) and the centre table (100000 × 64), calls one kernel on the
  32 vector subcores of its two SparseCores, and sums the 32 × 16 table the kernel writes. Worker w = 2 i + c (vector
  subcore i of SparseCore c) owns rows 2w and 2w + 1 of both transposed tables and row w of the result table. The
  three input tables are only read, so every worker holds a read share of each, whole; the result table is split by
  rows. What a worker leaves in its row is stated as a pure function of the tables, generic in the float instance,
  written as the nest of loops computes it (table, tileOut, tileAcc, rowAcc, chunk, trip, grp), so that the same text
  serves the word-level program and its idealization.
-/
import proofs.«204200_g67499706024535_cont_9to1c4b_715_37_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«204200_g67499706024535_cont_9to1c4b_715_37_alg».proof.Proof.Gen.Kernel
import proofs.«204200_g67499706024535_cont_9to1c4b_715_37_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the kernel's memrefs, spelt as the body table passes them
local notation "xW" => (Memref.whole Cert.Kernel.main_v0_scv : Memref Cert.Kernel.sig Kind.scVector Space.hbm Cert.Kernel.S64x16384 EltTy.f32)
local notation "lW" => (Memref.whole Cert.Kernel.main_arg1_scv : Memref Cert.Kernel.sig Kind.scVector Space.hbm Cert.Kernel.S16384 EltTy.i32)
local notation "cW" => (Memref.whole Cert.Kernel.main_v1_scv : Memref Cert.Kernel.sig Kind.scVector Space.hbm Cert.Kernel.S64x100000 EltTy.f32)
local notation "oW" => (Memref.whole Cert.Kernel.main_v2_scv : Memref Cert.Kernel.sig Kind.scVector Space.hbm Cert.Kernel.S32x16 EltTy.f32)
local notation "rowS" => (Memref.whole Cert.Kernel.cc0_scratch0 : Memref Cert.Kernel.sig Kind.scVector Space.vmem Cert.Kernel.S100000 EltTy.f32)
local notation "labS" => (Memref.whole Cert.Kernel.cc0_scratch1 : Memref Cert.Kernel.sig Kind.scVector Space.vmem Cert.Kernel.S16384 EltTy.i32)
local notation "fb0" => (Memref.whole Cert.Kernel.cc0_scratch2 : Memref Cert.Kernel.sig Kind.scVector Space.vmem Cert.Kernel.S4096 EltTy.f32)
local notation "fb1" => (Memref.whole Cert.Kernel.cc0_scratch3 : Memref Cert.Kernel.sig Kind.scVector Space.vmem Cert.Kernel.S4096 EltTy.f32)
local notation "accS" => (Memref.whole Cert.Kernel.cc0_scratch4 : Memref Cert.Kernel.sig Kind.scVector Space.vmem Cert.Kernel.S16 EltTy.f32)

variable [FloatOps F]

abbrev cV (L : grid0.Coords) : Fin τ.nSC := (L 0).castLE hcore0
abbrev jV (L : grid0.Coords) : Fin τ.nSub := (L 1).castLE hsub0

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays of a device, as locations

The three arguments, the two transposed copies the host writes before the call, the table of partial sums the call
writes, and the scalar result. -/

abbrev a0Loc (d : Dev nD) : Loc nD τ sig := (SparseCore.T d).loc main_arg0
abbrev lLoc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v0
abbrev cLoc (d : Dev nD) : Loc nD τ sig := (SparseCore.T d).loc main_v1
abbrev oLoc (d : Dev nD) : Loc nD τ sig := (SparseCore.T d).loc main_v2
abbrev zLoc (d : Dev nD) : Loc nD τ sig := (SparseCore.T d).loc main_cst
abbrev rLoc (d : Dev nD) : Loc nD τ sig := (SparseCore.T d).loc main_v3

/-! ## What one worker computes, as a pure function of the arrays

Worker w (of 32) owns rows 2w and 2w+1 of the transposed feature table X (64 × 16384) and of the transposed centre
table C (64 × 100000). For each of its rows f it visits the 16384 columns b in four chunks h of 4096, each chunk in 32
trips k of 128 columns, each trip in eight groups u of 16 lanes: b = 4096 h + 128 k + 16 u + lane. A group adds, lane by
lane, the square of X[f, b] − C[f, lab b] to one of four running vectors: group u goes to vector u mod 4. At the end the
four vectors are added pairwise and scaled by 2^-15. Indices are reduced into range so that the functions are total; on
the ranges the program uses the reductions are identities. -/

section Value

abbrev A4 (F : FTy → Type) : Type := FVec F S16 .f32 × FVec F S16 .f32 × FVec F S16 .f32 × FVec F S16 .f32

/-- Position j of the label vector. -/
def li (j : Nat) : S16384.Idx := ValueIdx.ix1 ⟨j % 16384, Nat.mod_lt _ (by decide)⟩
/-- Position j of a centre row. -/
def ri (j : Nat) : S100000.Idx := ValueIdx.ix1 ⟨j % 100000, Nat.mod_lt _ (by decide)⟩
/-- Position j of a feature chunk. -/
def fi (j : Nat) : S4096.Idx := ValueIdx.ix1 ⟨j % 4096, Nat.mod_lt _ (by decide)⟩

/-- One group: sixteen lanes of squared differences added to a running vector. The features are the chunk's entries
    from oF on, the labels the label vector's entries from oL on, the centres the row's entries the labels name. -/
def grp (row : FVec F S100000 .f32) (lab : IVec S16384 32) (fb : FVec F S4096 .f32) (oL oF : Nat) (a : FVec F S16 .f32) :
    FVec F S16 .f32 :=
  addf a (mulf (subf (fun x => fb (fi (oF + (x 0).val))) (fun x => row (ri (lab (li (oL + (x 0).val))).toNat)))
    (subf (fun x => fb (fi (oF + (x 0).val))) (fun x => row (ri (lab (li (oL + (x 0).val))).toNat))))

/-- One trip k of chunk h: eight groups, group u into running vector u mod 4. -/
def trip (row : FVec F S100000 .f32) (lab : IVec S16384 32) (fb : FVec F S4096 .f32) (h k : Nat) (A : A4 F) : A4 F :=
  (grp row lab fb (4096 * h + 128 * k + 64) (128 * k + 64) (grp row lab fb (4096 * h + 128 * k) (128 * k) A.1),
   grp row lab fb (4096 * h + 128 * k + 80) (128 * k + 80) (grp row lab fb (4096 * h + 128 * k + 16) (128 * k + 16) A.2.1),
   grp row lab fb (4096 * h + 128 * k + 96) (128 * k + 96) (grp row lab fb (4096 * h + 128 * k + 32) (128 * k + 32) A.2.2.1),
   grp row lab fb (4096 * h + 128 * k + 112) (128 * k + 112) (grp row lab fb (4096 * h + 128 * k + 48) (128 * k + 48) A.2.2.2))

/-- The first n trips of chunk h. -/
def chunk (row : FVec F S100000 .f32) (lab : IVec S16384 32) (fb : FVec F S4096 .f32) (h : Nat) : Nat → A4 F → A4 F
  | 0, A => A
  | n + 1, A => trip row lab fb h n (chunk row lab fb h n A)

/-- Row f of the transposed centre table. -/
def rowOf (C : FVec F S64x100000 .f32) (f : Nat) : FVec F S100000 .f32 :=
  fun j => C (ValueIdx.ix2 ⟨f % 64, Nat.mod_lt _ (by decide)⟩ ⟨(j 0).val, (j 0).isLt⟩)
/-- Chunk h of row f of the transposed feature table. -/
def chunkOf (X : FVec F S64x16384 .f32) (f h : Nat) : FVec F S4096 .f32 :=
  fun j => X (ValueIdx.ix2 ⟨f % 64, Nat.mod_lt _ (by decide)⟩ ⟨(4096 * h + (j 0).val) % 16384, Nat.mod_lt _ (by decide)⟩)

/-- All four chunks of row f. -/
def rowAcc (X : FVec F S64x16384 .f32) (lab : IVec S16384 32) (C : FVec F S64x100000 .f32) (f : Nat) (A : A4 F) : A4 F :=
  chunk (rowOf C f) lab (chunkOf X f 3) 3 32 (chunk (rowOf C f) lab (chunkOf X f 2) 2 32
    (chunk (rowOf C f) lab (chunkOf X f 1) 1 32 (chunk (rowOf C f) lab (chunkOf X f 0) 0 32 A)))

/-- Both rows of worker w, from four zero vectors. -/
def tileAcc (X : FVec F S64x16384 .f32) (lab : IVec S16384 32) (C : FVec F S64x100000 .f32) (w : Nat) : A4 F :=
  rowAcc X lab C (2 * w + 1) (rowAcc X lab C (2 * w) (k0_pay42 (F := F), k0_pay42 (F := F), k0_pay42 (F := F), k0_pay42 (F := F)))

/-- Worker w's sixteen results: the four running vectors added pairwise and scaled. -/
def tileOut (X : FVec F S64x16384 .f32) (lab : IVec S16384 32) (C : FVec F S64x100000 .f32) (w : Nat) : FVec F S16 .f32 :=
  k0_pay9 (tileAcc X lab C w).1 (tileAcc X lab C w).2.1 (tileAcc X lab C w).2.2.1 (tileAcc X lab C w).2.2.2

/-- The 32 × 16 table of partial sums: row w is worker w's results. -/
def table (X : FVec F S64x16384 .f32) (lab : IVec S16384 32) (C : FVec F S64x100000 .f32) : FVec F S32x16 .f32 :=
  fun idx => tileOut X lab C (idx 0).val (ValueIdx.ix1 ⟨(idx 1).val, (idx 1).isLt⟩)

end Value

/-! ## The launch memory, and what the call is handed -/

variable (m : (ℓ : Loc nD τ sig) → Buf (Elt F) ℓ) (ρ : Dev nD → PrngReg)

/-- The transposed feature table, as the host's first operation writes it. -/
def XT (d : Dev nD) : Buf (Elt F) (xLoc d) :=
  (transpose S64x16384 [1, 0] (m (a0Loc d)) transposes_S16384x64_S64x16384_1_0 : FVec F S64x16384 .f32)
/-- The transposed centre table, as the host's second operation writes it. -/
def CTr (d : Dev nD) : Buf (Elt F) (cLoc d) :=
  (transpose S64x100000 [1, 0] (m (a2Loc d)) transposes_S100000x64_S64x100000_1_0 : FVec F S64x100000 .f32)
/-- The table of partial sums the call leaves. -/
def G (d : Dev nD) : Buf (Elt F) (oLoc d) := table (XT m d) (m (lLoc d)) (CTr m d)

/-- The read shares: one per SparseCore, and of that one per vector subcore. -/
abbrev qC (c : Fin 2) : PosShare TreeShare := Transfers.shareTok fullShare 2 c
abbrev qT (c : Fin 2) (i : Fin 16) : PosShare TreeShare := Transfers.shareTok (qC c) 16 i

omit [FloatOps F] in
theorem hdiv : 32 ∣ S32x16.size 0 := ⟨1, rfl⟩
/-- Row w of the table of partial sums. -/
abbrev orow (w : Fin 32) : Rect S32x16 := Rect.part (s := S32x16) (a₀ := 0) hdiv w
abbrev oSet (w : Fin 32) : Finset S32x16.Idx := ((oW).view.slice (orow w)).set
/-- The worker number of vector subcore i of SparseCore c. -/
def wid (c : Fin 2) (i : Fin 16) : Fin 32 := ⟨2 * i.val + c.val, by omega⟩

/-- What vector subcore i of SparseCore c is handed: a read share of each of the three tables, and row wid c i of the
    table of partial sums outright, at contents O. -/
def tileIn (d : Dev nD) (c : Fin 2) (i : Fin 16) (O : Buf (Elt F) (oLoc d)) : sProp 𝕄 :=
  iprop((xLoc d ↦{qT c i} XT m d) ∗ (lLoc d ↦{qT c i} m (lLoc d)) ∗ (cLoc d ↦{qT c i} CTr m d) ∗ (oLoc d ↦[oSet (wid c i)]{fullShare} O))
/-- What SparseCore c is handed: its read shares, and its sixteen rows. -/
def coreIn (d : Dev nD) (c : Fin 2) (O : Buf (Elt F) (oLoc d)) : sProp 𝕄 :=
  iprop((xLoc d ↦{qC c} XT m d) ∗ (lLoc d ↦{qC c} m (lLoc d)) ∗ (cLoc d ↦{qC c} CTr m d)
    ∗ bigSep Finset.univ (fun i : Fin 16 => oLoc d ↦[oSet (wid c i)]{fullShare} O))

/-- The handshakes' payloads: in, the rows at their launch contents; out, at the table of partial sums. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (G m d)
  go := fun q d c i => match q with | 0 => tileIn m d (Fin.cast nCore_zero c) (Fin.cast nSub_zero i) (m (oLoc d))
  td := fun q d c i => match q with | 0 => tileIn m d (Fin.cast nCore_zero c) (Fin.cast nSub_zero i) (G m d)
  x := fun _ _ => iprop(emp)

instance P_storable : (P (F := F) m).IsStorable where
  st q d c := match q with | 0 => by unfold P coreIn; infer_instance
  dn q d c := match q with | 0 => by unfold P coreIn; infer_instance
  go q d c i := match q with | 0 => by unfold P tileIn; infer_instance
  td q d c i := match q with | 0 => by unfold P tileIn; infer_instance

end Cert.Proof.KB

end
-- ==== Proof.KBLaunch.lean ====
/-
  The launch of the idealized kernel program: from "every vector subcore's task is proved" to the run of the whole
  program, with its result named.

  The program's host part transposes the feature table and the centre table, calls the two SparseCores, and sums the
  32 x 16 table of partial sums the call leaves, from zero. The resources travel as follows. The three tables the
  workers only read (transposed features, labels, transposed centres) go out as read shares: the host keeps a
  remainder and gives each SparseCore one share; each SparseCore keeps a remainder of its share and gives each of its
  sixteen vector subcores one; the shares recombine on the way back, so the tables return whole and unchanged. The
  table of partial sums is split by rows: its 32 rows are pairwise disjoint and cover it, and (SparseCore c, vector
  subcore i) |-> 2 i + c is a bijection onto the 32 rows, so the whole table is the separating conjunction over c and
  i of row 2 i + c. Each row comes back holding the corresponding row of one function, the table the workers compute,
  so the rows rejoin to the whole table at that function. After the call the host's sum therefore reads that table,
  and the final memory holds the scalar result at its sum and the three arguments at their launch contents.
-/
import proofs.«204200_g67499706024535_cont_9to1c4b_715_37_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "oW" => (Memref.whole Cert.Kernel.main_v2_scv : Memref Cert.Kernel.sig Kind.scVector Space.hbm Cert.Kernel.S32x16 EltTy.f32)

variable [FloatOps F]
variable (m : (ℓ : Loc nD τ sig) → Buf (Elt F) ℓ) (ρ : Dev nD → PrngReg)

/-! ## The rows of the table of partial sums -/

omit [FloatOps F] in
theorem oSet_eq (w : Fin 32) : oSet w = (orow w).set := by
  show ((View.whole (main_v2_scv : Ref sig .scVector)).slice (orow w)).set = _
  rw [View.set_slice]; exact Finset.map_refl

omit [FloatOps F] in
theorem rows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdiv h

omit [FloatOps F] in
theorem rows_cover : (Finset.univ : Finset (Fin 32)).biUnion oSet = Finset.univ :=
  (Finset.biUnion_congr rfl fun i _ => oSet_eq i).trans (Rect.biUnion_part hdiv)

omit [FloatOps F] in
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet rows_disjoint, rows_cover]; try rfl

/-- The worker number is a bijection from (SparseCore, vector subcore) to the 32 workers: w = 2 i + c. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
/-- The whole table is its 32 rows, grouped by SparseCore and vector subcore. -/
theorem oPts_cores (d : Dev nD) (f : Buf (Elt F) (oLoc d)) :
    (oLoc d ↦{fullShare} f : sProp 𝕄)
      = bigSep Finset.univ fun c : Fin 2 => bigSep Finset.univ fun i : Fin 16 => oLoc d ↦[oSet (wid c i)]{fullShare} f := by
  rw [oPts_rows, bigSep_univ_equiv widEquiv, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands split among its vector subcores -/

/-- What a SparseCore keeps of its read shares while its vector subcores hold theirs. -/
def coreRest (d : Dev nD) (c : Fin 2) : sProp 𝕄 :=
  iprop((xLoc d ↦{Transfers.shareDrop (qC c) 16} XT m d) ∗ (lLoc d ↦{Transfers.shareDrop (qC c) 16} m (lLoc d))
    ∗ (cLoc d ↦{Transfers.shareDrop (qC c) 16} CTr m d))

theorem core_split (d : Dev nD) (c : Fin 2) (O : Buf (Elt F) (oLoc d)) :
    coreIn m d c O ⊢ iprop(coreRest m d c ∗ bigSep Finset.univ fun i : Fin 16 => tileIn m d c i O) := by
  unfold coreIn tileIn coreRest
  rw [bigSep_sep', bigSep_sep', bigSep_sep']
  iintro ⟨Hx, Hl, Hc, Ho⟩
  ihave Hx' := (Transfers.pointsTo_toks_split (qC c) 16) $$ Hx
  ihave Hl' := (Transfers.pointsTo_toks_split (qC c) 16) $$ Hl
  ihave Hc' := (Transfers.pointsTo_toks_split (qC c) 16) $$ Hc
  icases Hx' with ⟨Hxr, Hxt⟩
  icases Hl' with ⟨Hlr, Hlt⟩
  icases Hc' with ⟨Hcr, Hct⟩
  isplitl [Hxr Hlr Hcr]
  · isplitl [Hxr]; · iexact Hxr
    isplitl [Hlr]; · iexact Hlr
    iexact Hcr
  isplitl [Hxt]; · iexact Hxt
  isplitl [Hlt]; · iexact Hlt
  isplitl [Hct]; · iexact Hct
  iexact Ho

theorem core_join (d : Dev nD) (c : Fin 2) (O : Buf (Elt F) (oLoc d)) :
    iprop(coreRest m d c ∗ bigSep Finset.univ fun i : Fin 16 => tileIn m d c i O) ⊢ coreIn m d c O := by
  unfold coreIn tileIn coreRest
  rw [bigSep_sep', bigSep_sep', bigSep_sep']
  iintro ⟨⟨Hxr, Hlr, Hcr⟩, Hxt, Hlt, Hct, Ho⟩
  isplitl [Hxr Hxt]
  · iapply (Transfers.pointsTo_toks_join (qC c) 16); isplitl [Hxr]; · iexact Hxr
    iexact Hxt
  isplitl [Hlr Hlt]
  · iapply (Transfers.pointsTo_toks_join (qC c) 16); isplitl [Hlr]; · iexact Hlr
    iexact Hlt
  isplitl [Hcr Hct]
  · iapply (Transfers.pointsTo_toks_join (qC c) 16); isplitl [Hcr]; · iexact Hcr
    iexact Hct
  iexact Ho

theorem vecSplit : (K (F := F)).VecSplit' (P m) 0 := by
  intro d c
  show coreIn m d (Fin.cast nCore_zero c) (m (oLoc d)) ⊢ |={Set.univ}=> iprop(
      (bigSep Finset.univ fun i : Fin ((K (F := F)).nSub 0) => tileIn m d (Fin.cast nCore_zero c) (Fin.cast nSub_zero i) (m (oLoc d)))
      ∗ ((bigSep Finset.univ fun i : Fin ((K (F := F)).nSub 0) => tileIn m d (Fin.cast nCore_zero c) (Fin.cast nSub_zero i) (G m d))
          -∗ coreIn m d (Fin.cast nCore_zero c) (G m d)))
  rw [bigSep_tasks (F := F) (fun i => tileIn m d (Fin.cast nCore_zero c) i (m (oLoc d))),
    bigSep_tasks (F := F) (fun i => tileIn m d (Fin.cast nCore_zero c) i (G m d))]
  iintro H
  ihave H' := (core_split m d (Fin.cast nCore_zero c) (m (oLoc d))) $$ H
  icases H' with ⟨Hr, Ht⟩
  imodintro
  isplitl [Ht]; · iexact Ht
  iintro Ht
  iapply (core_join m d (Fin.cast nCore_zero c) (G m d))
  isplitl [Hr]; · iexact Hr
  iexact Ht

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev l' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev c' : DevRef τ sig := Proc.devRef .tc (main_v1 : Ref sig .tc)
abbrev o' : DevRef τ sig := Proc.devRef .tc (main_v2 : Ref sig .tc)
abbrev z' : DevRef τ sig := Proc.devRef .tc (main_cst : Ref sig .tc)
abbrev r' : DevRef τ sig := Proc.devRef .tc (main_v3 : Ref sig .tc)

/-- The host's four operations: the two transpositions before the call, the zero and the sum over the whole table
    after it. -/
abbrev opTx : HloOp τ sig (Elt F) :=
  StableHlo.unary main_arg0 main_v0 ((transpose S64x16384 [1, 0] · transposes_S16384x64_S64x16384_1_0) : (⟨S16384x64, .f32⟩ : BufTy).Contents (Elt F) → (⟨S64x16384, .f32⟩ : BufTy).Contents (Elt F))
abbrev opTc : HloOp τ sig (Elt F) :=
  StableHlo.unary main_arg2 main_v1 ((transpose S64x100000 [1, 0] · transposes_S100000x64_S64x100000_1_0) : (⟨S100000x64, .f32⟩ : BufTy).Contents (Elt F) → (⟨S64x100000, .f32⟩ : BufTy).Contents (Elt F))
abbrev opZ : HloOp τ sig (Elt F) := StableHlo.nullary main_cst (constant S_ .f32 0x00000000#32)
abbrev opR : HloOp τ sig (Elt F) :=
  StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))

omit [FloatOps F] in
theorem held_one (d : Dev nD) (a : DevRef τ sig) (W : Valuation τ sig (Elt F)) :
    (held (T d) {a} W : sProp 𝕄) = (((d, a) : Loc nD τ sig) ↦{fullShare} W a) := by
  unfold held; rw [bigSep_singleton]
omit [FloatOps F] in
theorem held_two (d : Dev nD) (a b : DevRef τ sig) (h : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (Finset.notMem_singleton.mpr h), bigSep_singleton]
omit [FloatOps F] in
theorem held_three (d : Dev nD) (a b c : DevRef τ sig) (hab : a ≠ b) (hac : a ≠ c) (hbc : b ≠ c) (W : Valuation τ sig (Elt F)) :
    (held (T d) {a, b, c} W : sProp 𝕄)
      = iprop((((d, a) : Loc nD τ sig) ↦{fullShare} W a) ∗ (((d, b) : Loc nD τ sig) ↦{fullShare} W b) ∗ (((d, c) : Loc nD τ sig) ↦{fullShare} W c)) := by
  unfold held
  rw [SparseCore.bigSep_insert' (by rw [Finset.mem_insert, Finset.mem_singleton]; exact not_or.mpr ⟨hab, hac⟩),
    SparseCore.bigSep_insert' (Finset.notMem_singleton.mpr hbc), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (lLoc d ↦{fullShare} W main_arg1) ∗ (a2Loc d ↦{fullShare} W main_arg2)
      ∗ (xLoc d ↦{fullShare} W main_v0) ∗ (cLoc d ↦{fullShare} W main_v1) ∗ (oLoc d ↦{fullShare} W main_v2)
      ∗ (zLoc d ↦{fullShare} W main_cst) ∗ (rLoc d ↦{fullShare} W main_v3)) := by
  unfold unscopedBufs
  rw [show (Finset.univ.filter fun b : Ref sig .tc => ¬ b.isScoped) = {main_arg0, main_arg1, main_arg2, main_v0, main_v1, main_v2, main_cst, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents, as a valuation of device d's arrays. -/
def V0 (d : Dev nD) : Valuation τ sig (Elt F) := fun b => m (d, b)
/-- The zero the sum starts from. -/
abbrev ZERO (d : Dev nD) : Buf (Elt F) (zLoc d) := (constant S_ .f32 0x00000000#32 : FVec F S_ .f32)
/-- The contents the sum is taken at: the table of partial sums as the call left it, and the zero. -/
def V5 (d : Dev nD) : Valuation τ sig (Elt F) := Function.update (Function.update (V0 m d) o' (G m d)) z' (ZERO d)

theorem V5_o (d : Dev nD) : V5 m d o' = G m d :=
  (Function.update_of_ne (show o' ≠ z' by decide) _ _).trans (Function.update_self _ _ _)
theorem V5_z (d : Dev nD) : V5 m d z' = ZERO d := Function.update_self _ _ _
theorem V5_r (d : Dev nD) : V5 m d r' = m (rLoc d) :=
  (Function.update_of_ne (show r' ≠ z' by decide) _ _).trans (Function.update_of_ne (show r' ≠ o' by decide) _ _)

/-- The scalar result: the sum of the whole table of partial sums, from zero. -/
abbrev RES (d : Dev nD) : Buf (Elt F) (rLoc d) :=
  (Host.reduceAdd (G m d : FVec F S32x16 .f32) (constant S_ .f32 0x00000000#32) reducesTo_S32x16_S_d0_1 h_S_ : FVec F S_ .f32)

theorem heldTx (d : Dev nD) :
    (held (T d) {a0', x'} ((opTx (F := F)).result (V0 m d)) : sProp 𝕄) = iprop((a0Loc d ↦{fullShare} m (a0Loc d)) ∗ (xLoc d ↦{fullShare} XT m d)) := by
  rw [held_two d a0' x' (by decide),
    (opTx (F := F)).result_of_not_mem (V0 m d) (b := a0') (show a0' ∉ ({x'} : Finset (DevRef τ sig)) by decide),
    show (opTx (F := F)).result (V0 m d) x' = XT m d from StableHlo.unary_result _ _ _ _ _ _]
  rfl
theorem heldTc (d : Dev nD) :
    (held (T d) {a2', c'} ((opTc (F := F)).result (V0 m d)) : sProp 𝕄) = iprop((a2Loc d ↦{fullShare} m (a2Loc d)) ∗ (cLoc d ↦{fullShare} CTr m d)) := by
  rw [held_two d a2' c' (by decide),
    (opTc (F := F)).result_of_not_mem (V0 m d) (b := a2') (show a2' ∉ ({c'} : Finset (DevRef τ sig)) by decide),
    show (opTc (F := F)).result (V0 m d) c' = CTr m d from StableHlo.unary_result _ _ _ _ _ _]
  rfl
theorem heldZ (d : Dev nD) :
    (held (T d) {z'} ((opZ (F := F)).result (V0 m d)) : sProp 𝕄) = (zLoc d ↦{fullShare} ZERO d) := by
  rw [held_one d z', show (opZ (F := F)).result (V0 m d) z' = ZERO d from StableHlo.nullary_result _ _ _ _]
theorem heldR (d : Dev nD) :
    (held (T d) {o', z', r'} ((opR (F := F)).result (V5 m d)) : sProp 𝕄)
      = iprop((oLoc d ↦{fullShare} G m d) ∗ (zLoc d ↦{fullShare} ZERO d) ∗ (rLoc d ↦{fullShare} RES m d)) := by
  rw [held_three d o' z' r' (by decide) (by decide) (by decide),
    (opR (F := F)).result_of_not_mem (V5 m d) (b := o') (show o' ∉ ({r'} : Finset (DevRef τ sig)) by decide),
    (opR (F := F)).result_of_not_mem (V5 m d) (b := z') (show z' ∉ ({r'} : Finset (DevRef τ sig)) by decide),
    show (opR (F := F)).result (V5 m d) r' = RES m d from
      (StableHlo.binary_result _ _ _ _ _ _ _ _).trans (by rw [V5_o, V5_z]),
    V5_o, V5_z]

/-! ## The call's operands: read shares of the three tables, the rows of the table of partial sums -/

/-- What the TensorCore keeps of the three tables across the call. -/
def callRest (d : Dev nD) : sProp 𝕄 :=
  iprop((xLoc d ↦{Transfers.shareDrop fullShare 2} XT m d) ∗ (lLoc d ↦{Transfers.shareDrop fullShare 2} m (lLoc d))
    ∗ (cLoc d ↦{Transfers.shareDrop fullShare 2} CTr m d))

theorem call_in (d : Dev nD) (O : Buf (Elt F) (oLoc d)) :
    iprop((xLoc d ↦{fullShare} XT m d) ∗ (lLoc d ↦{fullShare} m (lLoc d)) ∗ (cLoc d ↦{fullShare} CTr m d) ∗ (oLoc d ↦{fullShare} O))
      ⊢ iprop(callRest m d ∗ coreIn m d 0 O ∗ coreIn m d 1 O) := by
  unfold coreIn callRest
  rw [oPts_cores d O, bigSep_univ_two]
  iintro ⟨Hx, Hl, Hc, Ho0, Ho1⟩
  ihave Hx' := (Transfers.pointsTo_toks_split fullShare 2) $$ Hx
  ihave Hl' := (Transfers.pointsTo_toks_split fullShare 2) $$ Hl
  ihave Hc' := (Transfers.pointsTo_toks_split fullShare 2) $$ Hc
  icases Hx' with ⟨Hxr, Hxt⟩
  icases Hl' with ⟨Hlr, Hlt⟩
  icases Hc' with ⟨Hcr, Hct⟩
  ihave Hxt' := (Entails.of_eq (bigSep_univ_two _)) $$ Hxt
  ihave Hlt' := (Entails.of_eq (bigSep_univ_two _)) $$ Hlt
  ihave Hct' := (Entails.of_eq (bigSep_univ_two _)) $$ Hct
  icases Hxt' with ⟨Hx0, Hx1⟩
  icases Hlt' with ⟨Hl0, Hl1⟩
  icases Hct' with ⟨Hc0, Hc1⟩
  isplitl [Hxr Hlr Hcr]
  · isplitl [Hxr]; · iexact Hxr
    isplitl [Hlr]; · iexact Hlr
    iexact Hcr
  isplitl [Hx0 Hl0 Hc0 Ho0]
  · isplitl [Hx0]; · iexact Hx0
    isplitl [Hl0]; · iexact Hl0
    isplitl [Hc0]; · iexact Hc0
    iexact Ho0
  isplitl [Hx1]; · iexact Hx1
  isplitl [Hl1]; · iexact Hl1
  isplitl [Hc1]; · iexact Hc1
  iexact Ho1

theorem call_out (d : Dev nD) (O : Buf (Elt F) (oLoc d)) :
    iprop(callRest m d ∗ coreIn m d 0 O ∗ coreIn m d 1 O)
      ⊢ iprop((xLoc d ↦{fullShare} XT m d) ∗ (lLoc d ↦{fullShare} m (lLoc d)) ∗ (cLoc d ↦{fullShare} CTr m d) ∗ (oLoc d ↦{fullShare} O)) := by
  unfold coreIn callRest
  rw [oPts_cores d O, bigSep_univ_two]
  iintro ⟨⟨Hxr, Hlr, Hcr⟩, ⟨Hx0, Hl0, Hc0, Ho0⟩, Hx1, Hl1, Hc1, Ho1⟩
  isplitl [Hxr Hx0 Hx1]
  · iapply (Transfers.pointsTo_toks_join fullShare 2); isplitl [Hxr]; · iexact Hxr
    rw [bigSep_univ_two]; isplitl [Hx0]; · iexact Hx0
    iexact Hx1
  isplitl [Hlr Hl0 Hl1]
  · iapply (Transfers.pointsTo_toks_join fullShare 2); isplitl [Hlr]; · iexact Hlr
    rw [bigSep_univ_two]; isplitl [Hl0]; · iexact Hl0
    iexact Hl1
  isplitl [Hcr Hc0 Hc1]
  · iapply (Transfers.pointsTo_toks_join fullShare 2); isplitl [Hcr]; · iexact Hcr
    rw [bigSep_univ_two]; isplitl [Hc0]; · iexact Hc0
    iexact Hc1
  isplitl [Ho0]; · iexact Ho0
  iexact Ho1

/-- What the call takes for the two SparseCores, and what it hands back. -/
theorem st0_eq (d : Dev nD) :
    (bigSep Finset.univ fun c : Fin ((K (F := F)).nCore 0) => (P m).st 0 d c) = iprop(coreIn m d 0 (m (oLoc d)) ∗ coreIn m d 1 (m (oLoc d))) := by
  show (bigSep (Finset.univ : Finset (Fin 2)) fun c => coreIn m d (Fin.cast nCore_zero c) (m (oLoc d))) = _
  rw [bigSep_univ_two]; rfl
theorem dn0_eq (d : Dev nD) :
    (bigSep Finset.univ fun c : Fin ((K (F := F)).nCore 0) => (P m).dn 0 d c) = iprop(coreIn m d 0 (G m d) ∗ coreIn m d 1 (G m d)) := by
  show (bigSep (Finset.univ : Finset (Fin 2)) fun c => coreIn m d (Fin.cast nCore_zero c) (G m d)) = _
  rw [bigSep_univ_two]; rfl

/-- What @main leaves the claim: the scalar result at the sum of the table of partial sums, the three arguments at
    their launch contents. -/
abbrev FIN (d : Dev nD) : sProp 𝕄 :=
  iprop((rLoc d ↦{fullShare} RES m d) ∗ (a0Loc d ↦{fullShare} m (a0Loc d)) ∗ (lLoc d ↦{fullShare} m (lLoc d)) ∗ (a2Loc d ↦{fullShare} m (a2Loc d)))

/-- @main on device d's TensorCore: the two transpositions, the call (the three tables out as read shares and back,
    the table of partial sums out by rows and back at what the workers computed), the zero, the sum. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hl, Ha2, Hx, Hc, Ho, Hz, Hr⟩, -, -⟩, -⟩
  -- the first transposition
  iapply (wp_hlo_within 𝒱 (SparseCore.T d) none Set.univ (op := opTx) (S := {a0', x'}) (Finset.Subset.refl _) (V := V0 m d)) $$ [Hb Ha0 Hx]
  · isplitl [Hb]; · iexact Hb
    rw [held_two d a0' x' (by decide)]
    isplitl [Ha0]; · iexact Ha0
    iexact Hx
  iintro ⟨Hb, Hh⟩
  ihave Hh' := (Entails.of_eq (heldTx m d)) $$ Hh
  icases Hh' with ⟨Ha0, Hx⟩
  rw [wp_ret]; imodintro
  -- the second
  iapply (wp_hlo_within 𝒱 (SparseCore.T d) none Set.univ (op := opTc) (S := {a2', c'}) (Finset.Subset.refl _) (V := V0 m d)) $$ [Hb Ha2 Hc]
  · isplitl [Hb]; · iexact Hb
    rw [held_two d a2' c' (by decide)]
    isplitl [Ha2]; · iexact Ha2
    iexact Hc
  iintro ⟨Hb, Hh⟩
  ihave Hh' := (Entails.of_eq (heldTc m d)) $$ Hh
  icases Hh' with ⟨Ha2, Hc⟩
  rw [wp_ret]; imodintro
  -- the call
  ihave Hin := (call_in m d (m (oLoc d))) $$ [Hx Hl Hc Ho]
  · isplitl [Hx]; · iexact Hx
    isplitl [Hl]; · iexact Hl
    isplitl [Hc]; · iexact Hc
    iexact Ho
  icases Hin with ⟨Hrest, Hin⟩
  iapply ((K (F := F)).wp_run (D (F := F)) 𝒱 (EH := EH) (P := P m) κ d 0) $$ [Hst Hin Hrest Hb Ha0 Ha2 Hz Hr]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hout := (call_out m d (G m d)) $$ [Hrest Hdn']
  · isplitl [Hrest]; · iexact Hrest
    iexact Hdn'
  icases Hout with ⟨Hx, Hl, Hc, Ho⟩
  -- the zero
  iapply (wp_hlo_within 𝒱 (SparseCore.T d) none Set.univ (op := opZ) (S := {z'}) (Finset.Subset.refl _) (V := V0 m d)) $$ [Hb Hz]
  · isplitl [Hb]; · iexact Hb
    rw [held_one d z']; iexact Hz
  iintro ⟨Hb, Hh⟩
  ihave Hz := (Entails.of_eq (heldZ m d)) $$ Hh
  rw [wp_ret]; imodintro
  -- the sum
  iapply (wp_hlo_within 𝒱 (SparseCore.T d) none Set.univ (op := opR) (S := {o', z', r'}) (Finset.Subset.refl _) (V := V5 m d)) $$ [Hb Ho Hz Hr]
  · isplitl [Hb]; · iexact Hb
    rw [held_three d o' z' r' (by decide) (by decide) (by decide), V5_o, V5_z, V5_r]
    isplitl [Ho]; · iexact Ho
    isplitl [Hz]; · iexact Hz
    iexact Hr
  iintro ⟨Hb, Hh⟩
  ihave Hh' := (Entails.of_eq (heldR m d)) $$ Hh
  icases Hh' with ⟨-, -, Hr⟩
  rw [wp_ret]; imodintro; imodintro
  isplitl [Hst]; · iexact Hst
  isplitl [Hr]; · iexact Hr
  isplitl [Ha0]; · iexact Ha0
  isplitl [Hl]; · iexact Hl
  iexact Ha2

def fq (d : Dev nD) (s' : Phys nD τ sig (Elt F)) : Prop :=
  s'.mem.mem (rLoc d) = RES m d ∧ s'.mem.mem (a0Loc d) = m (a0Loc d) ∧ s'.mem.mem (lLoc d) = m (lLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr, Ha0, Hl, Ha2⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h2, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h3, HSI, -⟩
  ihave H := (SI_pointsTo_agree (st := s') (ℓ := a2Loc d) (I := Finset.univ) (q := fullShare) (f := m (a2Loc d))) $$ [HSI Ha2]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every weakly fair execution of the program's threads ends, nothing faulting, with the scalar result at the sum of
    the table of partial sums the workers compute and the three arguments unchanged, given each worker's task. -/
theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩
      (fun r => ∀ c : Dev nD,
        r.2.mem (rLoc c) = (Host.reduceAdd (G m c : FVec F S32x16 .f32) (constant S_ .f32 0x00000000#32) reducesTo_S32x16_S_d0_1 h_S_ : FVec F S_ .f32)
        ∧ r.2.mem (a0Loc c) = m (a0Loc c) ∧ r.2.mem (lLoc c) = m (lLoc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.KBGrp.lean ====
/-
  One group of a trip of the kernel's inner loops, read as the specification's function, and the loops' invariants.

  A group reads sixteen consecutive labels from the label scratch, the centre-row scratch at those labels, sixteen
  consecutive features from a chunk scratch, and adds the squares of the differences to a running vector. With the two
  offsets in closed form, and the labels known to name positions of the centre row, the value is grp of KBPay.
-/
import proofs.«204200_g67499706024535_cont_9to1c4b_715_37_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "rowS" => (Memref.whole Cert.Kernel.cc0_scratch0 : Memref Cert.Kernel.sig Kind.scVector Space.vmem Cert.Kernel.S100000 EltTy.f32)
local notation "labS" => (Memref.whole Cert.Kernel.cc0_scratch1 : Memref Cert.Kernel.sig Kind.scVector Space.vmem Cert.Kernel.S16384 EltTy.i32)
local notation "fb0" => (Memref.whole Cert.Kernel.cc0_scratch2 : Memref Cert.Kernel.sig Kind.scVector Space.vmem Cert.Kernel.S4096 EltTy.f32)
local notation "fb1" => (Memref.whole Cert.Kernel.cc0_scratch3 : Memref Cert.Kernel.sig Kind.scVector Space.vmem Cert.Kernel.S4096 EltTy.f32)

variable [FloatOps F]

/-! ## Reads at closed-form offsets -/

omit [FloatOps F] in
/-- Sixteen consecutive positions of a chunk: the window's position under lane x is oF + x. -/
theorem win4096 (offF : Fin 1 → Nat) (hF : ∀ a, offF a + S16.size a ≤ S4096.size a) (oF : Nat) (eF : offF 0 = oF)
    (x : (Rect.unit (s := S4096) offF S16.size hF).toLoadRect.shape.Idx) :
    ((Rect.unit (s := S4096) offF S16.size hF).toLoadRect.idx x : S4096.Idx) = fi (oF + (x 0).val) := by
  funext a
  match a with
  | ⟨0, _⟩ =>
    apply Fin.ext
    have h16 := hF 0
    have hx : (x 0).val < 16 := (x 0).isLt
    subst eF
    show offF 0 + 1 * (x 0).val = (offF 0 + (x 0).val) % 4096
    have e1 : S16.size 0 = 16 := rfl
    have e2 : S4096.size 0 = 4096 := rfl
    rw [e1, e2] at h16
    rw [Nat.mod_eq_of_lt (by omega)]; omega

omit [FloatOps F] in
/-- Sixteen consecutive positions of the label vector: the window's position under lane x is oL + x. -/
theorem win16384 (offL : Fin 1 → Nat) (hL : ∀ a, offL a + S16.size a ≤ S16384.size a) (oL : Nat) (eL : offL 0 = oL)
    (x : (Rect.unit (s := S16384) offL S16.size hL).toLoadRect.shape.Idx) :
    ((Rect.unit (s := S16384) offL S16.size hL).toLoadRect.idx x : S16384.Idx) = li (oL + (x 0).val) := by
  funext a
  match a with
  | ⟨0, _⟩ =>
    apply Fin.ext
    have h16 := hL 0
    have hx : (x 0).val < 16 := (x 0).isLt
    subst eL
    show offL 0 + 1 * (x 0).val = (offL 0 + (x 0).val) % 16384
    have e1 : S16.size 0 = 16 := rfl
    have e2 : S16384.size 0 = 16384 := rfl
    rw [e1, e2] at h16
    rw [Nat.mod_eq_of_lt (by omega)]; omega

omit [FloatOps F] in
/-- The features a group reads from the first chunk scratch. -/
theorem feat0_eq (fb : FVec F S4096 .f32) (offF : Fin 1 → Nat) (hF : ∀ a, offF a + S16.size a ≤ S4096.size a) (oF : Nat) (eF : offF 0 = oF) :
    (fb0).view.readAt (Elt F) (Rect.unit (s := S4096) offF S16.size hF).toLoadRect fb = fun x => fb (fi (oF + (x 0).val)) := by
  funext x
  simp only [View.readAt_apply, Memref.view_whole, View.read_whole]
  exact congrArg fb (win4096 offF hF oF eF x)

omit [FloatOps F] in
/-- The features a group reads from the second chunk scratch. -/
theorem feat1_eq (fb : FVec F S4096 .f32) (offF : Fin 1 → Nat) (hF : ∀ a, offF a + S16.size a ≤ S4096.size a) (oF : Nat) (eF : offF 0 = oF) :
    (fb1).view.readAt (Elt F) (Rect.unit (s := S4096) offF S16.size hF).toLoadRect fb = fun x => fb (fi (oF + (x 0).val)) := by
  funext x
  simp only [View.readAt_apply, Memref.view_whole, View.read_whole]
  exact congrArg fb (win4096 offF hF oF eF x)

omit [FloatOps F] in
/-- The centres a group reads: the centre-row scratch at the sixteen labels. -/
theorem cent_eq (row : FVec F S100000 .f32) (lab : IVec S16384 32) (offL : Fin 1 → Nat) (hL : ∀ a, offL a + S16.size a ≤ S16384.size a)
    (hh : ∀ a x, ((![(labS).view.readAt (Elt F) (Rect.unit (s := S16384) offL S16.size hL).toLoadRect lab] : Fin 1 → IVec S16 32) a x).toNat < S100000.size a)
    (oL : Nat) (eL : offL 0 = oL) :
    loadIdx ((rowS).view.readAt (Elt F) (LoadRect.whole S100000) row)
        (![(labS).view.readAt (Elt F) (Rect.unit (s := S16384) offL S16.size hL).toLoadRect lab] : Fin 1 → IVec S16 32) hh
      = fun x => row (ri (lab (li (oL + (x 0).val))).toNat) := by
  funext x
  have e0 : (rowS).view.readAt (Elt F) (LoadRect.whole S100000) row = row :=
    Memref.readAt_whole (Elt F) (Cert.Kernel.cc0_scratch0 : Ref Cert.Kernel.sig Kind.scVector) row
  rw [e0]
  unfold loadIdx
  refine congrArg row ?_
  funext a
  match a with
  | ⟨0, _⟩ =>
    apply Fin.ext
    have hx := hh 0 x
    have e : ((labS).view.readAt (Elt F) (Rect.unit (s := S16384) offL S16.size hL).toLoadRect lab x) = lab (li (oL + (x 0).val)) := by
      simp only [View.readAt_apply, Memref.view_whole, View.read_whole]
      exact congrArg lab (win16384 offL hL oL eL x)
    show ((labS).view.readAt (Elt F) (Rect.unit (s := S16384) offL S16.size hL).toLoadRect lab x).toNat = (lab (li (oL + (x 0).val))).toNat % 100000
    have hx' : ((labS).view.readAt (Elt F) (Rect.unit (s := S16384) offL S16.size hL).toLoadRect lab x).toNat < 100000 := hx
    rw [e] at hx' ⊢
    exact (Nat.mod_eq_of_lt hx').symm

/-- One group through the first chunk scratch. -/
theorem grp0_eq (row : FVec F S100000 .f32) (lab : IVec S16384 32) (fb : FVec F S4096 .f32)
    (offL : Fin 1 → Nat) (hL : ∀ a, offL a + S16.size a ≤ S16384.size a) (offF : Fin 1 → Nat) (hF : ∀ a, offF a + S16.size a ≤ S4096.size a)
    (hh : ∀ a x, ((![(labS).view.readAt (Elt F) (Rect.unit (s := S16384) offL S16.size hL).toLoadRect lab] : Fin 1 → IVec S16 32) a x).toNat < S100000.size a)
    (oL oF : Nat) (eL : offL 0 = oL) (eF : offF 0 = oF) (a : FVec F S16 .f32) :
    addf a (mulf
        (subf ((fb0).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh))
        (subf ((fb0).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh)))
      = grp row lab fb oL oF a := by
  rw [cent_eq row lab offL hL hh oL eL, feat0_eq fb offF hF oF eF]; rfl

/-- One group through the second chunk scratch. -/
theorem grp1_eq (row : FVec F S100000 .f32) (lab : IVec S16384 32) (fb : FVec F S4096 .f32)
    (offL : Fin 1 → Nat) (hL : ∀ a, offL a + S16.size a ≤ S16384.size a) (offF : Fin 1 → Nat) (hF : ∀ a, offF a + S16.size a ≤ S4096.size a)
    (hh : ∀ a x, ((![(labS).view.readAt (Elt F) (Rect.unit (s := S16384) offL S16.size hL).toLoadRect lab] : Fin 1 → IVec S16 32) a x).toNat < S100000.size a)
    (oL oF : Nat) (eL : offL 0 = oL) (eF : offF 0 = oF) (a : FVec F S16 .f32) :
    addf a (mulf
        (subf ((fb1).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh))
        (subf ((fb1).view.readAt (Elt F) (Rect.unit (s := S4096) offF S16.size hF).toLoadRect fb)
          (loadIdx ((rowS).view.readAt (Elt F) (LoadRect.whole S100000) row)
            (![(labS).view.readAt (Elt F) (Rect.unit (s := S16384) offL S16.size hL).toLoadRect lab] : Fin 1 → IVec S16 32) hh)))
      = grp row lab fb oL oF a := by
  rw [cent_eq row lab offL hL hh oL eL, feat1_eq fb offF hF oF eF]; rfl

/-- A printed offset chain, given in closed form, is the specification's offset. -/
macro "off_eq " e:term : tactic => `(tactic| (rw [$e:term]; all_goals (first | rfl | (simp only [Matrix.cons_val_zero]; omega))))

/-! ## The inner loops' invariants -/

section Inv

variable (d : Dev nD) (L : grid0.Coords)

abbrev thr : Thread nD τ := V d (cV L) (jV L)

omit [FloatOps F] in
theorem pts_s0 (f : Buf (Elt F) ((thr d L).loc cc0_scratch0)) : ((rowS).view.loc (thr d L) ↦{fullShare} f : sProp 𝕄) = ((thr d L).loc cc0_scratch0 ↦{fullShare} f) := rfl
omit [FloatOps F] in
theorem pts_s1 (f : Buf (Elt F) ((thr d L).loc cc0_scratch1)) : ((labS).view.loc (thr d L) ↦{fullShare} f : sProp 𝕄) = ((thr d L).loc cc0_scratch1 ↦{fullShare} f) := rfl
omit [FloatOps F] in
theorem pts_s2 (f : Buf (Elt F) ((thr d L).loc cc0_scratch2)) : ((fb0).view.loc (thr d L) ↦{fullShare} f : sProp 𝕄) = ((thr d L).loc cc0_scratch2 ↦{fullShare} f) := rfl
omit [FloatOps F] in
theorem pts_s3 (f : Buf (Elt F) ((thr d L).loc cc0_scratch3)) : ((fb1).view.loc (thr d L) ↦{fullShare} f : sProp 𝕄) = ((thr d L).loc cc0_scratch3 ↦{fullShare} f) := rfl

/-- Before trip k of a loop over chunk h through the first chunk scratch: the running vectors are the first k trips'
    from A0, and the three scratches hold the centre row, the labels and the chunk. -/
def inv0 (row : Buf (Elt F) ((thr d L).loc cc0_scratch0)) (lab : Buf (Elt F) ((thr d L).loc cc0_scratch1)) (fb : Buf (Elt F) ((thr d L).loc cc0_scratch2))
    (h : Nat) (A0 : A4 F) (k : Nat) (acc : A4 F) : sProp 𝕄 :=
  iprop(⌜acc = chunk row lab fb h k A0⌝ ∗ ((thr d L).loc cc0_scratch0 ↦{fullShare} row) ∗ ((thr d L).loc cc0_scratch1 ↦{fullShare} lab)
    ∗ ((thr d L).loc cc0_scratch2 ↦{fullShare} fb))

/-- The same through the second chunk scratch. -/
def inv1 (row : Buf (Elt F) ((thr d L).loc cc0_scratch0)) (lab : Buf (Elt F) ((thr d L).loc cc0_scratch1)) (fb : Buf (Elt F) ((thr d L).loc cc0_scratch3))
    (h : Nat) (A0 : A4 F) (k : Nat) (acc : A4 F) : sProp 𝕄 :=
  iprop(⌜acc = chunk row lab fb h k A0⌝ ∗ ((thr d L).loc cc0_scratch0 ↦{fullShare} row) ∗ ((thr d L).loc cc0_scratch1 ↦{fullShare} lab)
    ∗ ((thr d L).loc cc0_scratch3 ↦{fullShare} fb))

end Inv

end Cert.Proof.KB

end
-- ==== Proof.KBTrips.lean ====
/-
  One trip of each of the kernel's eight inner loops, from the loop's invariant before trip k to the invariant before
  trip k + 1: the trip's eight groups are read by the group lemmas at the closed forms of their offset chains, and the
  running vectors after the trip are the specification's trip applied to the running vectors before it.
-/
import proofs.«204200_g67499706024535_cont_9to1c4b_715_37_alg».proof.Proof.KBGrp

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S64x16384 EltTy.f32)
local notation "lW" => (Memref.whole Cert.Kernel.main_arg1_scv : Memref Cert.Kernel.sig Kind.scVector Space.hbm Cert.Kernel.S16384 EltTy.i32)
local notation "cW" => (Memref.whole Cert.Kernel.main_v1_scv : Memref Cert.Kernel.sig Kind.scVector Space.hbm Cert.Kernel.S64x100000 EltTy.f32)
local notation "oW" => (Memref.whole Cert.Kernel.main_v2_scv : Memref Cert.Kernel.sig Kind.scVector Space.hbm Cert.Kernel.S32x16 EltTy.f32)
local notation "rowS" => (Memref.whole Cert.Kernel.cc0_scratch0 : Memref Cert.Kernel.sig Kind.scVector Space.vmem Cert.Kernel.S100000 EltTy.f32)
local notation "labS" => (Memref.whole Cert.Kernel.cc0_scratch1 : Memref Cert.Kernel.sig Kind.scVector Space.vmem Cert.Kernel.S16384 EltTy.i32)
local notation "fb0" => (Memref.whole Cert.Kernel.cc0_scratch2 : Memref Cert.Kernel.sig Kind.scVector Space.vmem Cert.Kernel.S4096 EltTy.f32)
local notation "fb1" => (Memref.whole Cert.Kernel.cc0_scratch3 : Memref Cert.Kernel.sig Kind.scVector Space.vmem Cert.Kernel.S4096 EltTy.f32)
local notation "accS" => (Memref.whole Cert.Kernel.cc0_scratch4 : Memref Cert.Kernel.sig Kind.scVector Space.vmem Cert.Kernel.S16 EltTy.f32)

variable [FloatOps F]

section Trips

variable (d : Dev nD) (L : grid0.Coords)

/-- One trip of inner loop 1 (chunk 0, through chunk scratch 0). -/
theorem trip1 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
     (k : Fin k0_t1_loop.trips) (acc : A4 F) :
    inv0 d L row lab fb 0 A0 k.val acc
      ⊢ wp frame (wpE (defs₀ (F := F)) 𝒱₀ (thr d L) none) Set.univ
          (k0_t1_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv0 d L row lab fb 0 A0 (k.val + 1)) := by
  obtain ⟨a0, a1, a2, a3⟩ := acc
  unfold k0_t1_body
  simp only [k0_part1_eq_skeleton]; unfold k0_part1_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 0 k.val (chunk row lab fb 0 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off12_eq k)) (by off_eq (k0_off13_eq k)) _).trans
        (congrArg (grp row lab fb _ _) (grp0_eq row lab fb _ _ _ _ _ _ _ (by off_eq (k0_off4_eq k)) (by off_eq (k0_off5_eq k)) a0))
    · exact (grp0_eq row lab fb _ _ _ _ _ _ _ (by off_eq (k0_off14_eq k)) (by off_eq (k0_off15_eq k)) _).trans
        (congrArg (grp row lab fb _ _) (grp0_eq row lab fb _ _ _ _ _ _ _ (by off_eq (k0_off6_eq k)) (by off_eq (k0_off7_eq k)) a1))
    · exact (grp0_eq row lab fb _ _ _ _ _ _ _ (by off_eq (k0_off16_eq k)) (by off_eq (k0_off17_eq k)) _).trans
        (congrArg (grp row lab fb _ _) (grp0_eq row lab fb _ _ _ _ _ _ _ (by off_eq (k0_off8_eq k)) (by off_eq (k0_off9_eq k)) a2))
    · exact (grp0_eq row lab fb _ _ _ _ _ _ _ (by off_eq (k0_off18_eq k)) (by off_eq (k0_off19_eq k)) _).trans
        (congrArg (grp row lab fb _ _) (grp0_eq row lab fb _ _ _ _ _ _ _ (by off_eq (k0_off10_eq k)) (by off_eq (k0_off11_eq k)) a3))
  isplitl [Hrow]; · iexact Hrow
  isplitl [Hlab]; · iexact Hlab
  iexact Hfb

/-- One trip of inner loop 2 (chunk 1, through chunk scratch 1). -/
theorem trip2 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t2_loop.trips) (acc : A4 F) :
    inv1 d L row lab fb 1 A0 k.val acc
      ⊢ wp frame (wpE (defs₀ (F := F)) 𝒱₀ (thr d L) none) Set.univ
          (k0_t2_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv1 d L row lab fb 1 A0 (k.val + 1)) := by
  obtain ⟨a0, a1, a2, a3⟩ := acc
  unfold k0_t2_body
  simp only [k0_part2_eq_skeleton]; unfold k0_part2_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 1 k.val (chunk row lab fb 1 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off29_eq k)) (by off_eq (k0_off30_eq k)) _).trans
        (congrArg (grp row lab fb _ _) (grp1_eq row lab fb _ _ _ _ _ _ _ (by off_eq (k0_off21_eq k)) (by off_eq (k0_off22_eq k)) a0))
    · exact (grp1_eq row lab fb _ _ _ _ _ _ _ (by off_eq (k0_off31_eq k)) (by off_eq (k0_off32_eq k)) _).trans
        (congrArg (grp row lab fb _ _) (grp1_eq row lab fb _ _ _ _ _ _ _ (by off_eq (k0_off23_eq k)) (by off_eq (k0_off24_eq k)) a1))
    · exact (grp1_eq row lab fb _ _ _ _ _ _ _ (by off_eq (k0_off33_eq k)) (by off_eq (k0_off34_eq k)) _).trans
        (congrArg (grp row lab fb _ _) (grp1_eq row lab fb _ _ _ _ _ _ _ (by off_eq (k0_off25_eq k)) (by off_eq (k0_off26_eq k)) a2))
    · exact (grp1_eq row lab fb _ _ _ _ _ _ _ (by off_eq (k0_off35_eq k)) (by off_eq (k0_off36_eq k)) _).trans
        (congrArg (grp row lab fb _ _) (grp1_eq row lab fb _ _ _ _ _ _ _ (by off_eq (k0_off27_eq k)) (by off_eq (k0_off28_eq k)) a3))
  isplitl [Hrow]; · iexact Hrow
  isplitl [Hlab]; · iexact Hlab
  iexact Hfb

/-- One trip of inner loop 3 (chunk 2, through chunk scratch 0). -/
theorem trip3 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t3_loop.trips) (acc : A4 F) :
    inv0 d L row lab fb 2 A0 k.val acc
      ⊢ wp frame (wpE (defs₀ (F := F)) 𝒱₀ (thr d L) none) Set.univ
          (k0_t3_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv0 d L row lab fb 2 A0 (k.val + 1)) := by
  obtain ⟨a0, a1, a2, a3⟩ := acc
  unfold k0_t3_body
  simp only [k0_part3_eq_skeleton]; unfold k0_part3_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 2 k.val (chunk row lab fb 2 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off46_eq k)) (by off_eq (k0_off47_eq k)) _).trans
        (congrArg (grp row lab fb _ _) (grp0_eq row lab fb _ _ _ _ _ _ _ (by off_eq (k0_off38_eq k)) (by off_eq (k0_off39_eq k)) a0))
    · exact (grp0_eq row lab fb _ _ _ _ _ _ _ (by off_eq (k0_off48_eq k)) (by off_eq (k0_off49_eq k)) _).trans
        (congrArg (grp row lab fb _ _) (grp0_eq row lab fb _ _ _ _ _ _ _ (by off_eq (k0_off40_eq k)) (by off_eq (k0_off41_eq k)) a1))
    · exact (grp0_eq row lab fb _ _ _ _ _ _ _ (by off_eq (k0_off50_eq k)) (by off_eq (k0_off51_eq k)) _).trans
        (congrArg (grp row lab fb _ _) (grp0_eq row lab fb _ _ _ _ _ _ _ (by off_eq (k0_off42_eq k)) (by off_eq (k0_off43_eq k)) a2))
    · exact (grp0_eq row lab fb _ _ _ _ _ _ _ (by off_eq (k0_off52_eq k)) (by off_eq (k0_off53_eq k)) _).trans
        (congrArg (grp row lab fb _ _) (grp0_eq row lab fb _ _ _ _ _ _ _ (by off_eq (k0_off44_eq k)) (by off_eq (k0_off45_eq k)) a3))
  isplitl [Hrow]; · iexact Hrow
  isplitl [Hlab]; · iexact Hlab
  iexact Hfb

/-- One trip of inner loop 4 (chunk 3, through chunk scratch 1). -/
theorem trip4 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v27_0 : FVec F S16 .f32) (v27_1 : FVec F S16 .f32) (v27_2 : FVec F S16 .f32) (v27_3 : FVec F S16 .f32) (k : Fin k0_t4_loop.trips) (acc : A4 F) :
    inv1 d L row lab fb 3 A0 k.val acc
      ⊢ wp frame (wpE (defs₀ (F := F)) 𝒱₀ (thr d L) none) Set.univ
          (k0_t4_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v27_0 v27_1 v27_2 v27_3 k acc)
          (inv1 d L row lab fb 3 A0 (k.val + 1)) := by
  obtain ⟨a0, a1, a2, a3⟩ := acc
  unfold k0_t4_body
  simp only [k0_part4_eq_skeleton]; unfold k0_part4_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 3 k.val (chunk row lab fb 3 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off62_eq k)) (by off_eq (k0_off63_eq k)) _).trans
        (congrArg (grp row lab fb _ _) (grp1_eq row lab fb _ _ _ _ _ _ _ (by off_eq (k0_off54_eq k)) (by off_eq (k0_off55_eq k)) a0))
    · exact (grp1_eq row lab fb _ _ _ _ _ _ _ (by off_eq (k0_off64_eq k)) (by off_eq (k0_off65_eq k)) _).trans
        (congrArg (grp row lab fb _ _) (grp1_eq row lab fb _ _ _ _ _ _ _ (by off_eq (k0_off56_eq k)) (by off_eq (k0_off57_eq k)) a1))
    · exact (grp1_eq row lab fb _ _ _ _ _ _ _ (by off_eq (k0_off66_eq k)) (by off_eq (k0_off67_eq k)) _).trans
        (congrArg (grp row lab fb _ _) (grp1_eq row lab fb _ _ _ _ _ _ _ (by off_eq (k0_off58_eq k)) (by off_eq (k0_off59_eq k)) a2))
    · exact (grp1_eq row lab fb _ _ _ _ _ _ _ (by off_eq (k0_off68_eq k)) (by off_eq (k0_off69_eq k)) _).trans
        (congrArg (grp row lab fb _ _) (grp1_eq row lab fb _ _ _ _ _ _ _ (by off_eq (k0_off60_eq k)) (by off_eq (k0_off61_eq k)) a3))
  isplitl [Hrow]; · iexact Hrow
  isplitl [Hlab]; · iexact Hlab
  iexact Hfb

/-- One trip of inner loop 5 (chunk 0, through chunk scratch 0). -/
theorem trip5 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
    (v1 : BitVec 32) (v53_0 : FVec F S16 .f32) (v53_1 : FVec F S16 .f32) (v53_2 : FVec F S16 .f32) (v53_3 : FVec F S16 .f32) (k : Fin k0_t5_loop.trips) (acc : A4 F) :
    inv0 d L row lab fb 0 A0 k.val acc
      ⊢ wp frame (wpE (defs₀ (F := F)) 𝒱₀ (thr d L) none) Set.univ
          (k0_t5_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v53_0 v53_1 v53_2 v53_3 k acc)
          (inv0 d L row lab fb 0 A0 (k.val + 1)) := by
  obtain ⟨a0, a1, a2, a3⟩ := acc
  unfold k0_t5_body
  simp only [k0_part5_eq_skeleton]; unfold k0_part5_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 0 k.val (chunk row lab fb 0 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off79_eq k)) (by off_eq (k0_off80_eq k)) _).trans
        (congrArg (grp row lab fb _ _) (grp0_eq row lab fb _ _ _ _ _ _ _ (by off_eq (k0_off71_eq k)) (by off_eq (k0_off72_eq k)) a0))
    · exact (grp0_eq row lab fb _ _ _ _ _ _ _ (by off_eq (k0_off81_eq k)) (by off_eq (k0_off82_eq k)) _).trans
        (congrArg (grp row lab fb _ _) (grp0_eq row lab fb _ _ _ _ _ _ _ (by off_eq (k0_off73_eq k)) (by off_eq (k0_off74_eq k)) a1))
    · exact (grp0_eq row lab fb _ _ _ _ _ _ _ (by off_eq (k0_off83_eq k)) (by off_eq (k0_off84_eq k)) _).trans
        (congrArg (grp row lab fb _ _) (grp0_eq row lab fb _ _ _ _ _ _ _ (by off_eq (k0_off75_eq k)) (by off_eq (k0_off76_eq k)) a2))
    · exact (grp0_eq row lab fb _ _ _ _ _ _ _ (by off_eq (k0_off85_eq k)) (by off_eq (k0_off86_eq k)) _).trans
        (congrArg (grp row lab fb _ _) (grp0_eq row lab fb _ _ _ _ _ _ _ (by off_eq (k0_off77_eq k)) (by off_eq (k0_off78_eq k)) a3))
  isplitl [Hrow]; · iexact Hrow
  isplitl [Hlab]; · iexact Hlab
  iexact Hfb

/-- One trip of inner loop 6 (chunk 1, through chunk scratch 1). -/
theorem trip6 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
    (v1 : BitVec 32) (v53_0 : FVec F S16 .f32) (v53_1 : FVec F S16 .f32) (v53_2 : FVec F S16 .f32) (v53_3 : FVec F S16 .f32) (k : Fin k0_t6_loop.trips) (acc : A4 F) :
    inv1 d L row lab fb 1 A0 k.val acc
      ⊢ wp frame (wpE (defs₀ (F := F)) 𝒱₀ (thr d L) none) Set.univ
          (k0_t6_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1 v1 v53_0 v53_1 v53_2 v53_3 k acc)
          (inv1 d L row lab fb 1 A0 (k.val + 1)) := by
  obtain ⟨a0, a1, a2, a3⟩ := acc
  unfold k0_t6_body
  simp only [k0_part6_eq_skeleton]; unfold k0_part6_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 1 k.val (chunk row lab fb 1 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off95_eq k)) (by off_eq (k0_off96_eq k)) _).trans
        (congrArg (grp row lab fb _ _) (grp1_eq row lab fb _ _ _ _ _ _ _ (by off_eq (k0_off87_eq k)) (by off_eq (k0_off88_eq k)) a0))
    · exact (grp1_eq row lab fb _ _ _ _ _ _ _ (by off_eq (k0_off97_eq k)) (by off_eq (k0_off98_eq k)) _).trans
        (congrArg (grp row lab fb _ _) (grp1_eq row lab fb _ _ _ _ _ _ _ (by off_eq (k0_off89_eq k)) (by off_eq (k0_off90_eq k)) a1))
    · exact (grp1_eq row lab fb _ _ _ _ _ _ _ (by off_eq (k0_off99_eq k)) (by off_eq (k0_off100_eq k)) _).trans
        (congrArg (grp row lab fb _ _) (grp1_eq row lab fb _ _ _ _ _ _ _ (by off_eq (k0_off91_eq k)) (by off_eq (k0_off92_eq k)) a2))
    · exact (grp1_eq row lab fb _ _ _ _ _ _ _ (by off_eq (k0_off101_eq k)) (by off_eq (k0_off102_eq k)) _).trans
        (congrArg (grp row lab fb _ _) (grp1_eq row lab fb _ _ _ _ _ _ _ (by off_eq (k0_off93_eq k)) (by off_eq (k0_off94_eq k)) a3))
  isplitl [Hrow]; · iexact Hrow
  isplitl [Hlab]; · iexact Hlab
  iexact Hfb

/-- One trip of inner loop 7 (chunk 2, through chunk scratch 0). -/
theorem trip7 (row : Buf (Elt F) ((thr d L).loc cc0_scratch0)) (lab : Buf (Elt F) ((thr d L).loc cc0_scratch1))
    (fb : Buf (Elt F) ((thr d L).loc cc0_scratch2)) (hlab : ∀ i, (lab i).toNat < 100000) (A0 : A4 F)
     (k : Fin k0_t7_loop.trips) (acc : A4 F) :
    inv0 d L row lab fb 2 A0 k.val acc
      ⊢ wp frame (wpE (defs₀ (F := F)) 𝒱₀ (thr d L) none) Set.univ
          (k0_t7_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv0 d L row lab fb 2 A0 (k.val + 1)) := by
  obtain ⟨a0, a1, a2, a3⟩ := acc
  unfold k0_t7_body
  simp only [k0_part7_eq_skeleton]; unfold k0_part7_skel
  simp only [SparseCore.vectorLoadIdx_bind (c := thr d L)]
  unfold inv0
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s2 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s2 (F := F) d L _)) $$ Hfb'
  isplitr
  · ipureintro
    show _ = trip row lab fb 2 k.val (chunk row lab fb 2 k.val A0)
    rw [← hacc]
    unfold trip
    dsimp only
    refine congrArg₂ Prod.mk ?_ (congrArg₂ Prod.mk ?_ (congrArg₂ Prod.mk ?_ ?_))
    · exact (grp0_eq row lab fb _ _ _ _ _ _ _ (by off_eq (k0_off111_eq k)) (by off_eq (k0_off112_eq k)) _).trans
        (congrArg (grp row lab fb _ _) (grp0_eq row lab fb _ _ _ _ _ _ _ (by off_eq (k0_off103_eq k)) (by off_eq (k0_off104_eq k)) a0))
    · exact (grp0_eq row lab fb _ _ _ _ _ _ _ (by off_eq (k0_off113_eq k)) (by off_eq (k0_off114_eq k)) _).trans
        (congrArg (grp row lab fb _ _) (grp0_eq row lab fb _ _ _ _ _ _ _ (by off_eq (k0_off105_eq k)) (by off_eq (k0_off106_eq k)) a1))
    · exact (grp0_eq row lab fb _ _ _ _ _ _ _ (by off_eq (k0_off115_eq k)) (by off_eq (k0_off116_eq k)) _).trans
        (congrArg (grp row lab fb _ _) (grp0_eq row lab fb _ _ _ _ _ _ _ (by off_eq (k0_off107_eq k)) (by off_eq (k0_off108_eq k)) a2))
    · exact (grp0_eq row lab fb _ _ _ _ _ _ _ (by off_eq (k0_off117_eq k)) (by off_eq (k0_off118_eq k)) _).trans
        (congrArg (grp row lab fb _ _) (grp0_eq row lab fb _ _ _ _ _ _ _ (by off_eq (k0_off109_eq k)) (by off_eq (k0_off110_eq k)) a3))
  isplitl [Hrow]; · iexact Hrow
  isplitl [Hlab]; · iexact Hlab
  iexact Hfb

/-- One trip of inner loop 8 (chunk 3, through chunk scratch 1). -/
theorem trip8 (row : Buf (Elt F) ((thr d L).loc cc0_scratch0)) (lab : Buf (Elt F) ((thr d L).loc cc0_scratch1))
    (fb : Buf (Elt F) ((thr d L).loc cc0_scratch3)) (hlab : ∀ i, (lab i).toNat < 100000) (A0 : A4 F)
     (k : Fin k0_t8_loop.trips) (acc : A4 F) :
    inv1 d L row lab fb 3 A0 k.val acc
      ⊢ wp frame (wpE (defs₀ (F := F)) 𝒱₀ (thr d L) none) Set.univ
          (k0_t8_body L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1  k acc)
          (inv1 d L row lab fb 3 A0 (k.val + 1)) := by
  obtain ⟨a0, a1, a2, a3⟩ := acc
  unfold k0_t8_body
  simp only [k0_part8_eq_skeleton]; unfold k0_part8_skel
  simp only [SparseCore.vectorLoadIdx_bind (c := thr d L)]
  unfold inv1
  iintro ⟨%hacc, Hrow, Hlab, Hfb⟩
  ihave Hrow' := (Entails.of_eq (pts_s0 (F := F) d L _).symm) $$ Hrow
  ihave Hlab' := (Entails.of_eq (pts_s1 (F := F) d L _).symm) $$ Hlab
  ihave Hfb' := (Entails.of_eq (pts_s3 (F := F) d L _).symm) $$ Hfb
  sl_exec (disch := (intro a x; obtain rfl : a = 0 := Subsingleton.elim _ _; simp only [View.readAt_apply, Memref.view_whole, View.read_whole]; exact hlab _))
  sl_step
  ihave Hrow := (Entails.of_eq (pts_s0 (F := F) d L _)) $$ Hrow'
  ihave Hlab := (Entails.of_eq (pts_s1 (F := F) d L _)) $$ Hlab'
  ihave Hfb := (Entails.of_eq (pts_s3 (F := F) d L _)) $$ Hfb'
  isplitr
  · ipureintro
    show _ = trip row lab fb 3 k.val (chunk row lab fb 3 k.val A0)
    rw [← hacc]
    unfold trip
    dsimp only
    refine congrArg₂ Prod.mk ?_ (congrArg₂ Prod.mk ?_ (congrArg₂ Prod.mk ?_ ?_))
    · exact (grp1_eq row lab fb _ _ _ _ _ _ _ (by off_eq (k0_off127_eq k)) (by off_eq (k0_off128_eq k)) _).trans
        (congrArg (grp row lab fb _ _) (grp1_eq row lab fb _ _ _ _ _ _ _ (by off_eq (k0_off119_eq k)) (by off_eq (k0_off120_eq k)) a0))
    · exact (grp1_eq row lab fb _ _ _ _ _ _ _ (by off_eq (k0_off129_eq k)) (by off_eq (k0_off130_eq k)) _).trans
        (congrArg (grp row lab fb _ _) (grp1_eq row lab fb _ _ _ _ _ _ _ (by off_eq (k0_off121_eq k)) (by off_eq (k0_off122_eq k)) a1))
    · exact (grp1_eq row lab fb _ _ _ _ _ _ _ (by off_eq (k0_off131_eq k)) (by off_eq (k0_off132_eq k)) _).trans
        (congrArg (grp row lab fb _ _) (grp1_eq row lab fb _ _ _ _ _ _ _ (by off_eq (k0_off123_eq k)) (by off_eq (k0_off124_eq k)) a2))
    · exact (grp1_eq row lab fb _ _ _ _ _ _ _ (by off_eq (k0_off133_eq k)) (by off_eq (k0_off134_eq k)) _).trans
        (congrArg (grp row lab fb _ _) (grp1_eq row lab fb _ _ _ _ _ _ _ (by off_eq (k0_off125_eq k)) (by off_eq (k0_off126_eq k)) a3))
  isplitl [Hrow]; · iexact Hrow
  isplitl [Hlab]; · iexact Hlab
  iexact Hfb

end Trips

end Cert.Proof.KB

end
-- ==== Proof.KBLands.lean ====
/-
  What the kernel's one-row copies read and write, as equations between indices.

  Each copy goes through a window onto a rank-2 array that is one row wide: the rectangle of sizes [1, n] at
  offsets [f, c0], with the leading axis of size one then dropped, so that the window is indexed by a single
  coordinate j below n. Dropping a leading axis of size one matches j with the pair (0, j), and the rectangle places
  (0, j) at (f + 0, c0 + j). So reading through the window gives, at j, the array's element (f, c0 + j): a whole row
  of the centre table when c0 = 0 and n is the row length, and a quarter of a row of the feature table when
  c0 = 4096 c and n = 4096. Writing a whole payload through the window onto a row w of the table of partial sums
  leaves, at each element the window covers, the payload at that element's column, and every such element lies in
  row w.
-/
import proofs.«204200_g67499706024535_cont_9to1c4b_715_37_alg».proof.Proof.KBPay

-- a bound the statement carries for its caller need not be used by the proof

noncomputable section

namespace Cert.Proof.KB

open Cert.Kernel Cert.Kernel.Gen

open Idealize.ShloMosaic

variable {F : FTy → Type}

local notation "xW" => (Memref.whole Cert.Kernel.main_v0_scv : Memref Cert.Kernel.sig Kind.scVector Space.hbm Cert.Kernel.S64x16384 EltTy.f32)
local notation "cW" => (Memref.whole Cert.Kernel.main_v1_scv : Memref Cert.Kernel.sig Kind.scVector Space.hbm Cert.Kernel.S64x100000 EltTy.f32)
local notation "oW" => (Memref.whole Cert.Kernel.main_v2_scv : Memref Cert.Kernel.sig Kind.scVector Space.hbm Cert.Kernel.S32x16 EltTy.f32)

/-! ## One row of a rank-2 shape, indexed by its column -/

/-- The rectangle of sizes [1, n] at offsets off, read through the matching of a single coordinate j with the pair
    (0, j): on the row axis it sits at off 0, on the column axis at off 1 + j. -/
theorem unit_row_emb {R K n : Nat} (off : Fin 2 → Nat)
    (h : ∀ a, off a + (⟨2, ![1, n]⟩ : Shape).size a ≤ (⟨2, ![R, K]⟩ : Shape).size a)
    (hn : (⟨1, ![n]⟩ : Shape).numel = (⟨2, ![1, n]⟩ : Shape).numel) (j : (⟨1, ![n]⟩ : Shape).Idx) :
    ((Rect.unit (s := ⟨2, ![R, K]⟩) off (⟨2, ![1, n]⟩ : Shape).size h).emb (Shape.reshapeEquiv hn j) 0).val = off 0
    ∧ ((Rect.unit (s := ⟨2, ![R, K]⟩) off (⟨2, ![1, n]⟩ : Shape).size h).emb (Shape.reshapeEquiv hn j) 1).val
        = off 1 + (j 0).val := by
  have hc : Shape.reshapeEquiv hn j = Fin.cons ⟨0, Nat.one_pos⟩ j := Shape.reshapeEquiv_cons_one (n := 1) (d := ![n]) hn j
  rw [hc]
  constructor
  · rw [Rect.emb_apply]
    show off 0 + 1 * 0 = off 0
    omega
  · rw [Rect.emb_apply]
    show off 1 + 1 * (j 0).val = off 1 + (j 0).val
    omega

/-! ## A row of the centre table -/

abbrev rowM (off : Fin 2 → Nat) (h : ∀ a, off a + S1x100000.size a ≤ S64x100000.size a) : Memref sig .scVector .hbm S100000 .f32 :=
  ((cW).slice (Rect.unit (s := S64x100000) off S1x100000.size h) (fun _ => rfl)).squeeze S100000 squeezes_S1x100000_S100000

/-- Reading the centre table through the window on row f gives row f. -/
theorem row_read (C : FVec F S64x100000 .f32) (off : Fin 2 → Nat) (h) (f : Nat) (hf : f < 64) (e : off = ![f, 0]) :
    (rowM off h).view.read (Elt F) C = rowOf C f := by
  subst e
  funext j
  refine (View.read_apply _ _).trans ((cast_eq _ _).trans ?_)
  obtain ⟨h0, h1⟩ := unit_row_emb (R := 64) (K := 100000) (n := 100000) ![f, 0] h squeezes_S1x100000_S100000.numel_eq j
  show C _ = C _
  congr 1
  funext a
  apply Fin.ext
  match a with
  | ⟨0, _⟩ => exact h0.trans (Nat.mod_eq_of_lt hf).symm
  | ⟨1, _⟩ => exact h1.trans (Nat.zero_add _)

/-! ## A quarter of a row of the feature table -/

abbrev chM (off : Fin 2 → Nat) (h : ∀ a, off a + S1x4096.size a ≤ S64x16384.size a) : Memref sig .scVector .hbm S4096 .f32 :=
  ((xW).slice (Rect.unit (s := S64x16384) off S1x4096.size h) (fun _ => rfl)).squeeze S4096 squeezes_S1x4096_S4096

/-- Reading the feature table through the window on columns 4096 c … 4096 c + 4095 of row f gives chunk c of row f:
    the column 4096 c + j is below 16384 for c below 4 and j below 4096. -/
theorem chunk_read (X : FVec F S64x16384 .f32) (off : Fin 2 → Nat) (h) (f c : Nat) (hf : f < 64) (hc : c < 4)
    (e : off = ![f, 4096 * c]) :
    (chM off h).view.read (Elt F) X = chunkOf X f c := by
  subst e
  funext j
  refine (View.read_apply _ _).trans ((cast_eq _ _).trans ?_)
  obtain ⟨h0, h1⟩ := unit_row_emb (R := 64) (K := 16384) (n := 4096) ![f, 4096 * c] h squeezes_S1x4096_S4096.numel_eq j
  have hj : (j 0).val < 4096 := (j 0).isLt
  show X _ = X _
  congr 1
  funext a
  apply Fin.ext
  match a with
  | ⟨0, _⟩ => exact h0.trans (Nat.mod_eq_of_lt hf).symm
  | ⟨1, _⟩ => exact h1.trans (Nat.mod_eq_of_lt (show 4096 * c + (j 0).val < 16384 by omega)).symm

/-! ## A row of the table of partial sums -/

abbrev outM (off : Fin 2 → Nat) (h : ∀ a, off a + S1x16.size a ≤ S32x16.size a) : Memref sig .scVector .hbm S16 .f32 :=
  ((oW).slice (Rect.unit (s := S32x16) off S1x16.size h) (fun _ => rfl)).squeeze S16 squeezes_S1x16_S16

/-- a row written whole: on the row's elements the new contents are the payload at the column, and the row number is w -/
theorem out_write (O : FVec F S32x16 .f32) (p : FVec F S16 .f32) (off : Fin 2 → Nat) (h) (w : Nat) (hw : w < 32)
    (e : off = ![w, 0]) :
    ∀ i ∈ (outM off h).view.set,
      (outM off h).view.write (Elt F) O p Finset.univ i = p (ValueIdx.ix1 ⟨(i 1).val, (i 1).isLt⟩) ∧ (i 0).val = w := by
  subst e
  intro i hi
  obtain ⟨x, -, rfl⟩ := Finset.mem_map.mp hi
  obtain ⟨h0, h1⟩ := unit_row_emb (R := 32) (K := 16) (n := 16) ![w, 0] h squeezes_S1x16_S16.numel_eq x
  refine ⟨?_, h0⟩
  refine (View.write_emb_of_mem _ _ (Finset.mem_univ x)).trans ((cast_eq _ _).trans ?_)
  congr 1
  funext a
  apply Fin.ext
  match a with
  | ⟨0, _⟩ => exact (h1.trans (Nat.zero_add _)).symm

end Cert.Proof.KB

end
-- ==== Proof.KBTile.lean ====
/-
  One vector subcore's task of the kernel, run once at a symbolic subcore, with what it writes named.

  The task copies the labels and, for each of its two table rows, the centre row and the row's four feature chunks
  into its own memory (each copy on a semaphore of its own, issued one at a time and waited for before the memory it
  fills is read), runs eight counted loops of thirty-two trips over the chunks, adds the four running vectors, scales
  the sum, stores it to a sixteen-entry scratch and copies that to the subcore's row of the table of partial sums.
  What each copy lands is the specification's row or chunk; each loop is taken by its invariant (KBGrp) with the trip
  lemmas (KBTrips); so the running vectors at the end are the specification's, and the subcore's row of the table
  holds the specification's table on that row.
-/
import proofs.«204200_g67499706024535_cont_9to1c4b_715_37_alg».proof.Proof.KBTrips
import proofs.«204200_g67499706024535_cont_9to1c4b_715_37_alg».proof.Proof.KBLands
import Mathlib.Tactic.Rename
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S64x16384 EltTy.f32)
local notation "lW" => (Memref.whole Cert.Kernel.main_arg1_scv : Memref Cert.Kernel.sig Kind.scVector Space.hbm Cert.Kernel.S16384 EltTy.i32)
local notation "cW" => (Memref.whole Cert.Kernel.main_v1_scv : Memref Cert.Kernel.sig Kind.scVector Space.hbm Cert.Kernel.S64x100000 EltTy.f32)
local notation "oW" => (Memref.whole Cert.Kernel.main_v2_scv : Memref Cert.Kernel.sig Kind.scVector Space.hbm Cert.Kernel.S32x16 EltTy.f32)
local notation "rowS" => (Memref.whole Cert.Kernel.cc0_scratch0 : Memref Cert.Kernel.sig Kind.scVector Space.vmem Cert.Kernel.S100000 EltTy.f32)
local notation "labS" => (Memref.whole Cert.Kernel.cc0_scratch1 : Memref Cert.Kernel.sig Kind.scVector Space.vmem Cert.Kernel.S16384 EltTy.i32)
local notation "fb0" => (Memref.whole Cert.Kernel.cc0_scratch2 : Memref Cert.Kernel.sig Kind.scVector Space.vmem Cert.Kernel.S4096 EltTy.f32)
local notation "fb1" => (Memref.whole Cert.Kernel.cc0_scratch3 : Memref Cert.Kernel.sig Kind.scVector Space.vmem Cert.Kernel.S4096 EltTy.f32)
local notation "accS" => (Memref.whole Cert.Kernel.cc0_scratch4 : Memref Cert.Kernel.sig Kind.scVector Space.vmem Cert.Kernel.S16 EltTy.f32)

variable (m : (ℓ : Loc nD τ sig) → Buf (Elt F) ℓ)
variable [FloatOps F]

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The five transfer-completion cells of the subcore: the centre row's, the two feature chunks', the label copy's and
    the result copy's. -/
abbrev cRow : GSem nD τ sig := (thr d L, .dma cc0_scratch5.sem)
abbrev cF0 : GSem nD τ sig := (thr d L, .dma cc0_scratch6.sem)
abbrev cF1 : GSem nD τ sig := (thr d L, .dma cc0_scratch7.sem)
abbrev cLab : GSem nD τ sig := (thr d L, .dma cc0_scoped0.sem)
abbrev cOut : GSem nD τ sig := (thr d L, .dma cc0_scoped1.sem)

omit [FloatOps F] in
theorem ownSems0_V :
    (ownSems0 (thr d L) : sProp 𝕄)
      = iprop(semVal (cRow d L) 0 ∗ semVal (cF0 d L) 0 ∗ semVal (cF1 d L) 0 ∗ semVal (cLab d L) 0 ∗ semVal (cOut d L) 0
          ∗ bigSep ((((((ownCells (thr d L)).erase (cRow d L)).erase (cF0 d L)).erase (cF1 d L)).erase (cLab d L)).erase (cOut d L))
              fun g => semVal g 0) := by
  unfold SparseCore.Cfg.ownSems0
  have hm : ∀ sm : DmaSem sig, (SemLoc.dma sm : SemLoc sig).isScoped .scVector = true → ((thr d L, SemLoc.dma sm) : GSem nD τ sig) ∈ ownCells (thr d L) :=
    fun sm h => (mem_ownCells (g := (thr d L, SemLoc.dma sm))).mpr ⟨rfl, h⟩
  have hne : ∀ a b : DmaSem sig, a ≠ b → ((thr d L, SemLoc.dma a) : GSem nD τ sig) ≠ (thr d L, SemLoc.dma b) :=
    fun a b h e => h (SemLoc.dma.inj (Prod.mk.inj e).2)
  rw [SparseCore.bigSep_erase' (hm cc0_scratch5.sem (by decide)),
    SparseCore.bigSep_erase' (Finset.mem_erase.mpr ⟨hne _ _ (by decide), hm cc0_scratch6.sem (by decide)⟩),
    SparseCore.bigSep_erase' (Finset.mem_erase.mpr ⟨hne _ _ (by decide), Finset.mem_erase.mpr ⟨hne _ _ (by decide), hm cc0_scratch7.sem (by decide)⟩⟩),
    SparseCore.bigSep_erase' (Finset.mem_erase.mpr ⟨hne _ _ (by decide), Finset.mem_erase.mpr ⟨hne _ _ (by decide),
      Finset.mem_erase.mpr ⟨hne _ _ (by decide), hm cc0_scoped0.sem (by decide)⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scoped1.sem (by decide)⟩⟩⟩⟩)]

abbrev pS (b : Ref sig .scVector) : DevRef τ sig := (Proc.scVector (cV L) (jV L)).devRef b

omit [FloatOps F] in
/-- The five scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (pS L cc0_scratch0)).erase (pS L cc0_scratch1)).erase (pS L cc0_scratch2)).erase
              (pS L cc0_scratch3)).erase (pS L cc0_scratch4))
              fun b => iprop(∃ f, ((d, b) : Loc nD τ sig) ↦{fullShare} f)) := by
  unfold SparseCore.Cfg.ownBufs
  have hm : ∀ b : Ref sig .scVector, (pS L b).owner = .proc (Proc.scVector (cV L) (jV L)) → pS L b ∈ ownRefs (τ := τ) (.scVector (cV L) (jV L)) :=
    fun b h => SparseCore.Cfg.mem_ownRefs_of_owner (p := Proc.scVector (cV L) (jV L)) (b := pS L b) h
  have hne : ∀ a b : Ref sig .scVector, a ≠ b → pS L a ≠ pS L b := fun a b h e => h (Proc.devRef_injective _ e)
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide),
      Finset.mem_erase.mpr ⟨hne _ _ (by decide), hm cc0_scratch3 rfl⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scratch4 rfl⟩⟩⟩⟩)]

/-! The arrays as the subcore's memrefs address them. -/

omit [FloatOps F] in
theorem pts_x (q : PosShare TreeShare) (f : Buf (Elt F) (xLoc d)) : ((xW).view.loc (thr d L) ↦{q} f : sProp 𝕄) = xLoc d ↦{q} f := by
  simp only [Memref.view_whole, View.set_whole]
omit [FloatOps F] in
theorem pts_l (q : PosShare TreeShare) (f : Buf (Elt F) (lLoc d)) : ((lW).view.loc (thr d L) ↦{q} f : sProp 𝕄) = lLoc d ↦{q} f := by
  simp only [Memref.view_whole, View.set_whole]
omit [FloatOps F] in
theorem pts_c (q : PosShare TreeShare) (f : Buf (Elt F) (cLoc d)) : ((cW).view.loc (thr d L) ↦{q} f : sProp 𝕄) = cLoc d ↦{q} f := by
  simp only [Memref.view_whole, View.set_whole]
omit [FloatOps F] in
theorem pts_s4 (f : Buf (Elt F) ((thr d L).loc cc0_scratch4)) : ((accS).view.loc (thr d L) ↦{fullShare} f : sProp 𝕄) = ((thr d L).loc cc0_scratch4 ↦{fullShare} f) := rfl

/-- The subcore's row of the table of partial sums, as the program slices it. -/
abbrev oRowK (L : grid0.Coords) : Memref sig .scVector .hbm S16 .f32 :=
  ((oW).slice (Rect.unit (s := S32x16) (k0_off135 L) S1x16.size (k0_off135_inb L)) (fun _ => rfl)).squeeze S16 squeezes_S1x16_S16

omit [FloatOps F] in
theorem orowK_eq : Rect.unit (s := S32x16) (k0_off135 L) S1x16.size (k0_off135_inb L) = orow (wid (cL L) (jL L)) := by
  unfold orow Rect.part Rect.block
  congr 1 <;> funext a
  · rw [k0_off135_eq]
    match a with
    | 0 => simp [Shape.partIx, Shape.partSize, wid]
    | 1 => simp [Shape.partIx, Shape.partSize]
  · match a with
    | 0 => simp [Shape.partSize]
    | 1 => simp [Shape.partSize]

omit [FloatOps F] in
theorem set_oRowK : (oRowK L).view.set = oSet (wid (cL L) (jL L)) := by
  show (((oW).view.slice (Rect.unit (s := S32x16) (k0_off135 L) S1x16.size (k0_off135_inb L))).reshape S16 squeezes_S1x16_S16.numel_eq).set
    = ((oW).view.slice (orow (wid (cL L) (jL L)))).set
  rw [View.set_reshape]
  exact orowK_eq L ▸ rfl

omit [FloatOps F] in
theorem pts_o (f : Buf (Elt F) (oLoc d)) :
    ((oRowK L).view.loc (thr d L) ↦[(oRowK L).view.set]{fullShare} f : sProp 𝕄) = oLoc d ↦[oSet (wid (cL L) (jL L))]{fullShare} f := by
  rw [set_oRowK]

omit [FloatOps F] in
/-- A held array's contents, named. -/
theorem pts_name {ℓ : Loc nD τ sig} {S : Finset (Idx ℓ)} {q : PosShare TreeShare} (Tm : Buf (Elt F) ℓ) :
    (ℓ ↦[S]{q} Tm : sProp 𝕄) ⊢ iprop(∃ f, ⌜f = Tm⌝ ∗ ℓ ↦[S]{q} f) := by
  iintro H
  iexists Tm
  isplitr
  · ipureintro; rfl
  · iexact H

set_option hygiene false in
/-- Name what a held scratch holds: a variable for the contents and the equation saying what they are. -/
macro "name_held " h:ident v:ident e:ident : tactic => `(tactic| (
  ihave Hn := (pts_name (F := F) _) $$ $h:ident
  icases Hn with ⟨%nv, %ne, Hnew⟩
  rename' nv => $v, ne => $e
  irename Hnew => $h))

set_option hygiene false in
/-- One inner loop by its invariant: in go the three scratches (centre row, labels, the chunk scratch named); the region
    is the loop's trip lemma; out come the running vectors after the loop, with the equation saying what they are,
    and the three scratches again. -/
macro "inner_loop " I:term:max T:term:max inv:ident hf:ident pf:ident A:ident hA:ident : tactic => `(tactic| (
  sl_for $I $$ [Hs0' Hs1' $hf:ident]
  case region => exact $T
  · unfold $inv
    isplitr
    · ipureintro; rfl
    isplitl [Hs0']
    · iapply (Entails.of_eq (pts_s0 (F := F) d L _)); iexact Hs0'
    isplitl [Hs1']
    · iapply (Entails.of_eq (pts_s1 (F := F) d L _)); iexact Hs1'
    iapply (Entails.of_eq ($pf (F := F) d L _)); iexact $hf
  iintro %nA HI
  rename' nA => $A
  unfold $inv
  icases HI with ⟨%nhA, Hs0, Hs1, HsF⟩
  rename' nhA => $hA
  ihave Hs0' := (Entails.of_eq (pts_s0 (F := F) d L _).symm) $$ Hs0
  ihave Hs1' := (Entails.of_eq (pts_s1 (F := F) d L _).symm) $$ Hs1
  ihave HsF' := (Entails.of_eq ($pf (F := F) d L _).symm) $$ HsF
  irename HsF' => $hf))

/-! ## What the copies land, as the specification's rows and chunks -/

omit [FloatOps F] in
/-- The centre-row scratch after a row copy: the specification's row. -/
theorem row_land (f0 : FVec F S100000 .f32) (C : FVec F S64x100000 .f32) (off : Fin 2 → Nat)
    (h : ∀ a, off a + S1x100000.size a ≤ S64x100000.size a) (f : Nat) (hf : f < 64) (e : off = ![f, 0]) :
    View.write (Elt F) (rowS).view f0 (ReadAs.same.apply ((rowM off h).view.read (Elt F) C)) Finset.univ = rowOf C f := by
  rw [ReadAs.apply_same, row_read C off h f hf e]
  simp only [Memref.view_whole, View.write_whole_univ]

omit [FloatOps F] in
/-- An offsets pair given coordinate by coordinate. -/
theorem off_pair (off : Fin 2 → Nat) (a b : Nat) (e0 : off 0 = a) (e1 : off 1 = b) : off = ![a, b] := by
  funext i
  match i with
  | ⟨0, _⟩ => exact e0
  | ⟨1, _⟩ => exact e1

omit [FloatOps F] in
/-- The first chunk scratch after a chunk copy: the specification's chunk. -/
theorem chunk_land0 (f2 : FVec F S4096 .f32) (X : FVec F S64x16384 .f32) (off : Fin 2 → Nat)
    (h : ∀ a, off a + S1x4096.size a ≤ S64x16384.size a) (f c : Nat) (hf : f < 64) (hc : c < 4) (e0 : off 0 = f) (e1 : off 1 = 4096 * c) :
    View.write (Elt F) (fb0).view f2 (ReadAs.same.apply ((chM off h).view.read (Elt F) X)) Finset.univ = chunkOf X f c := by
  rw [ReadAs.apply_same, chunk_read X off h f c hf hc (off_pair off _ _ e0 e1)]
  simp only [Memref.view_whole, View.write_whole_univ]

omit [FloatOps F] in
/-- The second chunk scratch after a chunk copy. -/
theorem chunk_land1 (f3 : FVec F S4096 .f32) (X : FVec F S64x16384 .f32) (off : Fin 2 → Nat)
    (h : ∀ a, off a + S1x4096.size a ≤ S64x16384.size a) (f c : Nat) (hf : f < 64) (hc : c < 4) (e0 : off 0 = f) (e1 : off 1 = 4096 * c) :
    View.write (Elt F) (fb1).view f3 (ReadAs.same.apply ((chM off h).view.read (Elt F) X)) Finset.univ = chunkOf X f c := by
  rw [ReadAs.apply_same, chunk_read X off h f c hf hc (off_pair off _ _ e0 e1)]
  simp only [Memref.view_whole, View.write_whole_univ]

omit [FloatOps F] in
/-- The label scratch after the label copy: the labels. -/
theorem lab_land (f1 lab : IVec S16384 32) :
    View.write (Elt F) (labS).view f1 (ReadAs.same.apply ((lW).view.read (Elt F) lab)) Finset.univ = lab := by
  rw [ReadAs.apply_same]
  simp only [Memref.view_whole, View.write_whole_univ, View.read_whole]

omit [FloatOps F] in
/-- The result scratch, stored whole and read back: the stored vector. -/
theorem acc_read (f4 p : FVec F S16 .f32) :
    ReadAs.same.apply ((accS).view.read (Elt F) ((accS).view.writes (Elt F) f4 [⟨Rect.unit (s := S16) ![0] S16.size inb_S16_S16_0, p⟩])) = p := by
  rw [ReadAs.apply_same]
  funext x
  have ex : (Rect.unit (s := S16) ![0] S16.size inb_S16_S16_0).emb x = x := by
    funext a
    match a with
    | ⟨0, _⟩ => exact Fin.ext (by show 0 + 1 * _ = _; omega)
  have hr := View.read_writes_cons_emb (Val := Elt F) (accS).view f4 (Rect.unit (s := S16) ![0] S16.size inb_S16_S16_0) p [] x
  rw [ex] at hr
  exact hr

omit [FloatOps F] in
/-- The printed offset chains of the row and chunk copies, coordinate by coordinate. -/
theorem off2_at (L : grid0.Coords) (r : Fin 2) :
    k0_off2 L (BitVec.ofNat 32 r.val) 0 = 4 * (L 1).val + 2 * (L 0).val + r.val ∧ k0_off2 L (BitVec.ofNat 32 r.val) 1 = 4096 * 0 := by
  rw [k0_off2_eq L r]; exact ⟨rfl, rfl⟩
omit [FloatOps F] in
theorem off3_at (L : grid0.Coords) (r : Fin 2) :
    k0_off3 L (BitVec.ofNat 32 r.val) 0 = 4 * (L 1).val + 2 * (L 0).val + r.val ∧ k0_off3 L (BitVec.ofNat 32 r.val) 1 = 4096 * 1 := by
  rw [k0_off3_eq L r]; exact ⟨rfl, rfl⟩
omit [FloatOps F] in
theorem off20_at (L : grid0.Coords) (r : Fin 2) :
    k0_off20 L (BitVec.ofNat 32 r.val) 0 = 4 * (L 1).val + 2 * (L 0).val + r.val ∧ k0_off20 L (BitVec.ofNat 32 r.val) 1 = 4096 * 2 := by
  rw [k0_off20_eq L r]; exact ⟨rfl, rfl⟩
omit [FloatOps F] in
theorem off37_at (L : grid0.Coords) (r : Fin 2) :
    k0_off37 L (BitVec.ofNat 32 r.val) 0 = 4 * (L 1).val + 2 * (L 0).val + r.val ∧ k0_off37 L (BitVec.ofNat 32 r.val) 1 = 4096 * 3 := by
  rw [k0_off37_eq L r]; exact ⟨rfl, rfl⟩

/-- The worker's row of the table of partial sums after the result copy: on that row, the table. The copy writes the
    row whole with the result scratch's contents, which are the scaled sum of the four running vectors, and those
    are the worker's running vectors of the specification. -/
theorem row_final (O : FVec F S32x16 .f32) (X : FVec F S64x16384 .f32) (lb : IVec S16384 32) (C : FVec F S64x100000 .f32)
    (f4 : FVec F S16 .f32) (A : A4 F) (w : Nat) (hw : w < 32) (e : k0_off135 L = ![w, 0]) (hA : A = tileAcc X lb C w) :
    ∀ i ∈ (oRowK L).view.set,
      (oRowK L).view.writes (Elt F) O [⟨Rect.whole S16, ReadAs.same.apply ((accS).view.read (Elt F)
        ((accS).view.writes (Elt F) f4 [⟨Rect.unit (s := S16) ![0] S16.size inb_S16_S16_0, k0_pay9 A.1 A.2.1 A.2.2.1 A.2.2.2⟩]))⟩] i
        = table X lb C i := by
  intro i hi
  have hp : ReadAs.same.apply ((accS).view.read (Elt F)
      ((accS).view.writes (Elt F) f4 [⟨Rect.unit (s := S16) ![0] S16.size inb_S16_S16_0, k0_pay9 A.1 A.2.1 A.2.2.1 A.2.2.2⟩]))
      = tileOut X lb C w := by
    rw [acc_read f4 _, hA]; rfl
  rw [hp]
  obtain ⟨y, rfl⟩ := View.exists_emb_of_mem_set (oRowK L).view hi
  have hw1 := out_write O (tileOut X lb C w) (k0_off135 L) (k0_off135_inb L) w hw e ((oRowK L).view.emb y) hi
  have ee : ((oRowK L).view.slice (Rect.whole S16)).emb y = (oRowK L).view.emb y :=
    congrArg (oRowK L).view.emb (Rect.emb_whole_apply S16 y)
  have l := View.write_emb_of_mem (Val := Elt F) (v := (oRowK L).view.slice (Rect.whole S16)) O (tileOut X lb C w) (M := Finset.univ) (x := y) (Finset.mem_univ _)
  have r := View.write_emb_of_mem (Val := Elt F) (v := (oRowK L).view) O (tileOut X lb C w) (M := Finset.univ) (x := y) (Finset.mem_univ _)
  rw [ee] at l
  have e1 : (oRowK L).view.writes (Elt F) O [⟨Rect.whole S16, tileOut X lb C w⟩] ((oRowK L).view.emb y)
      = (oRowK L).view.write (Elt F) O (tileOut X lb C w) Finset.univ ((oRowK L).view.emb y) := l.trans r.symm
  rw [e1, hw1.1]
  show _ = tileOut X lb C (((oRowK L).view.emb y) 0).val _
  rw [hw1.2]

set_option maxHeartbeats 4000000 in
/-- The task of the vector subcore at grid coordinates L of device d: from its read shares of the three tables and its
    row of the table of partial sums to the same with the row at the specification's table. -/
theorem tile_body (hF : (K (F := F)).Facts) (hlab : ∀ j, (m (lLoc d) j).toNat < 100000) (O : CellTallies nD τ sig (HIx 1)) (W : Waits sig (HIx 1)) (hO : ∀ g, O g none = 0) :
    iprop(levAts (K (F := F)).L (K (F := F)).lev ∗ emp ∗ tileIn m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0_k L xW (Memref.isWhole_whole _) lW (Memref.isWhole_whole _) cW (Memref.isWhole_whole _) oW (Memref.isWhole_whole _)
            rowS (Memref.isWhole_whole _) labS (Memref.isWhole_whole _) fb0 (Memref.isWhole_whole _) fb1 (Memref.isWhole_whole _) accS (Memref.isWhole_whole _)
            cc0_scratch5 cc0_scratch6 cc0_scratch7 cc0_scoped0 cc0_scoped1)
          fun _ => iprop(tileIn m d (cL L) (jL L) (G m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hl, Hc, Ho⟩, ⟨⟨%f0, Hs0⟩, ⟨%f1, Hs1⟩, ⟨%f2, Hs2⟩, ⟨%f3, Hs3⟩, ⟨%f4, Hs4⟩, Hbufs⟩, ⟨HsemR, HsemF0, HsemF1, HsemL, HsemO, Hsems⟩, HO⟩
  ihave Hmw := ((K (F := F)).mayWaits_none (thr := thr d L) hO) $$ Hlv
  ihave Hx' := (Entails.of_eq (pts_x (F := F) d L _ _).symm) $$ Hx
  ihave Hl' := (Entails.of_eq (pts_l (F := F) d L _ _).symm) $$ Hl
  ihave Hc' := (Entails.of_eq (pts_c (F := F) d L _ _).symm) $$ Hc
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  -- the first row: the centre row, the labels and chunk 0 land; chunk 1 is on its way
  sl_exec
  name_held Hs0' row0 hrow0
  name_held Hs1' lab hlabq
  name_held Hs2' ch1 hch1
  have hlabv : ∀ i, (lab i).toNat < 100000 := by
    intro i
    rw [hlabq]
    simp only [Memref.view_whole, View.write_whole_univ]
    exact hlab _
  inner_loop (inv0 d L row0 lab ch1 0 (k0_pay42 (F := F), k0_pay42 (F := F), k0_pay42 (F := F), k0_pay42 (F := F)))
    (fun k acc => trip1 d L row0 lab ch1 hlabv _ k acc) inv0 Hs2' pts_s2 A1 hA1
  sl_exec
  name_held Hs3' ch2 hch2
  inner_loop (inv1 d L row0 lab ch2 1 A1) (fun k acc => trip2 d L row0 lab ch2 hlabv _ _ _ _ _ _ k acc) inv1 Hs3' pts_s3 A2 hA2
  sl_exec
  name_held Hs2' ch3 hch3
  inner_loop (inv0 d L row0 lab ch3 2 A2) (fun k acc => trip3 d L row0 lab ch3 hlabv _ _ _ _ _ _ k acc) inv0 Hs2' pts_s2 A3 hA3
  sl_exec
  name_held Hs3' ch4 hch4
  inner_loop (inv1 d L row0 lab ch4 3 A3) (fun k acc => trip4 d L row0 lab ch4 hlabv _ _ _ _ _ _ k acc) inv1 Hs3' pts_s3 A4 hA4
  -- the second row
  sl_exec
  name_held Hs0' row1 hrow1
  name_held Hs2' ch5 hch5
  inner_loop (inv0 d L row1 lab ch5 0 A4) (fun k acc => trip5 d L row1 lab ch5 hlabv _ _ _ _ _ _ k acc) inv0 Hs2' pts_s2 A5 hA5
  sl_exec
  name_held Hs3' ch6 hch6
  inner_loop (inv1 d L row1 lab ch6 1 A5) (fun k acc => trip6 d L row1 lab ch6 hlabv _ _ _ _ _ _ k acc) inv1 Hs3' pts_s3 A6 hA6
  sl_exec
  name_held Hs2' ch7 hch7
  inner_loop (inv0 d L row1 lab ch7 2 A6) (fun k acc => trip7 d L row1 lab ch7 hlabv _ k acc) inv0 Hs2' pts_s2 A7 hA7
  sl_exec
  name_held Hs3' ch8 hch8
  inner_loop (inv1 d L row1 lab ch8 3 A7) (fun k acc => trip8 d L row1 lab ch8 hlabv _ k acc) inv1 Hs3' pts_s3 A8 hA8
  -- the results: stored to the result scratch, copied out to the worker's row
  sl_exec
  sl_step
  -- what the scratches held, and so what the running vectors are
  have h0 : (L 0).val < 2 := (L 0).isLt
  have h1 : (L 1).val < 16 := (L 1).isLt
  have hfa : 4 * (L 1).val + 2 * (L 0).val < 64 := by omega
  have hfb : 4 * (L 1).val + 2 * (L 0).val + 1 < 64 := by omega
  have e_lab : lab = m (lLoc d) := hlabq.trans (lab_land f1 (m (lLoc d)))
  have e_r0 : row0 = rowOf (CTr m d) (4 * (L 1).val + 2 * (L 0).val) :=
    hrow0.trans (row_land f0 (CTr m d) _ _ _ hfa (k0_off1_eq L))
  have e_r1 : row1 = rowOf (CTr m d) (4 * (L 1).val + 2 * (L 0).val + 1) :=
    hrow1.trans (row_land row0 (CTr m d) _ _ _ hfb (k0_off70_eq L))
  have e_c1 : ch1 = chunkOf (XT m d) (4 * (L 1).val + 2 * (L 0).val) 0 :=
    hch1.trans (chunk_land0 f2 (XT m d) _ _ _ 0 hfa (by decide) (off2_at L 0).1 (off2_at L 0).2)
  have e_c2 : ch2 = chunkOf (XT m d) (4 * (L 1).val + 2 * (L 0).val) 1 :=
    hch2.trans (chunk_land1 f3 (XT m d) _ _ _ 1 hfa (by decide) (off3_at L 0).1 (off3_at L 0).2)
  have e_c3 : ch3 = chunkOf (XT m d) (4 * (L 1).val + 2 * (L 0).val) 2 :=
    hch3.trans (chunk_land0 ch1 (XT m d) _ _ _ 2 hfa (by decide) (off20_at L 0).1 (off20_at L 0).2)
  have e_c4 : ch4 = chunkOf (XT m d) (4 * (L 1).val + 2 * (L 0).val) 3 :=
    hch4.trans (chunk_land1 ch2 (XT m d) _ _ _ 3 hfa (by decide) (off37_at L 0).1 (off37_at L 0).2)
  have e_c5 : ch5 = chunkOf (XT m d) (4 * (L 1).val + 2 * (L 0).val + 1) 0 :=
    hch5.trans (chunk_land0 ch3 (XT m d) _ _ _ 0 hfb (by decide) (off2_at L 1).1 (off2_at L 1).2)
  have e_c6 : ch6 = chunkOf (XT m d) (4 * (L 1).val + 2 * (L 0).val + 1) 1 :=
    hch6.trans (chunk_land1 ch4 (XT m d) _ _ _ 1 hfb (by decide) (off3_at L 1).1 (off3_at L 1).2)
  have e_c7 : ch7 = chunkOf (XT m d) (4 * (L 1).val + 2 * (L 0).val + 1) 2 :=
    hch7.trans (chunk_land0 ch5 (XT m d) _ _ _ 2 hfb (by decide) (off20_at L 1).1 (off20_at L 1).2)
  have e_c8 : ch8 = chunkOf (XT m d) (4 * (L 1).val + 2 * (L 0).val + 1) 3 :=
    hch8.trans (chunk_land1 ch6 (XT m d) _ _ _ 3 hfb (by decide) (off37_at L 1).1 (off37_at L 1).2)
  have t1 : Scf.trips k0_t1_loop.lb k0_t1_loop.ub k0_t1_loop.st = 32 := by decide +kernel
  have t2 : Scf.trips k0_t2_loop.lb k0_t2_loop.ub k0_t2_loop.st = 32 := by decide +kernel
  have t3 : Scf.trips k0_t3_loop.lb k0_t3_loop.ub k0_t3_loop.st = 32 := by decide +kernel
  have t4 : Scf.trips k0_t4_loop.lb k0_t4_loop.ub k0_t4_loop.st = 32 := by decide +kernel
  have t5 : Scf.trips k0_t5_loop.lb k0_t5_loop.ub k0_t5_loop.st = 32 := by decide +kernel
  have t6 : Scf.trips k0_t6_loop.lb k0_t6_loop.ub k0_t6_loop.st = 32 := by decide +kernel
  have t7 : Scf.trips k0_t7_loop.lb k0_t7_loop.ub k0_t7_loop.st = 32 := by decide +kernel
  have t8 : Scf.trips k0_t8_loop.lb k0_t8_loop.ub k0_t8_loop.st = 32 := by decide +kernel
  have e2w : 2 * (2 * (L 1).val + (L 0).val) = 4 * (L 1).val + 2 * (L 0).val := by omega
  have eA : A8 = tileAcc (XT m d) (m (lLoc d)) (CTr m d) (2 * (L 1).val + (L 0).val) := by
    rw [hA8, hA7, hA6, hA5, hA4, hA3, hA2, hA1]
    simp only [t1, t2, t3, t4, t5, t6, t7, t8]
    rw [e_c1, e_c2, e_c3, e_c4, e_c5, e_c6, e_c7, e_c8, e_r0, e_r1, e_lab]
    unfold tileAcc rowAcc
    rw [e2w]
  have hW : ∀ (W' : Waits sig (HIx 1)) (s : SemLoc sig), (∀ p ∈ W', p ∈ W ∨ p.2 = none) →
      ∀ p ∈ insert (s, (default : HIx 1)) W', p ∈ W ∨ p.2 = none := by
    intro W' s h p hp
    rcases Finset.mem_insert.mp hp with hp | hp
    · exact .inr (hp ▸ rfl)
    · exact h p hp
  isplitl [Hx' Hl' Hc' Ho']
  · isplitl [Hx']
    · iapply (Entails.of_eq (pts_x (F := F) d L _ _)); iexact Hx'
    isplitl [Hl']
    · iapply (Entails.of_eq (pts_l (F := F) d L _ _)); iexact Hl'
    isplitl [Hc']
    · iapply (Entails.of_eq (pts_c (F := F) d L _ _)); iexact Hc'
    iapply (Entails.of_eq (pts_o (F := F) d L _))
    iapply (Entails.of_eq (pointsTo_congr (row_final (F := F) L (m (oLoc d)) (XT m d) (m (lLoc d)) (CTr m d) f4 A8
      (2 * (L 1).val + (L 0).val) (by omega) (k0_off135_eq L) eA)))
    iexact Ho'
  isplitl [Hs0' Hs1' Hs2' Hs3' Hs4' Hbufs]
  · isplitl [Hs0']
    · iexists _; iapply (Entails.of_eq (pts_s0 (F := F) d L _)); iexact Hs0'
    isplitl [Hs1']
    · iexists _; iapply (Entails.of_eq (pts_s1 (F := F) d L _)); iexact Hs1'
    isplitl [Hs2']
    · iexists _; iapply (Entails.of_eq (pts_s2 (F := F) d L _)); iexact Hs2'
    isplitl [Hs3']
    · iexists _; iapply (Entails.of_eq (pts_s3 (F := F) d L _)); iexact Hs3'
    isplitl [Hs4']
    · iexists _; iapply (Entails.of_eq (pts_s4 (F := F) d L _)); iexact Hs4'
    iexact Hbufs
  isplitl [HsemR HsemF0 HsemF1 HsemL HsemO Hsems]
  · isplitl [HsemR]; · iexact HsemR
    isplitl [HsemF0]; · iexact HsemF0
    isplitl [HsemF1]; · iexact HsemF1
    isplitl [HsemL]; · iexact HsemL
    isplitl [HsemO]; · iexact HsemO
    iexact Hsems
  iexists _
  isplitr
  swap
  · iexact HO
  · ipureintro
    repeat (first | exact fun p hp => Or.inl hp | refine hW _ _ ?_)

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xW (Memref.isWhole_whole _) lW (Memref.isWhole_whole _)
          cW (Memref.isWhole_whole _) oW (Memref.isWhole_whole _) rowS (Memref.isWhole_whole _) labS (Memref.isWhole_whole _)
          fb0 (Memref.isWhole_whole _) fb1 (Memref.isWhole_whole _) accS (Memref.isWhole_whole _)
          cc0_scratch5 cc0_scratch6 cc0_scratch7 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from its read shares and its row to the same with the row at the table of partial
    sums: the task's run at the subcore's coordinates. The labels name positions of a centre row. -/
theorem tileObl (hlab : ∀ d j, (m (lLoc d) j).toNat < 100000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hlab d) O W hO).trans (wp_mono frame _ _ fun _ => obl_post)

end Cert.Proof.KB

end
-- ==== Proof.lean ====
/-
  The claim: the word-level kernel program and its idealization run to the end without a fault and leave their three
  argument arrays unchanged, and at the ideal instance the idealized kernel and the reference compute the same number.

  The number is the centre loss  L = (sum over samples i and components j of (x_i[j] − c_{lab_i}[j])^2) / 2 / 16384.
  The reference gathers the labelled centres, subtracts, squares, sums over both axes and divides by 2 and by 16384.
  The kernel works on the transposed tables: each of 32 vector subcores owns two of the 64 components, copies that
  component's centre row and, chunk by chunk, that component's features into its own memory, gathers the centre row at
  the labels sixteen at a time, accumulates the squared differences in four running vectors, scales their sum by
  2^-15 = 1 / (2 · 16384) and writes sixteen partial sums to its row of a 32 × 16 table; the host sums the table.
  Under the precondition every input is a finite real and every label names a centre, so all sums are sums of reals,
  the scaling distributes over them, and regrouping the 64 × 16384 squared differences by subcore, chunk, trip, group
  and lane is a bijection of the index set: the two numbers are equal.

  The frames follow from one run of each program stated with its result named; the ideal pass rewrote nothing, so
  the idealization is the kernel's own text read at the ideal instance and there is nothing to preserve.
-/
import proofs.«204200_g67499706024535_cont_9to1c4b_715_37_alg».proof.Defs
import proofs.«204200_g67499706024535_cont_9to1c4b_715_37_alg».proof.Proof.Gen.Kernel
import proofs.«204200_g67499706024535_cont_9to1c4b_715_37_alg».proof.Proof.Gen.Kernel.Skeleton
import proofs.«204200_g67499706024535_cont_9to1c4b_715_37_alg».proof.Proof.Gen.KernelIdeal
import proofs.«204200_g67499706024535_cont_9to1c4b_715_37_alg».proof.Proof.Gen.KernelIdeal.Skeleton
import proofs.«204200_g67499706024535_cont_9to1c4b_715_37_alg».proof.Proof.Gen.ReferenceIdeal
import proofs.«204200_g67499706024535_cont_9to1c4b_715_37_alg».proof.Proof.Gen.Pre_input_domain
import proofs.«204200_g67499706024535_cont_9to1c4b_715_37_alg».proof.Proof.PreDecode
import proofs.«204200_g67499706024535_cont_9to1c4b_715_37_alg».proof.Proof.RefRun
import proofs.«204200_g67499706024535_cont_9to1c4b_715_37_alg».proof.Proof.KIValue
import proofs.«204200_g67499706024535_cont_9to1c4b_715_37_alg».proof.Proof.KILaunch
import proofs.«204200_g67499706024535_cont_9to1c4b_715_37_alg».proof.Proof.KITile
import proofs.«204200_g67499706024535_cont_9to1c4b_715_37_alg».proof.Proof.KBLaunch
import proofs.«204200_g67499706024535_cont_9to1c4b_715_37_alg».proof.Proof.KBTile
import Idealize.ShloMosaic.Adequacy
import Idealize.ShloMosaic.Init

noncomputable section

namespace Cert.Proof

open Idealize.ShloMosaic Idealize.SL.Sem

/-- The word-level kernel runs and keeps its arguments: its run with the result dropped. -/
theorem frame_kernel : Cert.frame_Kernel := fun m ρ hpre =>
  (θ_run (Cert.Kernel.defs (F := Bits)) _ _).mono (fun _ h c => (h c).2)
    (Cert.Proof.KB.run_main (F := Bits) m ρ
      (Cert.Proof.KB.tileObl m fun d => Cert.Proof.PreDecode.labels_inb _ _ _ (hpre d)))

/-- The idealized kernel runs and keeps its arguments. -/
theorem frame_kernelIdeal : Cert.frame_KernelIdeal := fun m ρ hpre =>
  (θ_run (Cert.KernelIdeal.defs (F := Ideal)) _ _).mono (fun _ h c => (h c).2)
    (Cert.Proof.KI.run_main (F := Ideal) m ρ
      (Cert.Proof.KI.tileObl m fun d => Cert.Proof.PreDecode.labels_inb _ _ _ (hpre d)))

/-- The reference runs and keeps its arguments. -/
theorem frame_reference : Cert.frame_ReferenceIdeal := fun m ρ hpre =>
  (θ_run (Cert.ReferenceIdeal.defs (F := Ideal)) _ _).mono (fun _ h c => (h c).2)
    (Cert.Proof.RefRun.run m ρ fun c => Cert.Proof.PreDecode.decode _ _ _ (hpre c))

/-- At the ideal instance both programs end at the centre loss of the decoded inputs. -/
theorem algebraic : Cert.algebraic_KernelIdeal_ReferenceIdeal := by
  intro m ρ m' ρ' hpre hagree
  have key : ∀ c : Dev Cert.KernelIdeal.nD, ∃ D' : Cert.Proof.Spec.Decoded
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)),
      D'.loss = (Cert.Proof.PreDecode.decode _ _ _ (hpre c)).loss := by
    intro c
    rw [(hagree c).1, (hagree c).2.1, (hagree c).2.2]
    exact ⟨_, rfl⟩
  choose D' hD' using key
  refine ⟨fun c _ => (Cert.Proof.PreDecode.decode _ _ _ (hpre c)).loss, ?_, ?_⟩
  · refine (θ_run (Cert.KernelIdeal.defs (F := Ideal)) _ _).mono (fun r h c => ⟨(h c).1.trans ?_, (h c).2⟩)
      (Cert.Proof.KI.run_main (F := Ideal) m ρ
        (Cert.Proof.KI.tileObl m fun d => Cert.Proof.PreDecode.labels_inb _ _ _ (hpre d)))
    exact Cert.Proof.KI.total _ _ _ (Cert.Proof.PreDecode.decode _ _ _ (hpre c))
  · refine (θ_run (Cert.ReferenceIdeal.defs (F := Ideal)) _ _).mono (fun r h c => ⟨(h c).1.trans ?_, (h c).2⟩)
      (Cert.Proof.RefRun.run m' ρ' D')
    rw [hD' c]
    rfl

theorem claim : Cert.Claim := ⟨Cert.Kernel.Gen.facts, Cert.KernelIdeal.Gen.facts, Cert.ReferenceIdeal.Gen.facts, Cert.Pre_input_domain.Gen.facts,
  frame_kernel, frame_kernelIdeal, frame_reference, trivial, algebraic⟩

end Cert.Proof

end
